-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x256x7x7 : Shape := ⟨4, ![2000, 256, 7, 7]⟩
abbrev S2000x4 : Shape := ⟨2, ![2000, 4]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S_ : Shape := ⟨0, ![]⟩

class Facts : Prop where
  bcast_S_S2000x256x7x7 : S_.BroadcastsInDim S2000x256x7x7 (![] : Fin 0 → Fin S2000x256x7x7.rank)
  reducesTo_S2000x256x7x7_S_d0_1_2_3 : S2000x256x7x7.ReducesTo [0, 1, 2, 3] S_
  h_S_ : 0 < S_.numel
  bcast_S_S2000x4 : S_.BroadcastsInDim S2000x4 (![] : Fin 0 → Fin S2000x4.rank)
  reducesTo_S2000x4_S_d0_1 : S2000x4.ReducesTo [0, 1] S_
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x81 : S_.BroadcastsInDim S1024x81 (![] : Fin 0 → Fin S1024x81.rank)
  reducesTo_S1024x81_S_d0_1 : S1024x81.ReducesTo [0, 1] S_
  bcast_S_S81 : S_.BroadcastsInDim S81 (![] : Fin 0 → Fin S81.rank)
  reducesTo_S81_S_d0 : S81.ReducesTo [0] S_
  bcast_S_S1024x324 : S_.BroadcastsInDim S1024x324 (![] : Fin 0 → Fin S1024x324.rank)
  reducesTo_S1024x324_S_d0_1 : S1024x324.ReducesTo [0, 1] S_
  bcast_S_S324 : S_.BroadcastsInDim S324 (![] : Fin 0 → Fin S324.rank)
  reducesTo_S324_S_d0 : S324.ReducesTo [0] S_

variable [Facts]

def fn_part2 {F : FTy → Type} [FloatOps F] (main_arg7 : FVec F S81 .f32) (main_arg8 : FVec F S1024x324 .f32) (main_arg9 : FVec F S324 .f32) (main_v33 : IVec S_ 1) : IVec S_ 1 :=
  let main_v34 : FVec F S81 .f32 := Host.absf main_arg7
  let main_cst_12 : FVec F S_ .f32 := constant S_ .f32 0x7F800000#32
  let main_v35 : FVec F S81 .f32 := broadcastInDim S81 ![] bcast_S_S81 main_cst_12
  let main_v36 : IVec S81 1 := cmpf .olt main_v34 main_v35
  let main_c_13 : IVec S_ 1 := constantI S_ 1 1#1
  let main_v37 : IVec S_ 1 := (fun x v => Host.reduce IntOp.andi x v reducesTo_S81_S_d0 h_S_) main_v36 main_c_13
  let main_v38 : IVec S_ 1 := andi main_v33 main_v37
  let main_v39 : FVec F S1024x324 .f32 := Host.absf main_arg8
  let main_cst_14 : FVec F S_ .f32 := constant S_ .f32 0x7F800000#32
  let main_v40 : FVec F S1024x324 .f32 := broadcastInDim S1024x324 ![] bcast_S_S1024x324 main_cst_14
  let main_v41 : IVec S1024x324 1 := cmpf .olt main_v39 main_v40
  let main_c_15 : IVec S_ 1 := constantI S_ 1 1#1
  let main_v42 : IVec S_ 1 := (fun x v => Host.reduce IntOp.andi x v reducesTo_S1024x324_S_d0_1 h_S_) main_v41 main_c_15
  let main_v43 : IVec S_ 1 := andi main_v38 main_v42
  let main_v44 : FVec F S324 .f32 := Host.absf main_arg9
  let main_cst_16 : FVec F S_ .f32 := constant S_ .f32 0x7F800000#32
  let main_v45 : FVec F S324 .f32 := broadcastInDim S324 ![] bcast_S_S324 main_cst_16
  let main_v46 : IVec S324 1 := cmpf .olt main_v44 main_v45
  let main_c_17 : IVec S_ 1 := constantI S_ 1 1#1
  let main_v47 : IVec S_ 1 := (fun x v => Host.reduce IntOp.andi x v reducesTo_S324_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x81 .f32) (main_arg7 : FVec F S81 .f32) (main_arg8 : FVec F S1024x324 .f32) (main_arg9 : FVec F S324 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x81 .f32 := Host.absf main_arg6
  let main_cst_10 : FVec F S_ .f32 := constant S_ .f32 0x7F800000#32
  let main_v30 : FVec F S1024x81 .f32 := broadcastInDim S1024x81 ![] bcast_S_S1024x81 main_cst_10
  let main_v31 : IVec S1024x81 1 := cmpf .olt main_v29 main_v30
  let main_c_11 : IVec S_ 1 := constantI S_ 1 1#1
  let main_v32 : IVec S_ 1 := (fun x v => Host.reduce IntOp.andi x v reducesTo_S1024x81_S_d0_1 h_S_) main_v31 main_c_11
  let main_v33 : IVec S_ 1 := andi main_v28 main_v32
  fn_part2 (F := F) main_arg7 main_arg8 main_arg9 main_v33

def fn {F : FTy → Type} [FloatOps F] (main_arg0 : FVec F S2000x256x7x7 .f32) (main_arg1 : FVec F S2000x4 .f32) (main_arg2 : FVec F S12544x1024 .f32) (main_arg3 : FVec F S1024 .f32) (main_arg4 : FVec F S1024x1024 .f32) (main_arg5 : FVec F S1024 .f32) (main_arg6 : FVec F S1024x81 .f32) (main_arg7 : FVec F S81 .f32) (main_arg8 : FVec F S1024x324 .f32) (main_arg9 : FVec F S324 .f32) : IVec S_ 1 :=
  let main_v0 : FVec F S2000x256x7x7 .f32 := Host.absf main_arg0
  let main_cst : FVec F S_ .f32 := constant S_ .f32 0x7F800000#32
  let main_v1 : FVec F S2000x256x7x7 .f32 := broadcastInDim S2000x256x7x7 ![] bcast_S_S2000x256x7x7 main_cst
  let main_v2 : IVec S2000x256x7x7 1 := cmpf .olt main_v0 main_v1
  let main_c : IVec S_ 1 := constantI S_ 1 1#1
  let main_v3 : IVec S_ 1 := (fun x v => Host.reduce IntOp.andi x v reducesTo_S2000x256x7x7_S_d0_1_2_3 h_S_) main_v2 main_c
  let main_v4 : FVec F S2000x4 .f32 := Host.absf main_arg1
  let main_cst_0 : FVec F S_ .f32 := constant S_ .f32 0x7F800000#32
  let main_v5 : FVec F S2000x4 .f32 := broadcastInDim S2000x4 ![] bcast_S_S2000x4 main_cst_0
  let main_v6 : IVec S2000x4 1 := cmpf .olt main_v4 main_v5
  let main_c_1 : IVec S_ 1 := constantI S_ 1 1#1
  let main_v7 : IVec S_ 1 := (fun x v => Host.reduce IntOp.andi x v reducesTo_S2000x4_S_d0_1 h_S_) main_v6 main_c_1
  let main_v8 : IVec S_ 1 := andi main_v3 main_v7
  let main_v9 : FVec F S12544x1024 .f32 := Host.absf main_arg2
  let main_cst_2 : FVec F S_ .f32 := constant S_ .f32 0x7F800000#32
  let main_v10 : FVec F S12544x1024 .f32 := broadcastInDim S12544x1024 ![] bcast_S_S12544x1024 main_cst_2
  let main_v11 : IVec S12544x1024 1 := cmpf .olt main_v9 main_v10
  let main_c_3 : IVec S_ 1 := constantI S_ 1 1#1
  let main_v12 : IVec S_ 1 := (fun x v => Host.reduce IntOp.andi x v reducesTo_S12544x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S2000x256x7x7 : Shape := ⟨4, ![2000, 256, 7, 7]⟩
abbrev S2000x4 : Shape := ⟨2, ![2000, 4]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S2000x12544 : Shape := ⟨2, ![2000, 12544]⟩
abbrev S1024x320 : Shape := ⟨2, ![1024, 320]⟩
abbrev S320 : Shape := ⟨1, ![320]⟩
abbrev S2000x1024 : Shape := ⟨2, ![2000, 1024]⟩
abbrev S2000x81 : Shape := ⟨2, ![2000, 81]⟩
abbrev S2000x320 : Shape := ⟨2, ![2000, 320]⟩
abbrev S80x12544 : Shape := ⟨2, ![80, 12544]⟩
abbrev S80x1024 : Shape := ⟨2, ![80, 1024]⟩
abbrev S80x81 : Shape := ⟨2, ![80, 81]⟩
abbrev S80x320 : Shape := ⟨2, ![80, 320]⟩
abbrev S1x1024 : Shape := ⟨2, ![1, 1024]⟩
abbrev S1x81 : Shape := ⟨2, ![1, 81]⟩
abbrev S80 : Shape := ⟨1, ![80]⟩
abbrev S80x1 : Shape := ⟨2, ![80, 1]⟩
abbrev S1x320 : Shape := ⟨2, ![1, 320]⟩
abbrev S2000x80 : Shape := ⟨2, ![2000, 80]⟩
abbrev S2000x80x4 : Shape := ⟨3, ![2000, 80, 4]⟩
abbrev S2000x1 : Shape := ⟨2, ![2000, 1]⟩
abbrev S2000 : Shape := ⟨1, ![2000]⟩
abbrev S_ : Shape := ⟨0, ![]⟩
abbrev S2000x80x1 : Shape := ⟨3, ![2000, 80, 1]⟩
abbrev S2000x1424 : Shape := ⟨2, ![2000, 1424]⟩

abbrev nBuf : Space → Nat
  | .hbm => 139
  | .vmem => 16
  | .smem => 0
  | _ => 0

abbrev hbmTy0_0 (i : Nat) : BufTy := match i % 128 with
  | 0 => ⟨S2000x256x7x7, .f32⟩
  | 1 => ⟨S2000x4, .f32⟩
  | 2 => ⟨S12544x1024, .f32⟩
  | 3 => ⟨S1024, .f32⟩
  | 4 => ⟨S1024x1024, .f32⟩
  | 5 => ⟨S1024, .f32⟩
  | 6 => ⟨S1024x81, .f32⟩
  | 7 => ⟨S81, .f32⟩
  | 8 => ⟨S1024x324, .f32⟩
  | 9 => ⟨S324, .f32⟩
  | 10 => ⟨S2000x12544, .f32⟩
  | 11 => ⟨S2000x12544, .bf16⟩
  | 12 => ⟨S12544x1024, .bf16⟩
  | 13 => ⟨S1024x1024, .bf16⟩
  | 14 => ⟨S1024x81, .bf16⟩
  | 15 => ⟨S1024x320, .f32⟩
  | 16 => ⟨S1024x320, .bf16⟩
  | 17 => ⟨S320, .f32⟩
  | 18 => ⟨S2000x1024, .f32⟩
  | 19 => ⟨S2000x81, .f32⟩
  | 20 => ⟨S2000x320, .f32⟩
  | 21 => ⟨S2000x80, .f32⟩
  | 22 => ⟨S2000x80x4, .f32⟩
  | 23 => ⟨S2000x1, .f32⟩
  | 24 => ⟨S2000, .f32⟩
  | 25 => ⟨S2000x1, .f32⟩
  | 26 => ⟨S2000, .f32⟩
  | 27 => ⟨S2000, .f32⟩
  | 28 => ⟨S_, .f32⟩
  | 29 => ⟨S2000, .f32⟩
  | 30 => ⟨S2000, .f32⟩
  | 31 => ⟨S2000x1, .f32⟩
  | 32 => ⟨S2000, .f32⟩
  | 33 => ⟨S2000x1, .f32⟩
  | 34 => ⟨S2000, .f32⟩
  | 35 => ⟨S2000, .f32⟩
  | 36 => ⟨S_, .f32⟩
  | 37 => ⟨S2000, .f32⟩
  | 38 => ⟨S2000, .f32⟩
  | 39 => ⟨S2000x1, .f32⟩
  | 40 => ⟨S2000, .f32⟩
  | 41 => ⟨S_, .f32⟩
  | 42 => ⟨S2000, .f32⟩
  | 43 => ⟨S2000, .f32⟩
  | 44 => ⟨S2000, .f32⟩
  | 45 => ⟨S2000x1, .f32⟩
  | 46 => ⟨S2000, .f32⟩
  | 47 => ⟨S_, .f32⟩
  | 48 => ⟨S2000, .f32⟩
  | 49 => ⟨S2000, .f32⟩
  | 50 => ⟨S2000, .f32⟩
  | 51 => ⟨S2000x80x1, .f32⟩
  | 52 => ⟨S2000x80, .f32⟩
  | 53 => ⟨S_, .f32⟩
  | 54 => ⟨S2000x80, .f32⟩
  | 55 => ⟨S2000x80, .f32⟩
  | 56 => ⟨S2000x80x1, .f32⟩
  | 57 => ⟨S2000x80, .f32⟩
  | 58 => ⟨S_, .f32⟩
  | 59 => ⟨S2000x80, .f32⟩
  | 60 => ⟨S2000x80, .f32⟩
  | 61 => ⟨S2000x80x1, .f32⟩
  | 62 => ⟨S2000x80, .f32⟩
  | 63 => ⟨S_, .f32⟩
  | 64 => ⟨S2000x80, .f32⟩
  | 65 => ⟨S2000x80, .f32⟩
  | 66 => ⟨S_, .f32⟩
  | 67 => ⟨S2000x80, .f32⟩
  | 68 => ⟨S2000x80, .f32⟩
  | 69 => ⟨S2000x80x1, .f32⟩
  | 70 => ⟨S2000x80, .f32⟩
  | 71 => ⟨S_, .f32⟩
  | 72 => ⟨S2000x80, .f32⟩
  | 73 => ⟨S2000x80, .f32⟩
  | 74 => ⟨S_, .f32⟩
  | 75 => ⟨S2000x80, .f32⟩
  | 76 => ⟨S2000x80, .f32⟩
  | 77 => ⟨S2000x1, .f32⟩
  | 78 => ⟨S2000x80, .f32⟩
  | 79 => ⟨S2000x80, .f32⟩
  | 80 => ⟨S2000x1, .f32⟩
  | 81 => ⟨S2000x80, .f32⟩
  | 82 => ⟨S2000x80, .f32⟩
  | 83 => ⟨S2000x1, .f32⟩
  | 84 => ⟨S2000x80, .f32⟩
  | 85 => ⟨S2000x80, .f32⟩
  | 86 => ⟨S2000x1, .f32⟩
  | 87 => ⟨S2000x80, .f32⟩
  | 88 => ⟨S2000x80, .f32⟩
  | 89 => ⟨S2000x80, .f32⟩
  | 90 => ⟨S2000x1, .f32⟩
  | 91 => ⟨S2000x80, .f32⟩
  | 92 => ⟨S2000x80, .f32⟩
  | 93 => ⟨S2000x80, .f32⟩
  | 94 => ⟨S2000x1, .f32⟩
  | 95 => ⟨S2000x80, .f32⟩
  | 96 => ⟨S2000x80, .f32⟩
  | 97 => ⟨S_, .f32⟩
  | 98 => ⟨S2000x80, .f32⟩
  | 99 => ⟨S2000x80, .f32⟩
  | 100 => ⟨S2000x80, .f32⟩
  | 101 => ⟨S_, .f32⟩
  | 102 => ⟨S2000x80, .f32⟩
  | 103 => ⟨S2000x80, .f32⟩
  | 104 => ⟨S2000x80, .f32⟩
  | 105 => ⟨S_, .f32⟩
  | 106 => ⟨S2000x80, .f32⟩
  | 107 => ⟨S2000x80, .f32⟩
  | 108 => ⟨S2000x80, .f32⟩
  | 109 => ⟨S_, .f32⟩
  | 110 => ⟨S2000x80, .f32⟩
  | 111 => ⟨S2000x80, .f32⟩
  | 112 => ⟨S_, .f32⟩
  | 113 => ⟨S2000x80, .f32⟩
  | 114 => ⟨S2000x80, .f32⟩
  | 115 => ⟨S2000x80, .f32⟩
  | 116 => ⟨S_, .f32⟩
  | 117 => ⟨S2000x80, .f32⟩
  | 118 => ⟨S2000x80, .f32⟩
  | 119 => ⟨S2000x80x1, .f32⟩
  | 120 => ⟨S2000x80x1, .f32⟩
  | 121 => ⟨S2000x80x1, .f32⟩
  | 122 => ⟨S2000x80x1, .f32⟩
  | 123 => ⟨S2000x80x4, .f32⟩
  | 124 => ⟨S_, .f32⟩
  | 125 => ⟨S2000x80, .f32⟩
  | 126 => ⟨S2000x80, .i1⟩
  | 127 => ⟨S_, .f32⟩
  | _ => ⟨S2000x256x7x7, .f32⟩

abbrev hbmTy0_1 (i : Nat) : BufTy := match i % 128 with
  | 0 => ⟨S_, .f32⟩
  | 1 => ⟨S2000x80, .f32⟩
  | 2 => ⟨S2000x80, .f32⟩
  | 3 => ⟨S2000x80x1, .i1⟩
  | 4 => ⟨S_, .f32⟩
  | 5 => ⟨S_, .f32⟩
  | 6 => ⟨S2000x80x4, .i1⟩
  | 7 => ⟨S2000x80x4, .f32⟩
  | 8 => ⟨S2000x80x4, .f32⟩
  | 9 => ⟨S2000x320, .f32⟩
  | 10 => ⟨S2000x1424, .f32⟩
  | _ => ⟨S2000x256x7x7, .f32⟩

abbrev hbmTy (i : Nat) : BufTy := match i / 128 with
  | 0 => hbmTy0_0 i
  | 1 => hbmTy0_1 i
  | _ => ⟨S2000x256x7x7, .f32⟩

abbrev bufTy : (tb : Table) → Fin (tcTables nBuf tb) → BufTy
  | .hbm, ⟨i, _⟩ => hbmTy i
  | .local _ .vmem, ⟨0, _⟩ => ⟨S80x12544, .bf16⟩
  | .local _ .vmem, ⟨1, _⟩ => ⟨S80x12544, .bf16⟩
  | .local _ .vmem, ⟨2, _⟩ => ⟨S12544x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x81, .bf16⟩
  | .local _ .vmem, ⟨7, _⟩ => ⟨S81, .f32⟩
  | .local _ .vmem, ⟨8, _⟩ => ⟨S1024x320, .bf16⟩
  | .local _ .vmem, ⟨9, _⟩ => ⟨S320, .f32⟩
  | .local _ .vmem, ⟨10, _⟩ => ⟨S80x1024, .f32⟩
  | .local _ .vmem, ⟨11, _⟩ => ⟨S80x1024, .f32⟩
  | .local _ .vmem, ⟨12, _⟩ => ⟨S80x81, .f32⟩
  | .local _ .vmem, ⟨13, _⟩ => ⟨S80x81, .f32⟩
  | .local _ .vmem, ⟨14, _⟩ => ⟨S80x320, .f32⟩
  | .local _ .vmem, ⟨15, _⟩ => ⟨S80x320, .f32⟩
  | _, _ => ⟨S2000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_15 : Ref sig .tc := ⟨.hbm, 124, rfl⟩
abbrev main_v96 : Ref sig .tc := ⟨.hbm, 125, rfl⟩
abbrev main_v97 : Ref sig .tc := ⟨.hbm, 126, rfl⟩
abbrev main_cst_16 : Ref sig .tc := ⟨.hbm, 127, rfl⟩
abbrev main_call0_v0 : Ref sig .tc := ⟨.hbm, 128, rfl⟩
abbrev main_call0_v1 : Ref sig .tc := ⟨.hbm, 129, rfl⟩
abbrev main_v98 : Ref sig .tc := ⟨.hbm, 130, rfl⟩
abbrev main_v99 : Ref sig .tc := ⟨.hbm, 131, rfl⟩
abbrev main_cst_17 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x81 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S81 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x320 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S80x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S80x81 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S80x320 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2000x256x7x7_S2000x12544 : S2000x256x7x7.ShapeCasts S2000x12544
  bitsLt_bf16_f32 : FTy.bits .bf16 < FTy.bits .f32
  slices_S1024x324_S1024x320_0_4 : S1024x324.Slices ![0, 4] S1024x320
  slices_S324_S320_4 : S324.Slices ![4] S320
  inb_S80x12544_S80x12544_0_0 : ∀ a, (![0, 0] : Fin 2 → Nat) a + S80x12544.size a ≤ S80x12544.size a
  h_S80x12544 : 0 < S80x12544.numel
  shapeCasts_S80x12544_S80x12544 : S80x12544.ShapeCasts S80x12544
  inb_S12544x1024_S12544x1024_0_0 : ∀ a, (![0, 0] : Fin 2 → Nat) a + S12544x1024.size a ≤ S12544x1024.size a
  h_S12544x1024 : 0 < S12544x1024.numel
  shapeCasts_S12544x1024_S12544x1024 : S12544x1024.ShapeCasts S12544x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S80x1024 : S1x1024.Broadcasts S80x1024
  inb_S80x1024_S80x1024_0_0 : ∀ a, (![0, 0] : Fin 2 → Nat) a + S80x1024.size a ≤ S80x1024.size a
  h_S80x1024 : 0 < S80x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x81_S1024x81_0_0 : ∀ a, (![0, 0] : Fin 2 → Nat) a + S1024x81.size a ≤ S1024x81.size a
  h_S1024x81 : 0 < S1024x81.numel
  shapeCasts_S1024x81_S1024x81 : S1024x81.ShapeCasts S1024x81
  inb_S81_S81_0 : ∀ a, (![0] : Fin 1 → Nat) a + S81.size a ≤ S81.size a
  h_S81 : 0 < S81.numel
  shapeCasts_S81_S1x81 : S81.ShapeCasts S1x81
  broadcasts_S1x81_S80x81 : S1x81.Broadcasts S80x81
  reduces_S80x81_S80 : S80x81.Reduces [1] S80
  shapeCasts_S80_S80x1 : S80.ShapeCasts S80x1
  broadcasts_S80x1_S80x81 : S80x1.Broadcasts S80x81
  inb_S80x81_S80x81_0_0 : ∀ a, (![0, 0] : Fin 2 → Nat) a + S80x81.size a ≤ S80x81.size a
  h_S80x81 : 0 < S80x81.numel
  inb_S1024x320_S1024x320_0_0 : ∀ a, (![0, 0] : Fin 2 → Nat) a + S1024x320.size a ≤ S1024x320.size a
  h_S1024x320 : 0 < S1024x320.numel
  shapeCasts_S1024x320_S1024x320 : S1024x320.ShapeCasts S1024x320
  inb_S320_S320_0 : ∀ a, (![0] : Fin 1 → Nat) a + S320.size a ≤ S320.size a
  h_S320 : 0 < S320.numel
  shapeCasts_S320_S320 : S320.ShapeCasts S320
  shapeCasts_S320_S1x320 : S320.ShapeCasts S1x320
  broadcasts_S1x320_S80x320 : S1x320.Broadcasts S80x320
  inb_S80x320_S80x320_0_0 : ∀ a, (![0, 0] : Fin 2 → Nat) a + S80x320.size a ≤ S80x320.size a
  h_S80x320 : 0 < S80x320.numel
  slices_S2000x81_S2000x80_0_1 : S2000x81.Slices ![0, 1] S2000x80
  shapeCasts_S2000x320_S2000x80x4 : S2000x320.ShapeCasts S2000x80x4
  slices_S2000x4_S2000x1_0_2 : S2000x4.Slices ![0, 2] S2000x1
  shapeCasts_S2000x1_S2000 : S2000x1.ShapeCasts S2000
  slices_S2000x4_S2000x1_0_0 : S2000x4.Slices ![0, 0] S2000x1
  bcast_S_S2000 : S_.BroadcastsInDim S2000 (![] : Fin 0 → Fin S2000.rank)
  slices_S2000x4_S2000x1_0_3 : S2000x4.Slices ![0, 3] S2000x1
  slices_S2000x4_S2000x1_0_1 : S2000x4.Slices ![0, 1] S2000x1
  slices_S2000x80x4_S2000x80x1_0_0_0 : S2000x80x4.Slices ![0, 0, 0] S2000x80x1
  shapeCasts_S2000x80x1_S2000x80 : S2000x80x1.ShapeCasts S2000x80
  bcast_S_S2000x80 : S_.BroadcastsInDim S2000x80 (![] : Fin 0 → Fin S2000x80.rank)
  slices_S2000x80x4_S2000x80x1_0_0_1 : S2000x80x4.Slices ![0, 0, 1] S2000x80x1
  slices_S2000x80x4_S2000x80x1_0_0_2 : S2000x80x4.Slices ![0, 0, 2] S2000x80x1
  slices_S2000x80x4_S2000x80x1_0_0_3 : S2000x80x4.Slices ![0, 0, 3] S2000x80x1
  bcast_S2000_S2000x1_0 : S2000.BroadcastsInDim S2000x1 (![0] : Fin 1 → Fin S2000x1.rank)
  bcast_S2000x1_S2000x80_0_1 : S2000x1.BroadcastsInDim S2000x80 (![0, 1] : Fin 2 → Fin S2000x80.rank)
  bcast_S2000x80_S2000x80x1_0_1 : S2000x80.BroadcastsInDim S2000x80x1 (![0, 1] : Fin 2 → Fin S2000x80x1.rank)
  concatenates_S2000x80x1_S2000x80x1_S2000x80x1_S2000x80x1_S2000x80x4_d2 : Shape.Concatenates [S2000x80x1, S2000x80x1, S2000x80x1, S2000x80x1] S2000x80x4 2
  bcast_S2000x80x1_S2000x80x4_0_1_2 : S2000x80x1.BroadcastsInDim S2000x80x4 (![0, 1, 2] : Fin 3 → Fin S2000x80x4.rank)
  bcast_S_S2000x80x4 : S_.BroadcastsInDim S2000x80x4 (![] : Fin 0 → Fin S2000x80x4.rank)
  shapeCasts_S2000x80x4_S2000x320 : S2000x80x4.ShapeCasts S2000x320
  concatenates_S2000x80_S2000x320_S2000x1024_S2000x1424_d1 : Shape.Concatenates [S2000x80, S2000x320, S2000x1024] S2000x1424 1
  dot_S80x12544_S12544x1024_S80x1024_1_0_0_1_n_n_wf : DotDims.WF S80x12544 S12544x1024 S80x1024 [1] [0] [0] [1] [] []
  dot_S80x1024_S1024x1024_S80x1024_1_0_0_1_n_n_wf : DotDims.WF S80x1024 S1024x1024 S80x1024 [1] [0] [0] [1] [] []
  dot_S80x1024_S1024x81_S80x81_1_0_0_1_n_n_wf : DotDims.WF S80x1024 S1024x81 S80x81 [1] [0] [0] [1] [] []
  dot_S80x1024_S1024x320_S80x320_1_0_0_1_n_n_wf : DotDims.WF S80x1024 S1024x320 S80x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x12544.size a ≤ S2000x12544.size a
  hwx0_0 : ∀ i : grid0.Coords, EltTy.bits .bf16 = 32 ∨ (Rect.block (s := S2000x12544) S80x12544.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x1024.size a ≤ S12544x1024.size a
  hwx0_1 : ∀ i : grid0.Coords, EltTy.bits .bf16 = 32 ∨ (Rect.block (s := S12544x1024) S12544x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x81.size a ≤ S1024x81.size a
  hwx0_5 : ∀ i : grid0.Coords, EltTy.bits .bf16 = 32 ∨ (Rect.block (s := S1024x81) S1024x81.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S81.size a ≤ S81.size a
  hwx0_6 : ∀ i : grid0.Coords, EltTy.bits .f32 = 32 ∨ (Rect.block (s := S81) S81.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x320.size a ≤ S1024x320.size a
  hwx0_7 : ∀ i : grid0.Coords, EltTy.bits .bf16 = 32 ∨ (Rect.block (s := S1024x320) S1024x320.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S320.size a ≤ S320.size a
  hwx0_8 : ∀ i : grid0.Coords, EltTy.bits .f32 = 32 ∨ (Rect.block (s := S320) S320.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S80x1024.size a ≤ S2000x1024.size a
  hwx0_9 : ∀ i : grid0.Coords, EltTy.bits .f32 = 32 ∨ (Rect.block (s := S2000x1024) S80x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S80x81.size a ≤ S2000x81.size a
  hwx0_10 : ∀ i : grid0.Coords, EltTy.bits .f32 = 32 ∨ (Rect.block (s := S2000x81) S80x81.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S80x320.size a ≤ S2000x320.size a
  hwx0_11 : ∀ i : grid0.Coords, EltTy.bits .f32 = 32 ∨ (Rect.block (s := S2000x320) S80x320.size (cc0_transform_11 i) (hinb0_11 i)).WholeWords (EltTy.packing .f32)

variable [Facts₀]

def dot_S80x12544_S12544x1024_S80x1024_1_0_0_1_n_n : DotDims S80x12544 S12544x1024 S80x1024 where
  lhsContracting := [1]
  rhsContracting := [0]
  lhsNonContracting := [0]
  rhsNonContracting := [1]
  lhsBatch := []
  rhsBatch := []
  wf := dot_S80x12544_S12544x1024_S80x1024_1_0_0_1_n_n_wf
def dot_S80x1024_S1024x1024_S80x1024_1_0_0_1_n_n : DotDims S80x1024 S1024x1024 S80x1024 where
  lhsContracting := [1]
  rhsContracting := [0]
  lhsNonContracting := [0]
  rhsNonContracting := [1]
  lhsBatch := []
  rhsBatch := []
  wf := dot_S80x1024_S1024x1024_S80x1024_1_0_0_1_n_n_wf
def dot_S80x1024_S1024x81_S80x81_1_0_0_1_n_n : DotDims S80x1024 S1024x81 S80x81 where
  lhsContracting := [1]
  rhsContracting := [0]
  lhsNonContracting := [0]
  rhsNonContracting := [1]
  lhsBatch := []
  rhsBatch := []
  wf := dot_S80x1024_S1024x81_S80x81_1_0_0_1_n_n_wf
def dot_S80x1024_S1024x320_S80x320_1_0_0_1_n_n : DotDims S80x1024 S1024x320 S80x320 where
  lhsContracting := [1]
  rhsContracting := [0]
  lhsNonContracting := [0]
  rhsNonContracting := [1]
  lhsBatch := []
  rhsBatch := []
  wf := dot_S80x1024_S1024x320_S80x320_1_0_0_1_n_n_wf

abbrev win0_0 : Pipeline.Window sig grid0 :=
  Pipeline.Window.ofSpec (Memref.whole main_v1) S80x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12544x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x81.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S81.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x320.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S320.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S80x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S80x81.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_2) S80x320.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2000x256x7x7 : Shape := ⟨4, ![2000, 256, 7, 7]⟩
abbrev S2000x4 : Shape := ⟨2, ![2000, 4]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S2000x12544 : Shape := ⟨2, ![2000, 12544]⟩
abbrev S2000x1024 : Shape := ⟨2, ![2000, 1024]⟩
abbrev S1x1024 : Shape := ⟨2, ![1, 1024]⟩
abbrev S_ : Shape := ⟨0, ![]⟩
abbrev S2000x81 : Shape := ⟨2, ![2000, 81]⟩
abbrev S1x81 : Shape := ⟨2, ![1, 81]⟩
abbrev S2000 : Shape := ⟨1, ![2000]⟩
abbrev S2000x1 : Shape := ⟨2, ![2000, 1]⟩
abbrev S2000x324 : Shape := ⟨2, ![2000, 324]⟩
abbrev S1x324 : Shape := ⟨2, ![1, 324]⟩
abbrev S2000x81x4 : Shape := ⟨3, ![2000, 81, 4]⟩
abbrev S2000x81x1 : Shape := ⟨3, ![2000, 81, 1]⟩
abbrev S2000x80 : Shape := ⟨2, ![2000, 80]⟩
abbrev S2000x80x4 : Shape := ⟨3, ![2000, 80, 4]⟩
abbrev S2000x80x1 : Shape := ⟨3, ![2000, 80, 1]⟩
abbrev S2000x320 : Shape := ⟨2, ![2000, 320]⟩
abbrev S2000x1424 : Shape := ⟨2, ![2000, 1424]⟩

abbrev nBuf : Space → Nat
  | .hbm => 166
  | .vmem => 0
  | .smem => 0
  | _ => 0

abbrev hbmTy0_0 (i : Nat) : BufTy := match i % 128 with
  | 0 => ⟨S2000x256x7x7, .f32⟩
  | 1 => ⟨S2000x4, .f32⟩
  | 2 => ⟨S12544x1024, .f32⟩
  | 3 => ⟨S1024, .f32⟩
  | 4 => ⟨S1024x1024, .f32⟩
  | 5 => ⟨S1024, .f32⟩
  | 6 => ⟨S1024x81, .f32⟩
  | 7 => ⟨S81, .f32⟩
  | 8 => ⟨S1024x324, .f32⟩
  | 9 => ⟨S324, .f32⟩
  | 10 => ⟨S2000x12544, .f32⟩
  | 11 => ⟨S2000x1024, .f32⟩
  | 12 => ⟨S1x1024, .f32⟩
  | 13 => ⟨S2000x1024, .f32⟩
  | 14 => ⟨S2000x1024, .f32⟩
  | 15 => ⟨S_, .f32⟩
  | 16 => ⟨S2000x1024, .f32⟩
  | 17 => ⟨S2000x1024, .f32⟩
  | 18 => ⟨S2000x1024, .f32⟩
  | 19 => ⟨S1x1024, .f32⟩
  | 20 => ⟨S2000x1024, .f32⟩
  | 21 => ⟨S2000x1024, .f32⟩
  | 22 => ⟨S_, .f32⟩
  | 23 => ⟨S2000x1024, .f32⟩
  | 24 => ⟨S2000x1024, .f32⟩
  | 25 => ⟨S2000x81, .f32⟩
  | 26 => ⟨S1x81, .f32⟩
  | 27 => ⟨S2000x81, .f32⟩
  | 28 => ⟨S2000x81, .f32⟩
  | 29 => ⟨S_, .f32⟩
  | 30 => ⟨S2000, .f32⟩
  | 31 => ⟨S_, .f32⟩
  | 32 => ⟨S2000, .f32⟩
  | 33 => ⟨S2000, .f32⟩
  | 34 => ⟨S2000x1, .f32⟩
  | 35 => ⟨S2000x81, .f32⟩
  | 36 => ⟨S2000x81, .f32⟩
  | 37 => ⟨S2000x81, .f32⟩
  | 38 => ⟨S_, .f32⟩
  | 39 => ⟨S2000, .f32⟩
  | 40 => ⟨S2000x1, .f32⟩
  | 41 => ⟨S2000x81, .f32⟩
  | 42 => ⟨S2000x81, .f32⟩
  | 43 => ⟨S2000x324, .f32⟩
  | 44 => ⟨S1x324, .f32⟩
  | 45 => ⟨S2000x324, .f32⟩
  | 46 => ⟨S2000x324, .f32⟩
  | 47 => ⟨S2000x81x4, .f32⟩
  | 48 => ⟨S2000x1, .f32⟩
  | 49 => ⟨S2000, .f32⟩
  | 50 => ⟨S2000x1, .f32⟩
  | 51 => ⟨S2000, .f32⟩
  | 52 => ⟨S2000, .f32⟩
  | 53 => ⟨S_, .f32⟩
  | 54 => ⟨S2000, .f32⟩
  | 55 => ⟨S2000, .f32⟩
  | 56 => ⟨S2000x1, .f32⟩
  | 57 => ⟨S2000, .f32⟩
  | 58 => ⟨S2000x1, .f32⟩
  | 59 => ⟨S2000, .f32⟩
  | 60 => ⟨S2000, .f32⟩
  | 61 => ⟨S_, .f32⟩
  | 62 => ⟨S2000, .f32⟩
  | 63 => ⟨S2000, .f32⟩
  | 64 => ⟨S2000x1, .f32⟩
  | 65 => ⟨S2000, .f32⟩
  | 66 => ⟨S_, .f32⟩
  | 67 => ⟨S2000, .f32⟩
  | 68 => ⟨S2000, .f32⟩
  | 69 => ⟨S2000, .f32⟩
  | 70 => ⟨S2000x1, .f32⟩
  | 71 => ⟨S2000, .f32⟩
  | 72 => ⟨S_, .f32⟩
  | 73 => ⟨S2000, .f32⟩
  | 74 => ⟨S2000, .f32⟩
  | 75 => ⟨S2000, .f32⟩
  | 76 => ⟨S2000x81x1, .f32⟩
  | 77 => ⟨S2000x81, .f32⟩
  | 78 => ⟨S_, .f32⟩
  | 79 => ⟨S2000x81, .f32⟩
  | 80 => ⟨S2000x81, .f32⟩
  | 81 => ⟨S2000x81x1, .f32⟩
  | 82 => ⟨S2000x81, .f32⟩
  | 83 => ⟨S_, .f32⟩
  | 84 => ⟨S2000x81, .f32⟩
  | 85 => ⟨S2000x81, .f32⟩
  | 86 => ⟨S2000x81x1, .f32⟩
  | 87 => ⟨S2000x81, .f32⟩
  | 88 => ⟨S_, .f32⟩
  | 89 => ⟨S2000x81, .f32⟩
  | 90 => ⟨S2000x81, .f32⟩
  | 91 => ⟨S_, .f32⟩
  | 92 => ⟨S2000x81, .f32⟩
  | 93 => ⟨S2000x81, .f32⟩
  | 94 => ⟨S2000x81x1, .f32⟩
  | 95 => ⟨S2000x81, .f32⟩
  | 96 => ⟨S_, .f32⟩
  | 97 => ⟨S2000x81, .f32⟩
  | 98 => ⟨S2000x81, .f32⟩
  | 99 => ⟨S_, .f32⟩
  | 100 => ⟨S2000x81, .f32⟩
  | 101 => ⟨S2000x81, .f32⟩
  | 102 => ⟨S2000x1, .f32⟩
  | 103 => ⟨S2000x81, .f32⟩
  | 104 => ⟨S2000x81, .f32⟩
  | 105 => ⟨S2000x1, .f32⟩
  | 106 => ⟨S2000x81, .f32⟩
  | 107 => ⟨S2000x81, .f32⟩
  | 108 => ⟨S2000x1, .f32⟩
  | 109 => ⟨S2000x81, .f32⟩
  | 110 => ⟨S2000x81, .f32⟩
  | 111 => ⟨S2000x1, .f32⟩
  | 112 => ⟨S2000x81, .f32⟩
  | 113 => ⟨S2000x81, .f32⟩
  | 114 => ⟨S2000x81, .f32⟩
  | 115 => ⟨S2000x1, .f32⟩
  | 116 => ⟨S2000x81, .f32⟩
  | 117 => ⟨S2000x81, .f32⟩
  | 118 => ⟨S2000x81, .f32⟩
  | 119 => ⟨S2000x1, .f32⟩
  | 120 => ⟨S2000x81, .f32⟩
  | 121 => ⟨S2000x81, .f32⟩
  | 122 => ⟨S_, .f32⟩
  | 123 => ⟨S2000x81, .f32⟩
  | 124 => ⟨S2000x81, .f32⟩
  | 125 => ⟨S2000x81, .f32⟩
  | 126 => ⟨S_, .f32⟩
  | 127 => ⟨S2000x81, .f32⟩
  | _ => ⟨S2000x256x7x7, .f32⟩

abbrev hbmTy0_1 (i : Nat) : BufTy := match i % 128 with
  | 0 => ⟨S2000x81, .f32⟩
  | 1 => ⟨S2000x81, .f32⟩
  | 2 => ⟨S_, .f32⟩
  | 3 => ⟨S2000x81, .f32⟩
  | 4 => ⟨S2000x81, .f32⟩
  | 5 => ⟨S2000x81, .f32⟩
  | 6 => ⟨S_, .f32⟩
  | 7 => ⟨S2000x81, .f32⟩
  | 8 => ⟨S2000x81, .f32⟩
  | 9 => ⟨S_, .f32⟩
  | 10 => ⟨S2000x81, .f32⟩
  | 11 => ⟨S2000x81, .f32⟩
  | 12 => ⟨S2000x81, .f32⟩
  | 13 => ⟨S_, .f32⟩
  | 14 => ⟨S2000x81, .f32⟩
  | 15 => ⟨S2000x81, .f32⟩
  | 16 => ⟨S2000x81x1, .f32⟩
  | 17 => ⟨S2000x81x1, .f32⟩
  | 18 => ⟨S2000x81x1, .f32⟩
  | 19 => ⟨S2000x81x1, .f32⟩
  | 20 => ⟨S2000x81x4, .f32⟩
  | 21 => ⟨S2000x80, .f32⟩
  | 22 => ⟨S2000x80x4, .f32⟩
  | 23 => ⟨S_, .f32⟩
  | 24 => ⟨S2000x80, .f32⟩
  | 25 => ⟨S2000x80, .i1⟩
  | 26 => ⟨S_, .f32⟩
  | 27 => ⟨S_, .f32⟩
  | 28 => ⟨S2000x80, .f32⟩
  | 29 => ⟨S2000x80, .f32⟩
  | 30 => ⟨S2000x80x1, .i1⟩
  | 31 => ⟨S_, .f32⟩
  | 32 => ⟨S_, .f32⟩
  | 33 => ⟨S2000x80x4, .i1⟩
  | 34 => ⟨S2000x80x4, .f32⟩
  | 35 => ⟨S2000x80x4, .f32⟩
  | 36 => ⟨S2000x320, .f32⟩
  | 37 => ⟨S2000x1424, .f32⟩
  | _ => ⟨S2000x256x7x7, .f32⟩

abbrev hbmTy (i : Nat) : BufTy := match i / 128 with
  | 0 => hbmTy0_0 i
  | 1 => hbmTy0_1 i
  | _ => ⟨S2000x256x7x7, .f32⟩

abbrev bufTy : (tb : Table) → Fin (tcTables nBuf tb) → BufTy
  | .hbm, ⟨i, _⟩ => hbmTy i
  | _, _ => ⟨S2000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_14 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_15 : Ref sig .tc := ⟨.hbm, 134, rfl⟩
abbrev main_v104 : Ref sig .tc := ⟨.hbm, 135, rfl⟩
abbrev main_v105 : Ref sig .tc := ⟨.hbm, 136, rfl⟩
abbrev main_cst_16 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_17 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_18 : Ref sig .tc := ⟨.hbm, 151, rfl⟩
abbrev main_v118 : Ref sig .tc := ⟨.hbm, 152, rfl⟩
abbrev main_v119 : Ref sig .tc := ⟨.hbm, 153, rfl⟩
abbrev main_cst_19 : Ref sig .tc := ⟨.hbm, 154, rfl⟩
abbrev main_call2_v0 : Ref sig .tc := ⟨.hbm, 155, rfl⟩
abbrev main_call2_v1 : Ref sig .tc := ⟨.hbm, 156, rfl⟩
abbrev main_v120 : Ref sig .tc := ⟨.hbm, 157, rfl⟩
abbrev main_v121 : Ref sig .tc := ⟨.hbm, 158, rfl⟩
abbrev main_cst_20 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  shapeCasts_S2000x256x7x7_S2000x12544 : S2000x256x7x7.ShapeCasts S2000x12544
  bcast_S1024_S1x1024_1 : S1024.BroadcastsInDim S1x1024 (![1] : Fin 1 → Fin S1x1024.rank)
  bcast_S1x1024_S2000x1024_0_1 : S1x1024.BroadcastsInDim S2000x1024 (![0, 1] : Fin 2 → Fin S2000x1024.rank)
  bcast_S_S2000x1024 : S_.BroadcastsInDim S2000x1024 (![] : Fin 0 → Fin S2000x1024.rank)
  bcast_S81_S1x81_1 : S81.BroadcastsInDim S1x81 (![1] : Fin 1 → Fin S1x81.rank)
  bcast_S1x81_S2000x81_0_1 : S1x81.BroadcastsInDim S2000x81 (![0, 1] : Fin 2 → Fin S2000x81.rank)
  reducesTo_S2000x81_S2000_d1 : S2000x81.ReducesTo [1] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x81_0_1 : S2000x1.BroadcastsInDim S2000x81 (![0, 1] : Fin 2 → Fin S2000x81.rank)
  bcast_S324_S1x324_1 : S324.BroadcastsInDim S1x324 (![1] : Fin 1 → Fin S1x324.rank)
  bcast_S1x324_S2000x324_0_1 : S1x324.BroadcastsInDim S2000x324 (![0, 1] : Fin 2 → Fin S2000x324.rank)
  shapeCasts_S2000x324_S2000x81x4 : S2000x324.ShapeCasts S2000x81x4
  slices_S2000x4_S2000x1_0_2 : S2000x4.Slices ![0, 2] S2000x1
  shapeCasts_S2000x1_S2000 : S2000x1.ShapeCasts S2000
  slices_S2000x4_S2000x1_0_0 : S2000x4.Slices ![0, 0] S2000x1
  slices_S2000x4_S2000x1_0_3 : S2000x4.Slices ![0, 3] S2000x1
  slices_S2000x4_S2000x1_0_1 : S2000x4.Slices ![0, 1] S2000x1
  slices_S2000x81x4_S2000x81x1_0_0_0 : S2000x81x4.Slices ![0, 0, 0] S2000x81x1
  shapeCasts_S2000x81x1_S2000x81 : S2000x81x1.ShapeCasts S2000x81
  bcast_S_S2000x81 : S_.BroadcastsInDim S2000x81 (![] : Fin 0 → Fin S2000x81.rank)
  slices_S2000x81x4_S2000x81x1_0_0_1 : S2000x81x4.Slices ![0, 0, 1] S2000x81x1
  slices_S2000x81x4_S2000x81x1_0_0_2 : S2000x81x4.Slices ![0, 0, 2] S2000x81x1
  slices_S2000x81x4_S2000x81x1_0_0_3 : S2000x81x4.Slices ![0, 0, 3] S2000x81x1
  bcast_S2000x81_S2000x81x1_0_1 : S2000x81.BroadcastsInDim S2000x81x1 (![0, 1] : Fin 2 → Fin S2000x81x1.rank)
  concatenates_S2000x81x1_S2000x81x1_S2000x81x1_S2000x81x1_S2000x81x4_d2 : Shape.Concatenates [S2000x81x1, S2000x81x1, S2000x81x1, S2000x81x1] S2000x81x4 2
  slices_S2000x81_S2000x80_0_1 : S2000x81.Slices ![0, 1] S2000x80
  slices_S2000x81x4_S2000x80x4_0_1_0 : S2000x81x4.Slices ![0, 1, 0] S2000x80x4
  bcast_S_S2000x80 : S_.BroadcastsInDim S2000x80 (![] : Fin 0 → Fin S2000x80.rank)
  bcast_S2000x80_S2000x80x1_0_1 : S2000x80.BroadcastsInDim S2000x80x1 (![0, 1] : Fin 2 → Fin S2000x80x1.rank)
  bcast_S2000x80x1_S2000x80x4_0_1_2 : S2000x80x1.BroadcastsInDim S2000x80x4 (![0, 1, 2] : Fin 3 → Fin S2000x80x4.rank)
  bcast_S_S2000x80x4 : S_.BroadcastsInDim S2000x80x4 (![] : Fin 0 → Fin S2000x80x4.rank)
  shapeCasts_S2000x80x4_S2000x320 : S2000x80x4.ShapeCasts S2000x320
  concatenates_S2000x80_S2000x320_S2000x1024_S2000x1424_d1 : Shape.Concatenates [S2000x80, S2000x320, S2000x1024] S2000x1424 1
  dot_S2000x12544_S12544x1024_S2000x1024_1_0_0_1_n_n_wf : DotDims.WF S2000x12544 S12544x1024 S2000x1024 [1] [0] [0] [1] [] []
  dot_S2000x1024_S1024x1024_S2000x1024_1_0_0_1_n_n_wf : DotDims.WF S2000x1024 S1024x1024 S2000x1024 [1] [0] [0] [1] [] []
  dot_S2000x1024_S1024x81_S2000x81_1_0_0_1_n_n_wf : DotDims.WF S2000x1024 S1024x81 S2000x81 [1] [0] [0] [1] [] []
  dot_S2000x1024_S1024x324_S2000x324_1_0_0_1_n_n_wf : DotDims.WF S2000x1024 S1024x324 S2000x324 [1] [0] [0] [1] [] []

variable [Facts₀]

def dot_S2000x12544_S12544x1024_S2000x1024_1_0_0_1_n_n : DotDims S2000x12544 S12544x1024 S2000x1024 where
  lhsContracting := [1]
  rhsContracting := [0]
  lhsNonContracting := [0]
  rhsNonContracting := [1]
  lhsBatch := []
  rhsBatch := []
  wf := dot_S2000x12544_S12544x1024_S2000x1024_1_0_0_1_n_n_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf
def dot_S2000x1024_S1024x81_S2000x81_1_0_0_1_n_n : DotDims S2000x1024 S1024x81 S2000x81 where
  lhsContracting := [1]
  rhsContracting := [0]
  lhsNonContracting := [0]
  rhsNonContracting := [1]
  lhsBatch := []
  rhsBatch := []
  wf := dot_S2000x1024_S1024x81_S2000x81_1_0_0_1_n_n_wf
def dot_S2000x1024_S1024x324_S2000x324_1_0_0_1_n_n : DotDims S2000x1024 S1024x324 S2000x324 where
  lhsContracting := [1]
  rhsContracting := [0]
  lhsNonContracting := [0]
  rhsNonContracting := [1]
  lhsBatch := []
  rhsBatch := []
  wf := dot_S2000x1024_S1024x324_S2000x324_1_0_0_1_n_n_wf

class Facts : Prop extends Facts₀ where

variable [Facts]
-- ==== Proof.FrameK.lean ====
/-
  The frame of the ROI-head program: @main is eight host lines (a reshape, five changes of float format, two column
  slices), ONE region over a grid of 25 row tiles, and 118 host lines after it. The region's body loads its nine input
  blocks whole, stores each of its three output blocks whole (a block of f6, of the class probabilities, of the box
  regression), and keeps nothing between grid points, so what each output's buffer holds after the body is one
  function of the input blocks at that point (`out0_9`, `out0_10`, `out0_11`: the body's arithmetic, named in the
  skeleton). The host lines after the region write only fresh result buffers: they write no array of the pipeline and no
  argument. Hence every weakly fair execution terminates with every argument array as launched, every output array of
  the region at the blocks the grid points wrote, and every later buffer at the host lines' composed value.
  Stated for any float instance `F`.
-/
import proofs.«160000_j26036091748769_1_alg».proof.Proof.Gen.Kernel.Launch
import proofs.«160000_j26036091748769_1_alg».proof.Proof.Gen.Kernel.Skeleton
import proofs.«160000_j26036091748769_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: the launch contents after the eight host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
set_option maxHeartbeats 4000000 in
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor

/-- @main reduces to the region continued by the later host lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later host line touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
set_option maxHeartbeats 40000000 in
/-- No line of this stretch writes an array of the pipeline: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line writes the buffer `b` when `b` is none of the lines' result buffers. -/
theorem pre_not_writes (b : Ref sig .tc)
    (hb : (hostOps0 : List (HloOp τ sig (Elt F))).Forall fun op => Proc.devRef .tc b ∉ op.writes) (c : Dev nD) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem V_main_arg0 (c : Dev nD) : V m c main_arg0 = m ((c : Thread nD τ).loc main_arg0) :=
  pre_not_writes m main_arg0 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg0 : (hostOps1 : List (HloOp τ sig (Elt F))).Forall fun op => Proc.devRef .tc main_arg0 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg0 : (hostOps1_1 : List (HloOp τ sig (Elt F))).Forall fun op => Proc.devRef .tc main_arg0 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg0 : (hostOps1_2 : List (HloOp τ sig (Elt F))).Forall fun op => Proc.devRef .tc main_arg0 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg0 : (hostOps1_3 : List (HloOp τ sig (Elt F))).Forall fun op => Proc.devRef .tc main_arg0 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg0 : (hostOps1_4 : List (HloOp τ sig (Elt F))).Forall fun op => Proc.devRef .tc main_arg0 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg0 : ∀ op ∈ (tailOps : List (List (HloOp τ sig (Elt F)))).flatten, Proc.devRef .tc main_arg0 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg0) op hop
  · exact (List.forall_iff_forall_mem.mp hostOps1_1_keeps_arg0) op hop
  · exact (List.forall_iff_forall_mem.mp hostOps1_2_keeps_arg0) op hop
  · exact (List.forall_iff_forall_mem.mp hostOps1_3_keeps_arg0) op hop
  · exact (List.forall_iff_forall_mem.mp hostOps1_4_keeps_arg0) op hop
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps_arg0),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  pre_not_writes m main_arg1 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg1 : (hostOps1 : List (HloOp τ sig (Elt F))).Forall fun op => Proc.devRef .tc main_arg1 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg1 : (hostOps1_1 : List (HloOp τ sig (Elt F))).Forall fun op => Proc.devRef .tc main_arg1 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg1 : (hostOps1_2 : List (HloOp τ sig (Elt F))).Forall fun op => Proc.devRef .tc main_arg1 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg1 : (hostOps1_3 : List (HloOp τ sig (Elt F))).Forall fun op => Proc.devRef .tc main_arg1 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg1 : (hostOps1_4 : List (HloOp τ sig (Elt F))).Forall fun op => Proc.devRef .tc main_arg1 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg1 : ∀ op ∈ (tailOps : List (List (HloOp τ sig (Elt F)))).flatten, Proc.devRef .tc main_arg1 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_4_keeps_arg1) op hop
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps_arg1),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  pre_not_writes m main_arg2 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg2 : (hostOps1 : List (HloOp τ sig (Elt F))).Forall fun op => Proc.devRef .tc main_arg2 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg2 : (hostOps1_1 : List (HloOp τ sig (Elt F))).Forall fun op => Proc.devRef .tc main_arg2 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg2 : (hostOps1_2 : List (HloOp τ sig (Elt F))).Forall fun op => Proc.devRef .tc main_arg2 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg2 : (hostOps1_3 : List (HloOp τ sig (Elt F))).Forall fun op => Proc.devRef .tc main_arg2 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg2 : (hostOps1_4 : List (HloOp τ sig (Elt F))).Forall fun op => Proc.devRef .tc main_arg2 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg2 : ∀ op ∈ (tailOps : List (List (HloOp τ sig (Elt F)))).flatten, Proc.devRef .tc main_arg2 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg2) op hop
  · exact (List.forall_iff_forall_mem.mp hostOps1_1_keeps_arg2) op hop
  · exact (List.forall_iff_forall_mem.mp hostOps1_2_keeps_arg2) op hop
  · exact (List.forall_iff_forall_mem.mp hostOps1_3_keeps_arg2) op hop
  · exact (List.forall_iff_forall_mem.mp hostOps1_4_keeps_arg2) op hop
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps_arg2),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  pre_not_writes m main_arg3 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg3 : (hostOps1 : List (HloOp τ sig (Elt F))).Forall fun op => Proc.devRef .tc main_arg3 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg3 : (hostOps1_1 : List (HloOp τ sig (Elt F))).Forall fun op => Proc.devRef .tc main_arg3 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg3 : (hostOps1_2 : List (HloOp τ sig (Elt F))).Forall fun op => Proc.devRef .tc main_arg3 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg3 : (hostOps1_3 : List (HloOp τ sig (Elt F))).Forall fun op => Proc.devRef .tc main_arg3 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg3 : (hostOps1_4 : List (HloOp τ sig (Elt F))).Forall fun op => Proc.devRef .tc main_arg3 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg3 : ∀ op ∈ (tailOps : List (List (HloOp τ sig (Elt F)))).flatten, Proc.devRef .tc main_arg3 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg3) op hop
  · exact (List.forall_iff_forall_mem.mp hostOps1_1_keeps_arg3) op hop
  · exact (List.forall_iff_forall_mem.mp hostOps1_2_keeps_arg3) op hop
  · exact (List.forall_iff_forall_mem.mp hostOps1_3_keeps_arg3) op hop
  · exact (List.forall_iff_forall_mem.mp hostOps1_4_keeps_arg3) op hop

theorem V_main_arg4 (c : Dev nD) : V m c main_arg4 = m ((c : Thread nD τ).loc main_arg4) :=
  pre_not_writes m main_arg4 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg4 : (hostOps1 : List (HloOp τ sig (Elt F))).Forall fun op => Proc.devRef .tc main_arg4 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg4 : (hostOps1_1 : List (HloOp τ sig (Elt F))).Forall fun op => Proc.devRef .tc main_arg4 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg4 : (hostOps1_2 : List (HloOp τ sig (Elt F))).Forall fun op => Proc.devRef .tc main_arg4 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg4 : (hostOps1_3 : List (HloOp τ sig (Elt F))).Forall fun op => Proc.devRef .tc main_arg4 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg4 : (hostOps1_4 : List (HloOp τ sig (Elt F))).Forall fun op => Proc.devRef .tc main_arg4 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg4 : ∀ op ∈ (tailOps : List (List (HloOp τ sig (Elt F)))).flatten, Proc.devRef .tc main_arg4 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg4) op hop
  · exact (List.forall_iff_forall_mem.mp hostOps1_1_keeps_arg4) op hop
  · exact (List.forall_iff_forall_mem.mp hostOps1_2_keeps_arg4) op hop
  · exact (List.forall_iff_forall_mem.mp hostOps1_3_keeps_arg4) op hop
  · exact (List.forall_iff_forall_mem.mp hostOps1_4_keeps_arg4) op hop
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_keeps_arg4),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  pre_not_writes m main_arg5 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg5 : (hostOps1 : List (HloOp τ sig (Elt F))).Forall fun op => Proc.devRef .tc main_arg5 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg5 : (hostOps1_1 : List (HloOp τ sig (Elt F))).Forall fun op => Proc.devRef .tc main_arg5 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg5 : (hostOps1_2 : List (HloOp τ sig (Elt F))).Forall fun op => Proc.devRef .tc main_arg5 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg5 : (hostOps1_3 : List (HloOp τ sig (Elt F))).Forall fun op => Proc.devRef .tc main_arg5 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg5 : (hostOps1_4 : List (HloOp τ sig (Elt F))).Forall fun op => Proc.devRef .tc main_arg5 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg5 : ∀ op ∈ (tailOps : List (List (HloOp τ sig (Elt F)))).flatten, Proc.devRef .tc main_arg5 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg5) op hop
  · exact (List.forall_iff_forall_mem.mp hostOps1_1_keeps_arg5) op hop
  · exact (List.forall_iff_forall_mem.mp hostOps1_2_keeps_arg5) op hop
  · exact (List.forall_iff_forall_mem.mp hostOps1_3_keeps_arg5) op hop
  · exact (List.forall_iff_forall_mem.mp hostOps1_4_keeps_arg5) op hop

theorem V_main_arg6 (c : Dev nD) : V m c main_arg6 = m ((c : Thread nD τ).loc main_arg6) :=
  pre_not_writes m main_arg6 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg6 : (hostOps1 : List (HloOp τ sig (Elt F))).Forall fun op => Proc.devRef .tc main_arg6 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg6 : (hostOps1_1 : List (HloOp τ sig (Elt F))).Forall fun op => Proc.devRef .tc main_arg6 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg6 : (hostOps1_2 : List (HloOp τ sig (Elt F))).Forall fun op => Proc.devRef .tc main_arg6 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg6 : (hostOps1_3 : List (HloOp τ sig (Elt F))).Forall fun op => Proc.devRef .tc main_arg6 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg6 : (hostOps1_4 : List (HloOp τ sig (Elt F))).Forall fun op => Proc.devRef .tc main_arg6 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg6 : ∀ op ∈ (tailOps : List (List (HloOp τ sig (Elt F)))).flatten, Proc.devRef .tc main_arg6 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg6) op hop
  · exact (List.forall_iff_forall_mem.mp hostOps1_1_keeps_arg6) op hop
  · exact (List.forall_iff_forall_mem.mp hostOps1_2_keeps_arg6) op hop
  · exact (List.forall_iff_forall_mem.mp hostOps1_3_keeps_arg6) op hop
  · exact (List.forall_iff_forall_mem.mp hostOps1_4_keeps_arg6) op hop
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (tail_keeps_arg6),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  pre_not_writes m main_arg7 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg7 : (hostOps1 : List (HloOp τ sig (Elt F))).Forall fun op => Proc.devRef .tc main_arg7 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg7 : (hostOps1_1 : List (HloOp τ sig (Elt F))).Forall fun op => Proc.devRef .tc main_arg7 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg7 : (hostOps1_2 : List (HloOp τ sig (Elt F))).Forall fun op => Proc.devRef .tc main_arg7 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg7 : (hostOps1_3 : List (HloOp τ sig (Elt F))).Forall fun op => Proc.devRef .tc main_arg7 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg7 : (hostOps1_4 : List (HloOp τ sig (Elt F))).Forall fun op => Proc.devRef .tc main_arg7 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg7 : ∀ op ∈ (tailOps : List (List (HloOp τ sig (Elt F)))).flatten, Proc.devRef .tc main_arg7 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg7) op hop
  · exact (List.forall_iff_forall_mem.mp hostOps1_1_keeps_arg7) op hop
  · exact (List.forall_iff_forall_mem.mp hostOps1_2_keeps_arg7) op hop
  · exact (List.forall_iff_forall_mem.mp hostOps1_3_keeps_arg7) op hop
  · exact (List.forall_iff_forall_mem.mp hostOps1_4_keeps_arg7) op hop

theorem V_main_arg8 (c : Dev nD) : V m c main_arg8 = m ((c : Thread nD τ).loc main_arg8) :=
  pre_not_writes m main_arg8 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg8 : (hostOps1 : List (HloOp τ sig (Elt F))).Forall fun op => Proc.devRef .tc main_arg8 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg8 : (hostOps1_1 : List (HloOp τ sig (Elt F))).Forall fun op => Proc.devRef .tc main_arg8 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg8 : (hostOps1_2 : List (HloOp τ sig (Elt F))).Forall fun op => Proc.devRef .tc main_arg8 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg8 : (hostOps1_3 : List (HloOp τ sig (Elt F))).Forall fun op => Proc.devRef .tc main_arg8 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg8 : (hostOps1_4 : List (HloOp τ sig (Elt F))).Forall fun op => Proc.devRef .tc main_arg8 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg8 : ∀ op ∈ (tailOps : List (List (HloOp τ sig (Elt F)))).flatten, Proc.devRef .tc main_arg8 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg8) op hop
  · exact (List.forall_iff_forall_mem.mp hostOps1_1_keeps_arg8) op hop
  · exact (List.forall_iff_forall_mem.mp hostOps1_2_keeps_arg8) op hop
  · exact (List.forall_iff_forall_mem.mp hostOps1_3_keeps_arg8) op hop
  · exact (List.forall_iff_forall_mem.mp hostOps1_4_keeps_arg8) op hop
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (tail_keeps_arg8),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  pre_not_writes m main_arg9 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg9 : (hostOps1 : List (HloOp τ sig (Elt F))).Forall fun op => Proc.devRef .tc main_arg9 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg9 : (hostOps1_1 : List (HloOp τ sig (Elt F))).Forall fun op => Proc.devRef .tc main_arg9 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg9 : (hostOps1_2 : List (HloOp τ sig (Elt F))).Forall fun op => Proc.devRef .tc main_arg9 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg9 : (hostOps1_3 : List (HloOp τ sig (Elt F))).Forall fun op => Proc.devRef .tc main_arg9 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg9 : (hostOps1_4 : List (HloOp τ sig (Elt F))).Forall fun op => Proc.devRef .tc main_arg9 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg9 : ∀ op ∈ (tailOps : List (List (HloOp τ sig (Elt F)))).flatten, Proc.devRef .tc main_arg9 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg9) op hop
  · exact (List.forall_iff_forall_mem.mp hostOps1_1_keeps_arg9) op hop
  · exact (List.forall_iff_forall_mem.mp hostOps1_2_keeps_arg9) op hop
  · exact (List.forall_iff_forall_mem.mp hostOps1_3_keeps_arg9) op hop
  · exact (List.forall_iff_forall_mem.mp hostOps1_4_keeps_arg9) op hop
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_forall_not_mem (b := Proc.devRef .tc main_arg9) _ _ (tail_keeps_arg9),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, its block index
    has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, its block index
    has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, its block index
    has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, its block index
    has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, its block index
    has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, its block index
    has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (unfetched, its block index
    has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not (unfetched, its block index
    has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not (unfetched, its block index
    has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post read at the ten argument arrays: a staged argument by the library's reading of an input
    window's array, any other by the post's second clause, then by the two facts that no host line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).1 6).trans (((dats 0 c).arrAt_in 6 rfl _).trans ((hA c 6).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses: every load and store takes a window's whole block -/
abbrev r_0 : Rect S80x12544 := Rect.unit (s := S80x12544) ![0, 0] S80x12544.size inb_S80x12544_S80x12544_0_0
abbrev r_1 : Rect S12544x1024 := Rect.unit (s := S12544x1024) ![0, 0] S12544x1024.size inb_S12544x1024_S12544x1024_0_0
abbrev r_2 : Rect S1024 := Rect.unit (s := S1024) ![0] S1024.size inb_S1024_S1024_0
abbrev r_3 : Rect S1024x1024 := Rect.unit (s := S1024x1024) ![0, 0] S1024x1024.size inb_S1024x1024_S1024x1024_0_0
abbrev r_4 : Rect S1024 := Rect.unit (s := S1024) ![0] S1024.size inb_S1024_S1024_0
abbrev r_5 : Rect S1024x81 := Rect.unit (s := S1024x81) ![0, 0] S1024x81.size inb_S1024x81_S1024x81_0_0
abbrev r_6 : Rect S81 := Rect.unit (s := S81) ![0] S81.size inb_S81_S81_0
abbrev r_7 : Rect S1024x320 := Rect.unit (s := S1024x320) ![0, 0] S1024x320.size inb_S1024x320_S1024x320_0_0
abbrev r_8 : Rect S320 := Rect.unit (s := S320) ![0] S320.size inb_S320_S320_0
abbrev r_9 : Rect S80x1024 := Rect.unit (s := S80x1024) ![0, 0] S80x1024.size inb_S80x1024_S80x1024_0_0
abbrev r_10 : Rect S80x81 := Rect.unit (s := S80x81) ![0, 0] S80x81.size inb_S80x81_S80x81_0_0
abbrev r_11 : Rect S80x320 := Rect.unit (s := S80x320) ![0, 0] S80x320.size inb_S80x320_S80x320_0_0

/-! ## What the body leaves in each output window's buffer -/

/-- The f6 block: relu of the x block times W6 plus b6 (the skeleton's `k0_pay3`), stored whole. -/
def out0_9 (x0 : Vec F S80x12544 .bf16) (x1 : Vec F S12544x1024 .bf16) (x2 : Vec F S1024 .f32) : Vec F S80x1024 .f32 :=
  View.canon [⟨r_9, k0_pay3 (View.ld x0 r_0) (View.ld x1 r_1) (View.ld x2 r_2)⟩]
/-- The class-probability block: the exponentials divided by their row sums, stored whole. -/
def out0_10 (x0 : Vec F S80x12544 .bf16) (x1 : Vec F S12544x1024 .bf16) (x2 : Vec F S1024 .f32) (x3 : Vec F S1024x1024 .bf16) (x4 : Vec F S1024 .f32) (x5 : Vec F S1024x81 .bf16) (x6 : Vec F S81 .f32) : Vec F S80x81 .f32 :=
  View.canon [⟨r_10, k0_pay1 (k0_pay5 (View.ld x0 r_0) (View.ld x1 r_1) (View.ld x2 r_2) (View.ld x3 r_3) (View.ld x4 r_4) (View.ld x5 r_5) (View.ld x6 r_6)) (k0_pay6 (View.ld x0 r_0) (View.ld x1 r_1) (View.ld x2 r_2) (View.ld x3 r_3) (View.ld x4 r_4) (View.ld x5 r_5) (View.ld x6 r_6))⟩]
/-- The box-regression block: the f7 block times the sliced box weights plus the sliced bias, stored whole. -/
def out0_11 (x0 : Vec F S80x12544 .bf16) (x1 : Vec F S12544x1024 .bf16) (x2 : Vec F S1024 .f32) (x3 : Vec F S1024x1024 .bf16) (x4 : Vec F S1024 .f32) (x7 : Vec F S1024x320 .bf16) (x8 : Vec F S320 .f32) : Vec F S80x320 .f32 :=
  View.canon [⟨r_11, k0_pay2 (k0_pay4 (View.ld x0 r_0) (View.ld x1 r_1) (View.ld x2 r_2) (View.ld x3 r_3) (View.ld x4 r_4)) (View.ld x7 r_7) (View.ld x8 r_8)⟩]

theorem cover0_9 (p0 : Vec F S80x1024 .f32) (y : S80x1024.Idx) :
    ∃ pc ∈ ([⟨r_9, p0⟩] : List (View.Piece (Elt F) S80x1024 .f32)), y ∈ pc.1.set :=
  View.cover_of_tiled [⟨r_9, p0⟩] S80x1024.size (by rfl) y
theorem cover0_10 (p0 : Vec F S80x81 .f32) (y : S80x81.Idx) :
    ∃ pc ∈ ([⟨r_10, p0⟩] : List (View.Piece (Elt F) S80x81 .f32)), y ∈ pc.1.set :=
  View.cover_of_tiled [⟨r_10, p0⟩] S80x81.size (by rfl) y
theorem cover0_11 (p0 : Vec F S80x320 .f32) (y : S80x320.Idx) :
    ∃ pc ∈ ([⟨r_11, p0⟩] : List (View.Piece (Elt F) S80x320 .f32)), y ∈ pc.1.set :=
  View.cover_of_tiled [⟨r_11, p0⟩] S80x320.size (by rfl) y

/-! ## The body's triple -/

set_option maxHeartbeats 4000000 in
/-- The body on whole staging memrefs, the inputs' at contents `xW` and the outputs' at anything (it loads them and
    discards what it loaded), runs to the continuation holding the inputs' as they were and each output's at its block. -/
theorem sound_kernel (c : Dev nD) (E : Set ℕ) (i : grid0.Coords) (arg1 : Memref sig .tc .vmem S80x12544 .bf16) (harg1 : arg1.IsWhole) (arg2 : Memref sig .tc .vmem S12544x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x81 .bf16) (harg6 : arg6.IsWhole) (arg7 : Memref sig .tc .vmem S81 .f32) (harg7 : arg7.IsWhole) (arg8 : Memref sig .tc .vmem S1024x320 .bf16) (harg8 : arg8.IsWhole) (arg9 : Memref sig .tc .vmem S320 .f32) (harg9 : arg9.IsWhole) (arg10 : Memref sig .tc .vmem S80x1024 .f32) (harg10 : arg10.IsWhole) (arg11 : Memref sig .tc .vmem S80x81 .f32) (harg11 : arg11.IsWhole) (arg12 : Memref sig .tc .vmem S80x320 .f32) (harg12 : arg12.IsWhole)
    (x0 : Vec F S80x12544 .bf16) (x1 : Vec F S12544x1024 .bf16) (x2 : Vec F S1024 .f32) (x3 : Vec F S1024x1024 .bf16) (x4 : Vec F S1024 .f32) (x5 : Vec F S1024x81 .bf16) (x6 : Vec F S81 .f32) (x7 : Vec F S1024x320 .bf16) (x8 : Vec F S320 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2) ∗ owns (c : Thread nD τ) arg11 fullShare (out0_10 x0 x1 x2 x3 x4 x5 x6) ∗ owns (c : Thread nD τ) arg12 fullShare (out0_11 x0 x1 x2 x3 x4 x7 x8)) -∗ K ⟨⟩))
      ⊢ wp frame (wpE (defs₀ (F := F)) Variants.none c none) E (cc0__roi_head_kernel i arg1 harg1 arg2 harg2 arg3 harg3 arg4 harg4 arg5 harg5 arg6 harg6 arg7 harg7 arg8 harg8 arg9 harg9 arg10 harg10 arg11 harg11 arg12 harg12) K := by
  simp only [cc0__roi_head_kernel_eq_skeleton]; unfold cc0__roi_head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The arrays as the region finds them; after the body at point `t` each input's buffer at its block and each
    output's at its block computed from the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the grid points wrote
    back, every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Fr

end
-- ==== Proof.FrameKI.lean ====
/-
  The frame of the ROI-head program: @main is eight host lines (a reshape, five changes of float format, two column
  slices), ONE region over a grid of 25 row tiles, and 118 host lines after it. The region's body loads its nine input
  blocks whole, stores each of its three output blocks whole (a block of f6, of the class probabilities, of the box
  regression), and keeps nothing between grid points, so what each output's buffer holds after the body is one
  function of the input blocks at that point (`out0_9`, `out0_10`, `out0_11`: the body's arithmetic, named in the
  skeleton). The host lines after the region write only fresh result buffers: they write no array of the pipeline and no
  argument. Hence every weakly fair execution terminates with every argument array as launched, every output array of
  the region at the blocks the grid points wrote, and every later buffer at the host lines' composed value.
  Stated for any float instance `F`.
-/
import proofs.«160000_j26036091748769_1_alg».proof.Proof.Gen.KernelIdeal.Launch
import proofs.«160000_j26036091748769_1_alg».proof.Proof.Gen.KernelIdeal.Skeleton
import proofs.«160000_j26036091748769_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: the launch contents after the eight host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
set_option maxHeartbeats 4000000 in
theorem hostOps1_3_fresh : (hostOps1_3 : List (HloOp τ sig (Elt F))).Forall fun op => op.fresh = ∅ := by
  simp only [List.Forall]; repeat' constructor
set_option maxHeartbeats 4000000 in
theorem hostOps1_4_fresh : (hostOps1_4 : List (HloOp τ sig (Elt F))).Forall fun op => op.fresh = ∅ := by
  simp only [List.Forall]; repeat' constructor

/-- @main reduces to the region continued by the later host lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later host line touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
set_option maxHeartbeats 40000000 in
/-- No line of this stretch writes an array of the pipeline: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
set_option maxHeartbeats 40000000 in
/-- No line of this stretch writes an array of the pipeline: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; refine StableHlo.devRef_ne_of_ne ?_; revert w; decide)
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line writes the buffer `b` when `b` is none of the lines' result buffers. -/
theorem pre_not_writes (b : Ref sig .tc)
    (hb : (hostOps0 : List (HloOp τ sig (Elt F))).Forall fun op => Proc.devRef .tc b ∉ op.writes) (c : Dev nD) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem V_main_arg0 (c : Dev nD) : V m c main_arg0 = m ((c : Thread nD τ).loc main_arg0) :=
  pre_not_writes m main_arg0 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg0 : (hostOps1 : List (HloOp τ sig (Elt F))).Forall fun op => Proc.devRef .tc main_arg0 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg0 : (hostOps1_1 : List (HloOp τ sig (Elt F))).Forall fun op => Proc.devRef .tc main_arg0 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg0 : (hostOps1_2 : List (HloOp τ sig (Elt F))).Forall fun op => Proc.devRef .tc main_arg0 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg0 : (hostOps1_3 : List (HloOp τ sig (Elt F))).Forall fun op => Proc.devRef .tc main_arg0 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg0 : (hostOps1_4 : List (HloOp τ sig (Elt F))).Forall fun op => Proc.devRef .tc main_arg0 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg0 : ∀ op ∈ (tailOps : List (List (HloOp τ sig (Elt F)))).flatten, Proc.devRef .tc main_arg0 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg0) op hop
  · exact (List.forall_iff_forall_mem.mp hostOps1_1_keeps_arg0) op hop
  · exact (List.forall_iff_forall_mem.mp hostOps1_2_keeps_arg0) op hop
  · exact (List.forall_iff_forall_mem.mp hostOps1_3_keeps_arg0) op hop
  · exact (List.forall_iff_forall_mem.mp hostOps1_4_keeps_arg0) op hop
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps_arg0),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  pre_not_writes m main_arg1 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg1 : (hostOps1 : List (HloOp τ sig (Elt F))).Forall fun op => Proc.devRef .tc main_arg1 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg1 : (hostOps1_1 : List (HloOp τ sig (Elt F))).Forall fun op => Proc.devRef .tc main_arg1 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg1 : (hostOps1_2 : List (HloOp τ sig (Elt F))).Forall fun op => Proc.devRef .tc main_arg1 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg1 : (hostOps1_3 : List (HloOp τ sig (Elt F))).Forall fun op => Proc.devRef .tc main_arg1 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg1 : (hostOps1_4 : List (HloOp τ sig (Elt F))).Forall fun op => Proc.devRef .tc main_arg1 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg1 : ∀ op ∈ (tailOps : List (List (HloOp τ sig (Elt F)))).flatten, Proc.devRef .tc main_arg1 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_4_keeps_arg1) op hop
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps_arg1),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  pre_not_writes m main_arg2 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg2 : (hostOps1 : List (HloOp τ sig (Elt F))).Forall fun op => Proc.devRef .tc main_arg2 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg2 : (hostOps1_1 : List (HloOp τ sig (Elt F))).Forall fun op => Proc.devRef .tc main_arg2 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg2 : (hostOps1_2 : List (HloOp τ sig (Elt F))).Forall fun op => Proc.devRef .tc main_arg2 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg2 : (hostOps1_3 : List (HloOp τ sig (Elt F))).Forall fun op => Proc.devRef .tc main_arg2 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg2 : (hostOps1_4 : List (HloOp τ sig (Elt F))).Forall fun op => Proc.devRef .tc main_arg2 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg2 : ∀ op ∈ (tailOps : List (List (HloOp τ sig (Elt F)))).flatten, Proc.devRef .tc main_arg2 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg2) op hop
  · exact (List.forall_iff_forall_mem.mp hostOps1_1_keeps_arg2) op hop
  · exact (List.forall_iff_forall_mem.mp hostOps1_2_keeps_arg2) op hop
  · exact (List.forall_iff_forall_mem.mp hostOps1_3_keeps_arg2) op hop
  · exact (List.forall_iff_forall_mem.mp hostOps1_4_keeps_arg2) op hop
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps_arg2),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  pre_not_writes m main_arg3 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg3 : (hostOps1 : List (HloOp τ sig (Elt F))).Forall fun op => Proc.devRef .tc main_arg3 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg3 : (hostOps1_1 : List (HloOp τ sig (Elt F))).Forall fun op => Proc.devRef .tc main_arg3 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg3 : (hostOps1_2 : List (HloOp τ sig (Elt F))).Forall fun op => Proc.devRef .tc main_arg3 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg3 : (hostOps1_3 : List (HloOp τ sig (Elt F))).Forall fun op => Proc.devRef .tc main_arg3 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg3 : (hostOps1_4 : List (HloOp τ sig (Elt F))).Forall fun op => Proc.devRef .tc main_arg3 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg3 : ∀ op ∈ (tailOps : List (List (HloOp τ sig (Elt F)))).flatten, Proc.devRef .tc main_arg3 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg3) op hop
  · exact (List.forall_iff_forall_mem.mp hostOps1_1_keeps_arg3) op hop
  · exact (List.forall_iff_forall_mem.mp hostOps1_2_keeps_arg3) op hop
  · exact (List.forall_iff_forall_mem.mp hostOps1_3_keeps_arg3) op hop
  · exact (List.forall_iff_forall_mem.mp hostOps1_4_keeps_arg3) op hop

theorem V_main_arg4 (c : Dev nD) : V m c main_arg4 = m ((c : Thread nD τ).loc main_arg4) :=
  pre_not_writes m main_arg4 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg4 : (hostOps1 : List (HloOp τ sig (Elt F))).Forall fun op => Proc.devRef .tc main_arg4 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg4 : (hostOps1_1 : List (HloOp τ sig (Elt F))).Forall fun op => Proc.devRef .tc main_arg4 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg4 : (hostOps1_2 : List (HloOp τ sig (Elt F))).Forall fun op => Proc.devRef .tc main_arg4 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg4 : (hostOps1_3 : List (HloOp τ sig (Elt F))).Forall fun op => Proc.devRef .tc main_arg4 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg4 : (hostOps1_4 : List (HloOp τ sig (Elt F))).Forall fun op => Proc.devRef .tc main_arg4 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg4 : ∀ op ∈ (tailOps : List (List (HloOp τ sig (Elt F)))).flatten, Proc.devRef .tc main_arg4 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg4) op hop
  · exact (List.forall_iff_forall_mem.mp hostOps1_1_keeps_arg4) op hop
  · exact (List.forall_iff_forall_mem.mp hostOps1_2_keeps_arg4) op hop
  · exact (List.forall_iff_forall_mem.mp hostOps1_3_keeps_arg4) op hop
  · exact (List.forall_iff_forall_mem.mp hostOps1_4_keeps_arg4) op hop
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_keeps_arg4),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  pre_not_writes m main_arg5 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg5 : (hostOps1 : List (HloOp τ sig (Elt F))).Forall fun op => Proc.devRef .tc main_arg5 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg5 : (hostOps1_1 : List (HloOp τ sig (Elt F))).Forall fun op => Proc.devRef .tc main_arg5 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg5 : (hostOps1_2 : List (HloOp τ sig (Elt F))).Forall fun op => Proc.devRef .tc main_arg5 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg5 : (hostOps1_3 : List (HloOp τ sig (Elt F))).Forall fun op => Proc.devRef .tc main_arg5 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg5 : (hostOps1_4 : List (HloOp τ sig (Elt F))).Forall fun op => Proc.devRef .tc main_arg5 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg5 : ∀ op ∈ (tailOps : List (List (HloOp τ sig (Elt F)))).flatten, Proc.devRef .tc main_arg5 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg5) op hop
  · exact (List.forall_iff_forall_mem.mp hostOps1_1_keeps_arg5) op hop
  · exact (List.forall_iff_forall_mem.mp hostOps1_2_keeps_arg5) op hop
  · exact (List.forall_iff_forall_mem.mp hostOps1_3_keeps_arg5) op hop
  · exact (List.forall_iff_forall_mem.mp hostOps1_4_keeps_arg5) op hop

theorem V_main_arg6 (c : Dev nD) : V m c main_arg6 = m ((c : Thread nD τ).loc main_arg6) :=
  pre_not_writes m main_arg6 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg6 : (hostOps1 : List (HloOp τ sig (Elt F))).Forall fun op => Proc.devRef .tc main_arg6 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg6 : (hostOps1_1 : List (HloOp τ sig (Elt F))).Forall fun op => Proc.devRef .tc main_arg6 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg6 : (hostOps1_2 : List (HloOp τ sig (Elt F))).Forall fun op => Proc.devRef .tc main_arg6 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg6 : (hostOps1_3 : List (HloOp τ sig (Elt F))).Forall fun op => Proc.devRef .tc main_arg6 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg6 : (hostOps1_4 : List (HloOp τ sig (Elt F))).Forall fun op => Proc.devRef .tc main_arg6 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg6 : ∀ op ∈ (tailOps : List (List (HloOp τ sig (Elt F)))).flatten, Proc.devRef .tc main_arg6 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg6) op hop
  · exact (List.forall_iff_forall_mem.mp hostOps1_1_keeps_arg6) op hop
  · exact (List.forall_iff_forall_mem.mp hostOps1_2_keeps_arg6) op hop
  · exact (List.forall_iff_forall_mem.mp hostOps1_3_keeps_arg6) op hop
  · exact (List.forall_iff_forall_mem.mp hostOps1_4_keeps_arg6) op hop
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (tail_keeps_arg6),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  pre_not_writes m main_arg7 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg7 : (hostOps1 : List (HloOp τ sig (Elt F))).Forall fun op => Proc.devRef .tc main_arg7 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg7 : (hostOps1_1 : List (HloOp τ sig (Elt F))).Forall fun op => Proc.devRef .tc main_arg7 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg7 : (hostOps1_2 : List (HloOp τ sig (Elt F))).Forall fun op => Proc.devRef .tc main_arg7 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg7 : (hostOps1_3 : List (HloOp τ sig (Elt F))).Forall fun op => Proc.devRef .tc main_arg7 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg7 : (hostOps1_4 : List (HloOp τ sig (Elt F))).Forall fun op => Proc.devRef .tc main_arg7 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg7 : ∀ op ∈ (tailOps : List (List (HloOp τ sig (Elt F)))).flatten, Proc.devRef .tc main_arg7 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg7) op hop
  · exact (List.forall_iff_forall_mem.mp hostOps1_1_keeps_arg7) op hop
  · exact (List.forall_iff_forall_mem.mp hostOps1_2_keeps_arg7) op hop
  · exact (List.forall_iff_forall_mem.mp hostOps1_3_keeps_arg7) op hop
  · exact (List.forall_iff_forall_mem.mp hostOps1_4_keeps_arg7) op hop

theorem V_main_arg8 (c : Dev nD) : V m c main_arg8 = m ((c : Thread nD τ).loc main_arg8) :=
  pre_not_writes m main_arg8 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg8 : (hostOps1 : List (HloOp τ sig (Elt F))).Forall fun op => Proc.devRef .tc main_arg8 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg8 : (hostOps1_1 : List (HloOp τ sig (Elt F))).Forall fun op => Proc.devRef .tc main_arg8 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg8 : (hostOps1_2 : List (HloOp τ sig (Elt F))).Forall fun op => Proc.devRef .tc main_arg8 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg8 : (hostOps1_3 : List (HloOp τ sig (Elt F))).Forall fun op => Proc.devRef .tc main_arg8 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg8 : (hostOps1_4 : List (HloOp τ sig (Elt F))).Forall fun op => Proc.devRef .tc main_arg8 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg8 : ∀ op ∈ (tailOps : List (List (HloOp τ sig (Elt F)))).flatten, Proc.devRef .tc main_arg8 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg8) op hop
  · exact (List.forall_iff_forall_mem.mp hostOps1_1_keeps_arg8) op hop
  · exact (List.forall_iff_forall_mem.mp hostOps1_2_keeps_arg8) op hop
  · exact (List.forall_iff_forall_mem.mp hostOps1_3_keeps_arg8) op hop
  · exact (List.forall_iff_forall_mem.mp hostOps1_4_keeps_arg8) op hop
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (tail_keeps_arg8),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  pre_not_writes m main_arg9 (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)) c
set_option maxHeartbeats 40000000 in
theorem hostOps1_keeps_arg9 : (hostOps1 : List (HloOp τ sig (Elt F))).Forall fun op => Proc.devRef .tc main_arg9 ∉ op.writes := by
  simp only [hostOps1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_1_keeps_arg9 : (hostOps1_1 : List (HloOp τ sig (Elt F))).Forall fun op => Proc.devRef .tc main_arg9 ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_2_keeps_arg9 : (hostOps1_2 : List (HloOp τ sig (Elt F))).Forall fun op => Proc.devRef .tc main_arg9 ∉ op.writes := by
  simp only [hostOps1_2, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_3_keeps_arg9 : (hostOps1_3 : List (HloOp τ sig (Elt F))).Forall fun op => Proc.devRef .tc main_arg9 ∉ op.writes := by
  simp only [hostOps1_3, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps1_4_keeps_arg9 : (hostOps1_4 : List (HloOp τ sig (Elt F))).Forall fun op => Proc.devRef .tc main_arg9 ∉ op.writes := by
  simp only [hostOps1_4, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem tail_keeps_arg9 : ∀ op ∈ (tailOps : List (List (HloOp τ sig (Elt F)))).flatten, Proc.devRef .tc main_arg9 ∉ op.writes := by
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_keeps_arg9) op hop
  · exact (List.forall_iff_forall_mem.mp hostOps1_1_keeps_arg9) op hop
  · exact (List.forall_iff_forall_mem.mp hostOps1_2_keeps_arg9) op hop
  · exact (List.forall_iff_forall_mem.mp hostOps1_3_keeps_arg9) op hop
  · exact (List.forall_iff_forall_mem.mp hostOps1_4_keeps_arg9) op hop
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_forall_not_mem (b := Proc.devRef .tc main_arg9) _ _ (tail_keeps_arg9),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, its block index
    has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, its block index
    has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, its block index
    has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, its block index
    has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, its block index
    has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, its block index
    has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (unfetched, its block index
    has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not (unfetched, its block index
    has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not (unfetched, its block index
    has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post read at the ten argument arrays: a staged argument by the library's reading of an input
    window's array, any other by the post's second clause, then by the two facts that no host line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).1 6).trans (((dats 0 c).arrAt_in 6 rfl _).trans ((hA c 6).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses: every load and store takes a window's whole block -/
abbrev r_0 : Rect S80x12544 := Rect.unit (s := S80x12544) ![0, 0] S80x12544.size inb_S80x12544_S80x12544_0_0
abbrev r_1 : Rect S12544x1024 := Rect.unit (s := S12544x1024) ![0, 0] S12544x1024.size inb_S12544x1024_S12544x1024_0_0
abbrev r_2 : Rect S1024 := Rect.unit (s := S1024) ![0] S1024.size inb_S1024_S1024_0
abbrev r_3 : Rect S1024x1024 := Rect.unit (s := S1024x1024) ![0, 0] S1024x1024.size inb_S1024x1024_S1024x1024_0_0
abbrev r_4 : Rect S1024 := Rect.unit (s := S1024) ![0] S1024.size inb_S1024_S1024_0
abbrev r_5 : Rect S1024x81 := Rect.unit (s := S1024x81) ![0, 0] S1024x81.size inb_S1024x81_S1024x81_0_0
abbrev r_6 : Rect S81 := Rect.unit (s := S81) ![0] S81.size inb_S81_S81_0
abbrev r_7 : Rect S1024x320 := Rect.unit (s := S1024x320) ![0, 0] S1024x320.size inb_S1024x320_S1024x320_0_0
abbrev r_8 : Rect S320 := Rect.unit (s := S320) ![0] S320.size inb_S320_S320_0
abbrev r_9 : Rect S80x1024 := Rect.unit (s := S80x1024) ![0, 0] S80x1024.size inb_S80x1024_S80x1024_0_0
abbrev r_10 : Rect S80x81 := Rect.unit (s := S80x81) ![0, 0] S80x81.size inb_S80x81_S80x81_0_0
abbrev r_11 : Rect S80x320 := Rect.unit (s := S80x320) ![0, 0] S80x320.size inb_S80x320_S80x320_0_0

/-! ## What the body leaves in each output window's buffer -/

/-- The f6 block: relu of the x block times W6 plus b6 (the skeleton's `k0_pay3`), stored whole. -/
def out0_9 (x0 : Vec F S80x12544 .bf16) (x1 : Vec F S12544x1024 .bf16) (x2 : Vec F S1024 .f32) : Vec F S80x1024 .f32 :=
  View.canon [⟨r_9, k0_pay3 (View.ld x0 r_0) (View.ld x1 r_1) (View.ld x2 r_2)⟩]
/-- The class-probability block: the exponentials divided by their row sums, stored whole. -/
def out0_10 (x0 : Vec F S80x12544 .bf16) (x1 : Vec F S12544x1024 .bf16) (x2 : Vec F S1024 .f32) (x3 : Vec F S1024x1024 .bf16) (x4 : Vec F S1024 .f32) (x5 : Vec F S1024x81 .bf16) (x6 : Vec F S81 .f32) : Vec F S80x81 .f32 :=
  View.canon [⟨r_10, k0_pay1 (k0_pay5 (View.ld x0 r_0) (View.ld x1 r_1) (View.ld x2 r_2) (View.ld x3 r_3) (View.ld x4 r_4) (View.ld x5 r_5) (View.ld x6 r_6)) (k0_pay6 (View.ld x0 r_0) (View.ld x1 r_1) (View.ld x2 r_2) (View.ld x3 r_3) (View.ld x4 r_4) (View.ld x5 r_5) (View.ld x6 r_6))⟩]
/-- The box-regression block: the f7 block times the sliced box weights plus the sliced bias, stored whole. -/
def out0_11 (x0 : Vec F S80x12544 .bf16) (x1 : Vec F S12544x1024 .bf16) (x2 : Vec F S1024 .f32) (x3 : Vec F S1024x1024 .bf16) (x4 : Vec F S1024 .f32) (x7 : Vec F S1024x320 .bf16) (x8 : Vec F S320 .f32) : Vec F S80x320 .f32 :=
  View.canon [⟨r_11, k0_pay2 (k0_pay4 (View.ld x0 r_0) (View.ld x1 r_1) (View.ld x2 r_2) (View.ld x3 r_3) (View.ld x4 r_4)) (View.ld x7 r_7) (View.ld x8 r_8)⟩]

theorem cover0_9 (p0 : Vec F S80x1024 .f32) (y : S80x1024.Idx) :
    ∃ pc ∈ ([⟨r_9, p0⟩] : List (View.Piece (Elt F) S80x1024 .f32)), y ∈ pc.1.set :=
  View.cover_of_tiled [⟨r_9, p0⟩] S80x1024.size (by rfl) y
theorem cover0_10 (p0 : Vec F S80x81 .f32) (y : S80x81.Idx) :
    ∃ pc ∈ ([⟨r_10, p0⟩] : List (View.Piece (Elt F) S80x81 .f32)), y ∈ pc.1.set :=
  View.cover_of_tiled [⟨r_10, p0⟩] S80x81.size (by rfl) y
theorem cover0_11 (p0 : Vec F S80x320 .f32) (y : S80x320.Idx) :
    ∃ pc ∈ ([⟨r_11, p0⟩] : List (View.Piece (Elt F) S80x320 .f32)), y ∈ pc.1.set :=
  View.cover_of_tiled [⟨r_11, p0⟩] S80x320.size (by rfl) y

/-! ## The body's triple -/

set_option maxHeartbeats 4000000 in
/-- The body on whole staging memrefs, the inputs' at contents `xW` and the outputs' at anything (it loads them and
    discards what it loaded), runs to the continuation holding the inputs' as they were and each output's at its block. -/
theorem sound_kernel (c : Dev nD) (E : Set ℕ) (i : grid0.Coords) (arg1 : Memref sig .tc .vmem S80x12544 .bf16) (harg1 : arg1.IsWhole) (arg2 : Memref sig .tc .vmem S12544x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x81 .bf16) (harg6 : arg6.IsWhole) (arg7 : Memref sig .tc .vmem S81 .f32) (harg7 : arg7.IsWhole) (arg8 : Memref sig .tc .vmem S1024x320 .bf16) (harg8 : arg8.IsWhole) (arg9 : Memref sig .tc .vmem S320 .f32) (harg9 : arg9.IsWhole) (arg10 : Memref sig .tc .vmem S80x1024 .f32) (harg10 : arg10.IsWhole) (arg11 : Memref sig .tc .vmem S80x81 .f32) (harg11 : arg11.IsWhole) (arg12 : Memref sig .tc .vmem S80x320 .f32) (harg12 : arg12.IsWhole)
    (x0 : Vec F S80x12544 .bf16) (x1 : Vec F S12544x1024 .bf16) (x2 : Vec F S1024 .f32) (x3 : Vec F S1024x1024 .bf16) (x4 : Vec F S1024 .f32) (x5 : Vec F S1024x81 .bf16) (x6 : Vec F S81 .f32) (x7 : Vec F S1024x320 .bf16) (x8 : Vec F S320 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2) ∗ owns (c : Thread nD τ) arg11 fullShare (out0_10 x0 x1 x2 x3 x4 x5 x6) ∗ owns (c : Thread nD τ) arg12 fullShare (out0_11 x0 x1 x2 x3 x4 x7 x8)) -∗ K ⟨⟩))
      ⊢ wp frame (wpE (defs₀ (F := F)) Variants.none c none) E (cc0__roi_head_kernel i arg1 harg1 arg2 harg2 arg3 harg3 arg4 harg4 arg5 harg5 arg6 harg6 arg7 harg7 arg8 harg8 arg9 harg9 arg10 harg10 arg11 harg11 arg12 harg12) K := by
  simp only [cc0__roi_head_kernel_eq_skeleton]; unfold cc0__roi_head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The arrays as the region finds them; after the body at point `t` each input's buffer at its block and each
    output's at its block computed from the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the grid points wrote
    back, every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Fr

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«160000_j26036091748769_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibMlpLayers.lean ====
/-
  The layers of a small perceptron as a kernel body prints them, read at an entry on the extended reals.

  A kernel loads a layer's bias as a vector `[N]`, casts it to the one row `[1, N]` and broadcasts that row over the
  `M` rows of a `tpu.matmul` into the zero accumulator. Read at `(p, c)` the sum is over the contracted coordinate of
  left `(p, k)` times right `(k, c)`, plus the bias at `c` (`Cert.Lib.DenseLayer.layer_apply`, which this file
  imports, with the cast of the vector to a row read back): `linear_apply`; under `math.tanh`: `tanh_layer_apply`.
  A read-out layer has ONE output column: its matmul is `[M, K] × [K, 1]`, two scalars `[1]` are each cast to
  `[1, 1]`, broadcast down the column and added, and the column `[M, 1]` is cast to the vector `[M]`; read at `p` it is
  the sum over `k` of left `(p, k)` times right `(k, 0)`, plus the first scalar, plus the second: `readout_apply`.
  `shapeCast_a1_a_apply` is the cast of a column to a vector read at an index. Every statement takes the
  contraction record through the six facts of a plain matrix product, each decidable at a literal record, and the
  operands at any float formats (a change of format is the identity on the extended reals).
-/
import proofs.«160000_j26036091748769_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.MlpLayers

open Idealize.ShloMosaic Idealize.ShloMosaic.ValueIdx

/-- A column `[a, 1]` cast to the vector `[a]` reads, at `i`, the column at `(i, 0)`: the two indices have the same
    row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A matmul into the zero accumulator plus a bias VECTOR `[N]` (cast to a row, the row broadcast over the rows),
    read at `(p, c)`: the sum over the contracted coordinate, plus the vector at `c`. -/
theorem linear_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    addf (matmul D none L R (constant (F := Ideal) ⟨2, ![M, N]⟩ .f32 0x00000000#32))
        (broadcastTo ⟨2, ![M, N]⟩ (shapeCast ⟨2, ![1, N]⟩ b hc) hb) (ix2 p c)
      = (∑ k : Fin K, L (ix2 p k) * R (ix2 k c)) + b (ix1 c) := by
  rw [Cert.Lib.DenseLayer.layer_apply D hr hs hl0 hl1 hr0 hr1 L R _ hb p c, shapeCast_a_1a_apply]

/-- The same under `math.tanh`: a hidden unit. -/
theorem tanh_layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    tanh (addf (matmul D none L R (constant (F := Ideal) ⟨2, ![M, N]⟩ .f32 0x00000000#32))
        (broadcastTo ⟨2, ![M, N]⟩ (shapeCast ⟨2, ![1, N]⟩ b hc) hb)) (ix2 p c)
      = Ideal.tanh ((∑ k : Fin K, L (ix2 p k) * R (ix2 k c)) + b (ix1 c)) :=
  congrArg Ideal.tanh (linear_apply D hr hs hl0 hl1 hr0 hr1 L R b hc hb p c)

/-- A read-out: a matmul `[M, K] × [K, 1]` into zero, plus two scalars `[1]` each cast to `[1, 1]` and broadcast
    down the column, the column cast to the vector `[M]`; read at `p`: the sum over the contracted coordinate of left
    `(p, k)` times right `(k, 0)`, plus the first scalar, plus the second. -/
theorem readout_apply {M K : ℕ} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    {φ₁ φ₂ : FTy} (L : FVec Ideal ⟨2, ![M, K]⟩ φ₁) (R : FVec Ideal ⟨2, ![K, 1]⟩ φ₂)
    (b s : FVec Ideal ⟨1, ![1]⟩ .f32) (hc : (⟨1, ![1]⟩ : Shape).ShapeCasts ⟨2, ![1, 1]⟩)
    (hb : (⟨2, ![1, 1]⟩ : Shape).Broadcasts ⟨2, ![M, 1]⟩) (hv : (⟨2, ![M, 1]⟩ : Shape).ShapeCasts ⟨1, ![M]⟩)
    (p : Fin M) :
    shapeCast ⟨1, ![M]⟩ (addf (addf (matmul D none L R (constant (F := Ideal) ⟨2, ![M, 1]⟩ .f32 0x00000000#32))
        (broadcastTo ⟨2, ![M, 1]⟩ (shapeCast ⟨2, ![1, 1]⟩ b hc) hb))
        (broadcastTo ⟨2, ![M, 1]⟩ (shapeCast ⟨2, ![1, 1]⟩ s hc) hb)) hv (ix1 p)
      = (∑ k : Fin K, L (ix2 p k) * R (ix2 k (0 : Fin 1))) + b (ix1 (0 : Fin 1)) + s (ix1 (0 : Fin 1)) := by
  rw [shapeCast_a1_a_apply, addf_apply, linear_apply D hr hs hl0 hl1 hr0 hr1 L R b hc hb p 0,
    broadcastTo_1b_ab_apply, shapeCast_a_1a_apply]

end Cert.Lib.MlpLayers

end
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.BodySpec.lean ====
/-
  The head's per-row arithmetic on the extended reals, as plain functions of one input row.

  A dense layer sends a row `a : Fin K → EReal` to `n ↦ (∑ k, a k * W k n) + b n`; the two hidden layers clamp
  it below at zero. The class scores are the row-wise softmax of a third dense layer; the box deltas a fourth.
  Every entry of the result at row `r` is a function of row `r` of the input alone, so a block of rows and the
  whole array agree wherever their rows agree.
-/
import proofs.«160000_j26036091748769_1_alg».proof.Proof.LibRowSoftmax

noncomputable section

namespace Cert.Body

open Idealize.ShloMosaic

/-- The float word of zero read at the ideal values (the same word on every side; never evaluated). -/
abbrev zeroW : EReal := Ideal.ofBits .f32 0x00000000#32

/-- One dense layer on a row: `n ↦ (∑ k, a k * W k n) + b n`. -/
def lin {K N : ℕ} (a : Fin K → EReal) (W : Fin K → Fin N → EReal) (b : Fin N → EReal) (n : Fin N) : EReal :=
  (∑ k : Fin K, a k * W k n) + b n

/-- A dense layer clamped below at zero. -/
def reluLin {K N : ℕ} (a : Fin K → EReal) (W : Fin K → Fin N → EReal) (b : Fin N → EReal) (n : Fin N) : EReal :=
  max (lin a W b n) zeroW

/-- The first hidden layer of one row. -/
def f6Row (x : Fin 12544 → EReal) (W6 : Fin 12544 → Fin 1024 → EReal) (b6 : Fin 1024 → EReal) : Fin 1024 → EReal :=
  reluLin x W6 b6

/-- The second hidden layer of one row. -/
def f7Row (x : Fin 12544 → EReal) (W6 : Fin 12544 → Fin 1024 → EReal) (b6 : Fin 1024 → EReal)
    (W7 : Fin 1024 → Fin 1024 → EReal) (b7 : Fin 1024 → EReal) : Fin 1024 → EReal :=
  reluLin (f6Row x W6 b6) W7 b7

/-- The class logits of one row. -/
def logitRow (x : Fin 12544 → EReal) (W6 : Fin 12544 → Fin 1024 → EReal) (b6 : Fin 1024 → EReal)
    (W7 : Fin 1024 → Fin 1024 → EReal) (b7 : Fin 1024 → EReal)
    (Wc : Fin 1024 → Fin 81 → EReal) (bc : Fin 81 → EReal) : Fin 81 → EReal :=
  lin (f7Row x W6 b6 W7 b7) Wc bc

/-- The class scores of one row: the softmax of its logits. -/
def probRow (x : Fin 12544 → EReal) (W6 : Fin 12544 → Fin 1024 → EReal) (b6 : Fin 1024 → EReal)
    (W7 : Fin 1024 → Fin 1024 → EReal) (b7 : Fin 1024 → EReal)
    (Wc : Fin 1024 → Fin 81 → EReal) (bc : Fin 81 → EReal) : Fin 81 → EReal :=
  Cert.Lib.RowSoftmax.softmaxOf (logitRow x W6 b6 W7 b7 Wc bc)

/-- The box deltas of one row over `N` columns of a box layer. -/
def regRow {N : ℕ} (x : Fin 12544 → EReal) (W6 : Fin 12544 → Fin 1024 → EReal) (b6 : Fin 1024 → EReal)
    (W7 : Fin 1024 → Fin 1024 → EReal) (b7 : Fin 1024 → EReal)
    (Wb : Fin 1024 → Fin N → EReal) (bb : Fin N → EReal) : Fin N → EReal :=
  lin (f7Row x W6 b6 W7 b7) Wb bb

/-- A dense layer read at a column depends on that column of the weights and that entry of the bias only. -/
theorem lin_cols {K N N' : ℕ} (a : Fin K → EReal) (W : Fin K → Fin N → EReal) (b : Fin N → EReal)
    (W' : Fin K → Fin N' → EReal) (b' : Fin N' → EReal) (n : Fin N) (n' : Fin N')
    (hW : ∀ k, W k n = W' k n') (hb : b n = b' n') : lin a W b n = lin a W' b' n' := by
  unfold lin
  rw [hb]
  exact congrArg (· + b' n') (Finset.sum_congr rfl fun k _ => by rw [hW k])

end Cert.Body

end
-- ==== Proof.BodyK6.lean ====
/-
  The kernel body's first hidden layer read at an entry: entry `(p, q)` of the block is the first hidden layer
  of row `p` of the input block at `q`.
-/
import proofs.«160000_j26036091748769_1_alg».proof.Proof.Gen.KernelIdeal.Skeleton
import proofs.«160000_j26036091748769_1_alg».proof.Proof.LibMlpLayers
import proofs.«160000_j26036091748769_1_alg».proof.Proof.BodySpec

noncomputable section

namespace Cert.Body

open Idealize.ShloMosaic Idealize.ShloMosaic.ValueIdx Cert.KernelIdeal Cert.KernelIdeal.Gen

/-! ### The contraction record `dot_S80x12544_S12544x1024_S80x1024_1_0_0_1_n_n` is a plain matrix product -/

theorem d6_l0 (i : S80x1024.Idx) (q : dot_S80x12544_S12544x1024_S80x1024_1_0_0_1_n_n.contr.Idx) : (dot_S80x12544_S12544x1024_S80x1024_1_0_0_1_n_n.lhsIdx i q 0).val = (i 0).val := by
  unfold DotDims.lhsIdx
  rw [dif_neg (show ¬(0 : Fin S80x12544.rank) ∈ dot_S80x12544_S12544x1024_S80x1024_1_0_0_1_n_n.lhsBatch by decide), dif_pos (show (0 : Fin S80x12544.rank) ∈ dot_S80x12544_S12544x1024_S80x1024_1_0_0_1_n_n.lhsNonContracting by decide)]
  rfl
theorem d6_l1 (i : S80x1024.Idx) (q : dot_S80x12544_S12544x1024_S80x1024_1_0_0_1_n_n.contr.Idx) : (dot_S80x12544_S12544x1024_S80x1024_1_0_0_1_n_n.lhsIdx i q 1).val = (q ⟨0, by decide⟩).val :=
  dot_S80x12544_S12544x1024_S80x1024_1_0_0_1_n_n.lhsIdx_val_of_single rfl i q
theorem d6_r0 (i : S80x1024.Idx) (q : dot_S80x12544_S12544x1024_S80x1024_1_0_0_1_n_n.contr.Idx) : (dot_S80x12544_S12544x1024_S80x1024_1_0_0_1_n_n.rhsIdx i q 0).val = (q ⟨0, by decide⟩).val :=
  dot_S80x12544_S12544x1024_S80x1024_1_0_0_1_n_n.rhsIdx_val_of_single rfl i q
theorem d6_r1 (i : S80x1024.Idx) (q : dot_S80x12544_S12544x1024_S80x1024_1_0_0_1_n_n.contr.Idx) : (dot_S80x12544_S12544x1024_S80x1024_1_0_0_1_n_n.rhsIdx i q 1).val = (i 1).val := by
  unfold DotDims.rhsIdx
  rw [dif_neg (show ¬(1 : Fin S12544x1024.rank) ∈ dot_S80x12544_S12544x1024_S80x1024_1_0_0_1_n_n.rhsBatch by decide), dif_pos (show (1 : Fin S12544x1024.rank) ∈ dot_S80x12544_S12544x1024_S80x1024_1_0_0_1_n_n.rhsNonContracting by decide)]
  rfl

/-- The first hidden layer's block at `(p, q)`. -/
theorem pay3_apply (xb : FVec Ideal S80x12544 .bf16) (w2 : FVec Ideal S12544x1024 .bf16) (b3 : FVec Ideal S1024 .f32)
    (p : Fin 80) (q : Fin 1024) :
    k0_pay3 (F := Ideal) xb w2 b3 (ix2 p q)
      = f6Row (fun k => xb (ix2 p k)) (fun k n => w2 (ix2 k n)) (fun n => b3 (ix1 n)) q := by
  unfold k0_pay3
  rw [maximumf_apply, shapeCast_self, shapeCast_self,
    Cert.Lib.MlpLayers.linear_apply dot_S80x12544_S12544x1024_S80x1024_1_0_0_1_n_n rfl rfl d6_l0 d6_l1 d6_r0 d6_r1,
    broadcast_apply]
  rfl

end Cert.Body

end
-- ==== Proof.BodyK7.lean ====
/-
  The kernel body's second hidden layer read at an entry: entry `(p, q)` of the block is the second hidden
  layer of row `p` of the input block at `q` (the change of float format in between is the identity on the
  extended reals).
-/
import proofs.«160000_j26036091748769_1_alg».proof.Proof.Gen.KernelIdeal.Skeleton
import proofs.«160000_j26036091748769_1_alg».proof.Proof.LibMlpLayers
import proofs.«160000_j26036091748769_1_alg».proof.Proof.BodyK6

noncomputable section

namespace Cert.Body

open Idealize.ShloMosaic Idealize.ShloMosaic.ValueIdx Cert.KernelIdeal Cert.KernelIdeal.Gen

/-! ### The contraction record `dot_S80x1024_S1024x1024_S80x1024_1_0_0_1_n_n` is a plain matrix product -/

theorem d7_l0 (i : S80x1024.Idx) (q : dot_S80x1024_S1024x1024_S80x1024_1_0_0_1_n_n.contr.Idx) : (dot_S80x1024_S1024x1024_S80x1024_1_0_0_1_n_n.lhsIdx i q 0).val = (i 0).val := by
  unfold DotDims.lhsIdx
  rw [dif_neg (show ¬(0 : Fin S80x1024.rank) ∈ dot_S80x1024_S1024x1024_S80x1024_1_0_0_1_n_n.lhsBatch by decide), dif_pos (show (0 : Fin S80x1024.rank) ∈ dot_S80x1024_S1024x1024_S80x1024_1_0_0_1_n_n.lhsNonContracting by decide)]
  rfl
theorem d7_l1 (i : S80x1024.Idx) (q : dot_S80x1024_S1024x1024_S80x1024_1_0_0_1_n_n.contr.Idx) : (dot_S80x1024_S1024x1024_S80x1024_1_0_0_1_n_n.lhsIdx i q 1).val = (q ⟨0, by decide⟩).val :=
  dot_S80x1024_S1024x1024_S80x1024_1_0_0_1_n_n.lhsIdx_val_of_single rfl i q
theorem d7_r0 (i : S80x1024.Idx) (q : dot_S80x1024_S1024x1024_S80x1024_1_0_0_1_n_n.contr.Idx) : (dot_S80x1024_S1024x1024_S80x1024_1_0_0_1_n_n.rhsIdx i q 0).val = (q ⟨0, by decide⟩).val :=
  dot_S80x1024_S1024x1024_S80x1024_1_0_0_1_n_n.rhsIdx_val_of_single rfl i q
theorem d7_r1 (i : S80x1024.Idx) (q : dot_S80x1024_S1024x1024_S80x1024_1_0_0_1_n_n.contr.Idx) : (dot_S80x1024_S1024x1024_S80x1024_1_0_0_1_n_n.rhsIdx i q 1).val = (i 1).val := by
  unfold DotDims.rhsIdx
  rw [dif_neg (show ¬(1 : Fin S1024x1024.rank) ∈ dot_S80x1024_S1024x1024_S80x1024_1_0_0_1_n_n.rhsBatch by decide), dif_pos (show (1 : Fin S1024x1024.rank) ∈ dot_S80x1024_S1024x1024_S80x1024_1_0_0_1_n_n.rhsNonContracting by decide)]
  rfl

/-- The second hidden layer's block at `(p, q)`. -/
theorem pay4_apply (xb : FVec Ideal S80x12544 .bf16) (w2 : FVec Ideal S12544x1024 .bf16) (b3 : FVec Ideal S1024 .f32)
    (w4 : FVec Ideal S1024x1024 .bf16) (b5 : FVec Ideal S1024 .f32) (p : Fin 80) (q : Fin 1024) :
    k0_pay4 (F := Ideal) xb w2 b3 w4 b5 (ix2 p q)
      = f7Row (fun k => xb (ix2 p k)) (fun k n => w2 (ix2 k n)) (fun n => b3 (ix1 n))
          (fun k n => w4 (ix2 k n)) (fun n => b5 (ix1 n)) q := by
  unfold k0_pay4
  rw [truncf_apply, maximumf_apply, shapeCast_self,
    Cert.Lib.MlpLayers.linear_apply dot_S80x1024_S1024x1024_S80x1024_1_0_0_1_n_n rfl rfl d7_l0 d7_l1 d7_r0 d7_r1,
    broadcast_apply]
  unfold f7Row reluLin lin
  refine congrArg (fun s => max (s + b5 (ix1 q)) _) (Finset.sum_congr rfl fun k _ => ?_)
  rw [truncf_apply, pay3_apply]

end Cert.Body

end
-- ==== Proof.BodyK5.lean ====
/-
  The kernel body's class scores read at an entry: the logits block at `(p, j)` is the logit of row `p` of the
  input block at `j`, and the normalised block at `(p, j)` is the softmax of that row's logits at `j`.
-/
import proofs.«160000_j26036091748769_1_alg».proof.Proof.Gen.KernelIdeal.Skeleton
import proofs.«160000_j26036091748769_1_alg».proof.Proof.LibMlpLayers
import proofs.«160000_j26036091748769_1_alg».proof.Proof.BodyK7
import proofs.«160000_j26036091748769_1_alg».proof.Proof.LibRowSoftmax

noncomputable section

namespace Cert.Body

open Idealize.ShloMosaic Idealize.ShloMosaic.ValueIdx Cert.KernelIdeal Cert.KernelIdeal.Gen

/-! ### The contraction record `dot_S80x1024_S1024x81_S80x81_1_0_0_1_n_n` is a plain matrix product -/

theorem dc_l0 (i : S80x81.Idx) (q : dot_S80x1024_S1024x81_S80x81_1_0_0_1_n_n.contr.Idx) : (dot_S80x1024_S1024x81_S80x81_1_0_0_1_n_n.lhsIdx i q 0).val = (i 0).val := by
  unfold DotDims.lhsIdx
  rw [dif_neg (show ¬(0 : Fin S80x1024.rank) ∈ dot_S80x1024_S1024x81_S80x81_1_0_0_1_n_n.lhsBatch by decide), dif_pos (show (0 : Fin S80x1024.rank) ∈ dot_S80x1024_S1024x81_S80x81_1_0_0_1_n_n.lhsNonContracting by decide)]
  rfl
theorem dc_l1 (i : S80x81.Idx) (q : dot_S80x1024_S1024x81_S80x81_1_0_0_1_n_n.contr.Idx) : (dot_S80x1024_S1024x81_S80x81_1_0_0_1_n_n.lhsIdx i q 1).val = (q ⟨0, by decide⟩).val :=
  dot_S80x1024_S1024x81_S80x81_1_0_0_1_n_n.lhsIdx_val_of_single rfl i q
theorem dc_r0 (i : S80x81.Idx) (q : dot_S80x1024_S1024x81_S80x81_1_0_0_1_n_n.contr.Idx) : (dot_S80x1024_S1024x81_S80x81_1_0_0_1_n_n.rhsIdx i q 0).val = (q ⟨0, by decide⟩).val :=
  dot_S80x1024_S1024x81_S80x81_1_0_0_1_n_n.rhsIdx_val_of_single rfl i q
theorem dc_r1 (i : S80x81.Idx) (q : dot_S80x1024_S1024x81_S80x81_1_0_0_1_n_n.contr.Idx) : (dot_S80x1024_S1024x81_S80x81_1_0_0_1_n_n.rhsIdx i q 1).val = (i 1).val := by
  unfold DotDims.rhsIdx
  rw [dif_neg (show ¬(1 : Fin S1024x81.rank) ∈ dot_S80x1024_S1024x81_S80x81_1_0_0_1_n_n.rhsBatch by decide), dif_pos (show (1 : Fin S1024x81.rank) ∈ dot_S80x1024_S1024x81_S80x81_1_0_0_1_n_n.rhsNonContracting by decide)]
  rfl

/-- The logits block: the third dense layer of the second hidden block. -/
def logitsBlock (xb : FVec Ideal S80x12544 .bf16) (w2 : FVec Ideal S12544x1024 .bf16) (b3 : FVec Ideal S1024 .f32)
    (w4 : FVec Ideal S1024x1024 .bf16) (b5 : FVec Ideal S1024 .f32)
    (w6 : FVec Ideal S1024x81 .bf16) (b7 : FVec Ideal S81 .f32) : FVec Ideal S80x81 .f32 :=
  addf (matmul dot_S80x1024_S1024x81_S80x81_1_0_0_1_n_n none (k0_pay4 (F := Ideal) xb w2 b3 w4 b5)
      (shapeCast S1024x81 w6 shapeCasts_S1024x81_S1024x81) (constant (F := Ideal) S80x81 .f32 0x00000000#32))
    (broadcastTo S80x81 (shapeCast S1x81 b7 shapeCasts_S81_S1x81) broadcasts_S1x81_S80x81)

/-- The logits block at `(p, j)`. -/
theorem logitsBlock_apply (xb : FVec Ideal S80x12544 .bf16) (w2 : FVec Ideal S12544x1024 .bf16) (b3 : FVec Ideal S1024 .f32)
    (w4 : FVec Ideal S1024x1024 .bf16) (b5 : FVec Ideal S1024 .f32)
    (w6 : FVec Ideal S1024x81 .bf16) (b7 : FVec Ideal S81 .f32) (p : Fin 80) (j : Fin 81) :
    logitsBlock xb w2 b3 w4 b5 w6 b7 (ix2 p j)
      = logitRow (fun k => xb (ix2 p k)) (fun k n => w2 (ix2 k n)) (fun n => b3 (ix1 n))
          (fun k n => w4 (ix2 k n)) (fun n => b5 (ix1 n)) (fun k n => w6 (ix2 k n)) (fun n => b7 (ix1 n)) j := by
  unfold logitsBlock
  rw [shapeCast_self,
    Cert.Lib.MlpLayers.linear_apply dot_S80x1024_S1024x81_S80x81_1_0_0_1_n_n rfl rfl dc_l0 dc_l1 dc_r0 dc_r1]
  unfold logitRow lin
  refine congrArg (fun s => s + b7 (ix1 j)) (Finset.sum_congr rfl fun k _ => ?_)
  rw [pay4_apply]

/-- The class-score block at `(p, j)`: the softmax of row `p`'s logits at `j`. -/
theorem pay1_apply (xb : FVec Ideal S80x12544 .bf16) (w2 : FVec Ideal S12544x1024 .bf16) (b3 : FVec Ideal S1024 .f32)
    (w4 : FVec Ideal S1024x1024 .bf16) (b5 : FVec Ideal S1024 .f32)
    (w6 : FVec Ideal S1024x81 .bf16) (b7 : FVec Ideal S81 .f32) (p : Fin 80) (j : Fin 81) :
    k0_pay1 (F := Ideal) (k0_pay5 (F := Ideal) xb w2 b3 w4 b5 w6 b7) (k0_pay6 (F := Ideal) xb w2 b3 w4 b5 w6 b7) (ix2 p j)
      = probRow (fun k => xb (ix2 p k)) (fun k n => w2 (ix2 k n)) (fun n => b3 (ix1 n))
          (fun k n => w4 (ix2 k n)) (fun n => b5 (ix1 n)) (fun k n => w6 (ix2 k n)) (fun n => b7 (ix1 n)) j := by
  refine (Cert.Lib.RowSoftmax.softmax_rows_apply (logitsBlock xb w2 b3 w4 b5 w6 b7) reduces_S80x81_S80
    shapeCasts_S80_S80x1 broadcasts_S80x1_S80x81 (.inl rfl) rfl rfl p j).trans ?_
  unfold probRow
  exact congrArg (fun f => Cert.Lib.RowSoftmax.softmaxOf f j)
    (funext fun j' => logitsBlock_apply xb w2 b3 w4 b5 w6 b7 p j')

end Cert.Body

end
-- ==== Proof.BodyK2.lean ====
/-
  The kernel body's box deltas read at an entry: entry `(p, c)` of the block is the fourth dense layer of the
  second hidden layer of row `p` of the input block, at column `c` of the box weights the body was given.
-/
import proofs.«160000_j26036091748769_1_alg».proof.Proof.Gen.KernelIdeal.Skeleton
import proofs.«160000_j26036091748769_1_alg».proof.Proof.LibMlpLayers
import proofs.«160000_j26036091748769_1_alg».proof.Proof.BodyK7

noncomputable section

namespace Cert.Body

open Idealize.ShloMosaic Idealize.ShloMosaic.ValueIdx Cert.KernelIdeal Cert.KernelIdeal.Gen

/-! ### The contraction record `dot_S80x1024_S1024x320_S80x320_1_0_0_1_n_n` is a plain matrix product -/

theorem db_l0 (i : S80x320.Idx) (q : dot_S80x1024_S1024x320_S80x320_1_0_0_1_n_n.contr.Idx) : (dot_S80x1024_S1024x320_S80x320_1_0_0_1_n_n.lhsIdx i q 0).val = (i 0).val := by
  unfold DotDims.lhsIdx
  rw [dif_neg (show ¬(0 : Fin S80x1024.rank) ∈ dot_S80x1024_S1024x320_S80x320_1_0_0_1_n_n.lhsBatch by decide), dif_pos (show (0 : Fin S80x1024.rank) ∈ dot_S80x1024_S1024x320_S80x320_1_0_0_1_n_n.lhsNonContracting by decide)]
  rfl
theorem db_l1 (i : S80x320.Idx) (q : dot_S80x1024_S1024x320_S80x320_1_0_0_1_n_n.contr.Idx) : (dot_S80x1024_S1024x320_S80x320_1_0_0_1_n_n.lhsIdx i q 1).val = (q ⟨0, by decide⟩).val :=
  dot_S80x1024_S1024x320_S80x320_1_0_0_1_n_n.lhsIdx_val_of_single rfl i q
theorem db_r0 (i : S80x320.Idx) (q : dot_S80x1024_S1024x320_S80x320_1_0_0_1_n_n.contr.Idx) : (dot_S80x1024_S1024x320_S80x320_1_0_0_1_n_n.rhsIdx i q 0).val = (q ⟨0, by decide⟩).val :=
  dot_S80x1024_S1024x320_S80x320_1_0_0_1_n_n.rhsIdx_val_of_single rfl i q
theorem db_r1 (i : S80x320.Idx) (q : dot_S80x1024_S1024x320_S80x320_1_0_0_1_n_n.contr.Idx) : (dot_S80x1024_S1024x320_S80x320_1_0_0_1_n_n.rhsIdx i q 1).val = (i 1).val := by
  unfold DotDims.rhsIdx
  rw [dif_neg (show ¬(1 : Fin S1024x320.rank) ∈ dot_S80x1024_S1024x320_S80x320_1_0_0_1_n_n.rhsBatch by decide), dif_pos (show (1 : Fin S1024x320.rank) ∈ dot_S80x1024_S1024x320_S80x320_1_0_0_1_n_n.rhsNonContracting by decide)]
  rfl

/-- The box-delta block at `(p, c)`. -/
theorem pay2_apply (xb : FVec Ideal S80x12544 .bf16) (w2 : FVec Ideal S12544x1024 .bf16) (b3 : FVec Ideal S1024 .f32)
    (w4 : FVec Ideal S1024x1024 .bf16) (b5 : FVec Ideal S1024 .f32)
    (w8 : FVec Ideal S1024x320 .bf16) (b9 : FVec Ideal S320 .f32) (p : Fin 80) (c : Fin 320) :
    k0_pay2 (F := Ideal) (k0_pay4 (F := Ideal) xb w2 b3 w4 b5) w8 b9 (ix2 p c)
      = regRow (fun k => xb (ix2 p k)) (fun k n => w2 (ix2 k n)) (fun n => b3 (ix1 n))
          (fun k n => w4 (ix2 k n)) (fun n => b5 (ix1 n)) (fun k n => w8 (ix2 k n)) (fun n => b9 (ix1 n)) c := by
  unfold k0_pay2
  rw [shapeCast_self, shapeCast_self,
    Cert.Lib.MlpLayers.linear_apply dot_S80x1024_S1024x320_S80x320_1_0_0_1_n_n rfl rfl db_l0 db_l1 db_r0 db_r1]
  unfold regRow lin
  refine congrArg (fun s => s + b9 (ix1 c)) (Finset.sum_congr rfl fun k _ => ?_)
  rw [pay4_apply]

end Cert.Body

end
-- ==== Proof.ValueKI.lean ====
/-
  What the region's three output arrays hold after the run, at the ideal values.

  Grid point `t` (of 25) is handed rows 80·t … 80·t+79 of the staged input and every weight array whole, and writes back
  rows 80·t … 80·t+79 of each output. Every entry of an output block at row `p` is a function of row `p` of the input
  block alone (the per-row layers `f6Row`, `probRow`, `regRow`), so block `t` of the output array is the restriction of
  ONE function of the whole arrays: `G9` (relu of a dense layer), `G10` (row softmax of the third layer), `G11` (the box
  layer). The 25 blocks tile the 2000 rows, so each output array ends at that function.
-/
import proofs.«160000_j26036091748769_1_alg».proof.Proof.FrameKI
import proofs.«160000_j26036091748769_1_alg».proof.Proof.BodyK5
import proofs.«160000_j26036091748769_1_alg».proof.Proof.BodyK2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.Body
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The arrays the region finds, and the three functions of them -/

/-- Row `r` of the staged input. -/
abbrev xRow (c : Dev nD) (r : Fin 2000) : Fin 12544 → EReal := fun k => V m c main_v1 (ix2 r k)
abbrev w6A (c : Dev nD) : Fin 12544 → Fin 1024 → EReal := fun k n => V m c main_v2 (ix2 k n)
abbrev b6A (c : Dev nD) : Fin 1024 → EReal := fun n => V m c main_arg3 (ix1 n)
abbrev w7A (c : Dev nD) : Fin 1024 → Fin 1024 → EReal := fun k n => V m c main_v3 (ix2 k n)
abbrev b7A (c : Dev nD) : Fin 1024 → EReal := fun n => V m c main_arg5 (ix1 n)
abbrev wcA (c : Dev nD) : Fin 1024 → Fin 81 → EReal := fun k n => V m c main_v4 (ix2 k n)
abbrev bcA (c : Dev nD) : Fin 81 → EReal := fun n => V m c main_arg7 (ix1 n)
abbrev wbA (c : Dev nD) : Fin 1024 → Fin 320 → EReal := fun k n => V m c main_v6 (ix2 k n)
abbrev bbA (c : Dev nD) : Fin 320 → EReal := fun n => V m c main_v7 (ix1 n)

/-- The first hidden layer of every row. -/
def G9 (c : Dev nD) : S2000x1024.Idx → EReal := fun i =>
  f6Row (xRow m c (i 0)) (w6A m c) (b6A m c) (i 1)
/-- The class scores of every row. -/
def G10 (c : Dev nD) : S2000x81.Idx → EReal := fun i =>
  probRow (xRow m c (i 0)) (w6A m c) (b6A m c) (w7A m c) (b7A m c) (wcA m c) (bcA m c) (i 1)
/-- The box deltas of every row. -/
def G11 (c : Dev nD) : S2000x320.Idx → EReal := fun i =>
  regRow (xRow m c (i 0)) (w6A m c) (b6A m c) (w7A m c) (b7A m c) (wbA m c) (bbA m c) (i 1)

/-! ## The index maps over the grid -/

/-- The staged input's and the three outputs' blocks move down one row tile per grid point; every weight window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem t_lt (t : Fin cfg0.N) : t.val < 25 := by have := t.isLt; simpa [N_0] using (show t.val < grid0.N from this)

/-- The row of the array that row `p` of point `t`'s block is. -/
def rowOf (t : Fin cfg0.N) (p : Fin 80) : Fin 2000 := ⟨t.val * 80 + p.val, by have := t_lt t; have := p.isLt; omega⟩

/-! ## The input blocks read at an index -/

theorem iblk0_apply (c : Dev nD) (t : Fin cfg0.N) (p : Fin 80) (k : Fin 12544) :
    iblk m c 0 t (ix2 p k) = V m c main_v1 (ix2 (rowOf t p) k) := by
  obtain ⟨e0, e1, -⟩ := idx_facts t
  show V m c main_v1 (((cfg0.win 0).blk t).view.emb (ix2 p k)) = _
  congr 1
  funext a; apply Fin.ext
  match a with
  | ⟨0, _⟩ => show win0_0.index t (0 : Fin 2) * 80 + 1 * p.val = t.val * 80 + p.val; omega
  | ⟨1, _⟩ => show win0_0.index t (1 : Fin 2) * 12544 + 1 * k.val = k.val; omega

theorem iblk1_apply (c : Dev nD) (t : Fin cfg0.N) (k : Fin 12544) (n : Fin 1024) :
    iblk m c 1 t (ix2 k n) = V m c main_v2 (ix2 k n) := by
  obtain ⟨-, -, e0, e1, -⟩ := idx_facts t
  show V m c main_v2 (((cfg0.win 1).blk t).view.emb (ix2 k n)) = _
  congr 1
  funext a; apply Fin.ext
  match a with
  | ⟨0, _⟩ => show win0_1.index t (0 : Fin 2) * 12544 + 1 * k.val = k.val; omega
  | ⟨1, _⟩ => show win0_1.index t (1 : Fin 2) * 1024 + 1 * n.val = n.val; omega

theorem iblk2_apply (c : Dev nD) (t : Fin cfg0.N) (n : Fin 1024) :
    iblk m c 2 t (ix1 n) = V m c main_arg3 (ix1 n) := by
  obtain ⟨-, -, -, -, e0, -⟩ := idx_facts t
  show V m c main_arg3 (((cfg0.win 2).blk t).view.emb (ix1 n)) = _
  congr 1
  funext a; apply Fin.ext
  match a with
  | ⟨0, _⟩ => show win0_2.index t (0 : Fin 1) * 1024 + 1 * n.val = n.val; omega

theorem iblk3_apply (c : Dev nD) (t : Fin cfg0.N) (k : Fin 1024) (n : Fin 1024) :
    iblk m c 3 t (ix2 k n) = V m c main_v3 (ix2 k n) := by
  obtain ⟨-, -, -, -, -, e0, e1, -⟩ := idx_facts t
  show V m c main_v3 (((cfg0.win 3).blk t).view.emb (ix2 k n)) = _
  congr 1
  funext a; apply Fin.ext
  match a with
  | ⟨0, _⟩ => show win0_3.index t (0 : Fin 2) * 1024 + 1 * k.val = k.val; omega
  | ⟨1, _⟩ => show win0_3.index t (1 : Fin 2) * 1024 + 1 * n.val = n.val; omega

theorem iblk4_apply (c : Dev nD) (t : Fin cfg0.N) (n : Fin 1024) :
    iblk m c 4 t (ix1 n) = V m c main_arg5 (ix1 n) := by
  obtain ⟨-, -, -, -, -, -, -, e0, -⟩ := idx_facts t
  show V m c main_arg5 (((cfg0.win 4).blk t).view.emb (ix1 n)) = _
  congr 1
  funext a; apply Fin.ext
  match a with
  | ⟨0, _⟩ => show win0_4.index t (0 : Fin 1) * 1024 + 1 * n.val = n.val; omega

theorem iblk5_apply (c : Dev nD) (t : Fin cfg0.N) (k : Fin 1024) (n : Fin 81) :
    iblk m c 5 t (ix2 k n) = V m c main_v4 (ix2 k n) := by
  obtain ⟨-, -, -, -, -, -, -, -, e0, e1, -⟩ := idx_facts t
  show V m c main_v4 (((cfg0.win 5).blk t).view.emb (ix2 k n)) = _
  congr 1
  funext a; apply Fin.ext
  match a with
  | ⟨0, _⟩ => show win0_5.index t (0 : Fin 2) * 1024 + 1 * k.val = k.val; omega
  | ⟨1, _⟩ => show win0_5.index t (1 : Fin 2) * 81 + 1 * n.val = n.val; omega

theorem iblk6_apply (c : Dev nD) (t : Fin cfg0.N) (n : Fin 81) :
    iblk m c 6 t (ix1 n) = V m c main_arg7 (ix1 n) := by
  obtain ⟨-, -, -, -, -, -, -, -, -, -, e0, -⟩ := idx_facts t
  show V m c main_arg7 (((cfg0.win 6).blk t).view.emb (ix1 n)) = _
  congr 1
  funext a; apply Fin.ext
  match a with
  | ⟨0, _⟩ => show win0_6.index t (0 : Fin 1) * 81 + 1 * n.val = n.val; omega

theorem iblk7_apply (c : Dev nD) (t : Fin cfg0.N) (k : Fin 1024) (n : Fin 320) :
    iblk m c 7 t (ix2 k n) = V m c main_v6 (ix2 k n) := by
  obtain ⟨-, -, -, -, -, -, -, -, -, -, -, e0, e1, -⟩ := idx_facts t
  show V m c main_v6 (((cfg0.win 7).blk t).view.emb (ix2 k n)) = _
  congr 1
  funext a; apply Fin.ext
  match a with
  | ⟨0, _⟩ => show win0_7.index t (0 : Fin 2) * 1024 + 1 * k.val = k.val; omega
  | ⟨1, _⟩ => show win0_7.index t (1 : Fin 2) * 320 + 1 * n.val = n.val; omega

theorem iblk8_apply (c : Dev nD) (t : Fin cfg0.N) (n : Fin 320) :
    iblk m c 8 t (ix1 n) = V m c main_v7 (ix1 n) := by
  obtain ⟨-, -, -, -, -, -, -, -, -, -, -, -, -, e0, -⟩ := idx_facts t
  show V m c main_v7 (((cfg0.win 8).blk t).view.emb (ix1 n)) = _
  congr 1
  funext a; apply Fin.ext
  match a with
  | ⟨0, _⟩ => show win0_8.index t (0 : Fin 1) * 320 + 1 * n.val = n.val; omega

/-! ## What a grid point writes back -/

/-- An output block's row `p`, column `q` sits at row `80·t + p`, column `q` of its array. -/
theorem emb9 (t : Fin cfg0.N) (p : Fin 80) (q : Fin 1024) :
    ((cfg0.win 9).blk t).view.emb (ix2 p q) = ix2 (rowOf t p) q := by
  obtain ⟨-, -, -, -, -, -, -, -, -, -, -, -, -, -, e0, e1, -⟩ := idx_facts t
  funext a; apply Fin.ext
  match a with
  | ⟨0, _⟩ => show win0_9.index t (0 : Fin 2) * 80 + 1 * p.val = t.val * 80 + p.val; omega
  | ⟨1, _⟩ => show win0_9.index t (1 : Fin 2) * 1024 + 1 * q.val = q.val; omega
theorem emb10 (t : Fin cfg0.N) (p : Fin 80) (q : Fin 81) :
    ((cfg0.win 10).blk t).view.emb (ix2 p q) = ix2 (rowOf t p) q := by
  obtain ⟨-, -, -, -, -, -, -, -, -, -, -, -, -, -, -, -, e0, e1, -⟩ := idx_facts t
  funext a; apply Fin.ext
  match a with
  | ⟨0, _⟩ => show win0_10.index t (0 : Fin 2) * 80 + 1 * p.val = t.val * 80 + p.val; omega
  | ⟨1, _⟩ => show win0_10.index t (1 : Fin 2) * 81 + 1 * q.val = q.val; omega
theorem emb11 (t : Fin cfg0.N) (p : Fin 80) (q : Fin 320) :
    ((cfg0.win 11).blk t).view.emb (ix2 p q) = ix2 (rowOf t p) q := by
  obtain ⟨-, -, -, -, -, -, -, -, -, -, -, -, -, -, -, -, -, -, e0, e1⟩ := idx_facts t
  funext a; apply Fin.ext
  match a with
  | ⟨0, _⟩ => show win0_11.index t (0 : Fin 2) * 80 + 1 * p.val = t.val * 80 + p.val; omega
  | ⟨1, _⟩ => show win0_11.index t (1 : Fin 2) * 320 + 1 * q.val = q.val; omega

/-- Point `t` writes back block `t` of `G9`. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz2]
  simp only [View.ld_unit_zero (S := S80x12544) hz2, View.ld_unit_zero (S := S12544x1024) hz2, View.ld_unit_zero (S := S1024) hz1]
  funext j
  obtain ⟨p, q, rfl⟩ : ∃ (p : Fin 80) (q : Fin 1024), j = ix2 p q := ⟨j 0, j 1, eq_ix2 j⟩
  refine (pay3_apply (iblk m c 0 t) (iblk m c 1 t) (iblk m c 2 t) p q).trans ?_
  show _ = G9 m c (((cfg0.win 9).blk t).view.emb (ix2 p q))
  rw [emb9]
  unfold G9
  simp only [iblk0_apply, iblk1_apply, iblk2_apply]

/-- Point `t` writes back block `t` of `G10`. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz2]
  simp only [View.ld_unit_zero (S := S80x12544) hz2, View.ld_unit_zero (S := S12544x1024) hz2, View.ld_unit_zero (S := S1024) hz1,
    View.ld_unit_zero (S := S1024x1024) hz2, View.ld_unit_zero (S := S1024x81) hz2, View.ld_unit_zero (S := S81) hz1]
  funext j
  obtain ⟨p, q, rfl⟩ : ∃ (p : Fin 80) (q : Fin 81), j = ix2 p q := ⟨j 0, j 1, eq_ix2 j⟩
  refine (pay1_apply (iblk m c 0 t) (iblk m c 1 t) (iblk m c 2 t) (iblk m c 3 t) (iblk m c 4 t) (iblk m c 5 t) (iblk m c 6 t) p q).trans ?_
  show _ = G10 m c (((cfg0.win 10).blk t).view.emb (ix2 p q))
  rw [emb10]
  unfold G10
  simp only [iblk0_apply, iblk1_apply, iblk2_apply, iblk3_apply, iblk4_apply, iblk5_apply, iblk6_apply]

/-- Point `t` writes back block `t` of `G11`. -/
theorem flushed11_eq (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold out0_11
  rw [View.canon_unit_zero hz2]
  simp only [View.ld_unit_zero (S := S80x12544) hz2, View.ld_unit_zero (S := S12544x1024) hz2, View.ld_unit_zero (S := S1024) hz1,
    View.ld_unit_zero (S := S1024x1024) hz2, View.ld_unit_zero (S := S1024x320) hz2, View.ld_unit_zero (S := S320) hz1]
  funext j
  obtain ⟨p, q, rfl⟩ : ∃ (p : Fin 80) (q : Fin 320), j = ix2 p q := ⟨j 0, j 1, eq_ix2 j⟩
  refine (pay2_apply (iblk m c 0 t) (iblk m c 1 t) (iblk m c 2 t) (iblk m c 3 t) (iblk m c 4 t) (iblk m c 7 t) (iblk m c 8 t) p q).trans ?_
  show _ = G11 m c (((cfg0.win 11).blk t).view.emb (ix2 p q))
  rw [emb11]
  unfold G11
  simp only [iblk0_apply, iblk1_apply, iblk2_apply, iblk3_apply, iblk4_apply, iblk7_apply, iblk8_apply]

/-! ## The blocks tile the rows -/

theorem mem_blk9 (t : Fin cfg0.N) (i : S2000x1024.Idx) :
    i ∈ ((cfg0.win 9).blk t).view.set ↔ ∀ a : Fin 2, win0_9.index t a * S80x1024.size a ≤ (i a).val ∧ (i a).val < win0_9.index t a * S80x1024.size a + S80x1024.size a := by
  show i ∈ ((View.whole main_v8_0).slice (win0_9.rect t)).set ↔ _
  rw [View.set_slice_whole, Rect.mem_set_unit]
  exact Iff.rfl
theorem mem_blk10 (t : Fin cfg0.N) (i : S2000x81.Idx) :
    i ∈ ((cfg0.win 10).blk t).view.set ↔ ∀ a : Fin 2, win0_10.index t a * S80x81.size a ≤ (i a).val ∧ (i a).val < win0_10.index t a * S80x81.size a + S80x81.size a := by
  show i ∈ ((View.whole main_v8_1).slice (win0_10.rect t)).set ↔ _
  rw [View.set_slice_whole, Rect.mem_set_unit]
  exact Iff.rfl
theorem mem_blk11 (t : Fin cfg0.N) (i : S2000x320.Idx) :
    i ∈ ((cfg0.win 11).blk t).view.set ↔ ∀ a : Fin 2, win0_11.index t a * S80x320.size a ≤ (i a).val ∧ (i a).val < win0_11.index t a * S80x320.size a + S80x320.size a := by
  show i ∈ ((View.whole main_v8_2).slice (win0_11.rect t)).set ↔ _
  rw [View.set_slice_whole, Rect.mem_set_unit]
  exact Iff.rfl

/-- Row `r` lies in the block of point `r / 80`. -/
def ptOf (r : Fin 2000) : Fin cfg0.N := ⟨r.val / 80, by have := r.isLt; show r.val / 80 < grid0.N; rw [N_0]; omega⟩

theorem cover9 (i : S2000x1024.Idx) : ∃ t : Fin cfg0.N, (cfg0.win 9).flush t = true ∧ i ∈ ((cfg0.win 9).blk t).view.set := by
  refine ⟨ptOf (i 0), flush0_9 _, ?_⟩
  rw [mem_blk9]
  obtain ⟨-, -, -, -, -, -, -, -, -, -, -, -, -, -, e0, e1, -⟩ := idx_facts (ptOf (i 0))
  have h0 : (i 0).val < 2000 := (i 0).isLt
  have h1 : (i 1).val < 1024 := (i 1).isLt
  have hv : (ptOf (i 0)).val = (i 0).val / 80 := rfl
  intro a
  match a with
  | ⟨0, _⟩ => show win0_9.index (ptOf (i 0)) (0 : Fin 2) * 80 ≤ (i 0).val ∧ (i 0).val < win0_9.index (ptOf (i 0)) (0 : Fin 2) * 80 + 80; omega
  | ⟨1, _⟩ => show win0_9.index (ptOf (i 0)) (1 : Fin 2) * 1024 ≤ (i 1).val ∧ (i 1).val < win0_9.index (ptOf (i 0)) (1 : Fin 2) * 1024 + 1024; omega
theorem cover10 (i : S2000x81.Idx) : ∃ t : Fin cfg0.N, (cfg0.win 10).flush t = true ∧ i ∈ ((cfg0.win 10).blk t).view.set := by
  refine ⟨ptOf (i 0), flush0_10 _, ?_⟩
  rw [mem_blk10]
  obtain ⟨-, -, -, -, -, -, -, -, -, -, -, -, -, -, -, -, e0, e1, -⟩ := idx_facts (ptOf (i 0))
  have h0 : (i 0).val < 2000 := (i 0).isLt
  have h1 : (i 1).val < 81 := (i 1).isLt
  have hv : (ptOf (i 0)).val = (i 0).val / 80 := rfl
  intro a
  match a with
  | ⟨0, _⟩ => show win0_10.index (ptOf (i 0)) (0 : Fin 2) * 80 ≤ (i 0).val ∧ (i 0).val < win0_10.index (ptOf (i 0)) (0 : Fin 2) * 80 + 80; omega
  | ⟨1, _⟩ => show win0_10.index (ptOf (i 0)) (1 : Fin 2) * 81 ≤ (i 1).val ∧ (i 1).val < win0_10.index (ptOf (i 0)) (1 : Fin 2) * 81 + 81; omega
theorem cover11 (i : S2000x320.Idx) : ∃ t : Fin cfg0.N, (cfg0.win 11).flush t = true ∧ i ∈ ((cfg0.win 11).blk t).view.set := by
  refine ⟨ptOf (i 0), flush0_11 _, ?_⟩
  rw [mem_blk11]
  obtain ⟨-, -, -, -, -, -, -, -, -, -, -, -, -, -, -, -, -, -, e0, e1⟩ := idx_facts (ptOf (i 0))
  have h0 : (i 0).val < 2000 := (i 0).isLt
  have h1 : (i 1).val < 320 := (i 1).isLt
  have hv : (ptOf (i 0)).val = (i 0).val / 80 := rfl
  intro a
  match a with
  | ⟨0, _⟩ => show win0_11.index (ptOf (i 0)) (0 : Fin 2) * 80 ≤ (i 0).val ∧ (i 0).val < win0_11.index (ptOf (i 0)) (0 : Fin 2) * 80 + 80; omega
  | ⟨1, _⟩ => show win0_11.index (ptOf (i 0)) (1 : Fin 2) * 320 ≤ (i 1).val ∧ (i 1).val < win0_11.index (ptOf (i 0)) (1 : Fin 2) * 320 + 320; omega

/-! ## The three arrays after the run -/

theorem final9 (c : Dev nD) : (dats m 0 c).arrAt 9 cfg0.N = G9 m c :=
  (dats m 0 c).arrAt_eq_of_cover 9 (G9 m c) (fun t _ => flushed9_eq m c t) cover9
theorem final10 (c : Dev nD) : (dats m 0 c).arrAt 10 cfg0.N = G10 m c :=
  (dats m 0 c).arrAt_eq_of_cover 10 (G10 m c) (fun t _ => flushed10_eq m c t) cover10
theorem final11 (c : Dev nD) : (dats m 0 c).arrAt 11 cfg0.N = G11 m c :=
  (dats m 0 c).arrAt_eq_of_cover 11 (G11 m c) (fun t _ => flushed11_eq m c t) cover11

end Cert.KernelIdeal.Val

end
-- ==== Proof.BodyRefDots.lean ====
/-
  The reference's four contraction records are plain matrix products: the operand index at an output index and a
  contraction index has the expected coordinates.
-/
import proofs.«160000_j26036091748769_1_alg».proof.Proof.Gen.ReferenceIdeal
import Idealize.ShloMosaic.PureOps.Ideal.Laws

noncomputable section

namespace Cert.Body.Ref

open Idealize.ShloMosaic Cert.ReferenceIdeal

/-! ### The contraction record `dot_S2000x12544_S12544x1024_S2000x1024_1_0_0_1_n_n` is a plain matrix product -/

theorem d6_l0 (i : S2000x1024.Idx) (q : dot_S2000x12544_S12544x1024_S2000x1024_1_0_0_1_n_n.contr.Idx) : (dot_S2000x12544_S12544x1024_S2000x1024_1_0_0_1_n_n.lhsIdx i q 0).val = (i 0).val := by
  unfold DotDims.lhsIdx
  rw [dif_neg (show ¬(0 : Fin S2000x12544.rank) ∈ dot_S2000x12544_S12544x1024_S2000x1024_1_0_0_1_n_n.lhsBatch by decide), dif_pos (show (0 : Fin S2000x12544.rank) ∈ dot_S2000x12544_S12544x1024_S2000x1024_1_0_0_1_n_n.lhsNonContracting by decide)]
  rfl
theorem d6_l1 (i : S2000x1024.Idx) (q : dot_S2000x12544_S12544x1024_S2000x1024_1_0_0_1_n_n.contr.Idx) : (dot_S2000x12544_S12544x1024_S2000x1024_1_0_0_1_n_n.lhsIdx i q 1).val = (q ⟨0, by decide⟩).val :=
  dot_S2000x12544_S12544x1024_S2000x1024_1_0_0_1_n_n.lhsIdx_val_of_single rfl i q
theorem d6_r0 (i : S2000x1024.Idx) (q : dot_S2000x12544_S12544x1024_S2000x1024_1_0_0_1_n_n.contr.Idx) : (dot_S2000x12544_S12544x1024_S2000x1024_1_0_0_1_n_n.rhsIdx i q 0).val = (q ⟨0, by decide⟩).val :=
  dot_S2000x12544_S12544x1024_S2000x1024_1_0_0_1_n_n.rhsIdx_val_of_single rfl i q
theorem d6_r1 (i : S2000x1024.Idx) (q : dot_S2000x12544_S12544x1024_S2000x1024_1_0_0_1_n_n.contr.Idx) : (dot_S2000x12544_S12544x1024_S2000x1024_1_0_0_1_n_n.rhsIdx i q 1).val = (i 1).val := by
  unfold DotDims.rhsIdx
  rw [dif_neg (show ¬(1 : Fin S12544x1024.rank) ∈ dot_S2000x12544_S12544x1024_S2000x1024_1_0_0_1_n_n.rhsBatch by decide), dif_pos (show (1 : Fin S12544x1024.rank) ∈ dot_S2000x12544_S12544x1024_S2000x1024_1_0_0_1_n_n.rhsNonContracting by decide)]
  rfl

/-! ### The contraction record `dot_S2000x1024_S1024x1024_S2000x1024_1_0_0_1_n_n` is a plain matrix product -/

theorem d7_l0 (i : S2000x1024.Idx) (q : dot_S2000x1024_S1024x1024_S2000x1024_1_0_0_1_n_n.contr.Idx) : (dot_S2000x1024_S1024x1024_S2000x1024_1_0_0_1_n_n.lhsIdx i q 0).val = (i 0).val := by
  unfold DotDims.lhsIdx
  rw [dif_neg (show ¬(0 : Fin S2000x1024.rank) ∈ dot_S2000x1024_S1024x1024_S2000x1024_1_0_0_1_n_n.lhsBatch by decide), dif_pos (show (0 : Fin S2000x1024.rank) ∈ dot_S2000x1024_S1024x1024_S2000x1024_1_0_0_1_n_n.lhsNonContracting by decide)]
  rfl
theorem d7_l1 (i : S2000x1024.Idx) (q : dot_S2000x1024_S1024x1024_S2000x1024_1_0_0_1_n_n.contr.Idx) : (dot_S2000x1024_S1024x1024_S2000x1024_1_0_0_1_n_n.lhsIdx i q 1).val = (q ⟨0, by decide⟩).val :=
  dot_S2000x1024_S1024x1024_S2000x1024_1_0_0_1_n_n.lhsIdx_val_of_single rfl i q
theorem d7_r0 (i : S2000x1024.Idx) (q : dot_S2000x1024_S1024x1024_S2000x1024_1_0_0_1_n_n.contr.Idx) : (dot_S2000x1024_S1024x1024_S2000x1024_1_0_0_1_n_n.rhsIdx i q 0).val = (q ⟨0, by decide⟩).val :=
  dot_S2000x1024_S1024x1024_S2000x1024_1_0_0_1_n_n.rhsIdx_val_of_single rfl i q
theorem d7_r1 (i : S2000x1024.Idx) (q : dot_S2000x1024_S1024x1024_S2000x1024_1_0_0_1_n_n.contr.Idx) : (dot_S2000x1024_S1024x1024_S2000x1024_1_0_0_1_n_n.rhsIdx i q 1).val = (i 1).val := by
  unfold DotDims.rhsIdx
  rw [dif_neg (show ¬(1 : Fin S1024x1024.rank) ∈ dot_S2000x1024_S1024x1024_S2000x1024_1_0_0_1_n_n.rhsBatch by decide), dif_pos (show (1 : Fin S1024x1024.rank) ∈ dot_S2000x1024_S1024x1024_S2000x1024_1_0_0_1_n_n.rhsNonContracting by decide)]
  rfl

/-! ### The contraction record `dot_S2000x1024_S1024x81_S2000x81_1_0_0_1_n_n` is a plain matrix product -/

theorem dc_l0 (i : S2000x81.Idx) (q : dot_S2000x1024_S1024x81_S2000x81_1_0_0_1_n_n.contr.Idx) : (dot_S2000x1024_S1024x81_S2000x81_1_0_0_1_n_n.lhsIdx i q 0).val = (i 0).val := by
  unfold DotDims.lhsIdx
  rw [dif_neg (show ¬(0 : Fin S2000x1024.rank) ∈ dot_S2000x1024_S1024x81_S2000x81_1_0_0_1_n_n.lhsBatch by decide), dif_pos (show (0 : Fin S2000x1024.rank) ∈ dot_S2000x1024_S1024x81_S2000x81_1_0_0_1_n_n.lhsNonContracting by decide)]
  rfl
theorem dc_l1 (i : S2000x81.Idx) (q : dot_S2000x1024_S1024x81_S2000x81_1_0_0_1_n_n.contr.Idx) : (dot_S2000x1024_S1024x81_S2000x81_1_0_0_1_n_n.lhsIdx i q 1).val = (q ⟨0, by decide⟩).val :=
  dot_S2000x1024_S1024x81_S2000x81_1_0_0_1_n_n.lhsIdx_val_of_single rfl i q
theorem dc_r0 (i : S2000x81.Idx) (q : dot_S2000x1024_S1024x81_S2000x81_1_0_0_1_n_n.contr.Idx) : (dot_S2000x1024_S1024x81_S2000x81_1_0_0_1_n_n.rhsIdx i q 0).val = (q ⟨0, by decide⟩).val :=
  dot_S2000x1024_S1024x81_S2000x81_1_0_0_1_n_n.rhsIdx_val_of_single rfl i q
theorem dc_r1 (i : S2000x81.Idx) (q : dot_S2000x1024_S1024x81_S2000x81_1_0_0_1_n_n.contr.Idx) : (dot_S2000x1024_S1024x81_S2000x81_1_0_0_1_n_n.rhsIdx i q 1).val = (i 1).val := by
  unfold DotDims.rhsIdx
  rw [dif_neg (show ¬(1 : Fin S1024x81.rank) ∈ dot_S2000x1024_S1024x81_S2000x81_1_0_0_1_n_n.rhsBatch by decide), dif_pos (show (1 : Fin S1024x81.rank) ∈ dot_S2000x1024_S1024x81_S2000x81_1_0_0_1_n_n.rhsNonContracting by decide)]
  rfl

/-! ### The contraction record `dot_S2000x1024_S1024x324_S2000x324_1_0_0_1_n_n` is a plain matrix product -/

theorem db_l0 (i : S2000x324.Idx) (q : dot_S2000x1024_S1024x324_S2000x324_1_0_0_1_n_n.contr.Idx) : (dot_S2000x1024_S1024x324_S2000x324_1_0_0_1_n_n.lhsIdx i q 0).val = (i 0).val := by
  unfold DotDims.lhsIdx
  rw [dif_neg (show ¬(0 : Fin S2000x1024.rank) ∈ dot_S2000x1024_S1024x324_S2000x324_1_0_0_1_n_n.lhsBatch by decide), dif_pos (show (0 : Fin S2000x1024.rank) ∈ dot_S2000x1024_S1024x324_S2000x324_1_0_0_1_n_n.lhsNonContracting by decide)]
  rfl
theorem db_l1 (i : S2000x324.Idx) (q : dot_S2000x1024_S1024x324_S2000x324_1_0_0_1_n_n.contr.Idx) : (dot_S2000x1024_S1024x324_S2000x324_1_0_0_1_n_n.lhsIdx i q 1).val = (q ⟨0, by decide⟩).val :=
  dot_S2000x1024_S1024x324_S2000x324_1_0_0_1_n_n.lhsIdx_val_of_single rfl i q
theorem db_r0 (i : S2000x324.Idx) (q : dot_S2000x1024_S1024x324_S2000x324_1_0_0_1_n_n.contr.Idx) : (dot_S2000x1024_S1024x324_S2000x324_1_0_0_1_n_n.rhsIdx i q 0).val = (q ⟨0, by decide⟩).val :=
  dot_S2000x1024_S1024x324_S2000x324_1_0_0_1_n_n.rhsIdx_val_of_single rfl i q
theorem db_r1 (i : S2000x324.Idx) (q : dot_S2000x1024_S1024x324_S2000x324_1_0_0_1_n_n.contr.Idx) : (dot_S2000x1024_S1024x324_S2000x324_1_0_0_1_n_n.rhsIdx i q 1).val = (i 1).val := by
  unfold DotDims.rhsIdx
  rw [dif_neg (show ¬(1 : Fin S1024x324.rank) ∈ dot_S2000x1024_S1024x324_S2000x324_1_0_0_1_n_n.rhsBatch by decide), dif_pos (show (1 : Fin S1024x324.rank) ∈ dot_S2000x1024_S1024x324_S2000x324_1_0_0_1_n_n.rhsNonContracting by decide)]
  rfl

end Cert.Body.Ref

end
-- ==== Proof.BodyHost.lean ====
/-
  The host's forms of the head's layers, read at an entry on the extended reals.

  The host program writes a dense layer as a `dot_general`, the bias vector placed as the one row of `[1, N]` and that row
  repeated over the rows (two `broadcast_in_dim`s), and an add; a clamp at zero as a `maximum` with a scalar zero
  broadcast to the matrix's shape; a row-wise softmax as a reduce with a maximum body from `-∞`, one more maximum
  with a broadcast `-∞`, the statistic kept as a column and spread over the lanes, a subtract, an exponential, a sum
  reduce from zero spread the same way, and a divide. Read at `(r, n)` each is the per-row function of row `r` of
  its matrix operand.
-/
import proofs.«160000_j26036091748769_1_alg».proof.Proof.LibDenseLayer
import proofs.«160000_j26036091748769_1_alg».proof.Proof.BodySpec
import Idealize.ShloMosaic.Lib.Pipeline.Value
import Idealize.ShloMosaic.Lib.ValueIdx
import Idealize.ShloMosaic.PureOps.Ideal.Laws

noncomputable section

namespace Cert.Body

open Idealize.ShloMosaic Idealize.ShloMosaic.ValueIdx Cert.Lib.RowSoftmax

/-! ## A dense layer -/

/-- The host's dense layer at `(r, n)`. -/
theorem hostLin_apply {M K N : ℕ} (hN : N ≠ 1) (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (a : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) :
    addf (Host.dotGeneral D none a W)
        (broadcastInDim ⟨2, ![M, N]⟩ ![0, 1] h2 (broadcastInDim ⟨2, ![1, N]⟩ ![1] h1 b)) (ix2 r n)
      = lin (fun k => a (ix2 r k)) (fun k n => W (ix2 k n)) (fun n => b (ix1 n)) n := by
  rw [addf_apply, Cert.Lib.DenseLayer.bias_apply hN]
  simp only [Host.dotGeneral]
  rw [Ideal.dotGeneral_apply, Cert.Lib.PlainDot.sum_rows_cols D hr hs hl0 hl1 hr0 hr1 a W (ix2 r n)]
  rfl

/-- The host's dense layer clamped at zero, at `(r, n)`. -/
theorem hostReluLin_apply {M K N : ℕ} (hN : N ≠ 1) (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (a : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (n : Fin N) :
    maximumf (addf (Host.dotGeneral D none a W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 r n)
      = reluLin (fun k => a (ix2 r k)) (fun k n => W (ix2 k n)) (fun n => b (ix1 n)) n := by
  rw [maximumf_apply, hostLin_apply hN D hr hs hl0 hl1 hr0 hr1 a W b h1 h2 r n,
    broadcastInDim_apply ![] h0 _ (ix2 r n) ix0 (fun a => a.elim0), constant_apply]
  rfl

/-! ## A row-wise softmax -/

/-- A per-row statistic kept as a column and spread over the lanes reads, at `(r, j)`, the statistic of row `r`. -/
theorem hostKeepdims_apply {α : Type} {a b : ℕ} (ha : a ≠ 1) (v : (⟨1, ![a]⟩ : Shape).Idx → α)
    (hb1 : (⟨1, ![a]⟩ : Shape).BroadcastsInDim ⟨2, ![a, 1]⟩ ![0])
    (hb2 : (⟨2, ![a, 1]⟩ : Shape).BroadcastsInDim ⟨2, ![a, b]⟩ ![0, 1]) (r : Fin a) (j : Fin b) :
    broadcastInDim ⟨2, ![a, b]⟩ ![0, 1] hb2 (broadcastInDim ⟨2, ![a, 1]⟩ ![0] hb1 v) (ix2 r j) = v (ix1 r) :=
  (broadcastInDim_apply ![0, 1] hb2 _ (ix2 r j) (ix2 r (0 : Fin 1)) (fun ax => match ax with
      | ⟨0, _⟩ => by show r.val = if a = 1 then 0 else r.val; rw [if_neg ha]
      | ⟨1, _⟩ => by show (0 : ℕ) = if (1 : ℕ) = 1 then 0 else j.val; rw [if_pos rfl])).trans
    (broadcastInDim_apply ![0] hb1 v (ix2 r (0 : Fin 1)) (ix1 r) (fun ax => match ax with
      | ⟨0, _⟩ => by show r.val = if a = 1 then 0 else r.val; rw [if_neg ha]))

/-- The host's reduce with a maximum body from `-∞` over the lanes, at row `r`: the maximum of that row. -/
theorem hostRowMax_apply {a b : ℕ} (s : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf s (constant (F := Ideal) ⟨0, ![]⟩ .f32 0xFF800000#32) h' hu (ix1 r)
      = maxOf (fun j => s (ix2 r j)) := by
  rw [Host.reduce_eq_fold_single FloatOps.maximumf s _ h' h hu]
  unfold maxOf
  exact congrArg (fun f => (Finset.univ : Finset (Fin b)).fold max negInf f)
    (funext fun j => congrArg s (lift_row h r j))

/-- The host's sum reduce from zero over the lanes, at row `r`: the sum of that row. -/
theorem hostRowSum_apply {a b : ℕ} (p : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd p (constant (F := Ideal) ⟨0, ![]⟩ .f32 0x00000000#32) h' hu (ix1 r) = ∑ j : Fin b, p (ix2 r j) := by
  simp only [Host.reduceAdd, Ideal.hostReduceAdd_def]
  rw [Ideal.hostReduceAdd_single h' h]
  show Ideal.ofBits .f32 0x00000000#32 + ∑ j : Fin b, p (h.lift (ix1 r) j) = _
  rw [Ideal.ofBits_zero_f32, zero_add]
  exact Finset.sum_congr rfl fun j _ => congrArg p (lift_row h r j)

/-- The host's row-wise softmax chain at `(r, j)`: the softmax of row `r` at lane `j`. -/
theorem hostSoftmax_apply {a b : ℕ} (ha : a ≠ 1) (s : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (r : Fin a) (j : Fin b) :
    Host.divf
        (Host.exp (subf s (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] hb2 (broadcastInDim ⟨2, ![a, 1]⟩ ![0] hb1
          (Host.reduceAdd
            (Host.exp (subf s (broadcastInDim ⟨2, ![a, b]⟩ ![0, 1] hb2 (broadcastInDim ⟨2, ![a, 1]⟩ ![0] hb1
              (maximumf (broadcastInDim ⟨1, ![a]⟩ ![] hb0 (constant (F := Ideal) ⟨0, ![]⟩ .f32 0xFF800000#32))
                (Host.reduce FloatOps.maximumf s (constant (F := Ideal) ⟨0, ![]⟩ .f32 0xFF800000#32) h' hu))))))
            (constant (F := Ideal) ⟨0, ![]⟩ .f32 0x00000000#32) h' hu)))
        (ix2 r j)
      = softmaxOf (fun j' => s (ix2 r j')) j := by
  -- the weights, entry by entry
  have hw : ∀ j' : Fin b,
      Host.exp (subf s (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf s (constant (F := Ideal) ⟨0, ![]⟩ .f32 0xFF800000#32) h' hu))))) (ix2 r j')
        = weightOf (fun j'' => s (ix2 r j'')) j' := by
    intro j'
    show Ideal.exp (s (ix2 r j') - broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf s (constant (F := Ideal) ⟨0, ![]⟩ .f32 0xFF800000#32) h' hu))) (ix2 r j')) = _
    rw [hostKeepdims_apply ha _ hb1 hb2 r j', maximumf_apply,
      broadcastInDim_apply ![] hb0 _ (ix1 r) ix0 (fun ax => ax.elim0), constant_apply,
      hostRowMax_apply s h' h hu r]
    show Ideal.exp (s (ix2 r j') - max negInf (maxOf fun j'' => s (ix2 r j''))) = _
    rw [max_negInf_maxOf]
    rfl
  show Ideal.div _ _ = _
  rw [hw j, hostKeepdims_apply ha _ hb1 hb2 r j, hostRowSum_apply _ h' h hu r]
  unfold softmaxOf
  exact congrArg (Ideal.div _) (Finset.sum_congr rfl fun j' _ => hw j')

end Cert.Body

end
-- ==== Proof.BodyRef.lean ====
/-
  The reference's head as whole-array functions, and each read at an entry: entry `(r, ·)` of a stage is the
  per-row function of row `r` of the flattened input. The definitions are the host operations in the order the
  reference prints them (a `dot_general`, the bias as two `broadcast_in_dim`s, an add, a `maximum` with a broadcast
  scalar zero; the softmax chain with its extra maximum with a broadcast `-∞`).
-/
import proofs.«160000_j26036091748769_1_alg».proof.Proof.BodyRefDots
import proofs.«160000_j26036091748769_1_alg».proof.Proof.BodyHost

noncomputable section

namespace Cert.Body.Ref

open Idealize.ShloMosaic Idealize.ShloMosaic.ValueIdx Cert.ReferenceIdeal Cert.ReferenceIdeal.Gen Cert.Body

/-- The first hidden layer over all rows. -/
def f6 (v0 : FVec Ideal S2000x12544 .f32) (x2 : FVec Ideal S12544x1024 .f32) (x3 : FVec Ideal S1024 .f32) : FVec Ideal S2000x1024 .f32 :=
  maximumf (addf (Host.dotGeneral dot_S2000x12544_S12544x1024_S2000x1024_1_0_0_1_n_n none v0 x2)
      (broadcastInDim S2000x1024 ![0, 1] bcast_S1x1024_S2000x1024_0_1 (broadcastInDim S1x1024 ![1] bcast_S1024_S1x1024_1 x3)))
    (broadcastInDim S2000x1024 ![] bcast_S_S2000x1024 (constant (F := Ideal) S_ .f32 0x00000000#32))

/-- The second hidden layer over all rows. -/
def f7 (v0 : FVec Ideal S2000x12544 .f32) (x2 : FVec Ideal S12544x1024 .f32) (x3 : FVec Ideal S1024 .f32) (x4 : FVec Ideal S1024x1024 .f32) (x5 : FVec Ideal S1024 .f32) : FVec Ideal S2000x1024 .f32 :=
  maximumf (addf (Host.dotGeneral dot_S2000x1024_S1024x1024_S2000x1024_1_0_0_1_n_n none (f6 v0 x2 x3) x4)
      (broadcastInDim S2000x1024 ![0, 1] bcast_S1x1024_S2000x1024_0_1 (broadcastInDim S1x1024 ![1] bcast_S1024_S1x1024_1 x5)))
    (broadcastInDim S2000x1024 ![] bcast_S_S2000x1024 (constant (F := Ideal) S_ .f32 0x00000000#32))

/-- The class logits over all rows. -/
def logits (v0 : FVec Ideal S2000x12544 .f32) (x2 : FVec Ideal S12544x1024 .f32) (x3 : FVec Ideal S1024 .f32) (x4 : FVec Ideal S1024x1024 .f32) (x5 : FVec Ideal S1024 .f32) (x6 : FVec Ideal S1024x81 .f32) (x7 : FVec Ideal S81 .f32) : FVec Ideal S2000x81 .f32 :=
  addf (Host.dotGeneral dot_S2000x1024_S1024x81_S2000x81_1_0_0_1_n_n none (f7 v0 x2 x3 x4 x5) x6)
    (broadcastInDim S2000x81 ![0, 1] bcast_S1x81_S2000x81_0_1 (broadcastInDim S1x81 ![1] bcast_S81_S1x81_1 x7))

/-- The host's row-wise softmax chain of a `[2000, 81]` matrix. -/
def softmaxRows (s : FVec Ideal S2000x81 .f32) : FVec Ideal S2000x81 .f32 :=
  Host.divf
    (Host.exp (subf s (broadcastInDim S2000x81 ![0, 1] bcast_S2000x1_S2000x81_0_1 (broadcastInDim S2000x1 ![0] bcast_S2000_S2000x1_0
      (maximumf (broadcastInDim S2000 ![] bcast_S_S2000 (constant (F := Ideal) S_ .f32 0xFF800000#32))
        (Host.reduce FloatOps.maximumf s (constant (F := Ideal) S_ .f32 0xFF800000#32) reducesTo_S2000x81_S2000_d1 h_S_))))))
    (broadcastInDim S2000x81 ![0, 1] bcast_S2000x1_S2000x81_0_1 (broadcastInDim S2000x1 ![0] bcast_S2000_S2000x1_0
      (Host.reduceAdd
        (Host.exp (subf s (broadcastInDim S2000x81 ![0, 1] bcast_S2000x1_S2000x81_0_1 (broadcastInDim S2000x1 ![0] bcast_S2000_S2000x1_0
          (maximumf (broadcastInDim S2000 ![] bcast_S_S2000 (constant (F := Ideal) S_ .f32 0xFF800000#32))
            (Host.reduce FloatOps.maximumf s (constant (F := Ideal) S_ .f32 0xFF800000#32) reducesTo_S2000x81_S2000_d1 h_S_))))))
        (constant (F := Ideal) S_ .f32 0x00000000#32) reducesTo_S2000x81_S2000_d1 h_S_)))

/-- The class scores over all rows. -/
def probs (v0 : FVec Ideal S2000x12544 .f32) (x2 : FVec Ideal S12544x1024 .f32) (x3 : FVec Ideal S1024 .f32) (x4 : FVec Ideal S1024x1024 .f32) (x5 : FVec Ideal S1024 .f32) (x6 : FVec Ideal S1024x81 .f32) (x7 : FVec Ideal S81 .f32) : FVec Ideal S2000x81 .f32 :=
  softmaxRows (logits v0 x2 x3 x4 x5 x6 x7)

/-- The box deltas over all rows and all 324 columns. -/
def reg (v0 : FVec Ideal S2000x12544 .f32) (x2 : FVec Ideal S12544x1024 .f32) (x3 : FVec Ideal S1024 .f32) (x4 : FVec Ideal S1024x1024 .f32) (x5 : FVec Ideal S1024 .f32) (x8 : FVec Ideal S1024x324 .f32) (x9 : FVec Ideal S324 .f32) : FVec Ideal S2000x324 .f32 :=
  addf (Host.dotGeneral dot_S2000x1024_S1024x324_S2000x324_1_0_0_1_n_n none (f7 v0 x2 x3 x4 x5) x8)
    (broadcastInDim S2000x324 ![0, 1] bcast_S1x324_S2000x324_0_1 (broadcastInDim S1x324 ![1] bcast_S324_S1x324_1 x9))

theorem f6_apply (v0 : FVec Ideal S2000x12544 .f32) (x2 : FVec Ideal S12544x1024 .f32) (x3 : FVec Ideal S1024 .f32) (r : Fin 2000) (q : Fin 1024) :
    f6 v0 x2 x3 (ix2 r q) = f6Row (fun k => v0 (ix2 r k)) (fun k n => x2 (ix2 k n)) (fun n => x3 (ix1 n)) q :=
  hostReluLin_apply (by decide) dot_S2000x12544_S12544x1024_S2000x1024_1_0_0_1_n_n rfl rfl d6_l0 d6_l1 d6_r0 d6_r1
    v0 x2 x3 bcast_S1024_S1x1024_1 bcast_S1x1024_S2000x1024_0_1 bcast_S_S2000x1024 r q

theorem f7_apply (v0 : FVec Ideal S2000x12544 .f32) (x2 : FVec Ideal S12544x1024 .f32) (x3 : FVec Ideal S1024 .f32) (x4 : FVec Ideal S1024x1024 .f32) (x5 : FVec Ideal S1024 .f32) (r : Fin 2000) (q : Fin 1024) :
    f7 v0 x2 x3 x4 x5 (ix2 r q) = f7Row (fun k => v0 (ix2 r k)) (fun k n => x2 (ix2 k n)) (fun n => x3 (ix1 n)) (fun k n => x4 (ix2 k n)) (fun n => x5 (ix1 n)) q :=
  (hostReluLin_apply (by decide) dot_S2000x1024_S1024x1024_S2000x1024_1_0_0_1_n_n rfl rfl d7_l0 d7_l1 d7_r0 d7_r1
    (f6 v0 x2 x3) x4 x5 bcast_S1024_S1x1024_1 bcast_S1x1024_S2000x1024_0_1 bcast_S_S2000x1024 r q).trans
  (congrArg (fun a => reluLin a (fun k n => x4 (ix2 k n)) (fun n => x5 (ix1 n)) q) (funext fun k => f6_apply v0 x2 x3 r k))

theorem logits_apply (v0 : FVec Ideal S2000x12544 .f32) (x2 : FVec Ideal S12544x1024 .f32) (x3 : FVec Ideal S1024 .f32) (x4 : FVec Ideal S1024x1024 .f32) (x5 : FVec Ideal S1024 .f32) (x6 : FVec Ideal S1024x81 .f32) (x7 : FVec Ideal S81 .f32) (r : Fin 2000) (j : Fin 81) :
    logits v0 x2 x3 x4 x5 x6 x7 (ix2 r j)
      = logitRow (fun k => v0 (ix2 r k)) (fun k n => x2 (ix2 k n)) (fun n => x3 (ix1 n)) (fun k n => x4 (ix2 k n)) (fun n => x5 (ix1 n)) (fun k n => x6 (ix2 k n)) (fun n => x7 (ix1 n)) j :=
  (hostLin_apply (by decide) dot_S2000x1024_S1024x81_S2000x81_1_0_0_1_n_n rfl rfl dc_l0 dc_l1 dc_r0 dc_r1
    (f7 v0 x2 x3 x4 x5) x6 x7 bcast_S81_S1x81_1 bcast_S1x81_S2000x81_0_1 r j).trans
  (congrArg (fun a => lin a (fun k n => x6 (ix2 k n)) (fun n => x7 (ix1 n)) j) (funext fun k => f7_apply v0 x2 x3 x4 x5 r k))

theorem probs_apply (v0 : FVec Ideal S2000x12544 .f32) (x2 : FVec Ideal S12544x1024 .f32) (x3 : FVec Ideal S1024 .f32) (x4 : FVec Ideal S1024x1024 .f32) (x5 : FVec Ideal S1024 .f32) (x6 : FVec Ideal S1024x81 .f32) (x7 : FVec Ideal S81 .f32) (r : Fin 2000) (j : Fin 81) :
    probs v0 x2 x3 x4 x5 x6 x7 (ix2 r j)
      = probRow (fun k => v0 (ix2 r k)) (fun k n => x2 (ix2 k n)) (fun n => x3 (ix1 n)) (fun k n => x4 (ix2 k n)) (fun n => x5 (ix1 n)) (fun k n => x6 (ix2 k n)) (fun n => x7 (ix1 n)) j :=
  (hostSoftmax_apply (by decide) (logits v0 x2 x3 x4 x5 x6 x7) reducesTo_S2000x81_S2000_d1 (by decide) h_S_
    bcast_S_S2000 bcast_S2000_S2000x1_0 bcast_S2000x1_S2000x81_0_1 r j).trans
  (congrArg (fun f => Cert.Lib.RowSoftmax.softmaxOf f j) (funext fun j' => logits_apply v0 x2 x3 x4 x5 x6 x7 r j'))

theorem reg_apply (v0 : FVec Ideal S2000x12544 .f32) (x2 : FVec Ideal S12544x1024 .f32) (x3 : FVec Ideal S1024 .f32) (x4 : FVec Ideal S1024x1024 .f32) (x5 : FVec Ideal S1024 .f32) (x8 : FVec Ideal S1024x324 .f32) (x9 : FVec Ideal S324 .f32) (r : Fin 2000) (c : Fin 324) :
    reg v0 x2 x3 x4 x5 x8 x9 (ix2 r c)
      = regRow (fun k => v0 (ix2 r k)) (fun k n => x2 (ix2 k n)) (fun n => x3 (ix1 n)) (fun k n => x4 (ix2 k n)) (fun n => x5 (ix1 n)) (fun k n => x8 (ix2 k n)) (fun n => x9 (ix1 n)) c :=
  (hostLin_apply (by decide) dot_S2000x1024_S1024x324_S2000x324_1_0_0_1_n_n rfl rfl db_l0 db_l1 db_r0 db_r1
    (f7 v0 x2 x3 x4 x5) x8 x9 bcast_S324_S1x324_1 bcast_S1x324_S2000x324_0_1 r c).trans
  (congrArg (fun a => lin a (fun k n => x8 (ix2 k n)) (fun n => x9 (ix1 n)) c) (funext fun k => f7_apply v0 x2 x3 x4 x5 r k))

end Cert.Body.Ref

end
-- ==== Proof.BodyJoin.lean ====
/-
  The kernel body's blocks against the reference's whole-array stages: where row `p` of the body's input block is
  row `r` of the reference's flattened input and the weights agree entry by entry, entry `(p, ·)` of each of the
  body's blocks is entry `(r, ·)` of the reference's stage. Both are the same per-row function of that row. The
  body's box layer has the 320 columns `4 … 323` of the reference's 324.
-/
import proofs.«160000_j26036091748769_1_alg».proof.Proof.BodyK5
import proofs.«160000_j26036091748769_1_alg».proof.Proof.BodyK2
import proofs.«160000_j26036091748769_1_alg».proof.Proof.BodyRef

noncomputable section

namespace Cert.Body

open Idealize.ShloMosaic Idealize.ShloMosaic.ValueIdx Cert.KernelIdeal.Gen

/-- The first hidden layer: the body's block at `(p, q)` is the reference's stage at `(r, q)`. -/
theorem f6_block_eq (xb : FVec Ideal Cert.KernelIdeal.S80x12544 .bf16) (w2 : FVec Ideal Cert.KernelIdeal.S12544x1024 .bf16) (b3 : FVec Ideal Cert.KernelIdeal.S1024 .f32)
    (v0 : FVec Ideal Cert.ReferenceIdeal.S2000x12544 .f32) (x2 : FVec Ideal Cert.ReferenceIdeal.S12544x1024 .f32) (x3 : FVec Ideal Cert.ReferenceIdeal.S1024 .f32)
    (p : Fin 80) (r : Fin 2000) (hx : ∀ k : Fin 12544, xb (ix2 p k) = v0 (ix2 r k))
    (hw2 : ∀ i, w2 i = x2 i) (hb3 : ∀ i, b3 i = x3 i) (q : Fin 1024) :
    k0_pay3 (F := Ideal) xb w2 b3 (ix2 p q) = Ref.f6 v0 x2 x3 (ix2 r q) := by
  rw [pay3_apply, Ref.f6_apply]
  have e1 : ((fun k => xb (ix2 p k)) : Fin 12544 → EReal) = fun k => v0 (ix2 r k) := funext hx
  have e2 : ((fun k n => w2 (ix2 k n)) : Fin 12544 → Fin 1024 → EReal) = fun k n => x2 (ix2 k n) := funext fun k => funext fun n => hw2 _
  have e3 : ((fun n => b3 (ix1 n)) : Fin 1024 → EReal) = fun n => x3 (ix1 n) := funext fun n => hb3 _
  rw [e1, e2, e3]

/-- The class scores: the body's normalised block at `(p, j)` is the reference's stage at `(r, j)`. -/
theorem probs_block_eq (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w6 : FVec Ideal Cert.KernelIdeal.S1024x81 .bf16) (b7 : FVec Ideal Cert.KernelIdeal.S81 .f32)
    (v0 : FVec Ideal Cert.ReferenceIdeal.S2000x12544 .f32) (x2 : FVec Ideal Cert.ReferenceIdeal.S12544x1024 .f32) (x3 : FVec Ideal Cert.ReferenceIdeal.S1024 .f32)
    (x4 : FVec Ideal Cert.ReferenceIdeal.S1024x1024 .f32) (x5 : FVec Ideal Cert.ReferenceIdeal.S1024 .f32) (x6 : FVec Ideal Cert.ReferenceIdeal.S1024x81 .f32) (x7 : FVec Ideal Cert.ReferenceIdeal.S81 .f32)
    (p : Fin 80) (r : Fin 2000) (hx : ∀ k : Fin 12544, xb (ix2 p k) = v0 (ix2 r k))
    (hw2 : ∀ i, w2 i = x2 i) (hb3 : ∀ i, b3 i = x3 i) (hw4 : ∀ i, w4 i = x4 i) (hb5 : ∀ i, b5 i = x5 i)
    (hw6 : ∀ i, w6 i = x6 i) (hb7 : ∀ i, b7 i = x7 i) (j : Fin 81) :
    k0_pay1 (F := Ideal) (k0_pay5 (F := Ideal) xb w2 b3 w4 b5 w6 b7) (k0_pay6 (F := Ideal) xb w2 b3 w4 b5 w6 b7) (ix2 p j)
      = Ref.probs v0 x2 x3 x4 x5 x6 x7 (ix2 r j) := by
  rw [pay1_apply, Ref.probs_apply]
  have e1 : ((fun k => xb (ix2 p k)) : Fin 12544 → EReal) = fun k => v0 (ix2 r k) := funext hx
  have e2 : ((fun k n => w2 (ix2 k n)) : Fin 12544 → Fin 1024 → EReal) = fun k n => x2 (ix2 k n) := funext fun k => funext fun n => hw2 _
  have e3 : ((fun n => b3 (ix1 n)) : Fin 1024 → EReal) = fun n => x3 (ix1 n) := funext fun n => hb3 _
  have e4 : ((fun k n => w4 (ix2 k n)) : Fin 1024 → Fin 1024 → EReal) = fun k n => x4 (ix2 k n) := funext fun k => funext fun n => hw4 _
  have e5 : ((fun n => b5 (ix1 n)) : Fin 1024 → EReal) = fun n => x5 (ix1 n) := funext fun n => hb5 _
  have e6 : ((fun k n => w6 (ix2 k n)) : Fin 1024 → Fin 81 → EReal) = fun k n => x6 (ix2 k n) := funext fun k => funext fun n => hw6 _
  have e7 : ((fun n => b7 (ix1 n)) : Fin 81 → EReal) = fun n => x7 (ix1 n) := funext fun n => hb7 _
  rw [e1, e2, e3, e4, e5, e6, e7]

/-- The box deltas: the body's block at `(p, c)` is the reference's stage at `(r, c + 4)`. -/
theorem reg_block_eq (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w8 : FVec Ideal Cert.KernelIdeal.S1024x320 .bf16) (b9 : FVec Ideal Cert.KernelIdeal.S320 .f32)
    (v0 : FVec Ideal Cert.ReferenceIdeal.S2000x12544 .f32) (x2 : FVec Ideal Cert.ReferenceIdeal.S12544x1024 .f32) (x3 : FVec Ideal Cert.ReferenceIdeal.S1024 .f32)
    (x4 : FVec Ideal Cert.ReferenceIdeal.S1024x1024 .f32) (x5 : FVec Ideal Cert.ReferenceIdeal.S1024 .f32) (x8 : FVec Ideal Cert.ReferenceIdeal.S1024x324 .f32) (x9 : FVec Ideal Cert.ReferenceIdeal.S324 .f32)
    (p : Fin 80) (r : Fin 2000) (hx : ∀ k : Fin 12544, xb (ix2 p k) = v0 (ix2 r k))
    (hw2 : ∀ i, w2 i = x2 i) (hb3 : ∀ i, b3 i = x3 i) (hw4 : ∀ i, w4 i = x4 i) (hb5 : ∀ i, b5 i = x5 i)
    (hw8 : ∀ (k : Fin 1024) (c : Fin 320), w8 (ix2 k c) = x8 (ix2 k ⟨c.val + 4, by omega⟩))
    (hb9 : ∀ c : Fin 320, b9 (ix1 c) = x9 (ix1 ⟨c.val + 4, by omega⟩)) (c : Fin 320) :
    k0_pay2 (F := Ideal) (k0_pay4 (F := Ideal) xb w2 b3 w4 b5) w8 b9 (ix2 p c)
      = Ref.reg v0 x2 x3 x4 x5 x8 x9 (ix2 r ⟨c.val + 4, by omega⟩) := by
  rw [pay2_apply, Ref.reg_apply]
  have e1 : ((fun k => xb (ix2 p k)) : Fin 12544 → EReal) = fun k => v0 (ix2 r k) := funext hx
  have e2 : ((fun k n => w2 (ix2 k n)) : Fin 12544 → Fin 1024 → EReal) = fun k n => x2 (ix2 k n) := funext fun k => funext fun n => hw2 _
  have e3 : ((fun n => b3 (ix1 n)) : Fin 1024 → EReal) = fun n => x3 (ix1 n) := funext fun n => hb3 _
  have e4 : ((fun k n => w4 (ix2 k n)) : Fin 1024 → Fin 1024 → EReal) = fun k n => x4 (ix2 k n) := funext fun k => funext fun n => hw4 _
  have e5 : ((fun n => b5 (ix1 n)) : Fin 1024 → EReal) = fun n => x5 (ix1 n) := funext fun n => hb5 _
  rw [e1, e2, e3, e4, e5]
  unfold regRow
  exact lin_cols _ _ _ _ _ c ⟨c.val + 4, by omega⟩ (fun k => hw8 k c) (hb9 c)

end Cert.Body

end
-- ==== Proof.Body.lean ====
/-
  The kernel body's three stored blocks against the reference's stages. At grid point `t` the body's input block is
  rows `80 t … 80 t + 79` of the reference's flattened input and every weight block is its whole array (the box
  layer's: columns `4 … 323` of the reference's). Then entry `(p, ·)` of the body's first-hidden-layer block, of its
  class-score block and of its box-delta block is entry `(80 t + p, ·)` of the reference's first hidden layer, class
  scores and box deltas (the last at column `· + 4`). The reference's stages are, definition by definition, the
  whole-array functions of the module this one imports.
-/
import proofs.«160000_j26036091748769_1_alg».proof.Proof.BodyJoin
import proofs.«160000_j26036091748769_1_alg».proof.Proof.RefReadP

noncomputable section

namespace Cert.Body

open Idealize.ShloMosaic Idealize.ShloMosaic.ValueIdx Cert.KernelIdeal.Gen

/-! ## The reference's stages are the whole-array functions -/

theorem stage_f6 (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal)) :
    Cert.ReferenceIdeal.ReadP.val_main_v5 (F := Ideal) x0 x2 x3 = Ref.f6 (Cert.ReferenceIdeal.ReadP.val_main_v0 (F := Ideal) x0) x2 x3 := rfl

theorem stage_probs (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x81, .f32⟩ : BufTy).Contents (Elt Ideal)) (x7 : (⟨Cert.ReferenceIdeal.S81, .f32⟩ : BufTy).Contents (Elt Ideal)) :
    Cert.ReferenceIdeal.ReadP.val_main_v25 (F := Ideal) x0 x2 x3 x4 x5 x6 x7
      = Ref.probs (Cert.ReferenceIdeal.ReadP.val_main_v0 (F := Ideal) x0) x2 x3 x4 x5 x6 x7 := rfl

theorem stage_reg (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x8 : (⟨Cert.ReferenceIdeal.S1024x324, .f32⟩ : BufTy).Contents (Elt Ideal)) (x9 : (⟨Cert.ReferenceIdeal.S324, .f32⟩ : BufTy).Contents (Elt Ideal)) :
    Cert.ReferenceIdeal.ReadP.val_main_v29 (F := Ideal) x0 x2 x3 x4 x5 x8 x9
      = Ref.reg (Cert.ReferenceIdeal.ReadP.val_main_v0 (F := Ideal) x0) x2 x3 x4 x5 x8 x9 := rfl

/-! ## A block row against any row of the reference's input -/

/-- The first hidden layer: where row `p` of the body's input block is row `r` of the reference's input. -/
theorem f6_row (xb : FVec Ideal Cert.KernelIdeal.S80x12544 .bf16) (w2 : FVec Ideal Cert.KernelIdeal.S12544x1024 .bf16) (b3 : FVec Ideal Cert.KernelIdeal.S1024 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (p : Fin 80) (r : Fin 2000) (hx : ∀ k : Fin 12544, xb (ix2 p k) = Cert.ReferenceIdeal.ReadP.val_main_v0 (F := Ideal) x0 (ix2 r k))
    (hw2 : ∀ i, w2 i = x2 i) (hb3 : ∀ i, b3 i = x3 i) (q : Fin 1024) :
    k0_pay3 (F := Ideal) xb w2 b3 (ix2 p q) = Cert.ReferenceIdeal.ReadP.val_main_v5 (F := Ideal) x0 x2 x3 (ix2 r q) := by
  rw [stage_f6]
  exact f6_block_eq xb w2 b3 _ x2 x3 p r hx hw2 hb3 q

/-- The class scores. -/
theorem probs_row (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w6 : FVec Ideal Cert.KernelIdeal.S1024x81 .bf16) (b7 : FVec Ideal Cert.KernelIdeal.S81 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x81, .f32⟩ : BufTy).Contents (Elt Ideal)) (x7 : (⟨Cert.ReferenceIdeal.S81, .f32⟩ : BufTy).Contents (Elt Ideal))
    (p : Fin 80) (r : Fin 2000) (hx : ∀ k : Fin 12544, xb (ix2 p k) = Cert.ReferenceIdeal.ReadP.val_main_v0 (F := Ideal) x0 (ix2 r k))
    (hw2 : ∀ i, w2 i = x2 i) (hb3 : ∀ i, b3 i = x3 i) (hw4 : ∀ i, w4 i = x4 i) (hb5 : ∀ i, b5 i = x5 i)
    (hw6 : ∀ i, w6 i = x6 i) (hb7 : ∀ i, b7 i = x7 i) (j : Fin 81) :
    k0_pay1 (F := Ideal) (k0_pay5 (F := Ideal) xb w2 b3 w4 b5 w6 b7) (k0_pay6 (F := Ideal) xb w2 b3 w4 b5 w6 b7) (ix2 p j)
      = Cert.ReferenceIdeal.ReadP.val_main_v25 (F := Ideal) x0 x2 x3 x4 x5 x6 x7 (ix2 r j) := by
  rw [stage_probs]
  exact probs_block_eq xb w2 b3 w4 b5 w6 b7 _ x2 x3 x4 x5 x6 x7 p r hx hw2 hb3 hw4 hb5 hw6 hb7 j

/-- The box deltas: the body's column `c` is the reference's column `c + 4`. -/
theorem reg_row (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w8 : FVec Ideal Cert.KernelIdeal.S1024x320 .bf16) (b9 : FVec Ideal Cert.KernelIdeal.S320 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x8 : (⟨Cert.ReferenceIdeal.S1024x324, .f32⟩ : BufTy).Contents (Elt Ideal)) (x9 : (⟨Cert.ReferenceIdeal.S324, .f32⟩ : BufTy).Contents (Elt Ideal))
    (p : Fin 80) (r : Fin 2000) (hx : ∀ k : Fin 12544, xb (ix2 p k) = Cert.ReferenceIdeal.ReadP.val_main_v0 (F := Ideal) x0 (ix2 r k))
    (hw2 : ∀ i, w2 i = x2 i) (hb3 : ∀ i, b3 i = x3 i) (hw4 : ∀ i, w4 i = x4 i) (hb5 : ∀ i, b5 i = x5 i)
    (hw8 : ∀ (k : Fin 1024) (c : Fin 320), w8 (ix2 k c) = x8 (ix2 k ⟨c.val + 4, by omega⟩))
    (hb9 : ∀ c : Fin 320, b9 (ix1 c) = x9 (ix1 ⟨c.val + 4, by omega⟩)) (c : Fin 320) :
    k0_pay2 (F := Ideal) (k0_pay4 (F := Ideal) xb w2 b3 w4 b5) w8 b9 (ix2 p c)
      = Cert.ReferenceIdeal.ReadP.val_main_v29 (F := Ideal) x0 x2 x3 x4 x5 x8 x9 (ix2 r ⟨c.val + 4, by omega⟩) := by
  rw [stage_reg]
  exact reg_block_eq xb w2 b3 w4 b5 w8 b9 _ x2 x3 x4 x5 x8 x9 p r hx hw2 hb3 hw4 hb5 hw8 hb9 c

/-! ## At a grid point -/

/-- Row `p` of the block at grid point `t` is row `80 t + p` of the array. -/
def blockRow (t : Fin 25) (p : Fin 80) : Fin 2000 :=
  ⟨80 * t.val + p.val, by have := t.isLt; have := p.isLt; omega⟩

theorem blockRow_val (t : Fin 25) (p : Fin 80) : (blockRow t p).val = 80 * t.val + p.val := rfl

/-- The first hidden layer at grid point `t`. -/
theorem B1 (t : Fin 25) (xb : FVec Ideal Cert.KernelIdeal.S80x12544 .bf16) (w2 : FVec Ideal Cert.KernelIdeal.S12544x1024 .bf16) (b3 : FVec Ideal Cert.KernelIdeal.S1024 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (hx : ∀ (p : Fin 80) (k : Fin 12544), xb (ix2 p k) = Cert.ReferenceIdeal.ReadP.val_main_v0 (F := Ideal) x0 (ix2 (blockRow t p) k))
    (hw2 : ∀ i, w2 i = x2 i) (hb3 : ∀ i, b3 i = x3 i) (p : Fin 80) (q : Fin 1024) :
    k0_pay3 (F := Ideal) xb w2 b3 (ix2 p q) = Cert.ReferenceIdeal.ReadP.val_main_v5 (F := Ideal) x0 x2 x3 (ix2 (blockRow t p) q) :=
  f6_row xb w2 b3 x0 x2 x3 p (blockRow t p) (hx p) hw2 hb3 q

/-- The class scores at grid point `t`. -/
theorem B2 (t : Fin 25) (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w6 : FVec Ideal Cert.KernelIdeal.S1024x81 .bf16) (b7 : FVec Ideal Cert.KernelIdeal.S81 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x81, .f32⟩ : BufTy).Contents (Elt Ideal)) (x7 : (⟨Cert.ReferenceIdeal.S81, .f32⟩ : BufTy).Contents (Elt Ideal))
    (hx : ∀ (p : Fin 80) (k : Fin 12544), xb (ix2 p k) = Cert.ReferenceIdeal.ReadP.val_main_v0 (F := Ideal) x0 (ix2 (blockRow t p) k))
    (hw2 : ∀ i, w2 i = x2 i) (hb3 : ∀ i, b3 i = x3 i) (hw4 : ∀ i, w4 i = x4 i) (hb5 : ∀ i, b5 i = x5 i)
    (hw6 : ∀ i, w6 i = x6 i) (hb7 : ∀ i, b7 i = x7 i) (p : Fin 80) (j : Fin 81) :
    k0_pay1 (F := Ideal) (k0_pay5 (F := Ideal) xb w2 b3 w4 b5 w6 b7) (k0_pay6 (F := Ideal) xb w2 b3 w4 b5 w6 b7) (ix2 p j)
      = Cert.ReferenceIdeal.ReadP.val_main_v25 (F := Ideal) x0 x2 x3 x4 x5 x6 x7 (ix2 (blockRow t p) j) :=
  probs_row xb w2 b3 w4 b5 w6 b7 x0 x2 x3 x4 x5 x6 x7 p (blockRow t p) (hx p) hw2 hb3 hw4 hb5 hw6 hb7 j

/-- The box deltas at grid point `t`. -/
theorem B3 (t : Fin 25) (xb : FVec Ideal Cert.KernelIdeal.S80x12544 .bf16) (w2 : FVec Ideal Cert.KernelIdeal.S12544x1024 .bf16) (b3 : FVec Ideal Cert.KernelIdeal.S1024 .f32)
    (w4 : FVec Ideal Cert.KernelIdeal.S1024x1024 .bf16) (b5 : FVec Ideal Cert.KernelIdeal.S1024 .f32) (w8 : FVec Ideal Cert.KernelIdeal.S1024x320 .bf16) (b9 : FVec Ideal Cert.KernelIdeal.S320 .f32)
    (x0 : (⟨Cert.ReferenceIdeal.S2000x256x7x7, .f32⟩ : BufTy).Contents (Elt Ideal)) (x2 : (⟨Cert.ReferenceIdeal.S12544x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x8 : (⟨Cert.ReferenceIdeal.S1024x324, .f32⟩ : BufTy).Contents (Elt Ideal)) (x9 : (⟨Cert.ReferenceIdeal.S324, .f32⟩ : BufTy).Contents (Elt Ideal))
    (hx : ∀ (p : Fin 80) (k : Fin 12544), xb (ix2 p k) = Cert.ReferenceIdeal.ReadP.val_main_v0 (F := Ideal) x0 (ix2 (blockRow t p) k))
    (hw2 : ∀ i, w2 i = x2 i) (hb3 : ∀ i, b3 i = x3 i) (hw4 : ∀ i, w4 i = x4 i) (hb5 : ∀ i, b5 i = x5 i)
    (hw8 : ∀ (k : Fin 1024) (c : Fin 320), w8 (ix2 k c) = x8 (ix2 k ⟨c.val + 4, by omega⟩))
    (hb9 : ∀ c : Fin 320, b9 (ix1 c) = x9 (ix1 ⟨c.val + 4, by omega⟩)) (p : Fin 80) (c : Fin 320) :
    k0_pay2 (F := Ideal) (k0_pay4 (F := Ideal) xb w2 b3 w4 b5) w8 b9 (ix2 p c)
      = Cert.ReferenceIdeal.ReadP.val_main_v29 (F := Ideal) x0 x2 x3 x4 x5 x8 x9 (ix2 (blockRow t p) ⟨c.val + 4, by omega⟩) :=
  reg_row xb w2 b3 w4 b5 w8 b9 x0 x2 x3 x4 x5 x8 x9 p (blockRow t p) (hx p) hw2 hb3 hw4 hb5 hw8 hb9 c

end Cert.Body

end
-- ==== Proof.TailDefs.lean ====
/-
  The host lines that follow the region, as one function of the three arrays the region wrote
  (the second hidden layer's activations, the class probabilities, the box regressions of the
  eighty foreground classes) and of the proposal boxes: box decoding, the score threshold, the
  two masked selections and the final concatenation, with every value that later lines read
  more than once named.
-/
import proofs.«160000_j26036091748769_1_alg».proof.Proof.Gen.KernelIdeal.Launch
import Idealize.ShloMosaic.Lib.StableHlo.Run
import Idealize.ShloMosaic.PureOps.Ideal.Laws

noncomputable section

namespace Cert.RoiTail

open Cert.KernelIdeal Cert.KernelIdeal.Gen Idealize.ShloMosaic Idealize.ShloMosaic.TcCoe Idealize.SL.Sem Idealize.ShloMosaic.StableHlo

/-- Column 0 of the proposal boxes (the left edge), one entry per proposal. -/
def boxCol0 (bx : (⟨S2000x4, .f32⟩ : BufTy).Contents (Elt Ideal)) : (⟨S2000, .f32⟩ : BufTy).Contents (Elt Ideal) :=
  shapeCast _ (extractStridedSlice S2000x1 ![0, 0] bx slices_S2000x4_S2000x1_0_0) shapeCasts_S2000x1_S2000

/-- Column 1 of the proposal boxes (the top edge), one entry per proposal. -/
def boxCol1 (bx : (⟨S2000x4, .f32⟩ : BufTy).Contents (Elt Ideal)) : (⟨S2000, .f32⟩ : BufTy).Contents (Elt Ideal) :=
  shapeCast _ (extractStridedSlice S2000x1 ![0, 1] bx slices_S2000x4_S2000x1_0_1) shapeCasts_S2000x1_S2000

/-- Column 2 of the proposal boxes (the right edge), one entry per proposal. -/
def boxCol2 (bx : (⟨S2000x4, .f32⟩ : BufTy).Contents (Elt Ideal)) : (⟨S2000, .f32⟩ : BufTy).Contents (Elt Ideal) :=
  shapeCast _ (extractStridedSlice S2000x1 ![0, 2] bx slices_S2000x4_S2000x1_0_2) shapeCasts_S2000x1_S2000

/-- Column 3 of the proposal boxes (the bottom edge), one entry per proposal. -/
def boxCol3 (bx : (⟨S2000x4, .f32⟩ : BufTy).Contents (Elt Ideal)) : (⟨S2000, .f32⟩ : BufTy).Contents (Elt Ideal) :=
  shapeCast _ (extractStridedSlice S2000x1 ![0, 3] bx slices_S2000x4_S2000x1_0_3) shapeCasts_S2000x1_S2000

/-- The constant with the given word, one entry per proposal. -/
def rowConst (b : BitVec 32) : (⟨S2000, .f32⟩ : BufTy).Contents (Elt Ideal) :=
  (broadcastInDim S2000 ![] bcast_S_S2000 : (⟨S_, .f32⟩ : BufTy).Contents (Elt Ideal) → (⟨S2000, .f32⟩ : BufTy).Contents (Elt Ideal)) (constant (F := Ideal) S_ .f32 b)

/-- The constant with the given word, one entry per proposal and class. -/
def cellConst (b : BitVec 32) : (⟨S2000x80, .f32⟩ : BufTy).Contents (Elt Ideal) :=
  (broadcastInDim S2000x80 ![] bcast_S_S2000x80 : (⟨S_, .f32⟩ : BufTy).Contents (Elt Ideal) → (⟨S2000x80, .f32⟩ : BufTy).Contents (Elt Ideal)) (constant (F := Ideal) S_ .f32 b)

/-- Box widths: right - left + 1. -/
def boxW (bx : (⟨S2000x4, .f32⟩ : BufTy).Contents (Elt Ideal)) : (⟨S2000, .f32⟩ : BufTy).Contents (Elt Ideal) :=
  (addf (F := Ideal) (φ := .f32)  : (⟨S2000, .f32⟩ : BufTy).Contents (Elt Ideal) → (⟨S2000, .f32⟩ : BufTy).Contents (Elt Ideal) → (⟨S2000, .f32⟩ : BufTy).Contents (Elt Ideal)) ((subf (F := Ideal) (φ := .f32)  : (⟨S2000, .f32⟩ : BufTy).Contents (Elt Ideal) → (⟨S2000, .f32⟩ : BufTy).Contents (Elt Ideal) → (⟨S2000, .f32⟩ : BufTy).Contents (Elt Ideal)) (boxCol2 bx) (boxCol0 bx)) (rowConst 0x3F800000#32)

/-- Box heights: bottom - top + 1. -/
def boxH (bx : (⟨S2000x4, .f32⟩ : BufTy).Contents (Elt Ideal)) : (⟨S2000, .f32⟩ : BufTy).Contents (Elt Ideal) :=
  (addf (F := Ideal) (φ := .f32)  : (⟨S2000, .f32⟩ : BufTy).Contents (Elt Ideal) → (⟨S2000, .f32⟩ : BufTy).Contents (Elt Ideal) → (⟨S2000, .f32⟩ : BufTy).Contents (Elt Ideal)) ((subf (F := Ideal) (φ := .f32)  : (⟨S2000, .f32⟩ : BufTy).Contents (Elt Ideal) → (⟨S2000, .f32⟩ : BufTy).Contents (Elt Ideal) → (⟨S2000, .f32⟩ : BufTy).Contents (Elt Ideal)) (boxCol3 bx) (boxCol1 bx)) (rowConst 0x3F800000#32)

/-- Box centres, horizontal: left + width / 2. -/
def boxCx (bx : (⟨S2000x4, .f32⟩ : BufTy).Contents (Elt Ideal)) : (⟨S2000, .f32⟩ : BufTy).Contents (Elt Ideal) :=
  (addf (F := Ideal) (φ := .f32)  : (⟨S2000, .f32⟩ : BufTy).Contents (Elt Ideal) → (⟨S2000, .f32⟩ : BufTy).Contents (Elt Ideal) → (⟨S2000, .f32⟩ : BufTy).Contents (Elt Ideal)) (boxCol0 bx) ((mulf (F := Ideal) (φ := .f32)  : (⟨S2000, .f32⟩ : BufTy).Contents (Elt Ideal) → (⟨S2000, .f32⟩ : BufTy).Contents (Elt Ideal) → (⟨S2000, .f32⟩ : BufTy).Contents (Elt Ideal)) (rowConst 0x3F000000#32) (boxW bx))

/-- Box centres, vertical: top + height / 2. -/
def boxCy (bx : (⟨S2000x4, .f32⟩ : BufTy).Contents (Elt Ideal)) : (⟨S2000, .f32⟩ : BufTy).Contents (Elt Ideal) :=
  (addf (F := Ideal) (φ := .f32)  : (⟨S2000, .f32⟩ : BufTy).Contents (Elt Ideal) → (⟨S2000, .f32⟩ : BufTy).Contents (Elt Ideal) → (⟨S2000, .f32⟩ : BufTy).Contents (Elt Ideal)) (boxCol1 bx) ((mulf (F := Ideal) (φ := .f32)  : (⟨S2000, .f32⟩ : BufTy).Contents (Elt Ideal) → (⟨S2000, .f32⟩ : BufTy).Contents (Elt Ideal) → (⟨S2000, .f32⟩ : BufTy).Contents (Elt Ideal)) (rowConst 0x3F000000#32) (boxH bx))

/-- The regressions as proposals by classes by four deltas. -/
def reg3 (rg : (⟨S2000x320, .f32⟩ : BufTy).Contents (Elt Ideal)) : (⟨S2000x80x4, .f32⟩ : BufTy).Contents (Elt Ideal) :=
  shapeCast _ rg shapeCasts_S2000x320_S2000x80x4

/-- Delta 0 of every proposal and class. -/
def delta0 (rg : (⟨S2000x320, .f32⟩ : BufTy).Contents (Elt Ideal)) : (⟨S2000x80, .f32⟩ : BufTy).Contents (Elt Ideal) :=
  shapeCast _ (extractStridedSlice S2000x80x1 ![0, 0, 0] (reg3 rg) slices_S2000x80x4_S2000x80x1_0_0_0) shapeCasts_S2000x80x1_S2000x80

/-- Delta 1 of every proposal and class. -/
def delta1 (rg : (⟨S2000x320, .f32⟩ : BufTy).Contents (Elt Ideal)) : (⟨S2000x80, .f32⟩ : BufTy).Contents (Elt Ideal) :=
  shapeCast _ (extractStridedSlice S2000x80x1 ![0, 0, 1] (reg3 rg) slices_S2000x80x4_S2000x80x1_0_0_1) shapeCasts_S2000x80x1_S2000x80

/-- Delta 2 of every proposal and class. -/
def delta2 (rg : (⟨S2000x320, .f32⟩ : BufTy).Contents (Elt Ideal)) : (⟨S2000x80, .f32⟩ : BufTy).Contents (Elt Ideal) :=
  shapeCast _ (extractStridedSlice S2000x80x1 ![0, 0, 2] (reg3 rg) slices_S2000x80x4_S2000x80x1_0_0_2) shapeCasts_S2000x80x1_S2000x80

/-- Delta 3 of every proposal and class. -/
def delta3 (rg : (⟨S2000x320, .f32⟩ : BufTy).Contents (Elt Ideal)) : (⟨S2000x80, .f32⟩ : BufTy).Contents (Elt Ideal) :=
  shapeCast _ (extractStridedSlice S2000x80x1 ![0, 0, 3] (reg3 rg) slices_S2000x80x4_S2000x80x1_0_0_3) shapeCasts_S2000x80x1_S2000x80

/-- The horizontal shift: delta 0 over 10. -/
def dX (rg : (⟨S2000x320, .f32⟩ : BufTy).Contents (Elt Ideal)) : (⟨S2000x80, .f32⟩ : BufTy).Contents (Elt Ideal) :=
  (Host.divf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (delta0 rg) (cellConst 0x41200000#32)

/-- The vertical shift: delta 1 over 10. -/
def dY (rg : (⟨S2000x320, .f32⟩ : BufTy).Contents (Elt Ideal)) : (⟨S2000x80, .f32⟩ : BufTy).Contents (Elt Ideal) :=
  (Host.divf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (delta1 rg) (cellConst 0x41200000#32)

/-- The log width scale: delta 2 over 5, clipped from above. -/
def dW (rg : (⟨S2000x320, .f32⟩ : BufTy).Contents (Elt Ideal)) : (⟨S2000x80, .f32⟩ : BufTy).Contents (Elt Ideal) :=
  (minimumf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((Host.divf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (delta2 rg) (cellConst 0x40A00000#32)) (cellConst 0x40845349#32)

/-- The log height scale: delta 3 over 5, clipped from above. -/
def dH (rg : (⟨S2000x320, .f32⟩ : BufTy).Contents (Elt Ideal)) : (⟨S2000x80, .f32⟩ : BufTy).Contents (Elt Ideal) :=
  (minimumf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((Host.divf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (delta3 rg) (cellConst 0x40A00000#32)) (cellConst 0x40845349#32)

/-- A per-proposal value repeated over the classes. -/
def overClasses (v : (⟨S2000, .f32⟩ : BufTy).Contents (Elt Ideal)) : (⟨S2000x80, .f32⟩ : BufTy).Contents (Elt Ideal) :=
  (broadcastInDim S2000x80 ![0, 1] bcast_S2000x1_S2000x80_0_1 : (⟨S2000x1, .f32⟩ : BufTy).Contents (Elt Ideal) → (⟨S2000x80, .f32⟩ : BufTy).Contents (Elt Ideal)) ((broadcastInDim S2000x1 ![0] bcast_S2000_S2000x1_0 : (⟨S2000, .f32⟩ : BufTy).Contents (Elt Ideal) → (⟨S2000x1, .f32⟩ : BufTy).Contents (Elt Ideal)) v)

/-- Predicted centres, horizontal: shift * width + centre. -/
def predCx (rg : (⟨S2000x320, .f32⟩ : BufTy).Contents (Elt Ideal)) (bx : (⟨S2000x4, .f32⟩ : BufTy).Contents (Elt Ideal)) : (⟨S2000x80, .f32⟩ : BufTy).Contents (Elt Ideal) :=
  (addf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (dX rg) (overClasses (boxW bx))) (overClasses (boxCx bx))

/-- Predicted centres, vertical: shift * height + centre. -/
def predCy (rg : (⟨S2000x320, .f32⟩ : BufTy).Contents (Elt Ideal)) (bx : (⟨S2000x4, .f32⟩ : BufTy).Contents (Elt Ideal)) : (⟨S2000x80, .f32⟩ : BufTy).Contents (Elt Ideal) :=
  (addf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (dY rg) (overClasses (boxH bx))) (overClasses (boxCy bx))

/-- Predicted widths: exp(scale) * width. -/
def predW (rg : (⟨S2000x320, .f32⟩ : BufTy).Contents (Elt Ideal)) (bx : (⟨S2000x4, .f32⟩ : BufTy).Contents (Elt Ideal)) : (⟨S2000x80, .f32⟩ : BufTy).Contents (Elt Ideal) :=
  (mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((Host.exp (F := Ideal) (φ := .f32) : (⟨S2000x80, .f32⟩ : BufTy).Contents (Elt Ideal) → (⟨S2000x80, .f32⟩ : BufTy).Contents (Elt Ideal)) (dW rg)) (overClasses (boxW bx))

/-- Predicted heights: exp(scale) * height. -/
def predH (rg : (⟨S2000x320, .f32⟩ : BufTy).Contents (Elt Ideal)) (bx : (⟨S2000x4, .f32⟩ : BufTy).Contents (Elt Ideal)) : (⟨S2000x80, .f32⟩ : BufTy).Contents (Elt Ideal) :=
  (mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((Host.exp (F := Ideal) (φ := .f32) : (⟨S2000x80, .f32⟩ : BufTy).Contents (Elt Ideal) → (⟨S2000x80, .f32⟩ : BufTy).Contents (Elt Ideal)) (dH rg)) (overClasses (boxH bx))

/-- Decoded left edge: centre - width / 2. -/
def decX1 (rg : (⟨S2000x320, .f32⟩ : BufTy).Contents (Elt Ideal)) (bx : (⟨S2000x4, .f32⟩ : BufTy).Contents (Elt Ideal)) : (⟨S2000x80, .f32⟩ : BufTy).Contents (Elt Ideal) :=
  (subf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (predCx rg bx) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (cellConst 0x3F000000#32) (predW rg bx))

/-- Decoded top edge: centre - height / 2. -/
def decY1 (rg : (⟨S2000x320, .f32⟩ : BufTy).Contents (Elt Ideal)) (bx : (⟨S2000x4, .f32⟩ : BufTy).Contents (Elt Ideal)) : (⟨S2000x80, .f32⟩ : BufTy).Contents (Elt Ideal) :=
  (subf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (predCy rg bx) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (cellConst 0x3F000000#32) (predH rg bx))

/-- Decoded right edge: centre + width / 2 - 1. -/
def decX2 (rg : (⟨S2000x320, .f32⟩ : BufTy).Contents (Elt Ideal)) (bx : (⟨S2000x4, .f32⟩ : BufTy).Contents (Elt Ideal)) : (⟨S2000x80, .f32⟩ : BufTy).Contents (Elt Ideal) :=
  (subf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((addf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (predCx rg bx) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (cellConst 0x3F000000#32) (predW rg bx))) (cellConst 0x3F800000#32)

/-- Decoded bottom edge: centre + height / 2 - 1. -/
def decY2 (rg : (⟨S2000x320, .f32⟩ : BufTy).Contents (Elt Ideal)) (bx : (⟨S2000x4, .f32⟩ : BufTy).Contents (Elt Ideal)) : (⟨S2000x80, .f32⟩ : BufTy).Contents (Elt Ideal) :=
  (subf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) ((addf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (predCy rg bx) ((mulf (F := Ideal) (φ := .f32)  : (⟨S2000x80, .f32⟩ : BufTy).Contents (Elt Ideal) → (⟨S2000x80, .f32⟩ : BufTy).Contents (Elt Ideal) → (⟨S2000x80, .f32⟩ : BufTy).Contents (Elt Ideal)) (cellConst 0x3F000000#32) (predH rg bx))) (cellConst 0x3F800000#32)

/-- A per-cell value with a trailing axis of length one. -/
def asColumn {e : EltTy} (v : (⟨S2000x80, e⟩ : BufTy).Contents (Elt Ideal)) : (⟨S2000x80x1, e⟩ : BufTy).Contents (Elt Ideal) :=
  broadcastInDim S2000x80x1 ![0, 1] bcast_S2000x80_S2000x80x1_0_1 v

/-- The decoded boxes: the four edges joined along the last axis. -/
def decoded (rg : (⟨S2000x320, .f32⟩ : BufTy).Contents (Elt Ideal)) (bx : (⟨S2000x4, .f32⟩ : BufTy).Contents (Elt Ideal)) : (⟨S2000x80x4, .f32⟩ : BufTy).Contents (Elt Ideal) :=
  concatenate S2000x80x4 2 [⟨S2000x80x1, asColumn (decX1 rg bx)⟩, ⟨S2000x80x1, asColumn (decY1 rg bx)⟩, ⟨S2000x80x1, asColumn (decX2 rg bx)⟩, ⟨S2000x80x1, asColumn (decY2 rg bx)⟩] concatenates_S2000x80x1_S2000x80x1_S2000x80x1_S2000x80x1_S2000x80x4_d2

/-- The foreground scores: the probabilities without the background column. -/
def fgScores (pr : (⟨S2000x81, .f32⟩ : BufTy).Contents (Elt Ideal)) : (⟨S2000x80, .f32⟩ : BufTy).Contents (Elt Ideal) :=
  extractStridedSlice S2000x80 ![0, 1] pr slices_S2000x81_S2000x80_0_1

/-- The mask: score above the threshold 0.05. -/
def keep (pr : (⟨S2000x81, .f32⟩ : BufTy).Contents (Elt Ideal)) : (⟨S2000x80, .i1⟩ : BufTy).Contents (Elt Ideal) :=
  (cmpf (F := Ideal) (φ := .f32) .ogt : (⟨S2000x80, .f32⟩ : BufTy).Contents (Elt Ideal) → (⟨S2000x80, .f32⟩ : BufTy).Contents (Elt Ideal) → (⟨S2000x80, .i1⟩ : BufTy).Contents (Elt Ideal)) (fgScores pr) (cellConst 0x3D4CCCCD#32)

/-- Zero, one entry per proposal and class. -/
def cellZero  : (⟨S2000x80, .f32⟩ : BufTy).Contents (Elt Ideal) :=
  (broadcastInDim S2000x80 ![] bcast_S_S2000x80 : (⟨S_, .f32⟩ : BufTy).Contents (Elt Ideal) → (⟨S2000x80, .f32⟩ : BufTy).Contents (Elt Ideal)) ((id : (⟨S_, .f32⟩ : BufTy).Contents (Elt Ideal) → (⟨S_, .f32⟩ : BufTy).Contents (Elt Ideal)) (constant (F := Ideal) S_ .f32 0x00000000#32))

/-- Zero, one entry per proposal, class and edge. -/
def boxZero  : (⟨S2000x80x4, .f32⟩ : BufTy).Contents (Elt Ideal) :=
  (broadcastInDim S2000x80x4 ![] bcast_S_S2000x80x4 : (⟨S_, .f32⟩ : BufTy).Contents (Elt Ideal) → (⟨S2000x80x4, .f32⟩ : BufTy).Contents (Elt Ideal)) ((id : (⟨S_, .f32⟩ : BufTy).Contents (Elt Ideal) → (⟨S_, .f32⟩ : BufTy).Contents (Elt Ideal)) (constant (F := Ideal) S_ .f32 0x00000000#32))

/-- The masked scores: the score where kept, zero elsewhere. -/
def keptScores (pr : (⟨S2000x81, .f32⟩ : BufTy).Contents (Elt Ideal)) : (⟨S2000x80, .f32⟩ : BufTy).Contents (Elt Ideal) :=
  (select : (⟨S2000x80, .i1⟩ : BufTy).Contents (Elt Ideal) → (⟨S2000x80, .f32⟩ : BufTy).Contents (Elt Ideal) → (⟨S2000x80, .f32⟩ : BufTy).Contents (Elt Ideal) → (⟨S2000x80, .f32⟩ : BufTy).Contents (Elt Ideal)) (keep pr) (fgScores pr) cellZero

/-- The mask repeated over the four edges. -/
def keep4 (pr : (⟨S2000x81, .f32⟩ : BufTy).Contents (Elt Ideal)) : (⟨S2000x80x4, .i1⟩ : BufTy).Contents (Elt Ideal) :=
  (broadcastInDim S2000x80x4 ![0, 1, 2] bcast_S2000x80x1_S2000x80x4_0_1_2 : (⟨S2000x80x1, .i1⟩ : BufTy).Contents (Elt Ideal) → (⟨S2000x80x4, .i1⟩ : BufTy).Contents (Elt Ideal)) (asColumn (keep pr))

/-- The masked boxes: the decoded box where kept, zero elsewhere. -/
def keptBoxes (pr : (⟨S2000x81, .f32⟩ : BufTy).Contents (Elt Ideal)) (rg : (⟨S2000x320, .f32⟩ : BufTy).Contents (Elt Ideal)) (bx : (⟨S2000x4, .f32⟩ : BufTy).Contents (Elt Ideal)) : (⟨S2000x80x4, .f32⟩ : BufTy).Contents (Elt Ideal) :=
  (select : (⟨S2000x80x4, .i1⟩ : BufTy).Contents (Elt Ideal) → (⟨S2000x80x4, .f32⟩ : BufTy).Contents (Elt Ideal) → (⟨S2000x80x4, .f32⟩ : BufTy).Contents (Elt Ideal) → (⟨S2000x80x4, .f32⟩ : BufTy).Contents (Elt Ideal)) (keep4 pr) (decoded rg bx) boxZero

/-- The masked boxes, four columns per class. -/
def keptBoxesFlat (pr : (⟨S2000x81, .f32⟩ : BufTy).Contents (Elt Ideal)) (rg : (⟨S2000x320, .f32⟩ : BufTy).Contents (Elt Ideal)) (bx : (⟨S2000x4, .f32⟩ : BufTy).Contents (Elt Ideal)) : (⟨S2000x320, .f32⟩ : BufTy).Contents (Elt Ideal) :=
  shapeCast _ (keptBoxes pr rg bx) shapeCasts_S2000x80x4_S2000x320

/-- The result of the host lines after the region: masked scores, masked boxes and the activations side by side. -/
def tailK (f6 : (⟨S2000x1024, .f32⟩ : BufTy).Contents (Elt Ideal)) (pr : (⟨S2000x81, .f32⟩ : BufTy).Contents (Elt Ideal)) (rg : (⟨S2000x320, .f32⟩ : BufTy).Contents (Elt Ideal)) (bx : (⟨S2000x4, .f32⟩ : BufTy).Contents (Elt Ideal)) : (⟨S2000x1424, .f32⟩ : BufTy).Contents (Elt Ideal) :=
  concatenate S2000x1424 1 [⟨S2000x80, keptScores pr⟩, ⟨S2000x320, keptBoxesFlat pr rg bx⟩, ⟨S2000x1024, f6⟩] concatenates_S2000x80_S2000x320_S2000x1024_S2000x1424_d1

end Cert.RoiTail

end
-- ==== Proof.TailRun.lean ====
/-
  The host lines that follow the region read back: whatever the buffers hold when they start, the
  last line's buffer ends at the one function of the region's three arrays and the proposal boxes.
-/
import proofs.«160000_j26036091748769_1_alg».proof.Proof.TailDefs

noncomputable section

namespace Cert.RoiTail

open Cert.KernelIdeal Cert.KernelIdeal.Gen Idealize.ShloMosaic Idealize.ShloMosaic.TcCoe Idealize.SL.Sem Idealize.ShloMosaic.StableHlo

set_option maxRecDepth 8192 in
set_option maxHeartbeats 4000000 in
/-- From any contents of the buffers, the lines after the region leave their last buffer at
    the tail function of the three arrays the region wrote and of the boxes. -/
theorem after_tail (W : Valuation τ sig (Elt Ideal)) :
    StableHlo.after (List.flatten [hostOps1 (F := Ideal), hostOps1_1 (F := Ideal), hostOps1_2 (F := Ideal), hostOps1_3 (F := Ideal), hostOps1_4 (F := Ideal)]) W (Proc.devRef .tc main_v102)
      = tailK (W (Proc.devRef .tc main_v8_0)) (W (Proc.devRef .tc main_v8_1)) (W (Proc.devRef .tc main_v8_2)) (W (Proc.devRef .tc main_arg1)) := by
  simp only [hostOps1, hostOps1_1, hostOps1_2, hostOps1_3, hostOps1_4, List.flatten_cons, List.flatten_nil, List.append_nil, List.cons_append, List.nil_append]
  after_results_simp
  rfl

end Cert.RoiTail

end
-- ==== Proof.TailIdx.lean ====
/-
  The tail function's named pieces read at an index: each layout step (a column of the boxes, a
  delta of the regressions, a value repeated over the classes, the joined edges, the flattened
  boxes, the final side-by-side array) names the one entry of its operand it reads.
-/
import proofs.«160000_j26036091748769_1_alg».proof.Proof.TailDefs
import Idealize.ShloMosaic.Lib.Pipeline.Value
import Idealize.ShloMosaic.Lib.ValueIdx

noncomputable section

namespace Cert.RoiTail

open Cert.KernelIdeal Cert.KernelIdeal.Gen Idealize.ShloMosaic Idealize.ShloMosaic.TcCoe Idealize.SL.Sem Idealize.ShloMosaic.StableHlo
open Idealize.ShloMosaic.ValueIdx

/-- Column 0 of the boxes at proposal `r` is the box's entry 0. -/
theorem boxCol0_apply (bx : (⟨S2000x4, .f32⟩ : BufTy).Contents (Elt Ideal)) (r : Fin 2000) :
    boxCol0 bx (ix1 r) = bx (ix2 r (0 : Fin 4)) := by
  unfold boxCol0
  refine (shapeCast_apply _ shapeCasts_S2000x1_S2000 (ix1 r) (ix2 r (0 : Fin 1)) ?_).trans ?_
  · rewrite [Shape.rowMajor_val_two, Shape.rowMajor_val_one]; show r.val * 1 + 0 = r.val; omega
  · exact extractStridedSlice_apply ![0, 0] bx slices_S2000x4_S2000x1_0_0 (ix2 r (0 : Fin 1)) (ix2 r (0 : Fin 4)) (fun a => match a with
      | ⟨0, _⟩ => by show r.val = 0 + r.val; omega
      | ⟨1, _⟩ => by show 0 = 0 + 0; omega)

/-- Column 1 of the boxes at proposal `r` is the box's entry 1. -/
theorem boxCol1_apply (bx : (⟨S2000x4, .f32⟩ : BufTy).Contents (Elt Ideal)) (r : Fin 2000) :
    boxCol1 bx (ix1 r) = bx (ix2 r (1 : Fin 4)) := by
  unfold boxCol1
  refine (shapeCast_apply _ shapeCasts_S2000x1_S2000 (ix1 r) (ix2 r (0 : Fin 1)) ?_).trans ?_
  · rewrite [Shape.rowMajor_val_two, Shape.rowMajor_val_one]; show r.val * 1 + 0 = r.val; omega
  · exact extractStridedSlice_apply ![0, 1] bx slices_S2000x4_S2000x1_0_1 (ix2 r (0 : Fin 1)) (ix2 r (1 : Fin 4)) (fun a => match a with
      | ⟨0, _⟩ => by show r.val = 0 + r.val; omega
      | ⟨1, _⟩ => by show 1 = 1 + 0; omega)

/-- Column 2 of the boxes at proposal `r` is the box's entry 2. -/
theorem boxCol2_apply (bx : (⟨S2000x4, .f32⟩ : BufTy).Contents (Elt Ideal)) (r : Fin 2000) :
    boxCol2 bx (ix1 r) = bx (ix2 r (2 : Fin 4)) := by
  unfold boxCol2
  refine (shapeCast_apply _ shapeCasts_S2000x1_S2000 (ix1 r) (ix2 r (0 : Fin 1)) ?_).trans ?_
  · rewrite [Shape.rowMajor_val_two, Shape.rowMajor_val_one]; show r.val * 1 + 0 = r.val; omega
  · exact extractStridedSlice_apply ![0, 2] bx slices_S2000x4_S2000x1_0_2 (ix2 r (0 : Fin 1)) (ix2 r (2 : Fin 4)) (fun a => match a with
      | ⟨0, _⟩ => by show r.val = 0 + r.val; omega
      | ⟨1, _⟩ => by show 2 = 2 + 0; omega)

/-- Column 3 of the boxes at proposal `r` is the box's entry 3. -/
theorem boxCol3_apply (bx : (⟨S2000x4, .f32⟩ : BufTy).Contents (Elt Ideal)) (r : Fin 2000) :
    boxCol3 bx (ix1 r) = bx (ix2 r (3 : Fin 4)) := by
  unfold boxCol3
  refine (shapeCast_apply _ shapeCasts_S2000x1_S2000 (ix1 r) (ix2 r (0 : Fin 1)) ?_).trans ?_
  · rewrite [Shape.rowMajor_val_two, Shape.rowMajor_val_one]; show r.val * 1 + 0 = r.val; omega
  · exact extractStridedSlice_apply ![0, 3] bx slices_S2000x4_S2000x1_0_3 (ix2 r (0 : Fin 1)) (ix2 r (3 : Fin 4)) (fun a => match a with
      | ⟨0, _⟩ => by show r.val = 0 + r.val; omega
      | ⟨1, _⟩ => by show 3 = 3 + 0; omega)

/-- A per-proposal constant reads the constant's value everywhere. -/
theorem rowConst_apply (b : BitVec 32) (i : S2000.Idx) : rowConst b i = Ideal.ofBits .f32 b := by
  unfold rowConst
  exact broadcastInDim_apply _ bcast_S_S2000 _ i ix0 (fun a => a.elim0)

/-- A per-cell constant reads the constant's value everywhere. -/
theorem cellConst_apply (b : BitVec 32) (i : S2000x80.Idx) : cellConst b i = Ideal.ofBits .f32 b := by
  unfold cellConst
  exact broadcastInDim_apply _ bcast_S_S2000x80 _ i ix0 (fun a => a.elim0)

/-- The per-cell zero. -/
theorem cellZero_apply (i : S2000x80.Idx) : cellZero i = Ideal.ofBits .f32 0x00000000#32 := by
  unfold cellZero
  exact broadcastInDim_apply _ bcast_S_S2000x80 _ i ix0 (fun a => a.elim0)

/-- The per-edge zero. -/
theorem boxZero_apply (i : S2000x80x4.Idx) : boxZero i = Ideal.ofBits .f32 0x00000000#32 := by
  unfold boxZero
  exact broadcastInDim_apply _ bcast_S_S2000x80x4 _ i ix0 (fun a => a.elim0)

/-- Delta 0 of proposal `r` and class `c` is column `4 c + 0` of the regressions' row `r`. -/
theorem delta0_apply (rg : (⟨S2000x320, .f32⟩ : BufTy).Contents (Elt Ideal)) (r : Fin 2000) (c : Fin 80) :
    delta0 rg (ix2 r c) = rg (ix2 r (⟨4 * c.val + 0, by have := c.isLt; omega⟩ : Fin 320)) := by
  unfold delta0 reg3
  refine (shapeCast_apply _ shapeCasts_S2000x80x1_S2000x80 (ix2 r c) (ix3 r c (0 : Fin 1)) ?_).trans ?_
  · rewrite [Shape.rowMajor_val_three, Shape.rowMajor_val_two]; show (r.val * 80 + c.val) * 1 + 0 = r.val * 80 + c.val; omega
  refine (extractStridedSlice_apply ![0, 0, 0] _ slices_S2000x80x4_S2000x80x1_0_0_0 (ix3 r c (0 : Fin 1)) (ix3 r c (0 : Fin 4)) (fun a => match a with
      | ⟨0, _⟩ => by show r.val = 0 + r.val; omega
      | ⟨1, _⟩ => by show c.val = 0 + c.val; omega
      | ⟨2, _⟩ => by show 0 = 0 + 0; omega)).trans ?_
  exact shapeCast_apply rg shapeCasts_S2000x320_S2000x80x4 (ix3 r c (0 : Fin 4)) (ix2 r (⟨4 * c.val + 0, by have := c.isLt; omega⟩ : Fin 320))
    (by rewrite [Shape.rowMajor_val_two, Shape.rowMajor_val_three]; show r.val * 320 + (4 * c.val + 0) = (r.val * 80 + c.val) * 4 + 0; omega)

/-- Delta 1 of proposal `r` and class `c` is column `4 c + 1` of the regressions' row `r`. -/
theorem delta1_apply (rg : (⟨S2000x320, .f32⟩ : BufTy).Contents (Elt Ideal)) (r : Fin 2000) (c : Fin 80) :
    delta1 rg (ix2 r c) = rg (ix2 r (⟨4 * c.val + 1, by have := c.isLt; omega⟩ : Fin 320)) := by
  unfold delta1 reg3
  refine (shapeCast_apply _ shapeCasts_S2000x80x1_S2000x80 (ix2 r c) (ix3 r c (0 : Fin 1)) ?_).trans ?_
  · rewrite [Shape.rowMajor_val_three, Shape.rowMajor_val_two]; show (r.val * 80 + c.val) * 1 + 0 = r.val * 80 + c.val; omega
  refine (extractStridedSlice_apply ![0, 0, 1] _ slices_S2000x80x4_S2000x80x1_0_0_1 (ix3 r c (0 : Fin 1)) (ix3 r c (1 : Fin 4)) (fun a => match a with
      | ⟨0, _⟩ => by show r.val = 0 + r.val; omega
      | ⟨1, _⟩ => by show c.val = 0 + c.val; omega
      | ⟨2, _⟩ => by show 1 = 1 + 0; omega)).trans ?_
  exact shapeCast_apply rg shapeCasts_S2000x320_S2000x80x4 (ix3 r c (1 : Fin 4)) (ix2 r (⟨4 * c.val + 1, by have := c.isLt; omega⟩ : Fin 320))
    (by rewrite [Shape.rowMajor_val_two, Shape.rowMajor_val_three]; show r.val * 320 + (4 * c.val + 1) = (r.val * 80 + c.val) * 4 + 1; omega)

/-- Delta 2 of proposal `r` and class `c` is column `4 c + 2` of the regressions' row `r`. -/
theorem delta2_apply (rg : (⟨S2000x320, .f32⟩ : BufTy).Contents (Elt Ideal)) (r : Fin 2000) (c : Fin 80) :
    delta2 rg (ix2 r c) = rg (ix2 r (⟨4 * c.val + 2, by have := c.isLt; omega⟩ : Fin 320)) := by
  unfold delta2 reg3
  refine (shapeCast_apply _ shapeCasts_S2000x80x1_S2000x80 (ix2 r c) (ix3 r c (0 : Fin 1)) ?_).trans ?_
  · rewrite [Shape.rowMajor_val_three, Shape.rowMajor_val_two]; show (r.val * 80 + c.val) * 1 + 0 = r.val * 80 + c.val; omega
  refine (extractStridedSlice_apply ![0, 0, 2] _ slices_S2000x80x4_S2000x80x1_0_0_2 (ix3 r c (0 : Fin 1)) (ix3 r c (2 : Fin 4)) (fun a => match a with
      | ⟨0, _⟩ => by show r.val = 0 + r.val; omega
      | ⟨1, _⟩ => by show c.val = 0 + c.val; omega
      | ⟨2, _⟩ => by show 2 = 2 + 0; omega)).trans ?_
  exact shapeCast_apply rg shapeCasts_S2000x320_S2000x80x4 (ix3 r c (2 : Fin 4)) (ix2 r (⟨4 * c.val + 2, by have := c.isLt; omega⟩ : Fin 320))
    (by rewrite [Shape.rowMajor_val_two, Shape.rowMajor_val_three]; show r.val * 320 + (4 * c.val + 2) = (r.val * 80 + c.val) * 4 + 2; omega)

/-- Delta 3 of proposal `r` and class `c` is column `4 c + 3` of the regressions' row `r`. -/
theorem delta3_apply (rg : (⟨S2000x320, .f32⟩ : BufTy).Contents (Elt Ideal)) (r : Fin 2000) (c : Fin 80) :
    delta3 rg (ix2 r c) = rg (ix2 r (⟨4 * c.val + 3, by have := c.isLt; omega⟩ : Fin 320)) := by
  unfold delta3 reg3
  refine (shapeCast_apply _ shapeCasts_S2000x80x1_S2000x80 (ix2 r c) (ix3 r c (0 : Fin 1)) ?_).trans ?_
  · rewrite [Shape.rowMajor_val_three, Shape.rowMajor_val_two]; show (r.val * 80 + c.val) * 1 + 0 = r.val * 80 + c.val; omega
  refine (extractStridedSlice_apply ![0, 0, 3] _ slices_S2000x80x4_S2000x80x1_0_0_3 (ix3 r c (0 : Fin 1)) (ix3 r c (3 : Fin 4)) (fun a => match a with
      | ⟨0, _⟩ => by show r.val = 0 + r.val; omega
      | ⟨1, _⟩ => by show c.val = 0 + c.val; omega
      | ⟨2, _⟩ => by show 3 = 3 + 0; omega)).trans ?_
  exact shapeCast_apply rg shapeCasts_S2000x320_S2000x80x4 (ix3 r c (3 : Fin 4)) (ix2 r (⟨4 * c.val + 3, by have := c.isLt; omega⟩ : Fin 320))
    (by rewrite [Shape.rowMajor_val_two, Shape.rowMajor_val_three]; show r.val * 320 + (4 * c.val + 3) = (r.val * 80 + c.val) * 4 + 3; omega)

/-- A per-proposal value repeated over the classes reads the proposal's value. -/
theorem overClasses_apply (v : (⟨S2000, .f32⟩ : BufTy).Contents (Elt Ideal)) (r : Fin 2000) (c : Fin 80) :
    overClasses v (ix2 r c) = v (ix1 r) := by
  unfold overClasses
  refine (broadcastInDim_apply _ bcast_S2000x1_S2000x80_0_1 _ (ix2 r c) (ix2 r (0 : Fin 1)) (fun a => match a with
    | ⟨0, _⟩ => by show r.val = if (2000 : Nat) = 1 then 0 else r.val; rw [if_neg (by decide)]
    | ⟨1, _⟩ => by show 0 = if (1 : Nat) = 1 then 0 else c.val; rw [if_pos rfl])).trans ?_
  exact broadcastInDim_apply _ bcast_S2000_S2000x1_0 v (ix2 r (0 : Fin 1)) (ix1 r) (fun a => match a with
    | ⟨0, _⟩ => by show r.val = if (2000 : Nat) = 1 then 0 else r.val; rw [if_neg (by decide)])

/-- A per-cell value under a trailing unit axis reads the cell's value. -/
theorem asColumn_apply {e : EltTy} (v : (⟨S2000x80, e⟩ : BufTy).Contents (Elt Ideal)) (r : Fin 2000) (c : Fin 80) :
    asColumn v (ix3 r c (0 : Fin 1)) = v (ix2 r c) := by
  unfold asColumn
  exact broadcastInDim_apply _ bcast_S2000x80_S2000x80x1_0_1 v (ix3 r c (0 : Fin 1)) (ix2 r c) (fun a => match a with
    | ⟨0, _⟩ => by show r.val = if (2000 : Nat) = 1 then 0 else r.val; rw [if_neg (by decide)]
    | ⟨1, _⟩ => by show c.val = if (80 : Nat) = 1 then 0 else c.val; rw [if_neg (by decide)])

/-- The foreground score of class `c` is the probability of class `c + 1`. -/
theorem fgScores_apply (pr : (⟨S2000x81, .f32⟩ : BufTy).Contents (Elt Ideal)) (r : Fin 2000) (c : Fin 80) :
    fgScores pr (ix2 r c) = pr (ix2 r (⟨c.val + 1, by have := c.isLt; omega⟩ : Fin 81)) := by
  unfold fgScores
  exact extractStridedSlice_apply ![0, 1] pr slices_S2000x81_S2000x80_0_1 (ix2 r c) (ix2 r (⟨c.val + 1, by have := c.isLt; omega⟩ : Fin 81)) (fun a => match a with
    | ⟨0, _⟩ => by show r.val = 0 + r.val; omega
    | ⟨1, _⟩ => by show c.val + 1 = 1 + c.val; omega)

/-- The mask over the four edges reads the cell's mask. -/
theorem keep4_apply (pr : (⟨S2000x81, .f32⟩ : BufTy).Contents (Elt Ideal)) (r : Fin 2000) (c : Fin 80) (k : Fin 4) :
    keep4 pr (ix3 r c k) = keep pr (ix2 r c) := by
  unfold keep4
  refine (broadcastInDim_apply _ bcast_S2000x80x1_S2000x80x4_0_1_2 _ (ix3 r c k) (ix3 r c (0 : Fin 1)) (fun a => match a with
    | ⟨0, _⟩ => by show r.val = if (2000 : Nat) = 1 then 0 else r.val; rw [if_neg (by decide)]
    | ⟨1, _⟩ => by show c.val = if (80 : Nat) = 1 then 0 else c.val; rw [if_neg (by decide)]
    | ⟨2, _⟩ => by show 0 = if (1 : Nat) = 1 then 0 else k.val; rw [if_pos rfl])).trans ?_
  exact asColumn_apply (keep pr) r c

/-- The flattened boxes at column `4 c + k` are edge `k` of class `c`. -/
theorem keptBoxesFlat_apply (pr : (⟨S2000x81, .f32⟩ : BufTy).Contents (Elt Ideal)) (rg : (⟨S2000x320, .f32⟩ : BufTy).Contents (Elt Ideal)) (bx : (⟨S2000x4, .f32⟩ : BufTy).Contents (Elt Ideal)) (r : Fin 2000) (c : Fin 80) (k : Fin 4) :
    keptBoxesFlat pr rg bx (ix2 r (⟨4 * c.val + k.val, by have := c.isLt; have := k.isLt; omega⟩ : Fin 320)) = keptBoxes pr rg bx (ix3 r c k) := by
  unfold keptBoxesFlat
  exact shapeCast_apply _ shapeCasts_S2000x80x4_S2000x320 (ix2 r (⟨4 * c.val + k.val, by have := c.isLt; have := k.isLt; omega⟩ : Fin 320)) (ix3 r c k)
    (by rewrite [Shape.rowMajor_val_three, Shape.rowMajor_val_two]; show (r.val * 80 + c.val) * 4 + k.val = r.val * 320 + (4 * c.val + k.val); omega)

/-! ## The arithmetic of one cell, as functions of numbers -/

/-- An extent from its two edges: far - near + 1. -/
def edgeW (b0 b2 : Ideal .f32) : Ideal .f32 := FloatOps.addf (F := Ideal) (φ := .f32) (FloatOps.subf (F := Ideal) (φ := .f32) (b2) (b0)) (Ideal.ofBits .f32 0x3F800000#32)
/-- A centre from the near edge and the extent: near + extent / 2. -/
def edgeC (b0 w : Ideal .f32) : Ideal .f32 := FloatOps.addf (F := Ideal) (φ := .f32) (b0) (FloatOps.mulf (F := Ideal) (φ := .f32) (Ideal.ofBits .f32 0x3F000000#32) (w))
/-- A predicted centre: (delta / 10) * extent + centre. -/
def predC (t w ctr : Ideal .f32) : Ideal .f32 := FloatOps.addf (F := Ideal) (φ := .f32) (FloatOps.mulf (F := Ideal) (φ := .f32) (FloatOps.hostDivf (F := Ideal) (φ := .f32) (t) (Ideal.ofBits .f32 0x41200000#32)) (w)) (ctr)
/-- A predicted extent: exp (min (delta / 5) bound) * extent. -/
def predS (t w : Ideal .f32) : Ideal .f32 := FloatOps.mulf (F := Ideal) (φ := .f32) (FloatOps.hostUnary (F := Ideal) (φ := .f32) .exp (FloatOps.minimumf (F := Ideal) (φ := .f32) (FloatOps.hostDivf (F := Ideal) (φ := .f32) (t) (Ideal.ofBits .f32 0x40A00000#32)) (Ideal.ofBits .f32 0x40845349#32))) (w)
/-- The decoded near edge of one axis, from the box's two edges on that axis and the two deltas of that axis. -/
def decLo (b0 b2 t0 t2 : Ideal .f32) : Ideal .f32 :=
  FloatOps.subf (F := Ideal) (φ := .f32) (predC t0 (edgeW b0 b2) (edgeC b0 (edgeW b0 b2))) (FloatOps.mulf (F := Ideal) (φ := .f32) (Ideal.ofBits .f32 0x3F000000#32) (predS t2 (edgeW b0 b2)))
/-- The decoded far edge of one axis. -/
def decHi (b0 b2 t0 t2 : Ideal .f32) : Ideal .f32 :=
  FloatOps.subf (F := Ideal) (φ := .f32) (FloatOps.addf (F := Ideal) (φ := .f32) (predC t0 (edgeW b0 b2) (edgeC b0 (edgeW b0 b2))) (FloatOps.mulf (F := Ideal) (φ := .f32) (Ideal.ofBits .f32 0x3F000000#32) (predS t2 (edgeW b0 b2)))) (Ideal.ofBits .f32 0x3F800000#32)
/-- A value kept where the score passes the threshold, zero elsewhere. -/
def masked (p v : Ideal .f32) : Ideal .f32 := Scalar.select (FloatOps.cmpf (F := Ideal) (φ := .f32) .ogt (p) (Ideal.ofBits .f32 0x3D4CCCCD#32)) v (Ideal.ofBits .f32 0x00000000#32)

/-! ## The per-proposal and per-cell values at an index -/

theorem boxW_apply (bx : (⟨S2000x4, .f32⟩ : BufTy).Contents (Elt Ideal)) (r : Fin 2000) : boxW bx (ix1 r) = edgeW (bx (ix2 r (0 : Fin 4))) (bx (ix2 r (2 : Fin 4))) := by
  show FloatOps.addf (F := Ideal) (φ := .f32) (FloatOps.subf (F := Ideal) (φ := .f32) (boxCol2 bx (ix1 r)) (boxCol0 bx (ix1 r))) (rowConst 0x3F800000#32 (ix1 r)) = _
  rw [boxCol2_apply, boxCol0_apply, rowConst_apply]; rfl

theorem boxH_apply (bx : (⟨S2000x4, .f32⟩ : BufTy).Contents (Elt Ideal)) (r : Fin 2000) : boxH bx (ix1 r) = edgeW (bx (ix2 r (1 : Fin 4))) (bx (ix2 r (3 : Fin 4))) := by
  show FloatOps.addf (F := Ideal) (φ := .f32) (FloatOps.subf (F := Ideal) (φ := .f32) (boxCol3 bx (ix1 r)) (boxCol1 bx (ix1 r))) (rowConst 0x3F800000#32 (ix1 r)) = _
  rw [boxCol3_apply, boxCol1_apply, rowConst_apply]; rfl

theorem boxCx_apply (bx : (⟨S2000x4, .f32⟩ : BufTy).Contents (Elt Ideal)) (r : Fin 2000) : boxCx bx (ix1 r) = edgeC (bx (ix2 r (0 : Fin 4))) (edgeW (bx (ix2 r (0 : Fin 4))) (bx (ix2 r (2 : Fin 4)))) := by
  show FloatOps.addf (F := Ideal) (φ := .f32) (boxCol0 bx (ix1 r)) (FloatOps.mulf (F := Ideal) (φ := .f32) (rowConst 0x3F000000#32 (ix1 r)) (boxW bx (ix1 r))) = _
  rw [boxCol0_apply, rowConst_apply, boxW_apply]; rfl

theorem boxCy_apply (bx : (⟨S2000x4, .f32⟩ : BufTy).Contents (Elt Ideal)) (r : Fin 2000) : boxCy bx (ix1 r) = edgeC (bx (ix2 r (1 : Fin 4))) (edgeW (bx (ix2 r (1 : Fin 4))) (bx (ix2 r (3 : Fin 4)))) := by
  show FloatOps.addf (F := Ideal) (φ := .f32) (boxCol1 bx (ix1 r)) (FloatOps.mulf (F := Ideal) (φ := .f32) (rowConst 0x3F000000#32 (ix1 r)) (boxH bx (ix1 r))) = _
  rw [boxCol1_apply, rowConst_apply, boxH_apply]; rfl

theorem predCx_apply (rg : (⟨S2000x320, .f32⟩ : BufTy).Contents (Elt Ideal)) (bx : (⟨S2000x4, .f32⟩ : BufTy).Contents (Elt Ideal)) (r : Fin 2000) (c : Fin 80) :
    predCx rg bx (ix2 r c) = predC (rg (ix2 r (⟨4 * c.val + 0, by have := c.isLt; omega⟩ : Fin 320))) (edgeW (bx (ix2 r (0 : Fin 4))) (bx (ix2 r (2 : Fin 4)))) (edgeC (bx (ix2 r (0 : Fin 4))) (edgeW (bx (ix2 r (0 : Fin 4))) (bx (ix2 r (2 : Fin 4))))) := by
  show FloatOps.addf (F := Ideal) (φ := .f32) (FloatOps.mulf (F := Ideal) (φ := .f32) (FloatOps.hostDivf (F := Ideal) (φ := .f32) (delta0 rg (ix2 r c)) (cellConst 0x41200000#32 (ix2 r c))) (overClasses (boxW bx) (ix2 r c))) (overClasses (boxCx bx) (ix2 r c)) = _
  rw [delta0_apply, cellConst_apply, overClasses_apply, overClasses_apply, boxW_apply, boxCx_apply]; rfl

theorem predW_apply (rg : (⟨S2000x320, .f32⟩ : BufTy).Contents (Elt Ideal)) (bx : (⟨S2000x4, .f32⟩ : BufTy).Contents (Elt Ideal)) (r : Fin 2000) (c : Fin 80) :
    predW rg bx (ix2 r c) = predS (rg (ix2 r (⟨4 * c.val + 2, by have := c.isLt; omega⟩ : Fin 320))) (edgeW (bx (ix2 r (0 : Fin 4))) (bx (ix2 r (2 : Fin 4)))) := by
  show FloatOps.mulf (F := Ideal) (φ := .f32) (FloatOps.hostUnary (F := Ideal) (φ := .f32) .exp (FloatOps.minimumf (F := Ideal) (φ := .f32) (FloatOps.hostDivf (F := Ideal) (φ := .f32) (delta2 rg (ix2 r c)) (cellConst 0x40A00000#32 (ix2 r c))) (cellConst 0x40845349#32 (ix2 r c)))) (overClasses (boxW bx) (ix2 r c)) = _
  rw [delta2_apply, cellConst_apply, cellConst_apply, overClasses_apply, boxW_apply]; rfl

theorem predCy_apply (rg : (⟨S2000x320, .f32⟩ : BufTy).Contents (Elt Ideal)) (bx : (⟨S2000x4, .f32⟩ : BufTy).Contents (Elt Ideal)) (r : Fin 2000) (c : Fin 80) :
    predCy rg bx (ix2 r c) = predC (rg (ix2 r (⟨4 * c.val + 1, by have := c.isLt; omega⟩ : Fin 320))) (edgeW (bx (ix2 r (1 : Fin 4))) (bx (ix2 r (3 : Fin 4)))) (edgeC (bx (ix2 r (1 : Fin 4))) (edgeW (bx (ix2 r (1 : Fin 4))) (bx (ix2 r (3 : Fin 4))))) := by
  show FloatOps.addf (F := Ideal) (φ := .f32) (FloatOps.mulf (F := Ideal) (φ := .f32) (FloatOps.hostDivf (F := Ideal) (φ := .f32) (delta1 rg (ix2 r c)) (cellConst 0x41200000#32 (ix2 r c))) (overClasses (boxH bx) (ix2 r c))) (overClasses (boxCy bx) (ix2 r c)) = _
  rw [delta1_apply, cellConst_apply, overClasses_apply, overClasses_apply, boxH_apply, boxCy_apply]; rfl

theorem predH_apply (rg : (⟨S2000x320, .f32⟩ : BufTy).Contents (Elt Ideal)) (bx : (⟨S2000x4, .f32⟩ : BufTy).Contents (Elt Ideal)) (r : Fin 2000) (c : Fin 80) :
    predH rg bx (ix2 r c) = predS (rg (ix2 r (⟨4 * c.val + 3, by have := c.isLt; omega⟩ : Fin 320))) (edgeW (bx (ix2 r (1 : Fin 4))) (bx (ix2 r (3 : Fin 4)))) := by
  show FloatOps.mulf (F := Ideal) (φ := .f32) (FloatOps.hostUnary (F := Ideal) (φ := .f32) .exp (FloatOps.minimumf (F := Ideal) (φ := .f32) (FloatOps.hostDivf (F := Ideal) (φ := .f32) (delta3 rg (ix2 r c)) (cellConst 0x40A00000#32 (ix2 r c))) (cellConst 0x40845349#32 (ix2 r c)))) (overClasses (boxH bx) (ix2 r c)) = _
  rw [delta3_apply, cellConst_apply, cellConst_apply, overClasses_apply, boxH_apply]; rfl

theorem decX1_apply (rg : (⟨S2000x320, .f32⟩ : BufTy).Contents (Elt Ideal)) (bx : (⟨S2000x4, .f32⟩ : BufTy).Contents (Elt Ideal)) (r : Fin 2000) (c : Fin 80) :
    decX1 rg bx (ix2 r c) = decLo (bx (ix2 r (0 : Fin 4))) (bx (ix2 r (2 : Fin 4))) (rg (ix2 r (⟨4 * c.val + 0, by have := c.isLt; omega⟩ : Fin 320))) (rg (ix2 r (⟨4 * c.val + 2, by have := c.isLt; omega⟩ : Fin 320))) := by
  show FloatOps.subf (F := Ideal) (φ := .f32) (predCx rg bx (ix2 r c)) (FloatOps.mulf (F := Ideal) (φ := .f32) (cellConst 0x3F000000#32 (ix2 r c)) (predW rg bx (ix2 r c))) = _
  rw [predCx_apply, predW_apply, cellConst_apply]; rfl

theorem decY1_apply (rg : (⟨S2000x320, .f32⟩ : BufTy).Contents (Elt Ideal)) (bx : (⟨S2000x4, .f32⟩ : BufTy).Contents (Elt Ideal)) (r : Fin 2000) (c : Fin 80) :
    decY1 rg bx (ix2 r c) = decLo (bx (ix2 r (1 : Fin 4))) (bx (ix2 r (3 : Fin 4))) (rg (ix2 r (⟨4 * c.val + 1, by have := c.isLt; omega⟩ : Fin 320))) (rg (ix2 r (⟨4 * c.val + 3, by have := c.isLt; omega⟩ : Fin 320))) := by
  show FloatOps.subf (F := Ideal) (φ := .f32) (predCy rg bx (ix2 r c)) (FloatOps.mulf (F := Ideal) (φ := .f32) (cellConst 0x3F000000#32 (ix2 r c)) (predH rg bx (ix2 r c))) = _
  rw [predCy_apply, predH_apply, cellConst_apply]; rfl

theorem decX2_apply (rg : (⟨S2000x320, .f32⟩ : BufTy).Contents (Elt Ideal)) (bx : (⟨S2000x4, .f32⟩ : BufTy).Contents (Elt Ideal)) (r : Fin 2000) (c : Fin 80) :
    decX2 rg bx (ix2 r c) = decHi (bx (ix2 r (0 : Fin 4))) (bx (ix2 r (2 : Fin 4))) (rg (ix2 r (⟨4 * c.val + 0, by have := c.isLt; omega⟩ : Fin 320))) (rg (ix2 r (⟨4 * c.val + 2, by have := c.isLt; omega⟩ : Fin 320))) := by
  show FloatOps.subf (F := Ideal) (φ := .f32) (FloatOps.addf (F := Ideal) (φ := .f32) (predCx rg bx (ix2 r c)) (FloatOps.mulf (F := Ideal) (φ := .f32) (cellConst 0x3F000000#32 (ix2 r c)) (predW rg bx (ix2 r c)))) (cellConst 0x3F800000#32 (ix2 r c)) = _
  rw [predCx_apply, predW_apply, cellConst_apply, cellConst_apply]; rfl

theorem decY2_apply (rg : (⟨S2000x320, .f32⟩ : BufTy).Contents (Elt Ideal)) (bx : (⟨S2000x4, .f32⟩ : BufTy).Contents (Elt Ideal)) (r : Fin 2000) (c : Fin 80) :
    decY2 rg bx (ix2 r c) = decHi (bx (ix2 r (1 : Fin 4))) (bx (ix2 r (3 : Fin 4))) (rg (ix2 r (⟨4 * c.val + 1, by have := c.isLt; omega⟩ : Fin 320))) (rg (ix2 r (⟨4 * c.val + 3, by have := c.isLt; omega⟩ : Fin 320))) := by
  show FloatOps.subf (F := Ideal) (φ := .f32) (FloatOps.addf (F := Ideal) (φ := .f32) (predCy rg bx (ix2 r c)) (FloatOps.mulf (F := Ideal) (φ := .f32) (cellConst 0x3F000000#32 (ix2 r c)) (predH rg bx (ix2 r c)))) (cellConst 0x3F800000#32 (ix2 r c)) = _
  rw [predCy_apply, predH_apply, cellConst_apply, cellConst_apply]; rfl

/-! ## The joined arrays at an index -/

/-- Edge 0 of the decoded boxes. -/
theorem decoded_apply0 (rg : (⟨S2000x320, .f32⟩ : BufTy).Contents (Elt Ideal)) (bx : (⟨S2000x4, .f32⟩ : BufTy).Contents (Elt Ideal)) (r : Fin 2000) (c : Fin 80) :
    decoded rg bx (ix3 r c (0 : Fin 4)) = decX1 rg bx (ix2 r c) := by
  unfold decoded
  refine (concatenate_apply_piece (t := S2000x80x4) (2 : Fin 3) [⟨S2000x80x1, asColumn (decX1 rg bx)⟩, ⟨S2000x80x1, asColumn (decY1 rg bx)⟩, ⟨S2000x80x1, asColumn (decX2 rg bx)⟩, ⟨S2000x80x1, asColumn (decY2 rg bx)⟩] concatenates_S2000x80x1_S2000x80x1_S2000x80x1_S2000x80x1_S2000x80x4_d2 (ix3 r c (0 : Fin 4)) 0 (by show 0 < 4; omega)
    S2000x80x1 (asColumn (decX1 rg bx)) rfl rfl 0 rfl (ix3 r c (0 : Fin 1)) ?_ ?_).trans (asColumn_apply _ r c)
  · intro b hb
    match b, hb with
    | ⟨0, _⟩, _ => rfl
    | ⟨1, _⟩, _ => rfl
    | ⟨2, _⟩, hb => exact absurd rfl hb
  · rfl

/-- Edge 1 of the decoded boxes. -/
theorem decoded_apply1 (rg : (⟨S2000x320, .f32⟩ : BufTy).Contents (Elt Ideal)) (bx : (⟨S2000x4, .f32⟩ : BufTy).Contents (Elt Ideal)) (r : Fin 2000) (c : Fin 80) :
    decoded rg bx (ix3 r c (1 : Fin 4)) = decY1 rg bx (ix2 r c) := by
  unfold decoded
  refine (concatenate_apply_piece (t := S2000x80x4) (2 : Fin 3) [⟨S2000x80x1, asColumn (decX1 rg bx)⟩, ⟨S2000x80x1, asColumn (decY1 rg bx)⟩, ⟨S2000x80x1, asColumn (decX2 rg bx)⟩, ⟨S2000x80x1, asColumn (decY2 rg bx)⟩] concatenates_S2000x80x1_S2000x80x1_S2000x80x1_S2000x80x1_S2000x80x4_d2 (ix3 r c (1 : Fin 4)) 1 (by show 1 < 4; omega)
    S2000x80x1 (asColumn (decY1 rg bx)) rfl rfl 1 rfl (ix3 r c (0 : Fin 1)) ?_ ?_).trans (asColumn_apply _ r c)
  · intro b hb
    match b, hb with
    | ⟨0, _⟩, _ => rfl
    | ⟨1, _⟩, _ => rfl
    | ⟨2, _⟩, hb => exact absurd rfl hb
  · rfl

/-- Edge 2 of the decoded boxes. -/
theorem decoded_apply2 (rg : (⟨S2000x320, .f32⟩ : BufTy).Contents (Elt Ideal)) (bx : (⟨S2000x4, .f32⟩ : BufTy).Contents (Elt Ideal)) (r : Fin 2000) (c : Fin 80) :
    decoded rg bx (ix3 r c (2 : Fin 4)) = decX2 rg bx (ix2 r c) := by
  unfold decoded
  refine (concatenate_apply_piece (t := S2000x80x4) (2 : Fin 3) [⟨S2000x80x1, asColumn (decX1 rg bx)⟩, ⟨S2000x80x1, asColumn (decY1 rg bx)⟩, ⟨S2000x80x1, asColumn (decX2 rg bx)⟩, ⟨S2000x80x1, asColumn (decY2 rg bx)⟩] concatenates_S2000x80x1_S2000x80x1_S2000x80x1_S2000x80x1_S2000x80x4_d2 (ix3 r c (2 : Fin 4)) 2 (by show 2 < 4; omega)
    S2000x80x1 (asColumn (decX2 rg bx)) rfl rfl 2 rfl (ix3 r c (0 : Fin 1)) ?_ ?_).trans (asColumn_apply _ r c)
  · intro b hb
    match b, hb with
    | ⟨0, _⟩, _ => rfl
    | ⟨1, _⟩, _ => rfl
    | ⟨2, _⟩, hb => exact absurd rfl hb
  · rfl

/-- Edge 3 of the decoded boxes. -/
theorem decoded_apply3 (rg : (⟨S2000x320, .f32⟩ : BufTy).Contents (Elt Ideal)) (bx : (⟨S2000x4, .f32⟩ : BufTy).Contents (Elt Ideal)) (r : Fin 2000) (c : Fin 80) :
    decoded rg bx (ix3 r c (3 : Fin 4)) = decY2 rg bx (ix2 r c) := by
  unfold decoded
  refine (concatenate_apply_piece (t := S2000x80x4) (2 : Fin 3) [⟨S2000x80x1, asColumn (decX1 rg bx)⟩, ⟨S2000x80x1, asColumn (decY1 rg bx)⟩, ⟨S2000x80x1, asColumn (decX2 rg bx)⟩, ⟨S2000x80x1, asColumn (decY2 rg bx)⟩] concatenates_S2000x80x1_S2000x80x1_S2000x80x1_S2000x80x1_S2000x80x4_d2 (ix3 r c (3 : Fin 4)) 3 (by show 3 < 4; omega)
    S2000x80x1 (asColumn (decY2 rg bx)) rfl rfl 3 rfl (ix3 r c (0 : Fin 1)) ?_ ?_).trans (asColumn_apply _ r c)
  · intro b hb
    match b, hb with
    | ⟨0, _⟩, _ => rfl
    | ⟨1, _⟩, _ => rfl
    | ⟨2, _⟩, hb => exact absurd rfl hb
  · rfl

/-- The masked score of a cell. -/
theorem keptScores_apply (pr : (⟨S2000x81, .f32⟩ : BufTy).Contents (Elt Ideal)) (r : Fin 2000) (c : Fin 80) :
    keptScores pr (ix2 r c) = masked (pr (ix2 r (⟨c.val + 1, by have := c.isLt; omega⟩ : Fin 81))) (pr (ix2 r (⟨c.val + 1, by have := c.isLt; omega⟩ : Fin 81))) := by
  show Scalar.select (FloatOps.cmpf (F := Ideal) (φ := .f32) .ogt (fgScores pr (ix2 r c)) (cellConst 0x3D4CCCCD#32 (ix2 r c))) (fgScores pr (ix2 r c)) (cellZero (ix2 r c)) = _
  rw [fgScores_apply, cellConst_apply, cellZero_apply]; rfl

/-- A masked edge of a cell. -/
theorem keptBoxes_apply (pr : (⟨S2000x81, .f32⟩ : BufTy).Contents (Elt Ideal)) (rg : (⟨S2000x320, .f32⟩ : BufTy).Contents (Elt Ideal)) (bx : (⟨S2000x4, .f32⟩ : BufTy).Contents (Elt Ideal)) (r : Fin 2000) (c : Fin 80) (k : Fin 4) :
    keptBoxes pr rg bx (ix3 r c k) = masked (pr (ix2 r (⟨c.val + 1, by have := c.isLt; omega⟩ : Fin 81))) (decoded rg bx (ix3 r c k)) := by
  show Scalar.select (keep4 pr (ix3 r c k)) (decoded rg bx (ix3 r c k)) (boxZero (ix3 r c k)) = _
  rw [keep4_apply, boxZero_apply]
  show Scalar.select (FloatOps.cmpf (F := Ideal) (φ := .f32) .ogt (fgScores pr (ix2 r c)) (cellConst 0x3D4CCCCD#32 (ix2 r c))) _ _ = _
  rw [fgScores_apply, cellConst_apply]; rfl

/-! ## The result at an index, range by range -/

/-- Columns 0 … 79: the masked scores. -/
theorem tailK_score (f6 : (⟨S2000x1024, .f32⟩ : BufTy).Contents (Elt Ideal)) (pr : (⟨S2000x81, .f32⟩ : BufTy).Contents (Elt Ideal)) (rg : (⟨S2000x320, .f32⟩ : BufTy).Contents (Elt Ideal)) (bx : (⟨S2000x4, .f32⟩ : BufTy).Contents (Elt Ideal)) (r : Fin 2000) (c : Fin 80) :
    tailK f6 pr rg bx (ix2 r (⟨c.val, by have := c.isLt; omega⟩ : Fin 1424)) = masked (pr (ix2 r (⟨c.val + 1, by have := c.isLt; omega⟩ : Fin 81))) (pr (ix2 r (⟨c.val + 1, by have := c.isLt; omega⟩ : Fin 81))) := by
  unfold tailK
  refine (concatenate_apply_piece (t := S2000x1424) (1 : Fin 2) [⟨S2000x80, keptScores pr⟩, ⟨S2000x320, keptBoxesFlat pr rg bx⟩, ⟨S2000x1024, f6⟩] concatenates_S2000x80_S2000x320_S2000x1024_S2000x1424_d1 (ix2 r (⟨c.val, by have := c.isLt; omega⟩ : Fin 1424)) 0 (by show 0 < 3; omega)
    S2000x80 (keptScores pr) rfl rfl 0 rfl (ix2 r c) ?_ ?_).trans (keptScores_apply pr r c)
  · intro b hb
    match b, hb with
    | ⟨0, _⟩, _ => rfl
    | ⟨1, _⟩, hb => exact absurd rfl hb
  · show 0 + c.val = c.val; omega

/-- Columns 80 … 399: the masked boxes, four columns per class. -/
theorem tailK_box (f6 : (⟨S2000x1024, .f32⟩ : BufTy).Contents (Elt Ideal)) (pr : (⟨S2000x81, .f32⟩ : BufTy).Contents (Elt Ideal)) (rg : (⟨S2000x320, .f32⟩ : BufTy).Contents (Elt Ideal)) (bx : (⟨S2000x4, .f32⟩ : BufTy).Contents (Elt Ideal)) (r : Fin 2000) (c : Fin 80) (k : Fin 4) :
    tailK f6 pr rg bx (ix2 r (⟨80 + (4 * c.val + k.val), by have := c.isLt; have := k.isLt; omega⟩ : Fin 1424))
      = masked (pr (ix2 r (⟨c.val + 1, by have := c.isLt; omega⟩ : Fin 81))) (decoded rg bx (ix3 r c k)) := by
  unfold tailK
  refine (concatenate_apply_piece (t := S2000x1424) (1 : Fin 2) [⟨S2000x80, keptScores pr⟩, ⟨S2000x320, keptBoxesFlat pr rg bx⟩, ⟨S2000x1024, f6⟩] concatenates_S2000x80_S2000x320_S2000x1024_S2000x1424_d1 (ix2 r (⟨80 + (4 * c.val + k.val), by have := c.isLt; have := k.isLt; omega⟩ : Fin 1424)) 1 (by show 1 < 3; omega)
    S2000x320 (keptBoxesFlat pr rg bx) rfl rfl 80 rfl (ix2 r (⟨4 * c.val + k.val, by have := c.isLt; have := k.isLt; omega⟩ : Fin 320)) ?_ ?_).trans
    ((keptBoxesFlat_apply pr rg bx r c k).trans (keptBoxes_apply pr rg bx r c k))
  · intro b hb
    match b, hb with
    | ⟨0, _⟩, _ => rfl
    | ⟨1, _⟩, hb => exact absurd rfl hb
  · rfl

/-- Columns 400 … 1423: the activations. -/
theorem tailK_feat (f6 : (⟨S2000x1024, .f32⟩ : BufTy).Contents (Elt Ideal)) (pr : (⟨S2000x81, .f32⟩ : BufTy).Contents (Elt Ideal)) (rg : (⟨S2000x320, .f32⟩ : BufTy).Contents (Elt Ideal)) (bx : (⟨S2000x4, .f32⟩ : BufTy).Contents (Elt Ideal)) (r : Fin 2000) (q : Fin 1024) :
    tailK f6 pr rg bx (ix2 r (⟨400 + q.val, by have := q.isLt; omega⟩ : Fin 1424)) = f6 (ix2 r q) := by
  unfold tailK
  refine concatenate_apply_piece (t := S2000x1424) (1 : Fin 2) [⟨S2000x80, keptScores pr⟩, ⟨S2000x320, keptBoxesFlat pr rg bx⟩, ⟨S2000x1024, f6⟩] concatenates_S2000x80_S2000x320_S2000x1024_S2000x1424_d1 (ix2 r (⟨400 + q.val, by have := q.isLt; omega⟩ : Fin 1424)) 2 (by show 2 < 3; omega)
    S2000x1024 f6 rfl rfl 400 rfl (ix2 r q) ?_ ?_
  · intro b hb
    match b, hb with
    | ⟨0, _⟩, _ => rfl
    | ⟨1, _⟩, hb => exact absurd rfl hb
  · rfl

end Cert.RoiTail

end
-- ==== Proof.TailRef.lean ====
/-
  The tail function against the reference: the reference decodes all eighty-one classes and drops
  the background class afterwards, the tail function decodes the eighty foreground classes of
  regressions that lost the background class's four columns beforehand. Cell by cell the two are
  the same numbers: class `c` of the one is class `c + 1` of the other.
-/
import proofs.«160000_j26036091748769_1_alg».proof.Proof.TailIdx
import proofs.«160000_j26036091748769_1_alg».proof.Proof.RefReadP

noncomputable section

namespace Cert.RoiTail

open Cert.KernelIdeal Cert.KernelIdeal.Gen Idealize.ShloMosaic Idealize.ShloMosaic.TcCoe Idealize.SL.Sem Idealize.ShloMosaic.StableHlo
open Idealize.ShloMosaic.ValueIdx
open Cert.ReferenceIdeal.ReadP

/-! ## The reference's decode, mirrored over eighty-one classes -/

/-- The constant with the given word, one entry per proposal and class (all eighty-one). -/
def cellConstR (b : BitVec 32) : (⟨Cert.ReferenceIdeal.S2000x81, .f32⟩ : BufTy).Contents (Elt Ideal) :=
  (broadcastInDim Cert.ReferenceIdeal.S2000x81 ![] Cert.ReferenceIdeal.Gen.bcast_S_S2000x81 : (⟨Cert.ReferenceIdeal.S_, .f32⟩ : BufTy).Contents (Elt Ideal) → (⟨Cert.ReferenceIdeal.S2000x81, .f32⟩ : BufTy).Contents (Elt Ideal)) (constant (F := Ideal) Cert.ReferenceIdeal.S_ .f32 b)

/-- The regressions of all eighty-one classes as proposals by classes by four deltas. -/
def reg3R (rg : (⟨Cert.ReferenceIdeal.S2000x324, .f32⟩ : BufTy).Contents (Elt Ideal)) : (⟨Cert.ReferenceIdeal.S2000x81x4, .f32⟩ : BufTy).Contents (Elt Ideal) :=
  shapeCast _ rg Cert.ReferenceIdeal.Gen.shapeCasts_S2000x324_S2000x81x4

/-- Delta 0 of every proposal and class. -/
def delta0R (rg : (⟨Cert.ReferenceIdeal.S2000x324, .f32⟩ : BufTy).Contents (Elt Ideal)) : (⟨Cert.ReferenceIdeal.S2000x81, .f32⟩ : BufTy).Contents (Elt Ideal) :=
  shapeCast _ (extractStridedSlice Cert.ReferenceIdeal.S2000x81x1 ![0, 0, 0] (reg3R rg) Cert.ReferenceIdeal.Gen.slices_S2000x81x4_S2000x81x1_0_0_0) Cert.ReferenceIdeal.Gen.shapeCasts_S2000x81x1_S2000x81

/-- Delta 1 of every proposal and class. -/
def delta1R (rg : (⟨Cert.ReferenceIdeal.S2000x324, .f32⟩ : BufTy).Contents (Elt Ideal)) : (⟨Cert.ReferenceIdeal.S2000x81, .f32⟩ : BufTy).Contents (Elt Ideal) :=
  shapeCast _ (extractStridedSlice Cert.ReferenceIdeal.S2000x81x1 ![0, 0, 1] (reg3R rg) Cert.ReferenceIdeal.Gen.slices_S2000x81x4_S2000x81x1_0_0_1) Cert.ReferenceIdeal.Gen.shapeCasts_S2000x81x1_S2000x81

/-- Delta 2 of every proposal and class. -/
def delta2R (rg : (⟨Cert.ReferenceIdeal.S2000x324, .f32⟩ : BufTy).Contents (Elt Ideal)) : (⟨Cert.ReferenceIdeal.S2000x81, .f32⟩ : BufTy).Contents (Elt Ideal) :=
  shapeCast _ (extractStridedSlice Cert.ReferenceIdeal.S2000x81x1 ![0, 0, 2] (reg3R rg) Cert.ReferenceIdeal.Gen.slices_S2000x81x4_S2000x81x1_0_0_2) Cert.ReferenceIdeal.Gen.shapeCasts_S2000x81x1_S2000x81

/-- Delta 3 of every proposal and class. -/
def delta3R (rg : (⟨Cert.ReferenceIdeal.S2000x324, .f32⟩ : BufTy).Contents (Elt Ideal)) : (⟨Cert.ReferenceIdeal.S2000x81, .f32⟩ : BufTy).Contents (Elt Ideal) :=
  shapeCast _ (extractStridedSlice Cert.ReferenceIdeal.S2000x81x1 ![0, 0, 3] (reg3R rg) Cert.ReferenceIdeal.Gen.slices_S2000x81x4_S2000x81x1_0_0_3) Cert.ReferenceIdeal.Gen.shapeCasts_S2000x81x1_S2000x81

/-- The horizontal shift. -/
def dXR (rg : (⟨Cert.ReferenceIdeal.S2000x324, .f32⟩ : BufTy).Contents (Elt Ideal)) : (⟨Cert.ReferenceIdeal.S2000x81, .f32⟩ : BufTy).Contents (Elt Ideal) :=
  (Host.divf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (delta0R rg) (cellConstR 0x41200000#32)

/-- The vertical shift. -/
def dYR (rg : (⟨Cert.ReferenceIdeal.S2000x324, .f32⟩ : BufTy).Contents (Elt Ideal)) : (⟨Cert.ReferenceIdeal.S2000x81, .f32⟩ : BufTy).Contents (Elt Ideal) :=
  (Host.divf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (delta1R rg) (cellConstR 0x41200000#32)

/-- The log width scale, clipped. -/
def dWR (rg : (⟨Cert.ReferenceIdeal.S2000x324, .f32⟩ : BufTy).Contents (Elt Ideal)) : (⟨Cert.ReferenceIdeal.S2000x81, .f32⟩ : BufTy).Contents (Elt Ideal) :=
  (minimumf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((Host.divf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (delta2R rg) (cellConstR 0x40A00000#32)) (cellConstR 0x40845349#32)

/-- The log height scale, clipped. -/
def dHR (rg : (⟨Cert.ReferenceIdeal.S2000x324, .f32⟩ : BufTy).Contents (Elt Ideal)) : (⟨Cert.ReferenceIdeal.S2000x81, .f32⟩ : BufTy).Contents (Elt Ideal) :=
  (minimumf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((Host.divf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (delta3R rg) (cellConstR 0x40A00000#32)) (cellConstR 0x40845349#32)

/-- A per-proposal value repeated over the eighty-one classes. -/
def overClassesR (v : (⟨S2000, .f32⟩ : BufTy).Contents (Elt Ideal)) : (⟨Cert.ReferenceIdeal.S2000x81, .f32⟩ : BufTy).Contents (Elt Ideal) :=
  (broadcastInDim Cert.ReferenceIdeal.S2000x81 ![0, 1] Cert.ReferenceIdeal.Gen.bcast_S2000x1_S2000x81_0_1 : (⟨Cert.ReferenceIdeal.S2000x1, .f32⟩ : BufTy).Contents (Elt Ideal) → (⟨Cert.ReferenceIdeal.S2000x81, .f32⟩ : BufTy).Contents (Elt Ideal)) ((broadcastInDim Cert.ReferenceIdeal.S2000x1 ![0] Cert.ReferenceIdeal.Gen.bcast_S2000_S2000x1_0 : (⟨S2000, .f32⟩ : BufTy).Contents (Elt Ideal) → (⟨Cert.ReferenceIdeal.S2000x1, .f32⟩ : BufTy).Contents (Elt Ideal)) v)

/-- Predicted centres, horizontal. -/
def predCxR (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (addf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (dXR rg) (overClassesR (boxW bx))) (overClassesR (boxCx bx))

/-- Predicted centres, vertical. -/
def predCyR (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (addf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (dYR rg) (overClassesR (boxH bx))) (overClassesR (boxCy bx))

/-- Predicted widths. -/
def predWR (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((Host.exp (F := Ideal) (φ := .f32) : (⟨Cert.ReferenceIdeal.S2000x81, .f32⟩ : BufTy).Contents (Elt Ideal) → (⟨Cert.ReferenceIdeal.S2000x81, .f32⟩ : BufTy).Contents (Elt Ideal)) (dWR rg)) (overClassesR (boxW bx))

/-- Predicted heights. -/
def predHR (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((Host.exp (F := Ideal) (φ := .f32) : (⟨Cert.ReferenceIdeal.S2000x81, .f32⟩ : BufTy).Contents (Elt Ideal) → (⟨Cert.ReferenceIdeal.S2000x81, .f32⟩ : BufTy).Contents (Elt Ideal)) (dHR rg)) (overClassesR (boxH bx))

/-- Decoded left edge. -/
def decX1R (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (subf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (predCxR rg bx) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (cellConstR 0x3F000000#32) (predWR rg bx))

/-- Decoded top edge. -/
def decY1R (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (subf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (predCyR rg bx) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (cellConstR 0x3F000000#32) (predHR rg bx))

/-- Decoded right edge. -/
def decX2R (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (subf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((addf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (predCxR rg bx) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (cellConstR 0x3F000000#32) (predWR rg bx))) (cellConstR 0x3F800000#32)

/-- Decoded bottom edge. -/
def decY2R (rg : (⟨Cert.ReferenceIdeal.S2000x324, .f32⟩ : BufTy).Contents (Elt Ideal)) (bx : (⟨S2000x4, .f32⟩ : BufTy).Contents (Elt Ideal)) : (⟨Cert.ReferenceIdeal.S2000x81, .f32⟩ : BufTy).Contents (Elt Ideal) :=
  (subf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) ((addf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (predCyR rg bx) ((mulf (F := Ideal) (φ := .f32)  : (⟨Cert.ReferenceIdeal.S2000x81, .f32⟩ : BufTy).Contents (Elt Ideal) → (⟨Cert.ReferenceIdeal.S2000x81, .f32⟩ : BufTy).Contents (Elt Ideal) → (⟨Cert.ReferenceIdeal.S2000x81, .f32⟩ : BufTy).Contents (Elt Ideal)) (cellConstR 0x3F000000#32) (predHR rg bx))) (cellConstR 0x3F800000#32)

/-- A per-cell value with a trailing axis of length one. -/
def asColumnR (v : (⟨Cert.ReferenceIdeal.S2000x81, .f32⟩ : BufTy).Contents (Elt Ideal)) : (⟨Cert.ReferenceIdeal.S2000x81x1, .f32⟩ : BufTy).Contents (Elt Ideal) :=
  broadcastInDim Cert.ReferenceIdeal.S2000x81x1 ![0, 1] Cert.ReferenceIdeal.Gen.bcast_S2000x81_S2000x81x1_0_1 v

/-- The decoded boxes of all eighty-one classes. -/
def decodedR (rg : (⟨Cert.ReferenceIdeal.S2000x324, .f32⟩ : BufTy).Contents (Elt Ideal)) (bx : (⟨S2000x4, .f32⟩ : BufTy).Contents (Elt Ideal)) : (⟨Cert.ReferenceIdeal.S2000x81x4, .f32⟩ : BufTy).Contents (Elt Ideal) :=
  concatenate Cert.ReferenceIdeal.S2000x81x4 2 [⟨Cert.ReferenceIdeal.S2000x81x1, asColumnR (decX1R rg bx)⟩, ⟨Cert.ReferenceIdeal.S2000x81x1, asColumnR (decY1R rg bx)⟩, ⟨Cert.ReferenceIdeal.S2000x81x1, asColumnR (decX2R rg bx)⟩, ⟨Cert.ReferenceIdeal.S2000x81x1, asColumnR (decY2R rg bx)⟩] Cert.ReferenceIdeal.Gen.concatenates_S2000x81x1_S2000x81x1_S2000x81x1_S2000x81x1_S2000x81x4_d2

/-- The decoded boxes without the background class. -/
def fgBoxes (d : (⟨Cert.ReferenceIdeal.S2000x81x4, .f32⟩ : BufTy).Contents (Elt Ideal)) : (⟨S2000x80x4, .f32⟩ : BufTy).Contents (Elt Ideal) :=
  extractStridedSlice Cert.ReferenceIdeal.S2000x80x4 ![0, 1, 0] d Cert.ReferenceIdeal.Gen.slices_S2000x81x4_S2000x80x4_0_1_0

/-- The kernel's regressions inside the reference's: the eighty foreground classes' columns, four to the right. -/
def shiftReg (v : (⟨Cert.ReferenceIdeal.S2000x324, .f32⟩ : BufTy).Contents (Elt Ideal)) : (⟨S2000x320, .f32⟩ : BufTy).Contents (Elt Ideal) :=
  fun i => v (ix2 (i 0) (⟨(i 1).val + 4, by have h1 : (i 1).val < 320 := (i 1).isLt; omega⟩ : Fin 324))

/-- Masked boxes from any decoded array. -/
def keptBoxesOf (pr : (⟨S2000x81, .f32⟩ : BufTy).Contents (Elt Ideal)) (dec : (⟨S2000x80x4, .f32⟩ : BufTy).Contents (Elt Ideal)) : (⟨S2000x80x4, .f32⟩ : BufTy).Contents (Elt Ideal) :=
  (select : (⟨S2000x80x4, .i1⟩ : BufTy).Contents (Elt Ideal) → (⟨S2000x80x4, .f32⟩ : BufTy).Contents (Elt Ideal) → (⟨S2000x80x4, .f32⟩ : BufTy).Contents (Elt Ideal) → (⟨S2000x80x4, .f32⟩ : BufTy).Contents (Elt Ideal)) (keep4 pr) dec boxZero

/-- The tail from any decoded array. -/
def tailOf (f6 : (⟨S2000x1024, .f32⟩ : BufTy).Contents (Elt Ideal)) (pr : (⟨S2000x81, .f32⟩ : BufTy).Contents (Elt Ideal)) (dec : (⟨S2000x80x4, .f32⟩ : BufTy).Contents (Elt Ideal)) : (⟨S2000x1424, .f32⟩ : BufTy).Contents (Elt Ideal) :=
  concatenate S2000x1424 1 [⟨S2000x80, keptScores pr⟩, ⟨S2000x320, shapeCast _ (keptBoxesOf pr dec) shapeCasts_S2000x80x4_S2000x320⟩, ⟨S2000x1024, f6⟩] concatenates_S2000x80_S2000x320_S2000x1024_S2000x1424_d1

/-! ## The eighty-one-class decode at an index -/

/-- A per-cell constant reads the constant's value everywhere. -/
theorem cellConstR_apply (b : BitVec 32) (i : Cert.ReferenceIdeal.S2000x81.Idx) : cellConstR b i = Ideal.ofBits .f32 b := by
  unfold cellConstR
  exact broadcastInDim_apply _ Cert.ReferenceIdeal.Gen.bcast_S_S2000x81 _ i ix0 (fun a => a.elim0)

/-- Delta 0 of proposal `r` and class `c` is column `4 c + 0` of the regressions' row `r`. -/
theorem delta0R_apply (rg : (⟨Cert.ReferenceIdeal.S2000x324, .f32⟩ : BufTy).Contents (Elt Ideal)) (r : Fin 2000) (c : Fin 81) :
    delta0R rg (ix2 r c) = rg (ix2 r (⟨4 * c.val + 0, by have := c.isLt; omega⟩ : Fin 324)) := by
  unfold delta0R reg3R
  refine (shapeCast_apply _ Cert.ReferenceIdeal.Gen.shapeCasts_S2000x81x1_S2000x81 (ix2 r c) (ix3 r c (0 : Fin 1)) ?_).trans ?_
  · rewrite [Shape.rowMajor_val_three, Shape.rowMajor_val_two]; show (r.val * 81 + c.val) * 1 + 0 = r.val * 81 + c.val; omega
  refine (extractStridedSlice_apply ![0, 0, 0] _ Cert.ReferenceIdeal.Gen.slices_S2000x81x4_S2000x81x1_0_0_0 (ix3 r c (0 : Fin 1)) (ix3 r c (0 : Fin 4)) (fun a => match a with
      | ⟨0, _⟩ => by show r.val = 0 + r.val; omega
      | ⟨1, _⟩ => by show c.val = 0 + c.val; omega
      | ⟨2, _⟩ => by show 0 = 0 + 0; omega)).trans ?_
  exact shapeCast_apply rg Cert.ReferenceIdeal.Gen.shapeCasts_S2000x324_S2000x81x4 (ix3 r c (0 : Fin 4)) (ix2 r (⟨4 * c.val + 0, by have := c.isLt; omega⟩ : Fin 324))
    (by rewrite [Shape.rowMajor_val_two, Shape.rowMajor_val_three]; show r.val * 324 + (4 * c.val + 0) = (r.val * 81 + c.val) * 4 + 0; omega)

/-- Delta 1 of proposal `r` and class `c` is column `4 c + 1` of the regressions' row `r`. -/
theorem delta1R_apply (rg : (⟨Cert.ReferenceIdeal.S2000x324, .f32⟩ : BufTy).Contents (Elt Ideal)) (r : Fin 2000) (c : Fin 81) :
    delta1R rg (ix2 r c) = rg (ix2 r (⟨4 * c.val + 1, by have := c.isLt; omega⟩ : Fin 324)) := by
  unfold delta1R reg3R
  refine (shapeCast_apply _ Cert.ReferenceIdeal.Gen.shapeCasts_S2000x81x1_S2000x81 (ix2 r c) (ix3 r c (0 : Fin 1)) ?_).trans ?_
  · rewrite [Shape.rowMajor_val_three, Shape.rowMajor_val_two]; show (r.val * 81 + c.val) * 1 + 0 = r.val * 81 + c.val; omega
  refine (extractStridedSlice_apply ![0, 0, 1] _ Cert.ReferenceIdeal.Gen.slices_S2000x81x4_S2000x81x1_0_0_1 (ix3 r c (0 : Fin 1)) (ix3 r c (1 : Fin 4)) (fun a => match a with
      | ⟨0, _⟩ => by show r.val = 0 + r.val; omega
      | ⟨1, _⟩ => by show c.val = 0 + c.val; omega
      | ⟨2, _⟩ => by show 1 = 1 + 0; omega)).trans ?_
  exact shapeCast_apply rg Cert.ReferenceIdeal.Gen.shapeCasts_S2000x324_S2000x81x4 (ix3 r c (1 : Fin 4)) (ix2 r (⟨4 * c.val + 1, by have := c.isLt; omega⟩ : Fin 324))
    (by rewrite [Shape.rowMajor_val_two, Shape.rowMajor_val_three]; show r.val * 324 + (4 * c.val + 1) = (r.val * 81 + c.val) * 4 + 1; omega)

/-- Delta 2 of proposal `r` and class `c` is column `4 c + 2` of the regressions' row `r`. -/
theorem delta2R_apply (rg : (⟨Cert.ReferenceIdeal.S2000x324, .f32⟩ : BufTy).Contents (Elt Ideal)) (r : Fin 2000) (c : Fin 81) :
    delta2R rg (ix2 r c) = rg (ix2 r (⟨4 * c.val + 2, by have := c.isLt; omega⟩ : Fin 324)) := by
  unfold delta2R reg3R
  refine (shapeCast_apply _ Cert.ReferenceIdeal.Gen.shapeCasts_S2000x81x1_S2000x81 (ix2 r c) (ix3 r c (0 : Fin 1)) ?_).trans ?_
  · rewrite [Shape.rowMajor_val_three, Shape.rowMajor_val_two]; show (r.val * 81 + c.val) * 1 + 0 = r.val * 81 + c.val; omega
  refine (extractStridedSlice_apply ![0, 0, 2] _ Cert.ReferenceIdeal.Gen.slices_S2000x81x4_S2000x81x1_0_0_2 (ix3 r c (0 : Fin 1)) (ix3 r c (2 : Fin 4)) (fun a => match a with
      | ⟨0, _⟩ => by show r.val = 0 + r.val; omega
      | ⟨1, _⟩ => by show c.val = 0 + c.val; omega
      | ⟨2, _⟩ => by show 2 = 2 + 0; omega)).trans ?_
  exact shapeCast_apply rg Cert.ReferenceIdeal.Gen.shapeCasts_S2000x324_S2000x81x4 (ix3 r c (2 : Fin 4)) (ix2 r (⟨4 * c.val + 2, by have := c.isLt; omega⟩ : Fin 324))
    (by rewrite [Shape.rowMajor_val_two, Shape.rowMajor_val_three]; show r.val * 324 + (4 * c.val + 2) = (r.val * 81 + c.val) * 4 + 2; omega)

/-- Delta 3 of proposal `r` and class `c` is column `4 c + 3` of the regressions' row `r`. -/
theorem delta3R_apply (rg : (⟨Cert.ReferenceIdeal.S2000x324, .f32⟩ : BufTy).Contents (Elt Ideal)) (r : Fin 2000) (c : Fin 81) :
    delta3R rg (ix2 r c) = rg (ix2 r (⟨4 * c.val + 3, by have := c.isLt; omega⟩ : Fin 324)) := by
  unfold delta3R reg3R
  refine (shapeCast_apply _ Cert.ReferenceIdeal.Gen.shapeCasts_S2000x81x1_S2000x81 (ix2 r c) (ix3 r c (0 : Fin 1)) ?_).trans ?_
  · rewrite [Shape.rowMajor_val_three, Shape.rowMajor_val_two]; show (r.val * 81 + c.val) * 1 + 0 = r.val * 81 + c.val; omega
  refine (extractStridedSlice_apply ![0, 0, 3] _ Cert.ReferenceIdeal.Gen.slices_S2000x81x4_S2000x81x1_0_0_3 (ix3 r c (0 : Fin 1)) (ix3 r c (3 : Fin 4)) (fun a => match a with
      | ⟨0, _⟩ => by show r.val = 0 + r.val; omega
      | ⟨1, _⟩ => by show c.val = 0 + c.val; omega
      | ⟨2, _⟩ => by show 3 = 3 + 0; omega)).trans ?_
  exact shapeCast_apply rg Cert.ReferenceIdeal.Gen.shapeCasts_S2000x324_S2000x81x4 (ix3 r c (3 : Fin 4)) (ix2 r (⟨4 * c.val + 3, by have := c.isLt; omega⟩ : Fin 324))
    (by rewrite [Shape.rowMajor_val_two, Shape.rowMajor_val_three]; show r.val * 324 + (4 * c.val + 3) = (r.val * 81 + c.val) * 4 + 3; omega)

/-- A per-proposal value repeated over the classes reads the proposal's value. -/
theorem overClassesR_apply (v : (⟨S2000, .f32⟩ : BufTy).Contents (Elt Ideal)) (r : Fin 2000) (c : Fin 81) :
    overClassesR v (ix2 r c) = v (ix1 r) := by
  unfold overClassesR
  refine (broadcastInDim_apply _ Cert.ReferenceIdeal.Gen.bcast_S2000x1_S2000x81_0_1 _ (ix2 r c) (ix2 r (0 : Fin 1)) (fun a => match a with
    | ⟨0, _⟩ => by show r.val = if (2000 : Nat) = 1 then 0 else r.val; rw [if_neg (by decide)]
    | ⟨1, _⟩ => by show 0 = if (1 : Nat) = 1 then 0 else c.val; rw [if_pos rfl])).trans ?_
  exact broadcastInDim_apply _ Cert.ReferenceIdeal.Gen.bcast_S2000_S2000x1_0 v (ix2 r (0 : Fin 1)) (ix1 r) (fun a => match a with
    | ⟨0, _⟩ => by show r.val = if (2000 : Nat) = 1 then 0 else r.val; rw [if_neg (by decide)])

/-- A per-cell value under a trailing unit axis reads the cell's value. -/
theorem asColumnR_apply (v : (⟨Cert.ReferenceIdeal.S2000x81, .f32⟩ : BufTy).Contents (Elt Ideal)) (r : Fin 2000) (c : Fin 81) :
    asColumnR v (ix3 r c (0 : Fin 1)) = v (ix2 r c) := by
  unfold asColumnR
  exact broadcastInDim_apply _ Cert.ReferenceIdeal.Gen.bcast_S2000x81_S2000x81x1_0_1 v (ix3 r c (0 : Fin 1)) (ix2 r c) (fun a => match a with
    | ⟨0, _⟩ => by show r.val = if (2000 : Nat) = 1 then 0 else r.val; rw [if_neg (by decide)]
    | ⟨1, _⟩ => by show c.val = if (81 : Nat) = 1 then 0 else c.val; rw [if_neg (by decide)])

theorem predCxR_apply (rg : (⟨Cert.ReferenceIdeal.S2000x324, .f32⟩ : BufTy).Contents (Elt Ideal)) (bx : (⟨S2000x4, .f32⟩ : BufTy).Contents (Elt Ideal)) (r : Fin 2000) (c : Fin 81) :
    predCxR rg bx (ix2 r c) = predC (rg (ix2 r (⟨4 * c.val + 0, by have := c.isLt; omega⟩ : Fin 324))) (edgeW (bx (ix2 r (0 : Fin 4))) (bx (ix2 r (2 : Fin 4)))) (edgeC (bx (ix2 r (0 : Fin 4))) (edgeW (bx (ix2 r (0 : Fin 4))) (bx (ix2 r (2 : Fin 4))))) := by
  show FloatOps.addf (F := Ideal) (φ := .f32) (FloatOps.mulf (F := Ideal) (φ := .f32) (FloatOps.hostDivf (F := Ideal) (φ := .f32) (delta0R rg (ix2 r c)) (cellConstR 0x41200000#32 (ix2 r c))) (overClassesR (boxW bx) (ix2 r c))) (overClassesR (boxCx bx) (ix2 r c)) = _
  rw [delta0R_apply, cellConstR_apply, overClassesR_apply, overClassesR_apply, boxW_apply, boxCx_apply]; rfl

theorem predWR_apply (rg : (⟨Cert.ReferenceIdeal.S2000x324, .f32⟩ : BufTy).Contents (Elt Ideal)) (bx : (⟨S2000x4, .f32⟩ : BufTy).Contents (Elt Ideal)) (r : Fin 2000) (c : Fin 81) :
    predWR rg bx (ix2 r c) = predS (rg (ix2 r (⟨4 * c.val + 2, by have := c.isLt; omega⟩ : Fin 324))) (edgeW (bx (ix2 r (0 : Fin 4))) (bx (ix2 r (2 : Fin 4)))) := by
  show FloatOps.mulf (F := Ideal) (φ := .f32) (FloatOps.hostUnary (F := Ideal) (φ := .f32) .exp (FloatOps.minimumf (F := Ideal) (φ := .f32) (FloatOps.hostDivf (F := Ideal) (φ := .f32) (delta2R rg (ix2 r c)) (cellConstR 0x40A00000#32 (ix2 r c))) (cellConstR 0x40845349#32 (ix2 r c)))) (overClassesR (boxW bx) (ix2 r c)) = _
  rw [delta2R_apply, cellConstR_apply, cellConstR_apply, overClassesR_apply, boxW_apply]; rfl

theorem predCyR_apply (rg : (⟨Cert.ReferenceIdeal.S2000x324, .f32⟩ : BufTy).Contents (Elt Ideal)) (bx : (⟨S2000x4, .f32⟩ : BufTy).Contents (Elt Ideal)) (r : Fin 2000) (c : Fin 81) :
    predCyR rg bx (ix2 r c) = predC (rg (ix2 r (⟨4 * c.val + 1, by have := c.isLt; omega⟩ : Fin 324))) (edgeW (bx (ix2 r (1 : Fin 4))) (bx (ix2 r (3 : Fin 4)))) (edgeC (bx (ix2 r (1 : Fin 4))) (edgeW (bx (ix2 r (1 : Fin 4))) (bx (ix2 r (3 : Fin 4))))) := by
  show FloatOps.addf (F := Ideal) (φ := .f32) (FloatOps.mulf (F := Ideal) (φ := .f32) (FloatOps.hostDivf (F := Ideal) (φ := .f32) (delta1R rg (ix2 r c)) (cellConstR 0x41200000#32 (ix2 r c))) (overClassesR (boxH bx) (ix2 r c))) (overClassesR (boxCy bx) (ix2 r c)) = _
  rw [delta1R_apply, cellConstR_apply, overClassesR_apply, overClassesR_apply, boxH_apply, boxCy_apply]; rfl

theorem predHR_apply (rg : (⟨Cert.ReferenceIdeal.S2000x324, .f32⟩ : BufTy).Contents (Elt Ideal)) (bx : (⟨S2000x4, .f32⟩ : BufTy).Contents (Elt Ideal)) (r : Fin 2000) (c : Fin 81) :
    predHR rg bx (ix2 r c) = predS (rg (ix2 r (⟨4 * c.val + 3, by have := c.isLt; omega⟩ : Fin 324))) (edgeW (bx (ix2 r (1 : Fin 4))) (bx (ix2 r (3 : Fin 4)))) := by
  show FloatOps.mulf (F := Ideal) (φ := .f32) (FloatOps.hostUnary (F := Ideal) (φ := .f32) .exp (FloatOps.minimumf (F := Ideal) (φ := .f32) (FloatOps.hostDivf (F := Ideal) (φ := .f32) (delta3R rg (ix2 r c)) (cellConstR 0x40A00000#32 (ix2 r c))) (cellConstR 0x40845349#32 (ix2 r c)))) (overClassesR (boxH bx) (ix2 r c)) = _
  rw [delta3R_apply, cellConstR_apply, cellConstR_apply, overClassesR_apply, boxH_apply]; rfl

theorem decX1R_apply (rg : (⟨Cert.ReferenceIdeal.S2000x324, .f32⟩ : BufTy).Contents (Elt Ideal)) (bx : (⟨S2000x4, .f32⟩ : BufTy).Contents (Elt Ideal)) (r : Fin 2000) (c : Fin 81) :
    decX1R rg bx (ix2 r c) = decLo (bx (ix2 r (0 : Fin 4))) (bx (ix2 r (2 : Fin 4))) (rg (ix2 r (⟨4 * c.val + 0, by have := c.isLt; omega⟩ : Fin 324))) (rg (ix2 r (⟨4 * c.val + 2, by have := c.isLt; omega⟩ : Fin 324))) := by
  show FloatOps.subf (F := Ideal) (φ := .f32) (predCxR rg bx (ix2 r c)) (FloatOps.mulf (F := Ideal) (φ := .f32) (cellConstR 0x3F000000#32 (ix2 r c)) (predWR rg bx (ix2 r c))) = _
  rw [predCxR_apply, predWR_apply, cellConstR_apply]; rfl

theorem decY1R_apply (rg : (⟨Cert.ReferenceIdeal.S2000x324, .f32⟩ : BufTy).Contents (Elt Ideal)) (bx : (⟨S2000x4, .f32⟩ : BufTy).Contents (Elt Ideal)) (r : Fin 2000) (c : Fin 81) :
    decY1R rg bx (ix2 r c) = decLo (bx (ix2 r (1 : Fin 4))) (bx (ix2 r (3 : Fin 4))) (rg (ix2 r (⟨4 * c.val + 1, by have := c.isLt; omega⟩ : Fin 324))) (rg (ix2 r (⟨4 * c.val + 3, by have := c.isLt; omega⟩ : Fin 324))) := by
  show FloatOps.subf (F := Ideal) (φ := .f32) (predCyR rg bx (ix2 r c)) (FloatOps.mulf (F := Ideal) (φ := .f32) (cellConstR 0x3F000000#32 (ix2 r c)) (predHR rg bx (ix2 r c))) = _
  rw [predCyR_apply, predHR_apply, cellConstR_apply]; rfl

theorem decX2R_apply (rg : (⟨Cert.ReferenceIdeal.S2000x324, .f32⟩ : BufTy).Contents (Elt Ideal)) (bx : (⟨S2000x4, .f32⟩ : BufTy).Contents (Elt Ideal)) (r : Fin 2000) (c : Fin 81) :
    decX2R rg bx (ix2 r c) = decHi (bx (ix2 r (0 : Fin 4))) (bx (ix2 r (2 : Fin 4))) (rg (ix2 r (⟨4 * c.val + 0, by have := c.isLt; omega⟩ : Fin 324))) (rg (ix2 r (⟨4 * c.val + 2, by have := c.isLt; omega⟩ : Fin 324))) := by
  show FloatOps.subf (F := Ideal) (φ := .f32) (FloatOps.addf (F := Ideal) (φ := .f32) (predCxR rg bx (ix2 r c)) (FloatOps.mulf (F := Ideal) (φ := .f32) (cellConstR 0x3F000000#32 (ix2 r c)) (predWR rg bx (ix2 r c)))) (cellConstR 0x3F800000#32 (ix2 r c)) = _
  rw [predCxR_apply, predWR_apply, cellConstR_apply, cellConstR_apply]; rfl

theorem decY2R_apply (rg : (⟨Cert.ReferenceIdeal.S2000x324, .f32⟩ : BufTy).Contents (Elt Ideal)) (bx : (⟨S2000x4, .f32⟩ : BufTy).Contents (Elt Ideal)) (r : Fin 2000) (c : Fin 81) :
    decY2R rg bx (ix2 r c) = decHi (bx (ix2 r (1 : Fin 4))) (bx (ix2 r (3 : Fin 4))) (rg (ix2 r (⟨4 * c.val + 1, by have := c.isLt; omega⟩ : Fin 324))) (rg (ix2 r (⟨4 * c.val + 3, by have := c.isLt; omega⟩ : Fin 324))) := by
  show FloatOps.subf (F := Ideal) (φ := .f32) (FloatOps.addf (F := Ideal) (φ := .f32) (predCyR rg bx (ix2 r c)) (FloatOps.mulf (F := Ideal) (φ := .f32) (cellConstR 0x3F000000#32 (ix2 r c)) (predHR rg bx (ix2 r c)))) (cellConstR 0x3F800000#32 (ix2 r c)) = _
  rw [predCyR_apply, predHR_apply, cellConstR_apply, cellConstR_apply]; rfl

/-- Edge 0 of the decoded boxes. -/
theorem decodedR_apply0 (rg : (⟨Cert.ReferenceIdeal.S2000x324, .f32⟩ : BufTy).Contents (Elt Ideal)) (bx : (⟨S2000x4, .f32⟩ : BufTy).Contents (Elt Ideal)) (r : Fin 2000) (c : Fin 81) :
    decodedR rg bx (ix3 r c (0 : Fin 4)) = decX1R rg bx (ix2 r c) := by
  unfold decodedR
  refine (concatenate_apply_piece (t := Cert.ReferenceIdeal.S2000x81x4) (2 : Fin 3) [⟨Cert.ReferenceIdeal.S2000x81x1, asColumnR (decX1R rg bx)⟩, ⟨Cert.ReferenceIdeal.S2000x81x1, asColumnR (decY1R rg bx)⟩, ⟨Cert.ReferenceIdeal.S2000x81x1, asColumnR (decX2R rg bx)⟩, ⟨Cert.ReferenceIdeal.S2000x81x1, asColumnR (decY2R rg bx)⟩] Cert.ReferenceIdeal.Gen.concatenates_S2000x81x1_S2000x81x1_S2000x81x1_S2000x81x1_S2000x81x4_d2 (ix3 r c (0 : Fin 4)) 0 (by show 0 < 4; omega)
    Cert.ReferenceIdeal.S2000x81x1 (asColumnR (decX1R rg bx)) rfl rfl 0 rfl (ix3 r c (0 : Fin 1)) ?_ ?_).trans (asColumnR_apply _ r c)
  · intro b hb
    match b, hb with
    | ⟨0, _⟩, _ => rfl
    | ⟨1, _⟩, _ => rfl
    | ⟨2, _⟩, hb => exact absurd rfl hb
  · rfl

/-- Edge 1 of the decoded boxes. -/
theorem decodedR_apply1 (rg : (⟨Cert.ReferenceIdeal.S2000x324, .f32⟩ : BufTy).Contents (Elt Ideal)) (bx : (⟨S2000x4, .f32⟩ : BufTy).Contents (Elt Ideal)) (r : Fin 2000) (c : Fin 81) :
    decodedR rg bx (ix3 r c (1 : Fin 4)) = decY1R rg bx (ix2 r c) := by
  unfold decodedR
  refine (concatenate_apply_piece (t := Cert.ReferenceIdeal.S2000x81x4) (2 : Fin 3) [⟨Cert.ReferenceIdeal.S2000x81x1, asColumnR (decX1R rg bx)⟩, ⟨Cert.ReferenceIdeal.S2000x81x1, asColumnR (decY1R rg bx)⟩, ⟨Cert.ReferenceIdeal.S2000x81x1, asColumnR (decX2R rg bx)⟩, ⟨Cert.ReferenceIdeal.S2000x81x1, asColumnR (decY2R rg bx)⟩] Cert.ReferenceIdeal.Gen.concatenates_S2000x81x1_S2000x81x1_S2000x81x1_S2000x81x1_S2000x81x4_d2 (ix3 r c (1 : Fin 4)) 1 (by show 1 < 4; omega)
    Cert.ReferenceIdeal.S2000x81x1 (asColumnR (decY1R rg bx)) rfl rfl 1 rfl (ix3 r c (0 : Fin 1)) ?_ ?_).trans (asColumnR_apply _ r c)
  · intro b hb
    match b, hb with
    | ⟨0, _⟩, _ => rfl
    | ⟨1, _⟩, _ => rfl
    | ⟨2, _⟩, hb => exact absurd rfl hb
  · rfl

/-- Edge 2 of the decoded boxes. -/
theorem decodedR_apply2 (rg : (⟨Cert.ReferenceIdeal.S2000x324, .f32⟩ : BufTy).Contents (Elt Ideal)) (bx : (⟨S2000x4, .f32⟩ : BufTy).Contents (Elt Ideal)) (r : Fin 2000) (c : Fin 81) :
    decodedR rg bx (ix3 r c (2 : Fin 4)) = decX2R rg bx (ix2 r c) := by
  unfold decodedR
  refine (concatenate_apply_piece (t := Cert.ReferenceIdeal.S2000x81x4) (2 : Fin 3) [⟨Cert.ReferenceIdeal.S2000x81x1, asColumnR (decX1R rg bx)⟩, ⟨Cert.ReferenceIdeal.S2000x81x1, asColumnR (decY1R rg bx)⟩, ⟨Cert.ReferenceIdeal.S2000x81x1, asColumnR (decX2R rg bx)⟩, ⟨Cert.ReferenceIdeal.S2000x81x1, asColumnR (decY2R rg bx)⟩] Cert.ReferenceIdeal.Gen.concatenates_S2000x81x1_S2000x81x1_S2000x81x1_S2000x81x1_S2000x81x4_d2 (ix3 r c (2 : Fin 4)) 2 (by show 2 < 4; omega)
    Cert.ReferenceIdeal.S2000x81x1 (asColumnR (decX2R rg bx)) rfl rfl 2 rfl (ix3 r c (0 : Fin 1)) ?_ ?_).trans (asColumnR_apply _ r c)
  · intro b hb
    match b, hb with
    | ⟨0, _⟩, _ => rfl
    | ⟨1, _⟩, _ => rfl
    | ⟨2, _⟩, hb => exact absurd rfl hb
  · rfl

/-- Edge 3 of the decoded boxes. -/
theorem decodedR_apply3 (rg : (⟨Cert.ReferenceIdeal.S2000x324, .f32⟩ : BufTy).Contents (Elt Ideal)) (bx : (⟨S2000x4, .f32⟩ : BufTy).Contents (Elt Ideal)) (r : Fin 2000) (c : Fin 81) :
    decodedR rg bx (ix3 r c (3 : Fin 4)) = decY2R rg bx (ix2 r c) := by
  unfold decodedR
  refine (concatenate_apply_piece (t := Cert.ReferenceIdeal.S2000x81x4) (2 : Fin 3) [⟨Cert.ReferenceIdeal.S2000x81x1, asColumnR (decX1R rg bx)⟩, ⟨Cert.ReferenceIdeal.S2000x81x1, asColumnR (decY1R rg bx)⟩, ⟨Cert.ReferenceIdeal.S2000x81x1, asColumnR (decX2R rg bx)⟩, ⟨Cert.ReferenceIdeal.S2000x81x1, asColumnR (decY2R rg bx)⟩] Cert.ReferenceIdeal.Gen.concatenates_S2000x81x1_S2000x81x1_S2000x81x1_S2000x81x1_S2000x81x4_d2 (ix3 r c (3 : Fin 4)) 3 (by show 3 < 4; omega)
    Cert.ReferenceIdeal.S2000x81x1 (asColumnR (decY2R rg bx)) rfl rfl 3 rfl (ix3 r c (0 : Fin 1)) ?_ ?_).trans (asColumnR_apply _ r c)
  · intro b hb
    match b, hb with
    | ⟨0, _⟩, _ => rfl
    | ⟨1, _⟩, _ => rfl
    | ⟨2, _⟩, hb => exact absurd rfl hb
  · rfl

/-- Without the background class, class `c` is the reference's class `c + 1`. -/
theorem fgBoxes_apply (d : (⟨Cert.ReferenceIdeal.S2000x81x4, .f32⟩ : BufTy).Contents (Elt Ideal)) (r : Fin 2000) (c : Fin 80) (k : Fin 4) :
    fgBoxes d (ix3 r c k) = d (ix3 r (⟨c.val + 1, by have := c.isLt; omega⟩ : Fin 81) k) := by
  unfold fgBoxes
  exact extractStridedSlice_apply ![0, 1, 0] d Cert.ReferenceIdeal.Gen.slices_S2000x81x4_S2000x80x4_0_1_0 (ix3 r c k) (ix3 r (⟨c.val + 1, by have := c.isLt; omega⟩ : Fin 81) k) (fun a => match a with
    | ⟨0, _⟩ => by show r.val = 0 + r.val; omega
    | ⟨1, _⟩ => by show c.val + 1 = 1 + c.val; omega
    | ⟨2, _⟩ => by show k.val = 0 + k.val; omega)

/-- The shifted regressions at column `4 c + k` are the reference's at the next class's column. -/
theorem shiftReg_apply (v : (⟨Cert.ReferenceIdeal.S2000x324, .f32⟩ : BufTy).Contents (Elt Ideal)) (r : Fin 2000) (c : Fin 80) (k : Nat) (hk : k < 4) :
    shiftReg v (ix2 r (⟨4 * c.val + k, by have := c.isLt; omega⟩ : Fin 320))
      = v (ix2 r (⟨4 * (c.val + 1) + k, by have := c.isLt; omega⟩ : Fin 324)) := by
  show v _ = v _
  refine congrArg v (funext fun a => ?_)
  match a with
  | ⟨0, _⟩ => rfl
  | ⟨1, _⟩ => exact Fin.ext (by show 4 * c.val + k + 4 = 4 * (c.val + 1) + k; omega)

/-! ## The reference's stages are the mirrored decode and the same tail -/

section Reference

variable (x0 : (⟨Cert.ReferenceIdeal.S2000x256x7x7, .f32⟩ : BufTy).Contents (Elt Ideal))
  (x1 : (⟨Cert.ReferenceIdeal.S2000x4, .f32⟩ : BufTy).Contents (Elt Ideal))
  (x2 : (⟨Cert.ReferenceIdeal.S12544x1024, .f32⟩ : BufTy).Contents (Elt Ideal))
  (x3 : (⟨Cert.ReferenceIdeal.S1024, .f32⟩ : BufTy).Contents (Elt Ideal))
  (x4 : (⟨Cert.ReferenceIdeal.S1024x1024, .f32⟩ : BufTy).Contents (Elt Ideal))
  (x5 : (⟨Cert.ReferenceIdeal.S1024, .f32⟩ : BufTy).Contents (Elt Ideal))
  (x6 : (⟨Cert.ReferenceIdeal.S1024x81, .f32⟩ : BufTy).Contents (Elt Ideal))
  (x7 : (⟨Cert.ReferenceIdeal.S81, .f32⟩ : BufTy).Contents (Elt Ideal))
  (x8 : (⟨Cert.ReferenceIdeal.S1024x324, .f32⟩ : BufTy).Contents (Elt Ideal))
  (x9 : (⟨Cert.ReferenceIdeal.S324, .f32⟩ : BufTy).Contents (Elt Ideal))

/-- The tail function is the tail of its own decoded boxes. -/
theorem tailK_eq_tailOf (f6 : (⟨S2000x1024, .f32⟩ : BufTy).Contents (Elt Ideal)) (pr : (⟨S2000x81, .f32⟩ : BufTy).Contents (Elt Ideal)) (rg : (⟨S2000x320, .f32⟩ : BufTy).Contents (Elt Ideal)) (bx : (⟨S2000x4, .f32⟩ : BufTy).Contents (Elt Ideal)) : tailK f6 pr rg bx = tailOf f6 pr (decoded rg bx) := rfl

/-- The reference's decoded boxes are the mirrored decode of its regressions. -/
theorem ref_decoded : val_main_v115 (F := Ideal) x0 x1 x2 x3 x4 x5 x8 x9 = decodedR (val_main_v29 (F := Ideal) x0 x2 x3 x4 x5 x8 x9) x1 := rfl

/-- The reference's result is the same tail of its activations, its probabilities and its decoded boxes without the background class. -/
theorem ref_tail : val_main_v124 (F := Ideal) x0 x1 x2 x3 x4 x5 x6 x7 x8 x9
    = tailOf (val_main_v5 (F := Ideal) x0 x2 x3) (val_main_v25 (F := Ideal) x0 x2 x3 x4 x5 x6 x7) (fgBoxes (val_main_v115 (F := Ideal) x0 x1 x2 x3 x4 x5 x8 x9)) := rfl

/-- **The tail function of the reference's stages is the reference's result.** -/
theorem tail_eq_ref :
    tailK (val_main_v5 (F := Ideal) x0 x2 x3) (val_main_v25 (F := Ideal) x0 x2 x3 x4 x5 x6 x7) (shiftReg (val_main_v29 (F := Ideal) x0 x2 x3 x4 x5 x8 x9)) x1
      = val_main_v124 (F := Ideal) x0 x1 x2 x3 x4 x5 x6 x7 x8 x9 := by
  rw [ref_tail, ref_decoded, tailK_eq_tailOf]
  refine congrArg (tailOf _ _) (funext fun i => ?_)
  obtain ⟨r, c, k, rfl⟩ : ∃ (r : Fin 2000) (c : Fin 80) (k : Fin 4), i = ix3 r c k := ⟨i 0, i 1, i 2, eq_ix3 i⟩
  rw [fgBoxes_apply]
  match k with
  | ⟨0, _⟩ =>
    show decoded _ x1 (ix3 r c (0 : Fin 4)) = decodedR _ x1 (ix3 r _ (0 : Fin 4))
    rw [decoded_apply0, decodedR_apply0, decX1_apply, decX1R_apply, shiftReg_apply _ r c 0 (by omega), shiftReg_apply _ r c 2 (by omega)]
  | ⟨1, _⟩ =>
    show decoded _ x1 (ix3 r c (1 : Fin 4)) = decodedR _ x1 (ix3 r _ (1 : Fin 4))
    rw [decoded_apply1, decodedR_apply1, decY1_apply, decY1R_apply, shiftReg_apply _ r c 1 (by omega), shiftReg_apply _ r c 3 (by omega)]
  | ⟨2, _⟩ =>
    show decoded _ x1 (ix3 r c (2 : Fin 4)) = decodedR _ x1 (ix3 r _ (2 : Fin 4))
    rw [decoded_apply2, decodedR_apply2, decX2_apply, decX2R_apply, shiftReg_apply _ r c 0 (by omega), shiftReg_apply _ r c 2 (by omega)]
  | ⟨3, _⟩ =>
    show decoded _ x1 (ix3 r c (3 : Fin 4)) = decodedR _ x1 (ix3 r _ (3 : Fin 4))
    rw [decoded_apply3, decodedR_apply3, decY2_apply, decY2R_apply, shiftReg_apply _ r c 1 (by omega), shiftReg_apply _ r c 3 (by omega)]

end Reference

end Cert.RoiTail

end
-- ==== Proof.KernelRun.lean ====
/-
  The idealized kernel's run with its result named: every weakly fair execution terminates, the argument arrays
  unchanged, and the result buffer at the later host lines' function (`tailK`) of three arrays that are exactly
  the reference's own stages of the arguments — the first hidden layer, the class scores, and the box layer read four
  columns to the right (the kernel drops the background class's four box columns before its last matrix product,
  the reference after the decode).

  The host lines before the region only re-lay and re-format the arguments: a reshape of the input, changes of
  float format (the identity on the extended reals) and two column slices from column 4 on. So the arrays the region
  finds are the arguments read at an index, and the three per-row functions of them are the reference's stages.
-/
import proofs.«160000_j26036091748769_1_alg».proof.Proof.ValueKI
import proofs.«160000_j26036091748769_1_alg».proof.Proof.Body
import proofs.«160000_j26036091748769_1_alg».proof.Proof.TailRun
import proofs.«160000_j26036091748769_1_alg».proof.Proof.TailRef
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr Cert.Body
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-- Argument `k` as launched, on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-! ## The arrays the region finds -/

theorem V_v1 (c : Dev nD) : (V m c main_v1 : FVec Ideal S2000x12544 .bf16) = truncf (F := Ideal) .bf16 (shapeCast S2000x12544 (a0 m c : FVec Ideal S2000x256x7x7 .f32) shapeCasts_S2000x256x7x7_S2000x12544) bitsLt_bf16_f32 := by
  dsimp only [V, V0]
  simp only [hostOps0, List.flatten_cons, List.flatten_nil, List.append_nil]
  after_results
  all_goals rfl
theorem V_v2 (c : Dev nD) : (V m c main_v2 : FVec Ideal S12544x1024 .bf16) = truncf (F := Ideal) .bf16 (a2 m c : FVec Ideal S12544x1024 .f32) bitsLt_bf16_f32 := by
  dsimp only [V, V0]
  simp only [hostOps0, List.flatten_cons, List.flatten_nil, List.append_nil]
  after_results
  all_goals rfl
theorem V_v3 (c : Dev nD) : (V m c main_v3 : FVec Ideal S1024x1024 .bf16) = truncf (F := Ideal) .bf16 (a4 m c : FVec Ideal S1024x1024 .f32) bitsLt_bf16_f32 := by
  dsimp only [V, V0]
  simp only [hostOps0, List.flatten_cons, List.flatten_nil, List.append_nil]
  after_results
  all_goals rfl
theorem V_v4 (c : Dev nD) : (V m c main_v4 : FVec Ideal S1024x81 .bf16) = truncf (F := Ideal) .bf16 (a6 m c : FVec Ideal S1024x81 .f32) bitsLt_bf16_f32 := by
  dsimp only [V, V0]
  simp only [hostOps0, List.flatten_cons, List.flatten_nil, List.append_nil]
  after_results
  all_goals rfl
theorem V_v6 (c : Dev nD) : (V m c main_v6 : FVec Ideal S1024x320 .bf16) = truncf (F := Ideal) .bf16 (extractStridedSlice S1024x320 ![0, 4] (a8 m c : FVec Ideal S1024x324 .f32) slices_S1024x324_S1024x320_0_4) bitsLt_bf16_f32 := by
  dsimp only [V, V0]
  simp only [hostOps0, List.flatten_cons, List.flatten_nil, List.append_nil]
  after_results
  all_goals rfl
theorem V_v7 (c : Dev nD) : (V m c main_v7 : FVec Ideal S320 .f32) = extractStridedSlice S320 ![4] (a9 m c : FVec Ideal S324 .f32) slices_S324_S320_4 := by
  dsimp only [V, V0]
  simp only [hostOps0, List.flatten_cons, List.flatten_nil, List.append_nil]
  after_results
  all_goals rfl

/-- The staged input at `(r, k)` is the reference's reshaped input there. -/
theorem x_at (c : Dev nD) (r : Fin 2000) (k : Fin 12544) :
    V m c main_v1 (ix2 r k) = Cert.ReferenceIdeal.ReadP.val_main_v0 (F := Ideal) (a0 m c) (ix2 r k) := by
  rw [V_v1]; rfl
theorem w6_at (c : Dev nD) (i) : V m c main_v2 i = a2 m c i := by rw [V_v2]; rfl
theorem w7_at (c : Dev nD) (i) : V m c main_v3 i = a4 m c i := by rw [V_v3]; rfl
theorem wc_at (c : Dev nD) (i) : V m c main_v4 i = a6 m c i := by rw [V_v4]; rfl
/-- The staged box weights at column `n` are the argument's at column `n + 4`. -/
theorem wb_at (c : Dev nD) (k : Fin 1024) (n : Fin 320) :
    V m c main_v6 (ix2 k n) = a8 m c (ix2 k ⟨n.val + 4, by omega⟩) := by
  rw [V_v6]
  exact slice2_axis1_apply 4 (a8 m c) slices_S1024x324_S1024x320_0_4 k n ⟨n.val + 4, by omega⟩ (by show n.val + 4 = 4 + n.val; omega)
/-- The staged box bias at `n` is the argument's at `n + 4`. -/
theorem bb_at (c : Dev nD) (n : Fin 320) :
    V m c main_v7 (ix1 n) = a9 m c (ix1 ⟨n.val + 4, by omega⟩) := by
  rw [V_v7]
  exact extractStridedSlice_apply _ _ _ _ _ (fun ax => by
    match ax with
    | ⟨0, _⟩ => show n.val + 4 = 4 + n.val; omega)

/-! ## The three arrays are the reference's stages -/

theorem G9_eq (c : Dev nD) : G9 m c = Cert.ReferenceIdeal.ReadP.val_main_v5 (F := Ideal) (a0 m c) (a2 m c) (a3 m c) := by
  funext i
  obtain ⟨r, q, rfl⟩ : ∃ (r : Fin 2000) (q : Fin 1024), i = ix2 r q := ⟨i 0, i 1, eq_ix2 i⟩
  rw [stage_f6, Ref.f6_apply]
  unfold G9
  show f6Row (xRow m c r) (w6A m c) (b6A m c) q = _
  congr 1

theorem G10_eq (c : Dev nD) : G10 m c
    = Cert.ReferenceIdeal.ReadP.val_main_v25 (F := Ideal) (a0 m c) (a2 m c) (a3 m c) (a4 m c) (a5 m c) (a6 m c) (a7 m c) := by
  funext i
  obtain ⟨r, q, rfl⟩ : ∃ (r : Fin 2000) (q : Fin 81), i = ix2 r q := ⟨i 0, i 1, eq_ix2 i⟩
  rw [stage_probs, Ref.probs_apply]
  unfold G10
  show probRow (xRow m c r) (w6A m c) (b6A m c) (w7A m c) (b7A m c) (wcA m c) (bcA m c) q = _
  congr 1

/-- The reference's box layer over 324 columns, read four columns to the right. -/
def reg4 (c : Dev nD) : S2000x320.Idx → EReal :=
  Cert.RoiTail.shiftReg (Cert.ReferenceIdeal.ReadP.val_main_v29 (F := Ideal) (a0 m c) (a2 m c) (a3 m c) (a4 m c) (a5 m c) (a8 m c) (a9 m c))

theorem G11_eq (c : Dev nD) : G11 m c = reg4 m c := by
  funext i
  obtain ⟨r, q, rfl⟩ : ∃ (r : Fin 2000) (q : Fin 320), i = ix2 r q := ⟨i 0, i 1, eq_ix2 i⟩
  unfold reg4 Cert.RoiTail.shiftReg
  show _ = Cert.ReferenceIdeal.ReadP.val_main_v29 (F := Ideal) (a0 m c) (a2 m c) (a3 m c) (a4 m c) (a5 m c) (a8 m c) (a9 m c) (ix2 r ⟨q.val + 4, by omega⟩)
  rw [stage_reg, Ref.reg_apply]
  unfold G11 regRow
  show lin (f7Row (xRow m c r) (w6A m c) (b6A m c) (w7A m c) (b7A m c)) (wbA m c) (bbA m c) q = _
  have hf : f7Row (xRow m c r) (w6A m c) (b6A m c) (w7A m c) (b7A m c)
      = f7Row (fun k => Cert.ReferenceIdeal.ReadP.val_main_v0 (F := Ideal) (a0 m c) (ix2 r k)) (fun k n => a2 m c (ix2 k n)) (fun n => a3 m c (ix1 n))
          (fun k n => a4 m c (ix2 k n)) (fun n => a5 m c (ix1 n)) := by
    congr 1
  rw [hf]
  exact lin_cols _ _ _ _ _ q ⟨q.val + 4, by omega⟩ (fun k => wb_at m c k q) (bb_at m c q)

/-! ## The result buffer after the later host lines -/

theorem tail_value (c : Dev nD) :
    Pipeline.afterTail₀ cfgs (dats m) 0 (V0 m) tailOps c main_v102
      = Cert.RoiTail.tailK (Cert.ReferenceIdeal.ReadP.val_main_v5 (F := Ideal) (a0 m c) (a2 m c) (a3 m c))
          (Cert.ReferenceIdeal.ReadP.val_main_v25 (F := Ideal) (a0 m c) (a2 m c) (a3 m c) (a4 m c) (a5 m c) (a6 m c) (a7 m c))
          (reg4 m c) (a1 m c) := by
  unfold Pipeline.afterTail₀
  refine (Cert.RoiTail.after_tail _).trans ?_
  have e9 : Pipeline.withArrays (cfgs 0).spec c (V0 m c) (fun w => (dats m 0 c).arrAt w (cfgs 0).N) (Proc.devRef .tc main_v8_0) = G9 m c :=
    (Pipeline.withArrays_arr spec0 launch0.win.arr_inj c (V0 m c) _ 9).trans (final9 m c)
  have e10 : Pipeline.withArrays (cfgs 0).spec c (V0 m c) (fun w => (dats m 0 c).arrAt w (cfgs 0).N) (Proc.devRef .tc main_v8_1) = G10 m c :=
    (Pipeline.withArrays_arr spec0 launch0.win.arr_inj c (V0 m c) _ 10).trans (final10 m c)
  have e11 : Pipeline.withArrays (cfgs 0).spec c (V0 m c) (fun w => (dats m 0 c).arrAt w (cfgs 0).N) (Proc.devRef .tc main_v8_2) = G11 m c :=
    (Pipeline.withArrays_arr spec0 launch0.win.arr_inj c (V0 m c) _ 11).trans (final11 m c)
  have e1 : Pipeline.withArrays (cfgs 0).spec c (V0 m c) (fun w => (dats m 0 c).arrAt w (cfgs 0).N) (Proc.devRef .tc main_arg1) = a1 m c :=
    (Pipeline.withArrays_of_ne spec0 c (V0 m c) _ main_arg1 (by exact (by decide : ∀ w, Pipeline.arrRef spec0 w ≠ main_arg1))).trans (V_main_arg1 m c)
  rw [e9, e10, e11, e1, G9_eq, G10_eq, G11_eq]

/-! ## The run -/

/-- Every weakly fair execution of the idealized kernel terminates with the result at `tailK` of the reference's three
    stages and of the boxes, and every argument array as launched. -/
theorem run_value : θ_run defs (onTc (τ := τ) (main (F := Ideal))) ⟨m, fun _ => 0, ρ⟩ (fun r => ∀ c : Dev nD,
      r.2.mem ((c.tc : Thread nD τ).loc main_v102)
        = Cert.RoiTail.tailK (Cert.ReferenceIdeal.ReadP.val_main_v5 (F := Ideal) (a0 m c) (a2 m c) (a3 m c))
            (Cert.ReferenceIdeal.ReadP.val_main_v25 (F := Ideal) (a0 m c) (a2 m c) (a3 m c) (a4 m c) (a5 m c) (a6 m c) (a7 m c))
            (reg4 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  exact (θ_run defs _ _).mono (fun _ h c => ⟨((h c).2 main_v102 (Pipeline.mem_restRefs_of main_v102 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans ((((dats m) 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans ((((dats m) 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans ((((dats m) 0 c).arrAt_in 6 rfl _).trans ((A_eq m c 6).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Val

end
-- ==== Proof.RefRead124P1.lean ====
/-
  The reference's @main read in stretches, part: operations of stretches 1 … 6. Each stretch is a literal sub-list of the
  program's operations in order; `V i W` is the device's buffers after stretches `1 … i` from buffers `W`; and for every
  buffer a later operation still reads, its contents after stretch `i` are its stage, a function of the arguments' contents
  in `W` (each stage one operation over earlier stages).
-/
import proofs.«160000_j26036091748769_1_alg».proof.Proof.RefReadP
import Idealize.ShloMosaic.Lib.StableHlo.Run

noncomputable section

namespace Cert.Body.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 7 of the reference's @main. -/
def s1 : List (HloOp τ sig (Elt F)) :=
  [
    reshape main_arg0 main_v0 rfl shapeCasts_S2000x256x7x7_S2000x12544,
    binary main_v0 main_arg2 main_v1 ((fun l r => Host.dotGeneral dot_S2000x12544_S12544x1024_S2000x1024_1_0_0_1_n_n none l r) : (⟨S2000x12544, .f32⟩ : BufTy).Contents (Elt F) → (⟨S12544x1024, .f32⟩ : BufTy).Contents (Elt F) → (⟨S2000x1024, .f32⟩ : BufTy).Contents (Elt F)),
    unary main_arg3 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S2000x1024 ![0, 1] bcast_S1x1024_S2000x1024_0_1 : (⟨S1x1024, .f32⟩ : BufTy).Contents (Elt F) → (⟨S2000x1024, .f32⟩ : BufTy).Contents (Elt F)),
    binary main_v1 main_v3 main_v4 (addf : (⟨S2000x1024, .f32⟩ : BufTy).Contents (Elt F) → (⟨S2000x1024, .f32⟩ : BufTy).Contents (Elt F) → (⟨S2000x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2000x1024, .f32⟩) main_call0_v0) (broadcastInDim S2000x1024 ![] bcast_S_S2000x1024),
    TRef.binary (TRef.of (T := ⟨S2000x1024, .f32⟩) main_v4) (TRef.of (T := ⟨S2000x1024, .f32⟩) main_call0_v0) (TRef.of (T := ⟨S2000x1024, .f32⟩) main_v5) maximumf ]

/-- The buffers after the first 8 operations. -/
def V1 (W : Valuation τ sig (Elt Ideal)) : Valuation τ sig (Elt Ideal) :=
  StableHlo.after (s1 (F := Ideal)) W

theorem A1_4 (W : Valuation τ sig (Elt Ideal)) : V1 W (Proc.devRef .tc main_arg4) = W (Proc.devRef .tc main_arg4) := by
  unfold V1
  simp only [s1]
  after_results_simp

theorem A1_5 (W : Valuation τ sig (Elt Ideal)) : V1 W (Proc.devRef .tc main_arg5) = W (Proc.devRef .tc main_arg5) := by
  unfold V1
  simp only [s1]
  after_results_simp

theorem A1_6 (W : Valuation τ sig (Elt Ideal)) : V1 W (Proc.devRef .tc main_arg6) = W (Proc.devRef .tc main_arg6) := by
  unfold V1
  simp only [s1]
  after_results_simp

theorem A1_7 (W : Valuation τ sig (Elt Ideal)) : V1 W (Proc.devRef .tc main_arg7) = W (Proc.devRef .tc main_arg7) := by
  unfold V1
  simp only [s1]
  after_results_simp

theorem A1_8 (W : Valuation τ sig (Elt Ideal)) : V1 W (Proc.devRef .tc main_arg8) = W (Proc.devRef .tc main_arg8) := by
  unfold V1
  simp only [s1]
  after_results_simp

theorem A1_9 (W : Valuation τ sig (Elt Ideal)) : V1 W (Proc.devRef .tc main_arg9) = W (Proc.devRef .tc main_arg9) := by
  unfold V1
  simp only [s1]
  after_results_simp

theorem A1_1 (W : Valuation τ sig (Elt Ideal)) : V1 W (Proc.devRef .tc main_arg1) = W (Proc.devRef .tc main_arg1) := by
  unfold V1
  simp only [s1]
  after_results_simp

theorem L1_v5 (W : Valuation τ sig (Elt Ideal)) :
    V1 W (Proc.devRef .tc main_v5) = ReadP.val_main_v5 (F := Ideal) (W (Proc.devRef .tc main_arg0)) (W (Proc.devRef .tc main_arg2)) (W (Proc.devRef .tc main_arg3)) := by
  unfold V1
  simp only [s1]
  after_results_simp
  rfl

/-- Operations 8 … 14 of the reference's @main. -/
def s2 : List (HloOp τ sig (Elt F)) :=
  [
    binary main_v5 main_arg4 main_v6 ((fun l r => Host.dotGeneral dot_S2000x1024_S1024x1024_S2000x1024_1_0_0_1_n_n none l r) : (⟨S2000x1024, .f32⟩ : BufTy).Contents (Elt F) → (⟨S1024x1024, .f32⟩ : BufTy).Contents (Elt F) → (⟨S2000x1024, .f32⟩ : BufTy).Contents (Elt F)),
    unary main_arg5 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S2000x1024 ![0, 1] bcast_S1x1024_S2000x1024_0_1 : (⟨S1x1024, .f32⟩ : BufTy).Contents (Elt F) → (⟨S2000x1024, .f32⟩ : BufTy).Contents (Elt F)),
    binary main_v6 main_v8 main_v9 (addf : (⟨S2000x1024, .f32⟩ : BufTy).Contents (Elt F) → (⟨S2000x1024, .f32⟩ : BufTy).Contents (Elt F) → (⟨S2000x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2000x1024, .f32⟩) main_call1_v0) (broadcastInDim S2000x1024 ![] bcast_S_S2000x1024),
    TRef.binary (TRef.of (T := ⟨S2000x1024, .f32⟩) main_v9) (TRef.of (T := ⟨S2000x1024, .f32⟩) main_call1_v0) (TRef.of (T := ⟨S2000x1024, .f32⟩) main_v10) maximumf ]

/-- The buffers after the first 15 operations. -/
def V2 (W : Valuation τ sig (Elt Ideal)) : Valuation τ sig (Elt Ideal) :=
  StableHlo.after (s2 (F := Ideal)) (V1 W)

theorem A2_6 (W : Valuation τ sig (Elt Ideal)) : V2 W (Proc.devRef .tc main_arg6) = W (Proc.devRef .tc main_arg6) := by
  unfold V2
  simp only [s2]
  after_results_simp
  exact A1_6 W

theorem A2_7 (W : Valuation τ sig (Elt Ideal)) : V2 W (Proc.devRef .tc main_arg7) = W (Proc.devRef .tc main_arg7) := by
  unfold V2
  simp only [s2]
  after_results_simp
  exact A1_7 W

theorem A2_8 (W : Valuation τ sig (Elt Ideal)) : V2 W (Proc.devRef .tc main_arg8) = W (Proc.devRef .tc main_arg8) := by
  unfold V2
  simp only [s2]
  after_results_simp
  exact A1_8 W

theorem A2_9 (W : Valuation τ sig (Elt Ideal)) : V2 W (Proc.devRef .tc main_arg9) = W (Proc.devRef .tc main_arg9) := by
  unfold V2
  simp only [s2]
  after_results_simp
  exact A1_9 W

theorem A2_1 (W : Valuation τ sig (Elt Ideal)) : V2 W (Proc.devRef .tc main_arg1) = W (Proc.devRef .tc main_arg1) := by
  unfold V2
  simp only [s2]
  after_results_simp
  exact A1_1 W

theorem L2_v10 (W : Valuation τ sig (Elt Ideal)) :
    V2 W (Proc.devRef .tc main_v10) = ReadP.val_main_v10 (F := Ideal) (W (Proc.devRef .tc main_arg0)) (W (Proc.devRef .tc main_arg2)) (W (Proc.devRef .tc main_arg3)) (W (Proc.devRef .tc main_arg4)) (W (Proc.devRef .tc main_arg5)) := by
  unfold V2
  simp only [s2]
  after_results_simp
  rw [L1_v5 W, A1_4 W, A1_5 W]
  rfl

theorem L2_v5 (W : Valuation τ sig (Elt Ideal)) :
    V2 W (Proc.devRef .tc main_v5) = ReadP.val_main_v5 (F := Ideal) (W (Proc.devRef .tc main_arg0)) (W (Proc.devRef .tc main_arg2)) (W (Proc.devRef .tc main_arg3)) := by
  unfold V2
  simp only [s2]
  after_results_simp
  exact L1_v5 W

/-- Operations 15 … 18 of the reference's @main. -/
def s3 : List (HloOp τ sig (Elt F)) :=
  [
    binary main_v10 main_arg6 main_v11 ((fun l r => Host.dotGeneral dot_S2000x1024_S1024x81_S2000x81_1_0_0_1_n_n none l r) : (⟨S2000x1024, .f32⟩ : BufTy).Contents (Elt F) → (⟨S1024x81, .f32⟩ : BufTy).Contents (Elt F) → (⟨S2000x81, .f32⟩ : BufTy).Contents (Elt F)),
    unary main_arg7 main_v12 (broadcastInDim S1x81 ![1] bcast_S81_S1x81_1 : (⟨S81, .f32⟩ : BufTy).Contents (Elt F) → (⟨S1x81, .f32⟩ : BufTy).Contents (Elt F)),
    unary main_v12 main_v13 (broadcastInDim S2000x81 ![0, 1] bcast_S1x81_S2000x81_0_1 : (⟨S1x81, .f32⟩ : BufTy).Contents (Elt F) → (⟨S2000x81, .f32⟩ : BufTy).Contents (Elt F)),
    binary main_v11 main_v13 main_v14 (addf : (⟨S2000x81, .f32⟩ : BufTy).Contents (Elt F) → (⟨S2000x81, .f32⟩ : BufTy).Contents (Elt F) → (⟨S2000x81, .f32⟩ : BufTy).Contents (Elt F)) ]

/-- The buffers after the first 19 operations. -/
def V3 (W : Valuation τ sig (Elt Ideal)) : Valuation τ sig (Elt Ideal) :=
  StableHlo.after (s3 (F := Ideal)) (V2 W)

theorem A3_8 (W : Valuation τ sig (Elt Ideal)) : V3 W (Proc.devRef .tc main_arg8) = W (Proc.devRef .tc main_arg8) := by
  unfold V3
  simp only [s3]
  after_results_simp
  exact A2_8 W

theorem A3_9 (W : Valuation τ sig (Elt Ideal)) : V3 W (Proc.devRef .tc main_arg9) = W (Proc.devRef .tc main_arg9) := by
  unfold V3
  simp only [s3]
  after_results_simp
  exact A2_9 W

theorem A3_1 (W : Valuation τ sig (Elt Ideal)) : V3 W (Proc.devRef .tc main_arg1) = W (Proc.devRef .tc main_arg1) := by
  unfold V3
  simp only [s3]
  after_results_simp
  exact A2_1 W

theorem L3_v14 (W : Valuation τ sig (Elt Ideal)) :
    V3 W (Proc.devRef .tc main_v14) = ReadP.val_main_v14 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V3
  simp only [s3]
  after_results_simp
  rw [L2_v10 W, A2_6 W, A2_7 W]
  rfl

theorem L3_v10 (W : Valuation τ sig (Elt Ideal)) :
    V3 W (Proc.devRef .tc main_v10) = ReadP.val_main_v10 (F := Ideal) (W (Proc.devRef .tc main_arg0)) (W (Proc.devRef .tc main_arg2)) (W (Proc.devRef .tc main_arg3)) (W (Proc.devRef .tc main_arg4)) (W (Proc.devRef .tc main_arg5)) := by
  unfold V3
  simp only [s3]
  after_results_simp
  exact L2_v10 W

theorem L3_v5 (W : Valuation τ sig (Elt Ideal)) :
    V3 W (Proc.devRef .tc main_v5) = ReadP.val_main_v5 (F := Ideal) (W (Proc.devRef .tc main_arg0)) (W (Proc.devRef .tc main_arg2)) (W (Proc.devRef .tc main_arg3)) := by
  unfold V3
  simp only [s3]
  after_results_simp
  exact L2_v5 W

/-- Operations 19 … 27 of the reference's @main. -/
def s4 : List (HloOp τ sig (Elt F)) :=
  [
    nullary main_cst (constant S_ .f32 0xFF800000#32),
    binary main_v14 main_cst main_v15 ((fun x v => Host.reduce FloatOps.maximumf x v reducesTo_S2000x81_S2000_d1 h_S_) : (⟨S2000x81, .f32⟩ : BufTy).Contents (Elt F) → (⟨S_, .f32⟩ : BufTy).Contents (Elt F) → (⟨S2000, .f32⟩ : BufTy).Contents (Elt F)),
    nullary main_cst_0 (constant S_ .f32 0xFF800000#32),
    unary main_cst_0 main_v16 (broadcastInDim S2000 ![] bcast_S_S2000 : (⟨S_, .f32⟩ : BufTy).Contents (Elt F) → (⟨S2000, .f32⟩ : BufTy).Contents (Elt F)),
    binary main_v16 main_v15 main_v17 (maximumf : (⟨S2000, .f32⟩ : BufTy).Contents (Elt F) → (⟨S2000, .f32⟩ : BufTy).Contents (Elt F) → (⟨S2000, .f32⟩ : BufTy).Contents (Elt F)),
    unary main_v17 main_v18 (broadcastInDim S2000x1 ![0] bcast_S2000_S2000x1_0 : (⟨S2000, .f32⟩ : BufTy).Contents (Elt F) → (⟨S2000x1, .f32⟩ : BufTy).Contents (Elt F)),
    unary main_v18 main_v19 (broadcastInDim S2000x81 ![0, 1] bcast_S2000x1_S2000x81_0_1 : (⟨S2000x1, .f32⟩ : BufTy).Contents (Elt F) → (⟨S2000x81, .f32⟩ : BufTy).Contents (Elt F)),
    binary main_v14 main_v19 main_v20 (subf : (⟨S2000x81, .f32⟩ : BufTy).Contents (Elt F) → (⟨S2000x81, .f32⟩ : BufTy).Contents (Elt F) → (⟨S2000x81, .f32⟩ : BufTy).Contents (Elt F)),
    unary main_v20 main_v21 (Host.exp : (⟨S2000x81, .f32⟩ : BufTy).Contents (Elt F) → (⟨S2000x81, .f32⟩ : BufTy).Contents (Elt F)) ]

/-- The buffers after the first 28 operations. -/
def V4 (W : Valuation τ sig (Elt Ideal)) : Valuation τ sig (Elt Ideal) :=
  StableHlo.after (s4 (F := Ideal)) (V3 W)

theorem A4_8 (W : Valuation τ sig (Elt Ideal)) : V4 W (Proc.devRef .tc main_arg8) = W (Proc.devRef .tc main_arg8) := by
  unfold V4
  simp only [s4]
  after_results_simp
  exact A3_8 W

theorem A4_9 (W : Valuation τ sig (Elt Ideal)) : V4 W (Proc.devRef .tc main_arg9) = W (Proc.devRef .tc main_arg9) := by
  unfold V4
  simp only [s4]
  after_results_simp
  exact A3_9 W

theorem A4_1 (W : Valuation τ sig (Elt Ideal)) : V4 W (Proc.devRef .tc main_arg1) = W (Proc.devRef .tc main_arg1) := by
  unfold V4
  simp only [s4]
  after_results_simp
  exact A3_1 W

theorem L4_v21 (W : Valuation τ sig (Elt Ideal)) :
    V4 W (Proc.devRef .tc main_v21) = ReadP.val_main_v21 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V4
  simp only [s4]
  after_results_simp
  rw [L3_v14 W]
  rfl

theorem L4_v10 (W : Valuation τ sig (Elt Ideal)) :
    V4 W (Proc.devRef .tc main_v10) = ReadP.val_main_v10 (F := Ideal) (W (Proc.devRef .tc main_arg0)) (W (Proc.devRef .tc main_arg2)) (W (Proc.devRef .tc main_arg3)) (W (Proc.devRef .tc main_arg4)) (W (Proc.devRef .tc main_arg5)) := by
  unfold V4
  simp only [s4]
  after_results_simp
  exact L3_v10 W

theorem L4_v5 (W : Valuation τ sig (Elt Ideal)) :
    V4 W (Proc.devRef .tc main_v5) = ReadP.val_main_v5 (F := Ideal) (W (Proc.devRef .tc main_arg0)) (W (Proc.devRef .tc main_arg2)) (W (Proc.devRef .tc main_arg3)) := by
  unfold V4
  simp only [s4]
  after_results_simp
  exact L3_v5 W

/-- Operations 28 … 32 of the reference's @main. -/
def s5 : List (HloOp τ sig (Elt F)) :=
  [
    nullary main_cst_1 (constant S_ .f32 0x00000000#32),
    binary main_v21 main_cst_1 main_v22 ((fun x v => Host.reduceAdd x v reducesTo_S2000x81_S2000_d1 h_S_) : (⟨S2000x81, .f32⟩ : BufTy).Contents (Elt F) → (⟨S_, .f32⟩ : BufTy).Contents (Elt F) → (⟨S2000, .f32⟩ : BufTy).Contents (Elt F)),
    unary main_v22 main_v23 (broadcastInDim S2000x1 ![0] bcast_S2000_S2000x1_0 : (⟨S2000, .f32⟩ : BufTy).Contents (Elt F) → (⟨S2000x1, .f32⟩ : BufTy).Contents (Elt F)),
    unary main_v23 main_v24 (broadcastInDim S2000x81 ![0, 1] bcast_S2000x1_S2000x81_0_1 : (⟨S2000x1, .f32⟩ : BufTy).Contents (Elt F) → (⟨S2000x81, .f32⟩ : BufTy).Contents (Elt F)),
    binary main_v21 main_v24 main_v25 (Host.divf : (⟨S2000x81, .f32⟩ : BufTy).Contents (Elt F) → (⟨S2000x81, .f32⟩ : BufTy).Contents (Elt F) → (⟨S2000x81, .f32⟩ : BufTy).Contents (Elt F)) ]

/-- The buffers after the first 33 operations. -/
def V5 (W : Valuation τ sig (Elt Ideal)) : Valuation τ sig (Elt Ideal) :=
  StableHlo.after (s5 (F := Ideal)) (V4 W)

theorem A5_8 (W : Valuation τ sig (Elt Ideal)) : V5 W (Proc.devRef .tc main_arg8) = W (Proc.devRef .tc main_arg8) := by
  unfold V5
  simp only [s5]
  after_results_simp
  exact A4_8 W

theorem A5_9 (W : Valuation τ sig (Elt Ideal)) : V5 W (Proc.devRef .tc main_arg9) = W (Proc.devRef .tc main_arg9) := by
  unfold V5
  simp only [s5]
  after_results_simp
  exact A4_9 W

theorem A5_1 (W : Valuation τ sig (Elt Ideal)) : V5 W (Proc.devRef .tc main_arg1) = W (Proc.devRef .tc main_arg1) := by
  unfold V5
  simp only [s5]
  after_results_simp
  exact A4_1 W

theorem L5_v10 (W : Valuation τ sig (Elt Ideal)) :
    V5 W (Proc.devRef .tc main_v10) = ReadP.val_main_v10 (F := Ideal) (W (Proc.devRef .tc main_arg0)) (W (Proc.devRef .tc main_arg2)) (W (Proc.devRef .tc main_arg3)) (W (Proc.devRef .tc main_arg4)) (W (Proc.devRef .tc main_arg5)) := by
  unfold V5
  simp only [s5]
  after_results_simp
  exact L4_v10 W

theorem L5_v25 (W : Valuation τ sig (Elt Ideal)) :
    V5 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V5
  simp only [s5]
  after_results_simp
  rw [L4_v21 W]
  rfl

theorem L5_v5 (W : Valuation τ sig (Elt Ideal)) :
    V5 W (Proc.devRef .tc main_v5) = ReadP.val_main_v5 (F := Ideal) (W (Proc.devRef .tc main_arg0)) (W (Proc.devRef .tc main_arg2)) (W (Proc.devRef .tc main_arg3)) := by
  unfold V5
  simp only [s5]
  after_results_simp
  exact L4_v5 W

/-- Operations 33 … 37 of the reference's @main. -/
def s6 : List (HloOp τ sig (Elt F)) :=
  [
    binary main_v10 main_arg8 main_v26 ((fun l r => Host.dotGeneral dot_S2000x1024_S1024x324_S2000x324_1_0_0_1_n_n none l r) : (⟨S2000x1024, .f32⟩ : BufTy).Contents (Elt F) → (⟨S1024x324, .f32⟩ : BufTy).Contents (Elt F) → (⟨S2000x324, .f32⟩ : BufTy).Contents (Elt F)),
    unary main_arg9 main_v27 (broadcastInDim S1x324 ![1] bcast_S324_S1x324_1 : (⟨S324, .f32⟩ : BufTy).Contents (Elt F) → (⟨S1x324, .f32⟩ : BufTy).Contents (Elt F)),
    unary main_v27 main_v28 (broadcastInDim S2000x324 ![0, 1] bcast_S1x324_S2000x324_0_1 : (⟨S1x324, .f32⟩ : BufTy).Contents (Elt F) → (⟨S2000x324, .f32⟩ : BufTy).Contents (Elt F)),
    binary main_v26 main_v28 main_v29 (addf : (⟨S2000x324, .f32⟩ : BufTy).Contents (Elt F) → (⟨S2000x324, .f32⟩ : BufTy).Contents (Elt F) → (⟨S2000x324, .f32⟩ : BufTy).Contents (Elt F)),
    reshape main_v29 main_v30 rfl shapeCasts_S2000x324_S2000x81x4 ]

/-- The buffers after the first 38 operations. -/
def V6 (W : Valuation τ sig (Elt Ideal)) : Valuation τ sig (Elt Ideal) :=
  StableHlo.after (s6 (F := Ideal)) (V5 W)

theorem A6_1 (W : Valuation τ sig (Elt Ideal)) : V6 W (Proc.devRef .tc main_arg1) = W (Proc.devRef .tc main_arg1) := by
  unfold V6
  simp only [s6]
  after_results_simp
  exact A5_1 W

theorem L6_v30 (W : Valuation τ sig (Elt Ideal)) :
    V6 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V6
  simp only [s6]
  after_results_simp
  rw [L5_v10 W, A5_8 W, A5_9 W]
  rfl

theorem L6_v25 (W : Valuation τ sig (Elt Ideal)) :
    V6 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V6
  simp only [s6]
  after_results_simp
  exact L5_v25 W

theorem L6_v5 (W : Valuation τ sig (Elt Ideal)) :
    V6 W (Proc.devRef .tc main_v5) = ReadP.val_main_v5 (F := Ideal) (W (Proc.devRef .tc main_arg0)) (W (Proc.devRef .tc main_arg2)) (W (Proc.devRef .tc main_arg3)) := by
  unfold V6
  simp only [s6]
  after_results_simp
  exact L5_v5 W

end Cert.Body.RefRun

end
-- ==== Proof.RefRead124P2.lean ====
/-
  The reference's @main read in stretches, part: operations of stretches 7 … 14. Each stretch is a literal sub-list of the
  program's operations in order; `V i W` is the device's buffers after stretches `1 … i` from buffers `W`; and for every
  buffer a later operation still reads, its contents after stretch `i` are its stage, a function of the arguments' contents
  in `W` (each stage one operation over earlier stages).
-/
import proofs.«160000_j26036091748769_1_alg».proof.Proof.RefRead124P1

noncomputable section

namespace Cert.Body.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 38 … 45 of the reference's @main. -/
def s7 : List (HloOp τ sig (Elt F)) :=
  [
    unary main_arg1 main_v31 ((extractStridedSlice S2000x1 ![0, 2] · slices_S2000x4_S2000x1_0_2) : (⟨S2000x4, .f32⟩ : BufTy).Contents (Elt F) → (⟨S2000x1, .f32⟩ : BufTy).Contents (Elt F)),
    reshape main_v31 main_v32 rfl shapeCasts_S2000x1_S2000,
    unary main_arg1 main_v33 ((extractStridedSlice S2000x1 ![0, 0] · slices_S2000x4_S2000x1_0_0) : (⟨S2000x4, .f32⟩ : BufTy).Contents (Elt F) → (⟨S2000x1, .f32⟩ : BufTy).Contents (Elt F)),
    reshape main_v33 main_v34 rfl shapeCasts_S2000x1_S2000,
    binary main_v32 main_v34 main_v35 (subf : (⟨S2000, .f32⟩ : BufTy).Contents (Elt F) → (⟨S2000, .f32⟩ : BufTy).Contents (Elt F) → (⟨S2000, .f32⟩ : BufTy).Contents (Elt F)),
    nullary main_cst_2 (constant S_ .f32 0x3F800000#32),
    unary main_cst_2 main_v36 (broadcastInDim S2000 ![] bcast_S_S2000 : (⟨S_, .f32⟩ : BufTy).Contents (Elt F) → (⟨S2000, .f32⟩ : BufTy).Contents (Elt F)),
    binary main_v35 main_v36 main_v37 (addf : (⟨S2000, .f32⟩ : BufTy).Contents (Elt F) → (⟨S2000, .f32⟩ : BufTy).Contents (Elt F) → (⟨S2000, .f32⟩ : BufTy).Contents (Elt F)) ]

/-- The buffers after the first 46 operations. -/
def V7 (W : Valuation τ sig (Elt Ideal)) : Valuation τ sig (Elt Ideal) :=
  StableHlo.after (s7 (F := Ideal)) (V6 W)

theorem A7_1 (W : Valuation τ sig (Elt Ideal)) : V7 W (Proc.devRef .tc main_arg1) = W (Proc.devRef .tc main_arg1) := by
  unfold V7
  simp only [s7]
  after_results_simp
  exact A6_1 W

theorem L7_v37 (W : Valuation τ sig (Elt Ideal)) :
    V7 W (Proc.devRef .tc main_v37) = ReadP.val_main_v37 (F := Ideal) (W (Proc.devRef .tc main_arg1)) := by
  unfold V7
  simp only [s7]
  after_results_simp
  rw [A6_1 W]
  rfl

theorem L7_v30 (W : Valuation τ sig (Elt Ideal)) :
    V7 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V7
  simp only [s7]
  after_results_simp
  exact L6_v30 W

theorem L7_v25 (W : Valuation τ sig (Elt Ideal)) :
    V7 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V7
  simp only [s7]
  after_results_simp
  exact L6_v25 W

theorem L7_v5 (W : Valuation τ sig (Elt Ideal)) :
    V7 W (Proc.devRef .tc main_v5) = ReadP.val_main_v5 (F := Ideal) (W (Proc.devRef .tc main_arg0)) (W (Proc.devRef .tc main_arg2)) (W (Proc.devRef .tc main_arg3)) := by
  unfold V7
  simp only [s7]
  after_results_simp
  exact L6_v5 W

/-- Operations 46 … 53 of the reference's @main. -/
def s8 : List (HloOp τ sig (Elt F)) :=
  [
    unary main_arg1 main_v38 ((extractStridedSlice S2000x1 ![0, 3] · slices_S2000x4_S2000x1_0_3) : (⟨S2000x4, .f32⟩ : BufTy).Contents (Elt F) → (⟨S2000x1, .f32⟩ : BufTy).Contents (Elt F)),
    reshape main_v38 main_v39 rfl shapeCasts_S2000x1_S2000,
    unary main_arg1 main_v40 ((extractStridedSlice S2000x1 ![0, 1] · slices_S2000x4_S2000x1_0_1) : (⟨S2000x4, .f32⟩ : BufTy).Contents (Elt F) → (⟨S2000x1, .f32⟩ : BufTy).Contents (Elt F)),
    reshape main_v40 main_v41 rfl shapeCasts_S2000x1_S2000,
    binary main_v39 main_v41 main_v42 (subf : (⟨S2000, .f32⟩ : BufTy).Contents (Elt F) → (⟨S2000, .f32⟩ : BufTy).Contents (Elt F) → (⟨S2000, .f32⟩ : BufTy).Contents (Elt F)),
    nullary main_cst_3 (constant S_ .f32 0x3F800000#32),
    unary main_cst_3 main_v43 (broadcastInDim S2000 ![] bcast_S_S2000 : (⟨S_, .f32⟩ : BufTy).Contents (Elt F) → (⟨S2000, .f32⟩ : BufTy).Contents (Elt F)),
    binary main_v42 main_v43 main_v44 (addf : (⟨S2000, .f32⟩ : BufTy).Contents (Elt F) → (⟨S2000, .f32⟩ : BufTy).Contents (Elt F) → (⟨S2000, .f32⟩ : BufTy).Contents (Elt F)) ]

/-- The buffers after the first 54 operations. -/
def V8 (W : Valuation τ sig (Elt Ideal)) : Valuation τ sig (Elt Ideal) :=
  StableHlo.after (s8 (F := Ideal)) (V7 W)

theorem A8_1 (W : Valuation τ sig (Elt Ideal)) : V8 W (Proc.devRef .tc main_arg1) = W (Proc.devRef .tc main_arg1) := by
  unfold V8
  simp only [s8]
  after_results_simp
  exact A7_1 W

theorem L8_v37 (W : Valuation τ sig (Elt Ideal)) :
    V8 W (Proc.devRef .tc main_v37) = ReadP.val_main_v37 (F := Ideal) (W (Proc.devRef .tc main_arg1)) := by
  unfold V8
  simp only [s8]
  after_results_simp
  exact L7_v37 W

theorem L8_v44 (W : Valuation τ sig (Elt Ideal)) :
    V8 W (Proc.devRef .tc main_v44) = ReadP.val_main_v44 (F := Ideal) (W (Proc.devRef .tc main_arg1)) := by
  unfold V8
  simp only [s8]
  after_results_simp
  rw [A7_1 W]
  rfl

theorem L8_v30 (W : Valuation τ sig (Elt Ideal)) :
    V8 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V8
  simp only [s8]
  after_results_simp
  exact L7_v30 W

theorem L8_v25 (W : Valuation τ sig (Elt Ideal)) :
    V8 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V8
  simp only [s8]
  after_results_simp
  exact L7_v25 W

theorem L8_v5 (W : Valuation τ sig (Elt Ideal)) :
    V8 W (Proc.devRef .tc main_v5) = ReadP.val_main_v5 (F := Ideal) (W (Proc.devRef .tc main_arg0)) (W (Proc.devRef .tc main_arg2)) (W (Proc.devRef .tc main_arg3)) := by
  unfold V8
  simp only [s8]
  after_results_simp
  exact L7_v5 W

/-- Operations 54 … 59 of the reference's @main. -/
def s9 : List (HloOp τ sig (Elt F)) :=
  [
    unary main_arg1 main_v45 ((extractStridedSlice S2000x1 ![0, 0] · slices_S2000x4_S2000x1_0_0) : (⟨S2000x4, .f32⟩ : BufTy).Contents (Elt F) → (⟨S2000x1, .f32⟩ : BufTy).Contents (Elt F)),
    reshape main_v45 main_v46 rfl shapeCasts_S2000x1_S2000,
    nullary main_cst_4 (constant S_ .f32 0x3F000000#32),
    unary main_cst_4 main_v47 (broadcastInDim S2000 ![] bcast_S_S2000 : (⟨S_, .f32⟩ : BufTy).Contents (Elt F) → (⟨S2000, .f32⟩ : BufTy).Contents (Elt F)),
    binary main_v47 main_v37 main_v48 (mulf : (⟨S2000, .f32⟩ : BufTy).Contents (Elt F) → (⟨S2000, .f32⟩ : BufTy).Contents (Elt F) → (⟨S2000, .f32⟩ : BufTy).Contents (Elt F)),
    binary main_v46 main_v48 main_v49 (addf : (⟨S2000, .f32⟩ : BufTy).Contents (Elt F) → (⟨S2000, .f32⟩ : BufTy).Contents (Elt F) → (⟨S2000, .f32⟩ : BufTy).Contents (Elt F)) ]

/-- The buffers after the first 60 operations. -/
def V9 (W : Valuation τ sig (Elt Ideal)) : Valuation τ sig (Elt Ideal) :=
  StableHlo.after (s9 (F := Ideal)) (V8 W)

theorem A9_1 (W : Valuation τ sig (Elt Ideal)) : V9 W (Proc.devRef .tc main_arg1) = W (Proc.devRef .tc main_arg1) := by
  unfold V9
  simp only [s9]
  after_results_simp
  exact A8_1 W

theorem L9_v44 (W : Valuation τ sig (Elt Ideal)) :
    V9 W (Proc.devRef .tc main_v44) = ReadP.val_main_v44 (F := Ideal) (W (Proc.devRef .tc main_arg1)) := by
  unfold V9
  simp only [s9]
  after_results_simp
  exact L8_v44 W

theorem L9_v30 (W : Valuation τ sig (Elt Ideal)) :
    V9 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V9
  simp only [s9]
  after_results_simp
  exact L8_v30 W

theorem L9_v37 (W : Valuation τ sig (Elt Ideal)) :
    V9 W (Proc.devRef .tc main_v37) = ReadP.val_main_v37 (F := Ideal) (W (Proc.devRef .tc main_arg1)) := by
  unfold V9
  simp only [s9]
  after_results_simp
  exact L8_v37 W

theorem L9_v49 (W : Valuation τ sig (Elt Ideal)) :
    V9 W (Proc.devRef .tc main_v49) = ReadP.val_main_v49 (F := Ideal) (W (Proc.devRef .tc main_arg1)) := by
  unfold V9
  simp only [s9]
  after_results_simp
  rw [A8_1 W, L8_v37 W]
  rfl

theorem L9_v25 (W : Valuation τ sig (Elt Ideal)) :
    V9 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V9
  simp only [s9]
  after_results_simp
  exact L8_v25 W

theorem L9_v5 (W : Valuation τ sig (Elt Ideal)) :
    V9 W (Proc.devRef .tc main_v5) = ReadP.val_main_v5 (F := Ideal) (W (Proc.devRef .tc main_arg0)) (W (Proc.devRef .tc main_arg2)) (W (Proc.devRef .tc main_arg3)) := by
  unfold V9
  simp only [s9]
  after_results_simp
  exact L8_v5 W

/-- Operations 60 … 65 of the reference's @main. -/
def s10 : List (HloOp τ sig (Elt F)) :=
  [
    unary main_arg1 main_v50 ((extractStridedSlice S2000x1 ![0, 1] · slices_S2000x4_S2000x1_0_1) : (⟨S2000x4, .f32⟩ : BufTy).Contents (Elt F) → (⟨S2000x1, .f32⟩ : BufTy).Contents (Elt F)),
    reshape main_v50 main_v51 rfl shapeCasts_S2000x1_S2000,
    nullary main_cst_5 (constant S_ .f32 0x3F000000#32),
    unary main_cst_5 main_v52 (broadcastInDim S2000 ![] bcast_S_S2000 : (⟨S_, .f32⟩ : BufTy).Contents (Elt F) → (⟨S2000, .f32⟩ : BufTy).Contents (Elt F)),
    binary main_v52 main_v44 main_v53 (mulf : (⟨S2000, .f32⟩ : BufTy).Contents (Elt F) → (⟨S2000, .f32⟩ : BufTy).Contents (Elt F) → (⟨S2000, .f32⟩ : BufTy).Contents (Elt F)),
    binary main_v51 main_v53 main_v54 (addf : (⟨S2000, .f32⟩ : BufTy).Contents (Elt F) → (⟨S2000, .f32⟩ : BufTy).Contents (Elt F) → (⟨S2000, .f32⟩ : BufTy).Contents (Elt F)) ]

/-- The buffers after the first 66 operations. -/
def V10 (W : Valuation τ sig (Elt Ideal)) : Valuation τ sig (Elt Ideal) :=
  StableHlo.after (s10 (F := Ideal)) (V9 W)

theorem L10_v30 (W : Valuation τ sig (Elt Ideal)) :
    V10 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V10
  simp only [s10]
  after_results_simp
  exact L9_v30 W

theorem L10_v37 (W : Valuation τ sig (Elt Ideal)) :
    V10 W (Proc.devRef .tc main_v37) = ReadP.val_main_v37 (F := Ideal) (W (Proc.devRef .tc main_arg1)) := by
  unfold V10
  simp only [s10]
  after_results_simp
  exact L9_v37 W

theorem L10_v49 (W : Valuation τ sig (Elt Ideal)) :
    V10 W (Proc.devRef .tc main_v49) = ReadP.val_main_v49 (F := Ideal) (W (Proc.devRef .tc main_arg1)) := by
  unfold V10
  simp only [s10]
  after_results_simp
  exact L9_v49 W

theorem L10_v44 (W : Valuation τ sig (Elt Ideal)) :
    V10 W (Proc.devRef .tc main_v44) = ReadP.val_main_v44 (F := Ideal) (W (Proc.devRef .tc main_arg1)) := by
  unfold V10
  simp only [s10]
  after_results_simp
  exact L9_v44 W

theorem L10_v54 (W : Valuation τ sig (Elt Ideal)) :
    V10 W (Proc.devRef .tc main_v54) = ReadP.val_main_v54 (F := Ideal) (W (Proc.devRef .tc main_arg1)) := by
  unfold V10
  simp only [s10]
  after_results_simp
  rw [A9_1 W, L9_v44 W]
  rfl

theorem L10_v25 (W : Valuation τ sig (Elt Ideal)) :
    V10 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V10
  simp only [s10]
  after_results_simp
  exact L9_v25 W

theorem L10_v5 (W : Valuation τ sig (Elt Ideal)) :
    V10 W (Proc.devRef .tc main_v5) = ReadP.val_main_v5 (F := Ideal) (W (Proc.devRef .tc main_arg0)) (W (Proc.devRef .tc main_arg2)) (W (Proc.devRef .tc main_arg3)) := by
  unfold V10
  simp only [s10]
  after_results_simp
  exact L9_v5 W

/-- Operations 66 … 70 of the reference's @main. -/
def s11 : List (HloOp τ sig (Elt F)) :=
  [
    unary main_v30 main_v55 ((extractStridedSlice S2000x81x1 ![0, 0, 0] · slices_S2000x81x4_S2000x81x1_0_0_0) : (⟨S2000x81x4, .f32⟩ : BufTy).Contents (Elt F) → (⟨S2000x81x1, .f32⟩ : BufTy).Contents (Elt F)),
    reshape main_v55 main_v56 rfl shapeCasts_S2000x81x1_S2000x81,
    nullary main_cst_6 (constant S_ .f32 0x41200000#32),
    unary main_cst_6 main_v57 (broadcastInDim S2000x81 ![] bcast_S_S2000x81 : (⟨S_, .f32⟩ : BufTy).Contents (Elt F) → (⟨S2000x81, .f32⟩ : BufTy).Contents (Elt F)),
    binary main_v56 main_v57 main_v58 (Host.divf : (⟨S2000x81, .f32⟩ : BufTy).Contents (Elt F) → (⟨S2000x81, .f32⟩ : BufTy).Contents (Elt F) → (⟨S2000x81, .f32⟩ : BufTy).Contents (Elt F)) ]

/-- The buffers after the first 71 operations. -/
def V11 (W : Valuation τ sig (Elt Ideal)) : Valuation τ sig (Elt Ideal) :=
  StableHlo.after (s11 (F := Ideal)) (V10 W)

theorem L11_v30 (W : Valuation τ sig (Elt Ideal)) :
    V11 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V11
  simp only [s11]
  after_results_simp
  exact L10_v30 W

theorem L11_v37 (W : Valuation τ sig (Elt Ideal)) :
    V11 W (Proc.devRef .tc main_v37) = ReadP.val_main_v37 (F := Ideal) (W (Proc.devRef .tc main_arg1)) := by
  unfold V11
  simp only [s11]
  after_results_simp
  exact L10_v37 W

theorem L11_v58 (W : Valuation τ sig (Elt Ideal)) :
    V11 W (Proc.devRef .tc main_v58) = ReadP.val_main_v58 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V11
  simp only [s11]
  after_results_simp
  rw [L10_v30 W]
  rfl

theorem L11_v49 (W : Valuation τ sig (Elt Ideal)) :
    V11 W (Proc.devRef .tc main_v49) = ReadP.val_main_v49 (F := Ideal) (W (Proc.devRef .tc main_arg1)) := by
  unfold V11
  simp only [s11]
  after_results_simp
  exact L10_v49 W

theorem L11_v44 (W : Valuation τ sig (Elt Ideal)) :
    V11 W (Proc.devRef .tc main_v44) = ReadP.val_main_v44 (F := Ideal) (W (Proc.devRef .tc main_arg1)) := by
  unfold V11
  simp only [s11]
  after_results_simp
  exact L10_v44 W

theorem L11_v54 (W : Valuation τ sig (Elt Ideal)) :
    V11 W (Proc.devRef .tc main_v54) = ReadP.val_main_v54 (F := Ideal) (W (Proc.devRef .tc main_arg1)) := by
  unfold V11
  simp only [s11]
  after_results_simp
  exact L10_v54 W

theorem L11_v25 (W : Valuation τ sig (Elt Ideal)) :
    V11 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V11
  simp only [s11]
  after_results_simp
  exact L10_v25 W

theorem L11_v5 (W : Valuation τ sig (Elt Ideal)) :
    V11 W (Proc.devRef .tc main_v5) = ReadP.val_main_v5 (F := Ideal) (W (Proc.devRef .tc main_arg0)) (W (Proc.devRef .tc main_arg2)) (W (Proc.devRef .tc main_arg3)) := by
  unfold V11
  simp only [s11]
  after_results_simp
  exact L10_v5 W

/-- Operations 71 … 75 of the reference's @main. -/
def s12 : List (HloOp τ sig (Elt F)) :=
  [
    unary main_v30 main_v59 ((extractStridedSlice S2000x81x1 ![0, 0, 1] · slices_S2000x81x4_S2000x81x1_0_0_1) : (⟨S2000x81x4, .f32⟩ : BufTy).Contents (Elt F) → (⟨S2000x81x1, .f32⟩ : BufTy).Contents (Elt F)),
    reshape main_v59 main_v60 rfl shapeCasts_S2000x81x1_S2000x81,
    nullary main_cst_7 (constant S_ .f32 0x41200000#32),
    unary main_cst_7 main_v61 (broadcastInDim S2000x81 ![] bcast_S_S2000x81 : (⟨S_, .f32⟩ : BufTy).Contents (Elt F) → (⟨S2000x81, .f32⟩ : BufTy).Contents (Elt F)),
    binary main_v60 main_v61 main_v62 (Host.divf : (⟨S2000x81, .f32⟩ : BufTy).Contents (Elt F) → (⟨S2000x81, .f32⟩ : BufTy).Contents (Elt F) → (⟨S2000x81, .f32⟩ : BufTy).Contents (Elt F)) ]

/-- The buffers after the first 76 operations. -/
def V12 (W : Valuation τ sig (Elt Ideal)) : Valuation τ sig (Elt Ideal) :=
  StableHlo.after (s12 (F := Ideal)) (V11 W)

theorem L12_v30 (W : Valuation τ sig (Elt Ideal)) :
    V12 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V12
  simp only [s12]
  after_results_simp
  exact L11_v30 W

theorem L12_v37 (W : Valuation τ sig (Elt Ideal)) :
    V12 W (Proc.devRef .tc main_v37) = ReadP.val_main_v37 (F := Ideal) (W (Proc.devRef .tc main_arg1)) := by
  unfold V12
  simp only [s12]
  after_results_simp
  exact L11_v37 W

theorem L12_v58 (W : Valuation τ sig (Elt Ideal)) :
    V12 W (Proc.devRef .tc main_v58) = ReadP.val_main_v58 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V12
  simp only [s12]
  after_results_simp
  exact L11_v58 W

theorem L12_v49 (W : Valuation τ sig (Elt Ideal)) :
    V12 W (Proc.devRef .tc main_v49) = ReadP.val_main_v49 (F := Ideal) (W (Proc.devRef .tc main_arg1)) := by
  unfold V12
  simp only [s12]
  after_results_simp
  exact L11_v49 W

theorem L12_v44 (W : Valuation τ sig (Elt Ideal)) :
    V12 W (Proc.devRef .tc main_v44) = ReadP.val_main_v44 (F := Ideal) (W (Proc.devRef .tc main_arg1)) := by
  unfold V12
  simp only [s12]
  after_results_simp
  exact L11_v44 W

theorem L12_v62 (W : Valuation τ sig (Elt Ideal)) :
    V12 W (Proc.devRef .tc main_v62) = ReadP.val_main_v62 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V12
  simp only [s12]
  after_results_simp
  rw [L11_v30 W]
  rfl

theorem L12_v54 (W : Valuation τ sig (Elt Ideal)) :
    V12 W (Proc.devRef .tc main_v54) = ReadP.val_main_v54 (F := Ideal) (W (Proc.devRef .tc main_arg1)) := by
  unfold V12
  simp only [s12]
  after_results_simp
  exact L11_v54 W

theorem L12_v25 (W : Valuation τ sig (Elt Ideal)) :
    V12 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V12
  simp only [s12]
  after_results_simp
  exact L11_v25 W

theorem L12_v5 (W : Valuation τ sig (Elt Ideal)) :
    V12 W (Proc.devRef .tc main_v5) = ReadP.val_main_v5 (F := Ideal) (W (Proc.devRef .tc main_arg0)) (W (Proc.devRef .tc main_arg2)) (W (Proc.devRef .tc main_arg3)) := by
  unfold V12
  simp only [s12]
  after_results_simp
  exact L11_v5 W

/-- Operations 76 … 83 of the reference's @main. -/
def s13 : List (HloOp τ sig (Elt F)) :=
  [
    unary main_v30 main_v63 ((extractStridedSlice S2000x81x1 ![0, 0, 2] · slices_S2000x81x4_S2000x81x1_0_0_2) : (⟨S2000x81x4, .f32⟩ : BufTy).Contents (Elt F) → (⟨S2000x81x1, .f32⟩ : BufTy).Contents (Elt F)),
    reshape main_v63 main_v64 rfl shapeCasts_S2000x81x1_S2000x81,
    nullary main_cst_8 (constant S_ .f32 0x40A00000#32),
    unary main_cst_8 main_v65 (broadcastInDim S2000x81 ![] bcast_S_S2000x81 : (⟨S_, .f32⟩ : BufTy).Contents (Elt F) → (⟨S2000x81, .f32⟩ : BufTy).Contents (Elt F)),
    binary main_v64 main_v65 main_v66 (Host.divf : (⟨S2000x81, .f32⟩ : BufTy).Contents (Elt F) → (⟨S2000x81, .f32⟩ : BufTy).Contents (Elt F) → (⟨S2000x81, .f32⟩ : BufTy).Contents (Elt F)),
    nullary main_cst_9 (constant S_ .f32 0x40845349#32),
    unary main_cst_9 main_v67 (broadcastInDim S2000x81 ![] bcast_S_S2000x81 : (⟨S_, .f32⟩ : BufTy).Contents (Elt F) → (⟨S2000x81, .f32⟩ : BufTy).Contents (Elt F)),
    binary main_v66 main_v67 main_v68 (minimumf : (⟨S2000x81, .f32⟩ : BufTy).Contents (Elt F) → (⟨S2000x81, .f32⟩ : BufTy).Contents (Elt F) → (⟨S2000x81, .f32⟩ : BufTy).Contents (Elt F)) ]

/-- The buffers after the first 84 operations. -/
def V13 (W : Valuation τ sig (Elt Ideal)) : Valuation τ sig (Elt Ideal) :=
  StableHlo.after (s13 (F := Ideal)) (V12 W)

theorem L13_v30 (W : Valuation τ sig (Elt Ideal)) :
    V13 W (Proc.devRef .tc main_v30) = ReadP.val_main_v30 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V13
  simp only [s13]
  after_results_simp
  exact L12_v30 W

theorem L13_v37 (W : Valuation τ sig (Elt Ideal)) :
    V13 W (Proc.devRef .tc main_v37) = ReadP.val_main_v37 (F := Ideal) (W (Proc.devRef .tc main_arg1)) := by
  unfold V13
  simp only [s13]
  after_results_simp
  exact L12_v37 W

theorem L13_v58 (W : Valuation τ sig (Elt Ideal)) :
    V13 W (Proc.devRef .tc main_v58) = ReadP.val_main_v58 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V13
  simp only [s13]
  after_results_simp
  exact L12_v58 W

theorem L13_v49 (W : Valuation τ sig (Elt Ideal)) :
    V13 W (Proc.devRef .tc main_v49) = ReadP.val_main_v49 (F := Ideal) (W (Proc.devRef .tc main_arg1)) := by
  unfold V13
  simp only [s13]
  after_results_simp
  exact L12_v49 W

theorem L13_v44 (W : Valuation τ sig (Elt Ideal)) :
    V13 W (Proc.devRef .tc main_v44) = ReadP.val_main_v44 (F := Ideal) (W (Proc.devRef .tc main_arg1)) := by
  unfold V13
  simp only [s13]
  after_results_simp
  exact L12_v44 W

theorem L13_v62 (W : Valuation τ sig (Elt Ideal)) :
    V13 W (Proc.devRef .tc main_v62) = ReadP.val_main_v62 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V13
  simp only [s13]
  after_results_simp
  exact L12_v62 W

theorem L13_v54 (W : Valuation τ sig (Elt Ideal)) :
    V13 W (Proc.devRef .tc main_v54) = ReadP.val_main_v54 (F := Ideal) (W (Proc.devRef .tc main_arg1)) := by
  unfold V13
  simp only [s13]
  after_results_simp
  exact L12_v54 W

theorem L13_v68 (W : Valuation τ sig (Elt Ideal)) :
    V13 W (Proc.devRef .tc main_v68) = ReadP.val_main_v68 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V13
  simp only [s13]
  after_results_simp
  rw [L12_v30 W]
  rfl

theorem L13_v25 (W : Valuation τ sig (Elt Ideal)) :
    V13 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V13
  simp only [s13]
  after_results_simp
  exact L12_v25 W

theorem L13_v5 (W : Valuation τ sig (Elt Ideal)) :
    V13 W (Proc.devRef .tc main_v5) = ReadP.val_main_v5 (F := Ideal) (W (Proc.devRef .tc main_arg0)) (W (Proc.devRef .tc main_arg2)) (W (Proc.devRef .tc main_arg3)) := by
  unfold V13
  simp only [s13]
  after_results_simp
  exact L12_v5 W

/-- Operations 84 … 91 of the reference's @main. -/
def s14 : List (HloOp τ sig (Elt F)) :=
  [
    unary main_v30 main_v69 ((extractStridedSlice S2000x81x1 ![0, 0, 3] · slices_S2000x81x4_S2000x81x1_0_0_3) : (⟨S2000x81x4, .f32⟩ : BufTy).Contents (Elt F) → (⟨S2000x81x1, .f32⟩ : BufTy).Contents (Elt F)),
    reshape main_v69 main_v70 rfl shapeCasts_S2000x81x1_S2000x81,
    nullary main_cst_10 (constant S_ .f32 0x40A00000#32),
    unary main_cst_10 main_v71 (broadcastInDim S2000x81 ![] bcast_S_S2000x81 : (⟨S_, .f32⟩ : BufTy).Contents (Elt F) → (⟨S2000x81, .f32⟩ : BufTy).Contents (Elt F)),
    binary main_v70 main_v71 main_v72 (Host.divf : (⟨S2000x81, .f32⟩ : BufTy).Contents (Elt F) → (⟨S2000x81, .f32⟩ : BufTy).Contents (Elt F) → (⟨S2000x81, .f32⟩ : BufTy).Contents (Elt F)),
    nullary main_cst_11 (constant S_ .f32 0x40845349#32),
    unary main_cst_11 main_v73 (broadcastInDim S2000x81 ![] bcast_S_S2000x81 : (⟨S_, .f32⟩ : BufTy).Contents (Elt F) → (⟨S2000x81, .f32⟩ : BufTy).Contents (Elt F)),
    binary main_v72 main_v73 main_v74 (minimumf : (⟨S2000x81, .f32⟩ : BufTy).Contents (Elt F) → (⟨S2000x81, .f32⟩ : BufTy).Contents (Elt F) → (⟨S2000x81, .f32⟩ : BufTy).Contents (Elt F)) ]

/-- The buffers after the first 92 operations. -/
def V14 (W : Valuation τ sig (Elt Ideal)) : Valuation τ sig (Elt Ideal) :=
  StableHlo.after (s14 (F := Ideal)) (V13 W)

theorem L14_v37 (W : Valuation τ sig (Elt Ideal)) :
    V14 W (Proc.devRef .tc main_v37) = ReadP.val_main_v37 (F := Ideal) (W (Proc.devRef .tc main_arg1)) := by
  unfold V14
  simp only [s14]
  after_results_simp
  exact L13_v37 W

theorem L14_v58 (W : Valuation τ sig (Elt Ideal)) :
    V14 W (Proc.devRef .tc main_v58) = ReadP.val_main_v58 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V14
  simp only [s14]
  after_results_simp
  exact L13_v58 W

theorem L14_v49 (W : Valuation τ sig (Elt Ideal)) :
    V14 W (Proc.devRef .tc main_v49) = ReadP.val_main_v49 (F := Ideal) (W (Proc.devRef .tc main_arg1)) := by
  unfold V14
  simp only [s14]
  after_results_simp
  exact L13_v49 W

theorem L14_v44 (W : Valuation τ sig (Elt Ideal)) :
    V14 W (Proc.devRef .tc main_v44) = ReadP.val_main_v44 (F := Ideal) (W (Proc.devRef .tc main_arg1)) := by
  unfold V14
  simp only [s14]
  after_results_simp
  exact L13_v44 W

theorem L14_v62 (W : Valuation τ sig (Elt Ideal)) :
    V14 W (Proc.devRef .tc main_v62) = ReadP.val_main_v62 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V14
  simp only [s14]
  after_results_simp
  exact L13_v62 W

theorem L14_v54 (W : Valuation τ sig (Elt Ideal)) :
    V14 W (Proc.devRef .tc main_v54) = ReadP.val_main_v54 (F := Ideal) (W (Proc.devRef .tc main_arg1)) := by
  unfold V14
  simp only [s14]
  after_results_simp
  exact L13_v54 W

theorem L14_v68 (W : Valuation τ sig (Elt Ideal)) :
    V14 W (Proc.devRef .tc main_v68) = ReadP.val_main_v68 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V14
  simp only [s14]
  after_results_simp
  exact L13_v68 W

theorem L14_v74 (W : Valuation τ sig (Elt Ideal)) :
    V14 W (Proc.devRef .tc main_v74) = ReadP.val_main_v74 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V14
  simp only [s14]
  after_results_simp
  rw [L13_v30 W]
  rfl

theorem L14_v25 (W : Valuation τ sig (Elt Ideal)) :
    V14 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V14
  simp only [s14]
  after_results_simp
  exact L13_v25 W

theorem L14_v5 (W : Valuation τ sig (Elt Ideal)) :
    V14 W (Proc.devRef .tc main_v5) = ReadP.val_main_v5 (F := Ideal) (W (Proc.devRef .tc main_arg0)) (W (Proc.devRef .tc main_arg2)) (W (Proc.devRef .tc main_arg3)) := by
  unfold V14
  simp only [s14]
  after_results_simp
  exact L13_v5 W

end Cert.Body.RefRun

end
-- ==== Proof.RefRead124P3.lean ====
/-
  The reference's @main read in stretches, part: operations of stretches 15 … 22. Each stretch is a literal sub-list of the
  program's operations in order; `V i W` is the device's buffers after stretches `1 … i` from buffers `W`; and for every
  buffer a later operation still reads, its contents after stretch `i` are its stage, a function of the arguments' contents
  in `W` (each stage one operation over earlier stages).
-/
import proofs.«160000_j26036091748769_1_alg».proof.Proof.RefRead124P2

noncomputable section

namespace Cert.Body.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 92 … 97 of the reference's @main. -/
def s15 : List (HloOp τ sig (Elt F)) :=
  [
    unary main_v37 main_v75 (broadcastInDim S2000x1 ![0] bcast_S2000_S2000x1_0 : (⟨S2000, .f32⟩ : BufTy).Contents (Elt F) → (⟨S2000x1, .f32⟩ : BufTy).Contents (Elt F)),
    unary main_v75 main_v76 (broadcastInDim S2000x81 ![0, 1] bcast_S2000x1_S2000x81_0_1 : (⟨S2000x1, .f32⟩ : BufTy).Contents (Elt F) → (⟨S2000x81, .f32⟩ : BufTy).Contents (Elt F)),
    binary main_v58 main_v76 main_v77 (mulf : (⟨S2000x81, .f32⟩ : BufTy).Contents (Elt F) → (⟨S2000x81, .f32⟩ : BufTy).Contents (Elt F) → (⟨S2000x81, .f32⟩ : BufTy).Contents (Elt F)),
    unary main_v49 main_v78 (broadcastInDim S2000x1 ![0] bcast_S2000_S2000x1_0 : (⟨S2000, .f32⟩ : BufTy).Contents (Elt F) → (⟨S2000x1, .f32⟩ : BufTy).Contents (Elt F)),
    unary main_v78 main_v79 (broadcastInDim S2000x81 ![0, 1] bcast_S2000x1_S2000x81_0_1 : (⟨S2000x1, .f32⟩ : BufTy).Contents (Elt F) → (⟨S2000x81, .f32⟩ : BufTy).Contents (Elt F)),
    binary main_v77 main_v79 main_v80 (addf : (⟨S2000x81, .f32⟩ : BufTy).Contents (Elt F) → (⟨S2000x81, .f32⟩ : BufTy).Contents (Elt F) → (⟨S2000x81, .f32⟩ : BufTy).Contents (Elt F)) ]

/-- The buffers after the first 98 operations. -/
def V15 (W : Valuation τ sig (Elt Ideal)) : Valuation τ sig (Elt Ideal) :=
  StableHlo.after (s15 (F := Ideal)) (V14 W)

theorem L15_v44 (W : Valuation τ sig (Elt Ideal)) :
    V15 W (Proc.devRef .tc main_v44) = ReadP.val_main_v44 (F := Ideal) (W (Proc.devRef .tc main_arg1)) := by
  unfold V15
  simp only [s15]
  after_results_simp
  exact L14_v44 W

theorem L15_v62 (W : Valuation τ sig (Elt Ideal)) :
    V15 W (Proc.devRef .tc main_v62) = ReadP.val_main_v62 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V15
  simp only [s15]
  after_results_simp
  exact L14_v62 W

theorem L15_v54 (W : Valuation τ sig (Elt Ideal)) :
    V15 W (Proc.devRef .tc main_v54) = ReadP.val_main_v54 (F := Ideal) (W (Proc.devRef .tc main_arg1)) := by
  unfold V15
  simp only [s15]
  after_results_simp
  exact L14_v54 W

theorem L15_v68 (W : Valuation τ sig (Elt Ideal)) :
    V15 W (Proc.devRef .tc main_v68) = ReadP.val_main_v68 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V15
  simp only [s15]
  after_results_simp
  exact L14_v68 W

theorem L15_v37 (W : Valuation τ sig (Elt Ideal)) :
    V15 W (Proc.devRef .tc main_v37) = ReadP.val_main_v37 (F := Ideal) (W (Proc.devRef .tc main_arg1)) := by
  unfold V15
  simp only [s15]
  after_results_simp
  exact L14_v37 W

theorem L15_v74 (W : Valuation τ sig (Elt Ideal)) :
    V15 W (Proc.devRef .tc main_v74) = ReadP.val_main_v74 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V15
  simp only [s15]
  after_results_simp
  exact L14_v74 W

theorem L15_v80 (W : Valuation τ sig (Elt Ideal)) :
    V15 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V15
  simp only [s15]
  after_results_simp
  rw [L14_v58 W, L14_v37 W, L14_v49 W]
  rfl

theorem L15_v25 (W : Valuation τ sig (Elt Ideal)) :
    V15 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V15
  simp only [s15]
  after_results_simp
  exact L14_v25 W

theorem L15_v5 (W : Valuation τ sig (Elt Ideal)) :
    V15 W (Proc.devRef .tc main_v5) = ReadP.val_main_v5 (F := Ideal) (W (Proc.devRef .tc main_arg0)) (W (Proc.devRef .tc main_arg2)) (W (Proc.devRef .tc main_arg3)) := by
  unfold V15
  simp only [s15]
  after_results_simp
  exact L14_v5 W

/-- Operations 98 … 103 of the reference's @main. -/
def s16 : List (HloOp τ sig (Elt F)) :=
  [
    unary main_v44 main_v81 (broadcastInDim S2000x1 ![0] bcast_S2000_S2000x1_0 : (⟨S2000, .f32⟩ : BufTy).Contents (Elt F) → (⟨S2000x1, .f32⟩ : BufTy).Contents (Elt F)),
    unary main_v81 main_v82 (broadcastInDim S2000x81 ![0, 1] bcast_S2000x1_S2000x81_0_1 : (⟨S2000x1, .f32⟩ : BufTy).Contents (Elt F) → (⟨S2000x81, .f32⟩ : BufTy).Contents (Elt F)),
    binary main_v62 main_v82 main_v83 (mulf : (⟨S2000x81, .f32⟩ : BufTy).Contents (Elt F) → (⟨S2000x81, .f32⟩ : BufTy).Contents (Elt F) → (⟨S2000x81, .f32⟩ : BufTy).Contents (Elt F)),
    unary main_v54 main_v84 (broadcastInDim S2000x1 ![0] bcast_S2000_S2000x1_0 : (⟨S2000, .f32⟩ : BufTy).Contents (Elt F) → (⟨S2000x1, .f32⟩ : BufTy).Contents (Elt F)),
    unary main_v84 main_v85 (broadcastInDim S2000x81 ![0, 1] bcast_S2000x1_S2000x81_0_1 : (⟨S2000x1, .f32⟩ : BufTy).Contents (Elt F) → (⟨S2000x81, .f32⟩ : BufTy).Contents (Elt F)),
    binary main_v83 main_v85 main_v86 (addf : (⟨S2000x81, .f32⟩ : BufTy).Contents (Elt F) → (⟨S2000x81, .f32⟩ : BufTy).Contents (Elt F) → (⟨S2000x81, .f32⟩ : BufTy).Contents (Elt F)) ]

/-- The buffers after the first 104 operations. -/
def V16 (W : Valuation τ sig (Elt Ideal)) : Valuation τ sig (Elt Ideal) :=
  StableHlo.after (s16 (F := Ideal)) (V15 W)

theorem L16_v68 (W : Valuation τ sig (Elt Ideal)) :
    V16 W (Proc.devRef .tc main_v68) = ReadP.val_main_v68 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V16
  simp only [s16]
  after_results_simp
  exact L15_v68 W

theorem L16_v37 (W : Valuation τ sig (Elt Ideal)) :
    V16 W (Proc.devRef .tc main_v37) = ReadP.val_main_v37 (F := Ideal) (W (Proc.devRef .tc main_arg1)) := by
  unfold V16
  simp only [s16]
  after_results_simp
  exact L15_v37 W

theorem L16_v74 (W : Valuation τ sig (Elt Ideal)) :
    V16 W (Proc.devRef .tc main_v74) = ReadP.val_main_v74 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V16
  simp only [s16]
  after_results_simp
  exact L15_v74 W

theorem L16_v44 (W : Valuation τ sig (Elt Ideal)) :
    V16 W (Proc.devRef .tc main_v44) = ReadP.val_main_v44 (F := Ideal) (W (Proc.devRef .tc main_arg1)) := by
  unfold V16
  simp only [s16]
  after_results_simp
  exact L15_v44 W

theorem L16_v80 (W : Valuation τ sig (Elt Ideal)) :
    V16 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V16
  simp only [s16]
  after_results_simp
  exact L15_v80 W

theorem L16_v86 (W : Valuation τ sig (Elt Ideal)) :
    V16 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V16
  simp only [s16]
  after_results_simp
  rw [L15_v62 W, L15_v44 W, L15_v54 W]
  rfl

theorem L16_v25 (W : Valuation τ sig (Elt Ideal)) :
    V16 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V16
  simp only [s16]
  after_results_simp
  exact L15_v25 W

theorem L16_v5 (W : Valuation τ sig (Elt Ideal)) :
    V16 W (Proc.devRef .tc main_v5) = ReadP.val_main_v5 (F := Ideal) (W (Proc.devRef .tc main_arg0)) (W (Proc.devRef .tc main_arg2)) (W (Proc.devRef .tc main_arg3)) := by
  unfold V16
  simp only [s16]
  after_results_simp
  exact L15_v5 W

/-- Operations 104 … 107 of the reference's @main. -/
def s17 : List (HloOp τ sig (Elt F)) :=
  [
    unary main_v68 main_v87 (Host.exp : (⟨S2000x81, .f32⟩ : BufTy).Contents (Elt F) → (⟨S2000x81, .f32⟩ : BufTy).Contents (Elt F)),
    unary main_v37 main_v88 (broadcastInDim S2000x1 ![0] bcast_S2000_S2000x1_0 : (⟨S2000, .f32⟩ : BufTy).Contents (Elt F) → (⟨S2000x1, .f32⟩ : BufTy).Contents (Elt F)),
    unary main_v88 main_v89 (broadcastInDim S2000x81 ![0, 1] bcast_S2000x1_S2000x81_0_1 : (⟨S2000x1, .f32⟩ : BufTy).Contents (Elt F) → (⟨S2000x81, .f32⟩ : BufTy).Contents (Elt F)),
    binary main_v87 main_v89 main_v90 (mulf : (⟨S2000x81, .f32⟩ : BufTy).Contents (Elt F) → (⟨S2000x81, .f32⟩ : BufTy).Contents (Elt F) → (⟨S2000x81, .f32⟩ : BufTy).Contents (Elt F)) ]

/-- The buffers after the first 108 operations. -/
def V17 (W : Valuation τ sig (Elt Ideal)) : Valuation τ sig (Elt Ideal) :=
  StableHlo.after (s17 (F := Ideal)) (V16 W)

theorem L17_v74 (W : Valuation τ sig (Elt Ideal)) :
    V17 W (Proc.devRef .tc main_v74) = ReadP.val_main_v74 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V17
  simp only [s17]
  after_results_simp
  exact L16_v74 W

theorem L17_v44 (W : Valuation τ sig (Elt Ideal)) :
    V17 W (Proc.devRef .tc main_v44) = ReadP.val_main_v44 (F := Ideal) (W (Proc.devRef .tc main_arg1)) := by
  unfold V17
  simp only [s17]
  after_results_simp
  exact L16_v44 W

theorem L17_v90 (W : Valuation τ sig (Elt Ideal)) :
    V17 W (Proc.devRef .tc main_v90) = ReadP.val_main_v90 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V17
  simp only [s17]
  after_results_simp
  rw [L16_v68 W, L16_v37 W]
  rfl

theorem L17_v80 (W : Valuation τ sig (Elt Ideal)) :
    V17 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V17
  simp only [s17]
  after_results_simp
  exact L16_v80 W

theorem L17_v86 (W : Valuation τ sig (Elt Ideal)) :
    V17 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V17
  simp only [s17]
  after_results_simp
  exact L16_v86 W

theorem L17_v25 (W : Valuation τ sig (Elt Ideal)) :
    V17 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V17
  simp only [s17]
  after_results_simp
  exact L16_v25 W

theorem L17_v5 (W : Valuation τ sig (Elt Ideal)) :
    V17 W (Proc.devRef .tc main_v5) = ReadP.val_main_v5 (F := Ideal) (W (Proc.devRef .tc main_arg0)) (W (Proc.devRef .tc main_arg2)) (W (Proc.devRef .tc main_arg3)) := by
  unfold V17
  simp only [s17]
  after_results_simp
  exact L16_v5 W

/-- Operations 108 … 111 of the reference's @main. -/
def s18 : List (HloOp τ sig (Elt F)) :=
  [
    unary main_v74 main_v91 (Host.exp : (⟨S2000x81, .f32⟩ : BufTy).Contents (Elt F) → (⟨S2000x81, .f32⟩ : BufTy).Contents (Elt F)),
    unary main_v44 main_v92 (broadcastInDim S2000x1 ![0] bcast_S2000_S2000x1_0 : (⟨S2000, .f32⟩ : BufTy).Contents (Elt F) → (⟨S2000x1, .f32⟩ : BufTy).Contents (Elt F)),
    unary main_v92 main_v93 (broadcastInDim S2000x81 ![0, 1] bcast_S2000x1_S2000x81_0_1 : (⟨S2000x1, .f32⟩ : BufTy).Contents (Elt F) → (⟨S2000x81, .f32⟩ : BufTy).Contents (Elt F)),
    binary main_v91 main_v93 main_v94 (mulf : (⟨S2000x81, .f32⟩ : BufTy).Contents (Elt F) → (⟨S2000x81, .f32⟩ : BufTy).Contents (Elt F) → (⟨S2000x81, .f32⟩ : BufTy).Contents (Elt F)) ]

/-- The buffers after the first 112 operations. -/
def V18 (W : Valuation τ sig (Elt Ideal)) : Valuation τ sig (Elt Ideal) :=
  StableHlo.after (s18 (F := Ideal)) (V17 W)

theorem L18_v90 (W : Valuation τ sig (Elt Ideal)) :
    V18 W (Proc.devRef .tc main_v90) = ReadP.val_main_v90 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V18
  simp only [s18]
  after_results_simp
  exact L17_v90 W

theorem L18_v80 (W : Valuation τ sig (Elt Ideal)) :
    V18 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V18
  simp only [s18]
  after_results_simp
  exact L17_v80 W

theorem L18_v94 (W : Valuation τ sig (Elt Ideal)) :
    V18 W (Proc.devRef .tc main_v94) = ReadP.val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V18
  simp only [s18]
  after_results_simp
  rw [L17_v74 W, L17_v44 W]
  rfl

theorem L18_v86 (W : Valuation τ sig (Elt Ideal)) :
    V18 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V18
  simp only [s18]
  after_results_simp
  exact L17_v86 W

theorem L18_v25 (W : Valuation τ sig (Elt Ideal)) :
    V18 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V18
  simp only [s18]
  after_results_simp
  exact L17_v25 W

theorem L18_v5 (W : Valuation τ sig (Elt Ideal)) :
    V18 W (Proc.devRef .tc main_v5) = ReadP.val_main_v5 (F := Ideal) (W (Proc.devRef .tc main_arg0)) (W (Proc.devRef .tc main_arg2)) (W (Proc.devRef .tc main_arg3)) := by
  unfold V18
  simp only [s18]
  after_results_simp
  exact L17_v5 W

/-- Operations 112 … 115 of the reference's @main. -/
def s19 : List (HloOp τ sig (Elt F)) :=
  [
    nullary main_cst_12 (constant S_ .f32 0x3F000000#32),
    unary main_cst_12 main_v95 (broadcastInDim S2000x81 ![] bcast_S_S2000x81 : (⟨S_, .f32⟩ : BufTy).Contents (Elt F) → (⟨S2000x81, .f32⟩ : BufTy).Contents (Elt F)),
    binary main_v95 main_v90 main_v96 (mulf : (⟨S2000x81, .f32⟩ : BufTy).Contents (Elt F) → (⟨S2000x81, .f32⟩ : BufTy).Contents (Elt F) → (⟨S2000x81, .f32⟩ : BufTy).Contents (Elt F)),
    binary main_v80 main_v96 main_v97 (subf : (⟨S2000x81, .f32⟩ : BufTy).Contents (Elt F) → (⟨S2000x81, .f32⟩ : BufTy).Contents (Elt F) → (⟨S2000x81, .f32⟩ : BufTy).Contents (Elt F)) ]

/-- The buffers after the first 116 operations. -/
def V19 (W : Valuation τ sig (Elt Ideal)) : Valuation τ sig (Elt Ideal) :=
  StableHlo.after (s19 (F := Ideal)) (V18 W)

theorem L19_v94 (W : Valuation τ sig (Elt Ideal)) :
    V19 W (Proc.devRef .tc main_v94) = ReadP.val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V19
  simp only [s19]
  after_results_simp
  exact L18_v94 W

theorem L19_v86 (W : Valuation τ sig (Elt Ideal)) :
    V19 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V19
  simp only [s19]
  after_results_simp
  exact L18_v86 W

theorem L19_v90 (W : Valuation τ sig (Elt Ideal)) :
    V19 W (Proc.devRef .tc main_v90) = ReadP.val_main_v90 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V19
  simp only [s19]
  after_results_simp
  exact L18_v90 W

theorem L19_v80 (W : Valuation τ sig (Elt Ideal)) :
    V19 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V19
  simp only [s19]
  after_results_simp
  exact L18_v80 W

theorem L19_v97 (W : Valuation τ sig (Elt Ideal)) :
    V19 W (Proc.devRef .tc main_v97) = ReadP.val_main_v97 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V19
  simp only [s19]
  after_results_simp
  rw [L18_v80 W, L18_v90 W]
  rfl

theorem L19_v25 (W : Valuation τ sig (Elt Ideal)) :
    V19 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V19
  simp only [s19]
  after_results_simp
  exact L18_v25 W

theorem L19_v5 (W : Valuation τ sig (Elt Ideal)) :
    V19 W (Proc.devRef .tc main_v5) = ReadP.val_main_v5 (F := Ideal) (W (Proc.devRef .tc main_arg0)) (W (Proc.devRef .tc main_arg2)) (W (Proc.devRef .tc main_arg3)) := by
  unfold V19
  simp only [s19]
  after_results_simp
  exact L18_v5 W

/-- Operations 116 … 119 of the reference's @main. -/
def s20 : List (HloOp τ sig (Elt F)) :=
  [
    nullary main_cst_13 (constant S_ .f32 0x3F000000#32),
    unary main_cst_13 main_v98 (broadcastInDim S2000x81 ![] bcast_S_S2000x81 : (⟨S_, .f32⟩ : BufTy).Contents (Elt F) → (⟨S2000x81, .f32⟩ : BufTy).Contents (Elt F)),
    binary main_v98 main_v94 main_v99 (mulf : (⟨S2000x81, .f32⟩ : BufTy).Contents (Elt F) → (⟨S2000x81, .f32⟩ : BufTy).Contents (Elt F) → (⟨S2000x81, .f32⟩ : BufTy).Contents (Elt F)),
    binary main_v86 main_v99 main_v100 (subf : (⟨S2000x81, .f32⟩ : BufTy).Contents (Elt F) → (⟨S2000x81, .f32⟩ : BufTy).Contents (Elt F) → (⟨S2000x81, .f32⟩ : BufTy).Contents (Elt F)) ]

/-- The buffers after the first 120 operations. -/
def V20 (W : Valuation τ sig (Elt Ideal)) : Valuation τ sig (Elt Ideal) :=
  StableHlo.after (s20 (F := Ideal)) (V19 W)

theorem L20_v90 (W : Valuation τ sig (Elt Ideal)) :
    V20 W (Proc.devRef .tc main_v90) = ReadP.val_main_v90 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  exact L19_v90 W

theorem L20_v80 (W : Valuation τ sig (Elt Ideal)) :
    V20 W (Proc.devRef .tc main_v80) = ReadP.val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  exact L19_v80 W

theorem L20_v94 (W : Valuation τ sig (Elt Ideal)) :
    V20 W (Proc.devRef .tc main_v94) = ReadP.val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  exact L19_v94 W

theorem L20_v86 (W : Valuation τ sig (Elt Ideal)) :
    V20 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  exact L19_v86 W

theorem L20_v97 (W : Valuation τ sig (Elt Ideal)) :
    V20 W (Proc.devRef .tc main_v97) = ReadP.val_main_v97 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  exact L19_v97 W

theorem L20_v100 (W : Valuation τ sig (Elt Ideal)) :
    V20 W (Proc.devRef .tc main_v100) = ReadP.val_main_v100 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V20
  simp only [s20]
  after_results_simp
  rw [L19_v86 W, L19_v94 W]
  rfl

theorem L20_v25 (W : Valuation τ sig (Elt Ideal)) :
    V20 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V20
  simp only [s20]
  after_results_simp
  exact L19_v25 W

theorem L20_v5 (W : Valuation τ sig (Elt Ideal)) :
    V20 W (Proc.devRef .tc main_v5) = ReadP.val_main_v5 (F := Ideal) (W (Proc.devRef .tc main_arg0)) (W (Proc.devRef .tc main_arg2)) (W (Proc.devRef .tc main_arg3)) := by
  unfold V20
  simp only [s20]
  after_results_simp
  exact L19_v5 W

/-- Operations 120 … 126 of the reference's @main. -/
def s21 : List (HloOp τ sig (Elt F)) :=
  [
    nullary main_cst_14 (constant S_ .f32 0x3F000000#32),
    unary main_cst_14 main_v101 (broadcastInDim S2000x81 ![] bcast_S_S2000x81 : (⟨S_, .f32⟩ : BufTy).Contents (Elt F) → (⟨S2000x81, .f32⟩ : BufTy).Contents (Elt F)),
    binary main_v101 main_v90 main_v102 (mulf : (⟨S2000x81, .f32⟩ : BufTy).Contents (Elt F) → (⟨S2000x81, .f32⟩ : BufTy).Contents (Elt F) → (⟨S2000x81, .f32⟩ : BufTy).Contents (Elt F)),
    binary main_v80 main_v102 main_v103 (addf : (⟨S2000x81, .f32⟩ : BufTy).Contents (Elt F) → (⟨S2000x81, .f32⟩ : BufTy).Contents (Elt F) → (⟨S2000x81, .f32⟩ : BufTy).Contents (Elt F)),
    nullary main_cst_15 (constant S_ .f32 0x3F800000#32),
    unary main_cst_15 main_v104 (broadcastInDim S2000x81 ![] bcast_S_S2000x81 : (⟨S_, .f32⟩ : BufTy).Contents (Elt F) → (⟨S2000x81, .f32⟩ : BufTy).Contents (Elt F)),
    binary main_v103 main_v104 main_v105 (subf : (⟨S2000x81, .f32⟩ : BufTy).Contents (Elt F) → (⟨S2000x81, .f32⟩ : BufTy).Contents (Elt F) → (⟨S2000x81, .f32⟩ : BufTy).Contents (Elt F)) ]

/-- The buffers after the first 127 operations. -/
def V21 (W : Valuation τ sig (Elt Ideal)) : Valuation τ sig (Elt Ideal) :=
  StableHlo.after (s21 (F := Ideal)) (V20 W)

theorem L21_v94 (W : Valuation τ sig (Elt Ideal)) :
    V21 W (Proc.devRef .tc main_v94) = ReadP.val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V21
  simp only [s21]
  after_results_simp
  exact L20_v94 W

theorem L21_v86 (W : Valuation τ sig (Elt Ideal)) :
    V21 W (Proc.devRef .tc main_v86) = ReadP.val_main_v86 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V21
  simp only [s21]
  after_results_simp
  exact L20_v86 W

theorem L21_v97 (W : Valuation τ sig (Elt Ideal)) :
    V21 W (Proc.devRef .tc main_v97) = ReadP.val_main_v97 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V21
  simp only [s21]
  after_results_simp
  exact L20_v97 W

theorem L21_v100 (W : Valuation τ sig (Elt Ideal)) :
    V21 W (Proc.devRef .tc main_v100) = ReadP.val_main_v100 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V21
  simp only [s21]
  after_results_simp
  exact L20_v100 W

theorem L21_v105 (W : Valuation τ sig (Elt Ideal)) :
    V21 W (Proc.devRef .tc main_v105) = ReadP.val_main_v105 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V21
  simp only [s21]
  after_results_simp
  rw [L20_v80 W, L20_v90 W]
  rfl

theorem L21_v25 (W : Valuation τ sig (Elt Ideal)) :
    V21 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V21
  simp only [s21]
  after_results_simp
  exact L20_v25 W

theorem L21_v5 (W : Valuation τ sig (Elt Ideal)) :
    V21 W (Proc.devRef .tc main_v5) = ReadP.val_main_v5 (F := Ideal) (W (Proc.devRef .tc main_arg0)) (W (Proc.devRef .tc main_arg2)) (W (Proc.devRef .tc main_arg3)) := by
  unfold V21
  simp only [s21]
  after_results_simp
  exact L20_v5 W

/-- Operations 127 … 133 of the reference's @main. -/
def s22 : List (HloOp τ sig (Elt F)) :=
  [
    nullary main_cst_16 (constant S_ .f32 0x3F000000#32),
    unary main_cst_16 main_v106 (broadcastInDim S2000x81 ![] bcast_S_S2000x81 : (⟨S_, .f32⟩ : BufTy).Contents (Elt F) → (⟨S2000x81, .f32⟩ : BufTy).Contents (Elt F)),
    binary main_v106 main_v94 main_v107 (mulf : (⟨S2000x81, .f32⟩ : BufTy).Contents (Elt F) → (⟨S2000x81, .f32⟩ : BufTy).Contents (Elt F) → (⟨S2000x81, .f32⟩ : BufTy).Contents (Elt F)),
    binary main_v86 main_v107 main_v108 (addf : (⟨S2000x81, .f32⟩ : BufTy).Contents (Elt F) → (⟨S2000x81, .f32⟩ : BufTy).Contents (Elt F) → (⟨S2000x81, .f32⟩ : BufTy).Contents (Elt F)),
    nullary main_cst_17 (constant S_ .f32 0x3F800000#32),
    unary main_cst_17 main_v109 (broadcastInDim S2000x81 ![] bcast_S_S2000x81 : (⟨S_, .f32⟩ : BufTy).Contents (Elt F) → (⟨S2000x81, .f32⟩ : BufTy).Contents (Elt F)),
    binary main_v108 main_v109 main_v110 (subf : (⟨S2000x81, .f32⟩ : BufTy).Contents (Elt F) → (⟨S2000x81, .f32⟩ : BufTy).Contents (Elt F) → (⟨S2000x81, .f32⟩ : BufTy).Contents (Elt F)) ]

/-- The buffers after the first 134 operations. -/
def V22 (W : Valuation τ sig (Elt Ideal)) : Valuation τ sig (Elt Ideal) :=
  StableHlo.after (s22 (F := Ideal)) (V21 W)

theorem L22_v97 (W : Valuation τ sig (Elt Ideal)) :
    V22 W (Proc.devRef .tc main_v97) = ReadP.val_main_v97 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V22
  simp only [s22]
  after_results_simp
  exact L21_v97 W

theorem L22_v100 (W : Valuation τ sig (Elt Ideal)) :
    V22 W (Proc.devRef .tc main_v100) = ReadP.val_main_v100 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V22
  simp only [s22]
  after_results_simp
  exact L21_v100 W

theorem L22_v105 (W : Valuation τ sig (Elt Ideal)) :
    V22 W (Proc.devRef .tc main_v105) = ReadP.val_main_v105 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V22
  simp only [s22]
  after_results_simp
  exact L21_v105 W

theorem L22_v110 (W : Valuation τ sig (Elt Ideal)) :
    V22 W (Proc.devRef .tc main_v110) = ReadP.val_main_v110 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V22
  simp only [s22]
  after_results_simp
  rw [L21_v86 W, L21_v94 W]
  rfl

theorem L22_v25 (W : Valuation τ sig (Elt Ideal)) :
    V22 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V22
  simp only [s22]
  after_results_simp
  exact L21_v25 W

theorem L22_v5 (W : Valuation τ sig (Elt Ideal)) :
    V22 W (Proc.devRef .tc main_v5) = ReadP.val_main_v5 (F := Ideal) (W (Proc.devRef .tc main_arg0)) (W (Proc.devRef .tc main_arg2)) (W (Proc.devRef .tc main_arg3)) := by
  unfold V22
  simp only [s22]
  after_results_simp
  exact L21_v5 W

end Cert.Body.RefRun

end
-- ==== Proof.RefRead124P4.lean ====
/-
  The reference's @main read in stretches, part: operations of stretches 23 … 28. Each stretch is a literal sub-list of the
  program's operations in order; `V i W` is the device's buffers after stretches `1 … i` from buffers `W`; and for every
  buffer a later operation still reads, its contents after stretch `i` are its stage, a function of the arguments' contents
  in `W` (each stage one operation over earlier stages).
-/
import proofs.«160000_j26036091748769_1_alg».proof.Proof.RefRead124P3

noncomputable section

namespace Cert.Body.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 134 … 137 of the reference's @main. -/
def s23 : List (HloOp τ sig (Elt F)) :=
  [
    unary main_v97 main_v111 (broadcastInDim S2000x81x1 ![0, 1] bcast_S2000x81_S2000x81x1_0_1 : (⟨S2000x81, .f32⟩ : BufTy).Contents (Elt F) → (⟨S2000x81x1, .f32⟩ : BufTy).Contents (Elt F)),
    unary main_v100 main_v112 (broadcastInDim S2000x81x1 ![0, 1] bcast_S2000x81_S2000x81x1_0_1 : (⟨S2000x81, .f32⟩ : BufTy).Contents (Elt F) → (⟨S2000x81x1, .f32⟩ : BufTy).Contents (Elt F)),
    unary main_v105 main_v113 (broadcastInDim S2000x81x1 ![0, 1] bcast_S2000x81_S2000x81x1_0_1 : (⟨S2000x81, .f32⟩ : BufTy).Contents (Elt F) → (⟨S2000x81x1, .f32⟩ : BufTy).Contents (Elt F)),
    unary main_v110 main_v114 (broadcastInDim S2000x81x1 ![0, 1] bcast_S2000x81_S2000x81x1_0_1 : (⟨S2000x81, .f32⟩ : BufTy).Contents (Elt F) → (⟨S2000x81x1, .f32⟩ : BufTy).Contents (Elt F)) ]

/-- The buffers after the first 138 operations. -/
def V23 (W : Valuation τ sig (Elt Ideal)) : Valuation τ sig (Elt Ideal) :=
  StableHlo.after (s23 (F := Ideal)) (V22 W)

theorem L23_v111 (W : Valuation τ sig (Elt Ideal)) :
    V23 W (Proc.devRef .tc main_v111) = ReadP.val_main_v111 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V23
  simp only [s23]
  after_results_simp
  rw [L22_v97 W]
  rfl

theorem L23_v112 (W : Valuation τ sig (Elt Ideal)) :
    V23 W (Proc.devRef .tc main_v112) = ReadP.val_main_v112 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V23
  simp only [s23]
  after_results_simp
  rw [L22_v100 W]
  rfl

theorem L23_v113 (W : Valuation τ sig (Elt Ideal)) :
    V23 W (Proc.devRef .tc main_v113) = ReadP.val_main_v113 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V23
  simp only [s23]
  after_results_simp
  rw [L22_v105 W]
  rfl

theorem L23_v114 (W : Valuation τ sig (Elt Ideal)) :
    V23 W (Proc.devRef .tc main_v114) = ReadP.val_main_v114 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V23
  simp only [s23]
  after_results_simp
  rw [L22_v110 W]
  rfl

theorem L23_v25 (W : Valuation τ sig (Elt Ideal)) :
    V23 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V23
  simp only [s23]
  after_results_simp
  exact L22_v25 W

theorem L23_v5 (W : Valuation τ sig (Elt Ideal)) :
    V23 W (Proc.devRef .tc main_v5) = ReadP.val_main_v5 (F := Ideal) (W (Proc.devRef .tc main_arg0)) (W (Proc.devRef .tc main_arg2)) (W (Proc.devRef .tc main_arg3)) := by
  unfold V23
  simp only [s23]
  after_results_simp
  exact L22_v5 W

/-- Operations 138 … 138 of the reference's @main. -/
def s24 : List (HloOp τ sig (Elt F)) :=
  [
    nary ![main_v111, main_v112, main_v113, main_v114] main_v115 (fun u => concatenate S2000x81x4 2 [⟨S2000x81x1, u 0⟩, ⟨S2000x81x1, u 1⟩, ⟨S2000x81x1, u 2⟩, ⟨S2000x81x1, u 3⟩] concatenates_S2000x81x1_S2000x81x1_S2000x81x1_S2000x81x1_S2000x81x4_d2) ]

/-- The buffers after the first 139 operations. -/
def V24 (W : Valuation τ sig (Elt Ideal)) : Valuation τ sig (Elt Ideal) :=
  StableHlo.after (s24 (F := Ideal)) (V23 W)

theorem L24_v25 (W : Valuation τ sig (Elt Ideal)) :
    V24 W (Proc.devRef .tc main_v25) = ReadP.val_main_v25 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V24
  simp only [s24]
  after_results_simp
  exact L23_v25 W

theorem L24_v115 (W : Valuation τ sig (Elt Ideal)) :
    V24 W (Proc.devRef .tc main_v115) = ReadP.val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V24
  simp only [s24]
  after_results_simp
  show concatenate S2000x81x4 2 [⟨S2000x81x1, V23 W (Proc.devRef .tc main_v111)⟩, ⟨S2000x81x1, V23 W (Proc.devRef .tc main_v112)⟩, ⟨S2000x81x1, V23 W (Proc.devRef .tc main_v113)⟩, ⟨S2000x81x1, V23 W (Proc.devRef .tc main_v114)⟩] concatenates_S2000x81x1_S2000x81x1_S2000x81x1_S2000x81x1_S2000x81x4_d2 = _
  rw [L23_v111 W, L23_v112 W, L23_v113 W, L23_v114 W]
  rfl

theorem L24_v5 (W : Valuation τ sig (Elt Ideal)) :
    V24 W (Proc.devRef .tc main_v5) = ReadP.val_main_v5 (F := Ideal) (W (Proc.devRef .tc main_arg0)) (W (Proc.devRef .tc main_arg2)) (W (Proc.devRef .tc main_arg3)) := by
  unfold V24
  simp only [s24]
  after_results_simp
  exact L23_v5 W

/-- Operations 139 … 147 of the reference's @main. -/
def s25 : List (HloOp τ sig (Elt F)) :=
  [
    unary main_v25 main_v116 ((extractStridedSlice S2000x80 ![0, 1] · slices_S2000x81_S2000x80_0_1) : (⟨S2000x81, .f32⟩ : BufTy).Contents (Elt F) → (⟨S2000x80, .f32⟩ : BufTy).Contents (Elt F)),
    unary main_v115 main_v117 ((extractStridedSlice S2000x80x4 ![0, 1, 0] · slices_S2000x81x4_S2000x80x4_0_1_0) : (⟨S2000x81x4, .f32⟩ : BufTy).Contents (Elt F) → (⟨S2000x80x4, .f32⟩ : BufTy).Contents (Elt F)),
    nullary main_cst_18 (constant S_ .f32 0x3D4CCCCD#32),
    unary main_cst_18 main_v118 (broadcastInDim S2000x80 ![] bcast_S_S2000x80 : (⟨S_, .f32⟩ : BufTy).Contents (Elt F) → (⟨S2000x80, .f32⟩ : BufTy).Contents (Elt F)),
    binary main_v116 main_v118 main_v119 (cmpf .ogt : (⟨S2000x80, .f32⟩ : BufTy).Contents (Elt F) → (⟨S2000x80, .f32⟩ : BufTy).Contents (Elt F) → (⟨S2000x80, .i1⟩ : BufTy).Contents (Elt F)),
    nullary main_cst_19 (constant S_ .f32 0x00000000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S2000x80, .f32⟩) main_call2_v1) (broadcastInDim S2000x80 ![] bcast_S_S2000x80),
    TRef.ternary (TRef.of (T := ⟨S2000x80, .i1⟩) main_v119) (TRef.of (T := ⟨S2000x80, .f32⟩) main_v116) (TRef.of (T := ⟨S2000x80, .f32⟩) main_call2_v1) (TRef.of (T := ⟨S2000x80, .f32⟩) main_v120) select ]

/-- The buffers after the first 148 operations. -/
def V25 (W : Valuation τ sig (Elt Ideal)) : Valuation τ sig (Elt Ideal) :=
  StableHlo.after (s25 (F := Ideal)) (V24 W)

theorem L25_v119 (W : Valuation τ sig (Elt Ideal)) :
    V25 W (Proc.devRef .tc main_v119) = ReadP.val_main_v119 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V25
  simp only [s25]
  after_results_simp
  rw [L24_v25 W]
  rfl

theorem L25_v117 (W : Valuation τ sig (Elt Ideal)) :
    V25 W (Proc.devRef .tc main_v117) = ReadP.val_main_v117 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  unfold V25
  simp only [s25]
  after_results_simp
  rw [L24_v115 W]
  rfl

theorem L25_v120 (W : Valuation τ sig (Elt Ideal)) :
    V25 W (Proc.devRef .tc main_v120) = ReadP.val_main_v120 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V25
  simp only [s25]
  after_results_simp
  rw [L24_v25 W]
  rfl

theorem L25_v5 (W : Valuation τ sig (Elt Ideal)) :
    V25 W (Proc.devRef .tc main_v5) = ReadP.val_main_v5 (F := Ideal) (W (Proc.devRef .tc main_arg0)) (W (Proc.devRef .tc main_arg2)) (W (Proc.devRef .tc main_arg3)) := by
  unfold V25
  simp only [s25]
  after_results_simp
  exact L24_v5 W

/-- Operations 148 … 153 of the reference's @main. -/
def s26 : List (HloOp τ sig (Elt F)) :=
  [
    unary main_v119 main_v121 (broadcastInDim S2000x80x1 ![0, 1] bcast_S2000x80_S2000x80x1_0_1 : (⟨S2000x80, .i1⟩ : BufTy).Contents (Elt F) → (⟨S2000x80x1, .i1⟩ : BufTy).Contents (Elt F)),
    nullary main_cst_20 (constant S_ .f32 0x00000000#32),
    TRef.unary (TRef.of (T := ⟨S_, .f32⟩) main_cst_20) (TRef.of (T := ⟨S_, .f32⟩) main_call3_v0) id,
    TRef.unary (TRef.of (T := ⟨S2000x80x1, .i1⟩) main_v121) (TRef.of (T := ⟨S2000x80x4, .i1⟩) main_call3_v1) (broadcastInDim S2000x80x4 ![0, 1, 2] bcast_S2000x80x1_S2000x80x4_0_1_2),
    TRef.unary (TRef.of (T := ⟨S_, .f32⟩) main_call3_v0) (TRef.of (T := ⟨S2000x80x4, .f32⟩) main_call3_v2) (broadcastInDim S2000x80x4 ![] bcast_S_S2000x80x4),
    TRef.ternary (TRef.of (T := ⟨S2000x80x4, .i1⟩) main_call3_v1) (TRef.of (T := ⟨S2000x80x4, .f32⟩) main_v117) (TRef.of (T := ⟨S2000x80x4, .f32⟩) main_call3_v2) (TRef.of (T := ⟨S2000x80x4, .f32⟩) main_v122) select ]

/-- The buffers after the first 154 operations. -/
def V26 (W : Valuation τ sig (Elt Ideal)) : Valuation τ sig (Elt Ideal) :=
  StableHlo.after (s26 (F := Ideal)) (V25 W)

theorem L26_v122 (W : Valuation τ sig (Elt Ideal)) :
    V26 W (Proc.devRef .tc main_v122) = ReadP.val_main_v122 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  unfold V26
  simp only [s26]
  after_results_simp
  rw [L25_v119 W, L25_v117 W]
  rfl

theorem L26_v120 (W : Valuation τ sig (Elt Ideal)) :
    V26 W (Proc.devRef .tc main_v120) = ReadP.val_main_v120 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V26
  simp only [s26]
  after_results_simp
  exact L25_v120 W

theorem L26_v5 (W : Valuation τ sig (Elt Ideal)) :
    V26 W (Proc.devRef .tc main_v5) = ReadP.val_main_v5 (F := Ideal) (W (Proc.devRef .tc main_arg0)) (W (Proc.devRef .tc main_arg2)) (W (Proc.devRef .tc main_arg3)) := by
  unfold V26
  simp only [s26]
  after_results_simp
  exact L25_v5 W

/-- Operations 154 … 154 of the reference's @main. -/
def s27 : List (HloOp τ sig (Elt F)) :=
  [
    reshape main_v122 main_v123 rfl shapeCasts_S2000x80x4_S2000x320 ]

/-- The buffers after the first 155 operations. -/
def V27 (W : Valuation τ sig (Elt Ideal)) : Valuation τ sig (Elt Ideal) :=
  StableHlo.after (s27 (F := Ideal)) (V26 W)

theorem L27_v120 (W : Valuation τ sig (Elt Ideal)) :
    V27 W (Proc.devRef .tc main_v120) = ReadP.val_main_v120 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold V27
  simp only [s27]
  after_results_simp
  exact L26_v120 W

theorem L27_v123 (W : Valuation τ sig (Elt Ideal)) :
    V27 W (Proc.devRef .tc main_v123) = ReadP.val_main_v123 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  unfold V27
  simp only [s27]
  after_results_simp
  rw [L26_v122 W]
  rfl

theorem L27_v5 (W : Valuation τ sig (Elt Ideal)) :
    V27 W (Proc.devRef .tc main_v5) = ReadP.val_main_v5 (F := Ideal) (W (Proc.devRef .tc main_arg0)) (W (Proc.devRef .tc main_arg2)) (W (Proc.devRef .tc main_arg3)) := by
  unfold V27
  simp only [s27]
  after_results_simp
  exact L26_v5 W

/-- Operations 155 … 155 of the reference's @main. -/
def s28 : List (HloOp τ sig (Elt F)) :=
  [
    nary ![main_v120, main_v123, main_v5] main_v124 (fun u => concatenate S2000x1424 1 [⟨S2000x80, u 0⟩, ⟨S2000x320, u 1⟩, ⟨S2000x1024, u 2⟩] concatenates_S2000x80_S2000x320_S2000x1024_S2000x1424_d1) ]

/-- The buffers after the first 156 operations. -/
def V28 (W : Valuation τ sig (Elt Ideal)) : Valuation τ sig (Elt Ideal) :=
  StableHlo.after (s28 (F := Ideal)) (V27 W)

theorem L28_v124 (W : Valuation τ sig (Elt Ideal)) :
    V28 W (Proc.devRef .tc main_v124) = ReadP.val_main_v124 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  unfold V28
  simp only [s28]
  after_results_simp
  show concatenate S2000x1424 1 [⟨S2000x80, V27 W (Proc.devRef .tc main_v120)⟩, ⟨S2000x320, V27 W (Proc.devRef .tc main_v123)⟩, ⟨S2000x1024, V27 W (Proc.devRef .tc main_v5)⟩] concatenates_S2000x80_S2000x320_S2000x1024_S2000x1424_d1 = _
  rw [L27_v120 W, L27_v123 W, L27_v5 W]
  rfl

end Cert.Body.RefRun

end
-- ==== Proof.RefRead124.lean ====
/-
  The reference's @main, read: after its operations, in order, from buffers `W`, the result buffer holds the last
  stage — the nest of one-operation stages — of the arguments' contents in `W`, and no argument buffer has changed. The
  program's list of operations is the concatenation of the stretches read one by one in the modules this one imports.
-/
import proofs.«160000_j26036091748769_1_alg».proof.Proof.RefRead124P4
import proofs.«160000_j26036091748769_1_alg».proof.Proof.RefOpsP

noncomputable section

namespace Cert.Body.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers stretch 1 writes. -/
abbrev s1_W : List (Ref sig .tc) := [main_v0, main_v1, main_v2, main_v3, main_v4, main_call0_cst, main_call0_v0, main_v5]
theorem s1_writes : (s1 : List (HloOp τ sig (Elt F))).Forall fun op => op.writes ⊆ (s1_W.map (Proc.devRef (τ := τ) .tc)).toFinset := by
  simp only [s1, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 1 does not write keeps its contents through it. -/
theorem V1_keep (W : Valuation τ sig (Elt Ideal)) (r : Ref sig .tc) (h : r ∉ s1_W) :
    V1 W (Proc.devRef .tc r) = W (Proc.devRef .tc r) :=
  after_of_writes_sub (s1 (F := Ideal)) _ s1_writes h

/-- The buffers stretch 2 writes. -/
abbrev s2_W : List (Ref sig .tc) := [main_v6, main_v7, main_v8, main_v9, main_call1_cst, main_call1_v0, main_v10]
theorem s2_writes : (s2 : List (HloOp τ sig (Elt F))).Forall fun op => op.writes ⊆ (s2_W.map (Proc.devRef (τ := τ) .tc)).toFinset := by
  simp only [s2, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 2 does not write keeps its contents through it. -/
theorem V2_keep (W : Valuation τ sig (Elt Ideal)) (r : Ref sig .tc) (h : r ∉ s2_W) :
    V2 W (Proc.devRef .tc r) = V1 W (Proc.devRef .tc r) :=
  after_of_writes_sub (s2 (F := Ideal)) _ s2_writes h

/-- The buffers stretch 3 writes. -/
abbrev s3_W : List (Ref sig .tc) := [main_v11, main_v12, main_v13, main_v14]
theorem s3_writes : (s3 : List (HloOp τ sig (Elt F))).Forall fun op => op.writes ⊆ (s3_W.map (Proc.devRef (τ := τ) .tc)).toFinset := by
  simp only [s3, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 3 does not write keeps its contents through it. -/
theorem V3_keep (W : Valuation τ sig (Elt Ideal)) (r : Ref sig .tc) (h : r ∉ s3_W) :
    V3 W (Proc.devRef .tc r) = V2 W (Proc.devRef .tc r) :=
  after_of_writes_sub (s3 (F := Ideal)) _ s3_writes h

/-- The buffers stretch 4 writes. -/
abbrev s4_W : List (Ref sig .tc) := [main_cst, main_v15, main_cst_0, main_v16, main_v17, main_v18, main_v19, main_v20, main_v21]
theorem s4_writes : (s4 : List (HloOp τ sig (Elt F))).Forall fun op => op.writes ⊆ (s4_W.map (Proc.devRef (τ := τ) .tc)).toFinset := by
  simp only [s4, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 4 does not write keeps its contents through it. -/
theorem V4_keep (W : Valuation τ sig (Elt Ideal)) (r : Ref sig .tc) (h : r ∉ s4_W) :
    V4 W (Proc.devRef .tc r) = V3 W (Proc.devRef .tc r) :=
  after_of_writes_sub (s4 (F := Ideal)) _ s4_writes h

/-- The buffers stretch 5 writes. -/
abbrev s5_W : List (Ref sig .tc) := [main_cst_1, main_v22, main_v23, main_v24, main_v25]
theorem s5_writes : (s5 : List (HloOp τ sig (Elt F))).Forall fun op => op.writes ⊆ (s5_W.map (Proc.devRef (τ := τ) .tc)).toFinset := by
  simp only [s5, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 5 does not write keeps its contents through it. -/
theorem V5_keep (W : Valuation τ sig (Elt Ideal)) (r : Ref sig .tc) (h : r ∉ s5_W) :
    V5 W (Proc.devRef .tc r) = V4 W (Proc.devRef .tc r) :=
  after_of_writes_sub (s5 (F := Ideal)) _ s5_writes h

/-- The buffers stretch 6 writes. -/
abbrev s6_W : List (Ref sig .tc) := [main_v26, main_v27, main_v28, main_v29, main_v30]
theorem s6_writes : (s6 : List (HloOp τ sig (Elt F))).Forall fun op => op.writes ⊆ (s6_W.map (Proc.devRef (τ := τ) .tc)).toFinset := by
  simp only [s6, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 6 does not write keeps its contents through it. -/
theorem V6_keep (W : Valuation τ sig (Elt Ideal)) (r : Ref sig .tc) (h : r ∉ s6_W) :
    V6 W (Proc.devRef .tc r) = V5 W (Proc.devRef .tc r) :=
  after_of_writes_sub (s6 (F := Ideal)) _ s6_writes h

/-- The buffers stretch 7 writes. -/
abbrev s7_W : List (Ref sig .tc) := [main_v31, main_v32, main_v33, main_v34, main_v35, main_cst_2, main_v36, main_v37]
theorem s7_writes : (s7 : List (HloOp τ sig (Elt F))).Forall fun op => op.writes ⊆ (s7_W.map (Proc.devRef (τ := τ) .tc)).toFinset := by
  simp only [s7, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 7 does not write keeps its contents through it. -/
theorem V7_keep (W : Valuation τ sig (Elt Ideal)) (r : Ref sig .tc) (h : r ∉ s7_W) :
    V7 W (Proc.devRef .tc r) = V6 W (Proc.devRef .tc r) :=
  after_of_writes_sub (s7 (F := Ideal)) _ s7_writes h

/-- The buffers stretch 8 writes. -/
abbrev s8_W : List (Ref sig .tc) := [main_v38, main_v39, main_v40, main_v41, main_v42, main_cst_3, main_v43, main_v44]
theorem s8_writes : (s8 : List (HloOp τ sig (Elt F))).Forall fun op => op.writes ⊆ (s8_W.map (Proc.devRef (τ := τ) .tc)).toFinset := by
  simp only [s8, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 8 does not write keeps its contents through it. -/
theorem V8_keep (W : Valuation τ sig (Elt Ideal)) (r : Ref sig .tc) (h : r ∉ s8_W) :
    V8 W (Proc.devRef .tc r) = V7 W (Proc.devRef .tc r) :=
  after_of_writes_sub (s8 (F := Ideal)) _ s8_writes h

/-- The buffers stretch 9 writes. -/
abbrev s9_W : List (Ref sig .tc) := [main_v45, main_v46, main_cst_4, main_v47, main_v48, main_v49]
theorem s9_writes : (s9 : List (HloOp τ sig (Elt F))).Forall fun op => op.writes ⊆ (s9_W.map (Proc.devRef (τ := τ) .tc)).toFinset := by
  simp only [s9, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 9 does not write keeps its contents through it. -/
theorem V9_keep (W : Valuation τ sig (Elt Ideal)) (r : Ref sig .tc) (h : r ∉ s9_W) :
    V9 W (Proc.devRef .tc r) = V8 W (Proc.devRef .tc r) :=
  after_of_writes_sub (s9 (F := Ideal)) _ s9_writes h

/-- The buffers stretch 10 writes. -/
abbrev s10_W : List (Ref sig .tc) := [main_v50, main_v51, main_cst_5, main_v52, main_v53, main_v54]
theorem s10_writes : (s10 : List (HloOp τ sig (Elt F))).Forall fun op => op.writes ⊆ (s10_W.map (Proc.devRef (τ := τ) .tc)).toFinset := by
  simp only [s10, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 10 does not write keeps its contents through it. -/
theorem V10_keep (W : Valuation τ sig (Elt Ideal)) (r : Ref sig .tc) (h : r ∉ s10_W) :
    V10 W (Proc.devRef .tc r) = V9 W (Proc.devRef .tc r) :=
  after_of_writes_sub (s10 (F := Ideal)) _ s10_writes h

/-- The buffers stretch 11 writes. -/
abbrev s11_W : List (Ref sig .tc) := [main_v55, main_v56, main_cst_6, main_v57, main_v58]
theorem s11_writes : (s11 : List (HloOp τ sig (Elt F))).Forall fun op => op.writes ⊆ (s11_W.map (Proc.devRef (τ := τ) .tc)).toFinset := by
  simp only [s11, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 11 does not write keeps its contents through it. -/
theorem V11_keep (W : Valuation τ sig (Elt Ideal)) (r : Ref sig .tc) (h : r ∉ s11_W) :
    V11 W (Proc.devRef .tc r) = V10 W (Proc.devRef .tc r) :=
  after_of_writes_sub (s11 (F := Ideal)) _ s11_writes h

/-- The buffers stretch 12 writes. -/
abbrev s12_W : List (Ref sig .tc) := [main_v59, main_v60, main_cst_7, main_v61, main_v62]
theorem s12_writes : (s12 : List (HloOp τ sig (Elt F))).Forall fun op => op.writes ⊆ (s12_W.map (Proc.devRef (τ := τ) .tc)).toFinset := by
  simp only [s12, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 12 does not write keeps its contents through it. -/
theorem V12_keep (W : Valuation τ sig (Elt Ideal)) (r : Ref sig .tc) (h : r ∉ s12_W) :
    V12 W (Proc.devRef .tc r) = V11 W (Proc.devRef .tc r) :=
  after_of_writes_sub (s12 (F := Ideal)) _ s12_writes h

/-- The buffers stretch 13 writes. -/
abbrev s13_W : List (Ref sig .tc) := [main_v63, main_v64, main_cst_8, main_v65, main_v66, main_cst_9, main_v67, main_v68]
theorem s13_writes : (s13 : List (HloOp τ sig (Elt F))).Forall fun op => op.writes ⊆ (s13_W.map (Proc.devRef (τ := τ) .tc)).toFinset := by
  simp only [s13, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 13 does not write keeps its contents through it. -/
theorem V13_keep (W : Valuation τ sig (Elt Ideal)) (r : Ref sig .tc) (h : r ∉ s13_W) :
    V13 W (Proc.devRef .tc r) = V12 W (Proc.devRef .tc r) :=
  after_of_writes_sub (s13 (F := Ideal)) _ s13_writes h

/-- The buffers stretch 14 writes. -/
abbrev s14_W : List (Ref sig .tc) := [main_v69, main_v70, main_cst_10, main_v71, main_v72, main_cst_11, main_v73, main_v74]
theorem s14_writes : (s14 : List (HloOp τ sig (Elt F))).Forall fun op => op.writes ⊆ (s14_W.map (Proc.devRef (τ := τ) .tc)).toFinset := by
  simp only [s14, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 14 does not write keeps its contents through it. -/
theorem V14_keep (W : Valuation τ sig (Elt Ideal)) (r : Ref sig .tc) (h : r ∉ s14_W) :
    V14 W (Proc.devRef .tc r) = V13 W (Proc.devRef .tc r) :=
  after_of_writes_sub (s14 (F := Ideal)) _ s14_writes h

/-- The buffers stretch 15 writes. -/
abbrev s15_W : List (Ref sig .tc) := [main_v75, main_v76, main_v77, main_v78, main_v79, main_v80]
theorem s15_writes : (s15 : List (HloOp τ sig (Elt F))).Forall fun op => op.writes ⊆ (s15_W.map (Proc.devRef (τ := τ) .tc)).toFinset := by
  simp only [s15, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 15 does not write keeps its contents through it. -/
theorem V15_keep (W : Valuation τ sig (Elt Ideal)) (r : Ref sig .tc) (h : r ∉ s15_W) :
    V15 W (Proc.devRef .tc r) = V14 W (Proc.devRef .tc r) :=
  after_of_writes_sub (s15 (F := Ideal)) _ s15_writes h

/-- The buffers stretch 16 writes. -/
abbrev s16_W : List (Ref sig .tc) := [main_v81, main_v82, main_v83, main_v84, main_v85, main_v86]
theorem s16_writes : (s16 : List (HloOp τ sig (Elt F))).Forall fun op => op.writes ⊆ (s16_W.map (Proc.devRef (τ := τ) .tc)).toFinset := by
  simp only [s16, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 16 does not write keeps its contents through it. -/
theorem V16_keep (W : Valuation τ sig (Elt Ideal)) (r : Ref sig .tc) (h : r ∉ s16_W) :
    V16 W (Proc.devRef .tc r) = V15 W (Proc.devRef .tc r) :=
  after_of_writes_sub (s16 (F := Ideal)) _ s16_writes h

/-- The buffers stretch 17 writes. -/
abbrev s17_W : List (Ref sig .tc) := [main_v87, main_v88, main_v89, main_v90]
theorem s17_writes : (s17 : List (HloOp τ sig (Elt F))).Forall fun op => op.writes ⊆ (s17_W.map (Proc.devRef (τ := τ) .tc)).toFinset := by
  simp only [s17, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 17 does not write keeps its contents through it. -/
theorem V17_keep (W : Valuation τ sig (Elt Ideal)) (r : Ref sig .tc) (h : r ∉ s17_W) :
    V17 W (Proc.devRef .tc r) = V16 W (Proc.devRef .tc r) :=
  after_of_writes_sub (s17 (F := Ideal)) _ s17_writes h

/-- The buffers stretch 18 writes. -/
abbrev s18_W : List (Ref sig .tc) := [main_v91, main_v92, main_v93, main_v94]
theorem s18_writes : (s18 : List (HloOp τ sig (Elt F))).Forall fun op => op.writes ⊆ (s18_W.map (Proc.devRef (τ := τ) .tc)).toFinset := by
  simp only [s18, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 18 does not write keeps its contents through it. -/
theorem V18_keep (W : Valuation τ sig (Elt Ideal)) (r : Ref sig .tc) (h : r ∉ s18_W) :
    V18 W (Proc.devRef .tc r) = V17 W (Proc.devRef .tc r) :=
  after_of_writes_sub (s18 (F := Ideal)) _ s18_writes h

/-- The buffers stretch 19 writes. -/
abbrev s19_W : List (Ref sig .tc) := [main_cst_12, main_v95, main_v96, main_v97]
theorem s19_writes : (s19 : List (HloOp τ sig (Elt F))).Forall fun op => op.writes ⊆ (s19_W.map (Proc.devRef (τ := τ) .tc)).toFinset := by
  simp only [s19, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 19 does not write keeps its contents through it. -/
theorem V19_keep (W : Valuation τ sig (Elt Ideal)) (r : Ref sig .tc) (h : r ∉ s19_W) :
    V19 W (Proc.devRef .tc r) = V18 W (Proc.devRef .tc r) :=
  after_of_writes_sub (s19 (F := Ideal)) _ s19_writes h

/-- The buffers stretch 20 writes. -/
abbrev s20_W : List (Ref sig .tc) := [main_cst_13, main_v98, main_v99, main_v100]
theorem s20_writes : (s20 : List (HloOp τ sig (Elt F))).Forall fun op => op.writes ⊆ (s20_W.map (Proc.devRef (τ := τ) .tc)).toFinset := by
  simp only [s20, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 20 does not write keeps its contents through it. -/
theorem V20_keep (W : Valuation τ sig (Elt Ideal)) (r : Ref sig .tc) (h : r ∉ s20_W) :
    V20 W (Proc.devRef .tc r) = V19 W (Proc.devRef .tc r) :=
  after_of_writes_sub (s20 (F := Ideal)) _ s20_writes h

/-- The buffers stretch 21 writes. -/
abbrev s21_W : List (Ref sig .tc) := [main_cst_14, main_v101, main_v102, main_v103, main_cst_15, main_v104, main_v105]
theorem s21_writes : (s21 : List (HloOp τ sig (Elt F))).Forall fun op => op.writes ⊆ (s21_W.map (Proc.devRef (τ := τ) .tc)).toFinset := by
  simp only [s21, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 21 does not write keeps its contents through it. -/
theorem V21_keep (W : Valuation τ sig (Elt Ideal)) (r : Ref sig .tc) (h : r ∉ s21_W) :
    V21 W (Proc.devRef .tc r) = V20 W (Proc.devRef .tc r) :=
  after_of_writes_sub (s21 (F := Ideal)) _ s21_writes h

/-- The buffers stretch 22 writes. -/
abbrev s22_W : List (Ref sig .tc) := [main_cst_16, main_v106, main_v107, main_v108, main_cst_17, main_v109, main_v110]
theorem s22_writes : (s22 : List (HloOp τ sig (Elt F))).Forall fun op => op.writes ⊆ (s22_W.map (Proc.devRef (τ := τ) .tc)).toFinset := by
  simp only [s22, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 22 does not write keeps its contents through it. -/
theorem V22_keep (W : Valuation τ sig (Elt Ideal)) (r : Ref sig .tc) (h : r ∉ s22_W) :
    V22 W (Proc.devRef .tc r) = V21 W (Proc.devRef .tc r) :=
  after_of_writes_sub (s22 (F := Ideal)) _ s22_writes h

/-- The buffers stretch 23 writes. -/
abbrev s23_W : List (Ref sig .tc) := [main_v111, main_v112, main_v113, main_v114]
theorem s23_writes : (s23 : List (HloOp τ sig (Elt F))).Forall fun op => op.writes ⊆ (s23_W.map (Proc.devRef (τ := τ) .tc)).toFinset := by
  simp only [s23, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 23 does not write keeps its contents through it. -/
theorem V23_keep (W : Valuation τ sig (Elt Ideal)) (r : Ref sig .tc) (h : r ∉ s23_W) :
    V23 W (Proc.devRef .tc r) = V22 W (Proc.devRef .tc r) :=
  after_of_writes_sub (s23 (F := Ideal)) _ s23_writes h

/-- The buffers stretch 24 writes. -/
abbrev s24_W : List (Ref sig .tc) := [main_v115]
theorem s24_writes : (s24 : List (HloOp τ sig (Elt F))).Forall fun op => op.writes ⊆ (s24_W.map (Proc.devRef (τ := τ) .tc)).toFinset := by
  simp only [s24, List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 24 does not write keeps its contents through it. -/
theorem V24_keep (W : Valuation τ sig (Elt Ideal)) (r : Ref sig .tc) (h : r ∉ s24_W) :
    V24 W (Proc.devRef .tc r) = V23 W (Proc.devRef .tc r) :=
  after_of_writes_sub (s24 (F := Ideal)) _ s24_writes h

/-- The buffers stretch 25 writes. -/
abbrev s25_W : List (Ref sig .tc) := [main_v116, main_v117, main_cst_18, main_v118, main_v119, main_cst_19, main_call2_v0, main_call2_v1, main_v120]
theorem s25_writes : (s25 : List (HloOp τ sig (Elt F))).Forall fun op => op.writes ⊆ (s25_W.map (Proc.devRef (τ := τ) .tc)).toFinset := by
  simp only [s25, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 25 does not write keeps its contents through it. -/
theorem V25_keep (W : Valuation τ sig (Elt Ideal)) (r : Ref sig .tc) (h : r ∉ s25_W) :
    V25 W (Proc.devRef .tc r) = V24 W (Proc.devRef .tc r) :=
  after_of_writes_sub (s25 (F := Ideal)) _ s25_writes h

/-- The buffers stretch 26 writes. -/
abbrev s26_W : List (Ref sig .tc) := [main_v121, main_cst_20, main_call3_v0, main_call3_v1, main_call3_v2, main_v122]
theorem s26_writes : (s26 : List (HloOp τ sig (Elt F))).Forall fun op => op.writes ⊆ (s26_W.map (Proc.devRef (τ := τ) .tc)).toFinset := by
  simp only [s26, List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer stretch 26 does not write keeps its contents through it. -/
theorem V26_keep (W : Valuation τ sig (Elt Ideal)) (r : Ref sig .tc) (h : r ∉ s26_W) :
    V26 W (Proc.devRef .tc r) = V25 W (Proc.devRef .tc r) :=
  after_of_writes_sub (s26 (F := Ideal)) _ s26_writes h

/-- The buffers stretch 27 writes. -/
abbrev s27_W : List (Ref sig .tc) := [main_v123]
theorem s27_writes : (s27 : List (HloOp τ sig (Elt F))).Forall fun op => op.writes ⊆ (s27_W.map (Proc.devRef (τ := τ) .tc)).toFinset := by
  simp only [s27, List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 27 does not write keeps its contents through it. -/
theorem V27_keep (W : Valuation τ sig (Elt Ideal)) (r : Ref sig .tc) (h : r ∉ s27_W) :
    V27 W (Proc.devRef .tc r) = V26 W (Proc.devRef .tc r) :=
  after_of_writes_sub (s27 (F := Ideal)) _ s27_writes h

/-- The buffers stretch 28 writes. -/
abbrev s28_W : List (Ref sig .tc) := [main_v124]
theorem s28_writes : (s28 : List (HloOp τ sig (Elt F))).Forall fun op => op.writes ⊆ (s28_W.map (Proc.devRef (τ := τ) .tc)).toFinset := by
  simp only [s28, List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 28 does not write keeps its contents through it. -/
theorem V28_keep (W : Valuation τ sig (Elt Ideal)) (r : Ref sig .tc) (h : r ∉ s28_W) :
    V28 W (Proc.devRef .tc r) = V27 W (Proc.devRef .tc r) :=
  after_of_writes_sub (s28 (F := Ideal)) _ s28_writes h

/-- No stretch writes an argument buffer: after all of them it holds what it held. -/
theorem V28_arg (W : Valuation τ sig (Elt Ideal)) (r : Ref sig .tc)
    (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) (h12 : r ∉ s12_W) (h13 : r ∉ s13_W) (h14 : r ∉ s14_W) (h15 : r ∉ s15_W) (h16 : r ∉ s16_W) (h17 : r ∉ s17_W) (h18 : r ∉ s18_W) (h19 : r ∉ s19_W) (h20 : r ∉ s20_W) (h21 : r ∉ s21_W) (h22 : r ∉ s22_W) (h23 : r ∉ s23_W) (h24 : r ∉ s24_W) (h25 : r ∉ s25_W) (h26 : r ∉ s26_W) (h27 : r ∉ s27_W) (h28 : r ∉ s28_W) :
    V28 W (Proc.devRef .tc r) = W (Proc.devRef .tc r) := by
  rw [V28_keep W r h28, V27_keep W r h27, V26_keep W r h26, V25_keep W r h25, V24_keep W r h24, V23_keep W r h23, V22_keep W r h22, V21_keep W r h21, V20_keep W r h20, V19_keep W r h19, V18_keep W r h18, V17_keep W r h17, V16_keep W r h16, V15_keep W r h15, V14_keep W r h14, V13_keep W r h13, V12_keep W r h12, V11_keep W r h11, V10_keep W r h10, V9_keep W r h9, V8_keep W r h8, V7_keep W r h7, V6_keep W r h6, V5_keep W r h5, V4_keep W r h4, V3_keep W r h3, V2_keep W r h2, V1_keep W r h1]

/-- Running two lists of operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

set_option maxRecDepth 16384 in
set_option maxHeartbeats 8000000 in
/-- The program's operations are the stretches, in order. -/
theorem ops_split : (Cert.ReferenceIdeal.ValueP.ops (F := F)) =
      s1 ++ (s2 ++ (s3 ++ (s4 ++ (s5 ++ (s6 ++ (s7 ++ (s8 ++ (s9 ++ (s10 ++ (s11 ++ (s12 ++ (s13 ++ (s14 ++ (s15 ++ (s16 ++ (s17 ++ (s18 ++ (s19 ++ (s20 ++ (s21 ++ (s22 ++ (s23 ++ (s24 ++ (s25 ++ (s26 ++ (s27 ++ (s28))))))))))))))))))))))))))) := rfl

/-- The buffers after the whole program are those after the last stretch. -/
theorem after_ops_eq (W : Valuation τ sig (Elt Ideal)) :
    StableHlo.after (Cert.ReferenceIdeal.ValueP.ops (F := Ideal)) W = V28 W := by
  rw [ops_split]
  simp only [after_append]
  rfl

/-- The result buffer after the program: the last stage of the arguments' contents. -/
theorem after_ops (W : Valuation τ sig (Elt Ideal)) :
    StableHlo.after (Cert.ReferenceIdeal.ValueP.ops (F := Ideal)) W (Proc.devRef .tc main_v124)
      = ReadP.val_main_v124 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [after_ops_eq]
  exact L28_v124 W

/-! ## The arguments are unchanged -/

theorem after_ops_arg0 (W : Valuation τ sig (Elt Ideal)) :
    StableHlo.after (Cert.ReferenceIdeal.ValueP.ops (F := Ideal)) W (Proc.devRef .tc main_arg0) = W (Proc.devRef .tc main_arg0) := by
  rw [after_ops_eq]
  exact V28_arg W main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg1 (W : Valuation τ sig (Elt Ideal)) :
    StableHlo.after (Cert.ReferenceIdeal.ValueP.ops (F := Ideal)) W (Proc.devRef .tc main_arg1) = W (Proc.devRef .tc main_arg1) := by
  rw [after_ops_eq]
  exact V28_arg W main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg2 (W : Valuation τ sig (Elt Ideal)) :
    StableHlo.after (Cert.ReferenceIdeal.ValueP.ops (F := Ideal)) W (Proc.devRef .tc main_arg2) = W (Proc.devRef .tc main_arg2) := by
  rw [after_ops_eq]
  exact V28_arg W main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg3 (W : Valuation τ sig (Elt Ideal)) :
    StableHlo.after (Cert.ReferenceIdeal.ValueP.ops (F := Ideal)) W (Proc.devRef .tc main_arg3) = W (Proc.devRef .tc main_arg3) := by
  rw [after_ops_eq]
  exact V28_arg W main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg4 (W : Valuation τ sig (Elt Ideal)) :
    StableHlo.after (Cert.ReferenceIdeal.ValueP.ops (F := Ideal)) W (Proc.devRef .tc main_arg4) = W (Proc.devRef .tc main_arg4) := by
  rw [after_ops_eq]
  exact V28_arg W main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg5 (W : Valuation τ sig (Elt Ideal)) :
    StableHlo.after (Cert.ReferenceIdeal.ValueP.ops (F := Ideal)) W (Proc.devRef .tc main_arg5) = W (Proc.devRef .tc main_arg5) := by
  rw [after_ops_eq]
  exact V28_arg W main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg6 (W : Valuation τ sig (Elt Ideal)) :
    StableHlo.after (Cert.ReferenceIdeal.ValueP.ops (F := Ideal)) W (Proc.devRef .tc main_arg6) = W (Proc.devRef .tc main_arg6) := by
  rw [after_ops_eq]
  exact V28_arg W main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg7 (W : Valuation τ sig (Elt Ideal)) :
    StableHlo.after (Cert.ReferenceIdeal.ValueP.ops (F := Ideal)) W (Proc.devRef .tc main_arg7) = W (Proc.devRef .tc main_arg7) := by
  rw [after_ops_eq]
  exact V28_arg W main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg8 (W : Valuation τ sig (Elt Ideal)) :
    StableHlo.after (Cert.ReferenceIdeal.ValueP.ops (F := Ideal)) W (Proc.devRef .tc main_arg8) = W (Proc.devRef .tc main_arg8) := by
  rw [after_ops_eq]
  exact V28_arg W main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

theorem after_ops_arg9 (W : Valuation τ sig (Elt Ideal)) :
    StableHlo.after (Cert.ReferenceIdeal.ValueP.ops (F := Ideal)) W (Proc.devRef .tc main_arg9) = W (Proc.devRef .tc main_arg9) := by
  rw [after_ops_eq]
  exact V28_arg W main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

end Cert.Body.RefRun

end
-- ==== Proof.RefRun.lean ====
/-
  The idealized reference's run: its @main is 156 host lines, so every weakly fair execution terminates with every
  buffer at the lines' composed value of the launch contents. The result buffer's composed value is the last of the
  reference's named stages (`val_main_v124`) of the argument arrays, and no line writes an argument.
-/
import proofs.«160000_j26036091748769_1_alg».proof.Proof.RefOpsP
import proofs.«160000_j26036091748769_1_alg».proof.Proof.RefReadP
import proofs.«160000_j26036091748769_1_alg».proof.Proof.RefRead124
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Every weakly fair execution terminates with the result at the last stage of the arguments, the arguments unchanged. -/
theorem run : θ_run defs (onTc (τ := τ) (main (F := Ideal))) ⟨m, fun _ => 0, ρ⟩ fun r => ∀ c : Dev nD,
      r.2.mem ((c.tc : Thread nD τ).loc main_v124)
        = Cert.ReferenceIdeal.ReadP.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v124).trans (Cert.Body.RefRun.after_ops _),
      (h c main_arg0).trans (Cert.Body.RefRun.after_ops_arg0 _),
      (h c main_arg1).trans (Cert.Body.RefRun.after_ops_arg1 _),
      (h c main_arg2).trans (Cert.Body.RefRun.after_ops_arg2 _),
      (h c main_arg3).trans (Cert.Body.RefRun.after_ops_arg3 _),
      (h c main_arg4).trans (Cert.Body.RefRun.after_ops_arg4 _),
      (h c main_arg5).trans (Cert.Body.RefRun.after_ops_arg5 _),
      (h c main_arg6).trans (Cert.Body.RefRun.after_ops_arg6 _),
      (h c main_arg7).trans (Cert.Body.RefRun.after_ops_arg7 _),
      (h c main_arg8).trans (Cert.Body.RefRun.after_ops_arg8 _),
      (h c main_arg9).trans (Cert.Body.RefRun.after_ops_arg9 _)⟩)
    (run_seq Cert.ReferenceIdeal.ValueP.scopedRefs_eq Cert.ReferenceIdeal.ValueP.scopedSems_eq defs main (fun _ => Cert.ReferenceIdeal.ValueP.ops) Cert.ReferenceIdeal.ValueP.main_eq (fun _ => Cert.ReferenceIdeal.ValueP.ops_sub) m ρ)

end Cert.ReferenceIdeal.RefRun

end
-- ==== Proof.lean ====
/-
  The kernel computes, for 2000 proposals, two hidden layers, the class scores (a row softmax) and the box deltas over
  a grid of 25 row tiles, and host lines then decode the boxes, mask scores and boxes below a threshold, and lay the
  three parts side by side; the reference does the same in plain array operations, except that it carries the
  background class through the box layer and the decode and drops it afterwards. On the extended reals both compute
  the same expression at every index: a matrix product into a zero accumulator is the plain sum on both sides, a change
  of float format is the identity, and the box layer and the decode act column by column, so dropping the background
  class's four columns before or after them gives the same entries. No algebraic law is used beyond that, and the
  precondition (finite inputs) is never opened.

  The three frames: each kernel program's run is in FrameK / FrameKI (the region's body, the 25 points, the host lines
  around it); the reference's run is in RefRun. The ideal pass rewrote nothing, so `preserves` is trivial. The value:
  KernelRun names the kernel's result as the later host lines' function of three arrays that are the reference's own
  stages; TailRef shows that function of those stages is the reference's last stage.
-/
import proofs.«160000_j26036091748769_1_alg».proof.Defs
import proofs.«160000_j26036091748769_1_alg».proof.Proof.Gen.Kernel
import proofs.«160000_j26036091748769_1_alg».proof.Proof.Gen.KernelIdeal
import proofs.«160000_j26036091748769_1_alg».proof.Proof.Gen.ReferenceIdeal
import proofs.«160000_j26036091748769_1_alg».proof.Proof.Gen.Pre_finite_inputs
import proofs.«160000_j26036091748769_1_alg».proof.Proof.FrameK
import proofs.«160000_j26036091748769_1_alg».proof.Proof.FrameKI
import proofs.«160000_j26036091748769_1_alg».proof.Proof.KernelRun
import proofs.«160000_j26036091748769_1_alg».proof.Proof.RefRun
import proofs.«160000_j26036091748769_1_alg».proof.Proof.TailRef
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RefRun.run m ρ)

/-- The ideal pass rewrote no operation: nothing to state. -/
theorem preserves : Cert.preserves_Kernel_KernelIdeal := trivial

/-- Both runs end with the reference's last stage of the (agreeing) arguments. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9⟩ := hagree c
  rw [h0, h1, h2, h3, h4, h5, h6, h7, h8, h9]
  exact (Cert.RoiTail.tail_eq_ref _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
